-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v172) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x4 : Shape := ⟨2, ![100000, 4]⟩
abbrev S2x1600000 : Shape := ⟨2, ![2, 1600000]⟩
abbrev S1600000x2 : Shape := ⟨2, ![1600000, 2]⟩
abbrev S4x128 : Shape := ⟨2, ![4, 128]⟩
abbrev S128 : Shape := ⟨1, ![128]⟩
abbrev S130x128 : Shape := ⟨2, ![130, 128]⟩
abbrev S128x128 : Shape := ⟨2, ![128, 128]⟩
abbrev S384x128 : Shape := ⟨2, ![384, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x4 : S_.BroadcastsInDim S100000x4 (![] : Fin 0 → Fin S100000x4.rank)
  reducesTo_S100000x4_S_d0_1 : S100000x4.ReducesTo [0, 1] S_
  h_S_ : 0 < S_.numel
  bcast_S_S1600000x2 : S_.BroadcastsInDim S1600000x2 (![] : Fin 0 → Fin S1600000x2.rank)
  reducesTo_S1600000x2_S_d0_1 : S1600000x2.ReducesTo [0, 1] S_
  bcast_S_S4x128 : S_.BroadcastsInDim S4x128 (![] : Fin 0 → Fin S4x128.rank)
  reducesTo_S4x128_S_d0_1 : S4x128.ReducesTo [0, 1] S_
  bcast_S_S128 : S_.BroadcastsInDim S128 (![] : Fin 0 → Fin S128.rank)
  reducesTo_S128_S_d0 : S128.ReducesTo [0] S_
  bcast_S_S130x128 : S_.BroadcastsInDim S130x128 (![] : Fin 0 → Fin S130x128.rank)
  reducesTo_S130x128_S_d0_1 : S130x128.ReducesTo [0, 1] S_
  bcast_S_S128x128 : S_.BroadcastsInDim S128x128 (![] : Fin 0 → Fin S128x128.rank)
  reducesTo_S128x128_S_d0_1 : S128x128.ReducesTo [0, 1] S_
  bcast_S_S384x128 : S_.BroadcastsInDim S384x128 (![] : Fin 0 → Fin S384x128.rank)
  reducesTo_S384x128_S_d0_1 : S384x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg22 : FVec F S1 .f32) (main_v98 : IVec S_ 1) (main_v101 : IVec S64x1 1) (main_c_39 : IVec S_ 1) : IVec S_ 1 :=
  let main_v102 : IVec S_ 1 := (fun x v => Host.reduce IntOp.andi x v reducesTo_S64x1_S_d0_1 h_S_) main_v101 main_c_39
  let main_v103 : IVec S_ 1 := andi main_v98 main_v102
  let main_v104 : FVec F S1 .f32 := Host.absf main_arg22
  let main_cst_40 : FVec F S_ .f32 := constant S_ .f32 0x7F800000#32
  let main_v105 : FVec F S1 .f32 := broadcastInDim S1 ![] bcast_S_S1 main_cst_40
  let main_v106 : IVec S1 1 := cmpf .olt main_v104 main_v105
  let main_c_41 : IVec S_ 1 := constantI S_ 1 1#1
  let main_v107 : IVec S_ 1 := (fun x v => Host.reduce IntOp.andi x v reducesTo_S1_S_d0 h_S_) main_v106 main_c_41
  let main_v108 : IVec S_ 1 := andi main_v103 main_v107
  main_v108

def fn_part5 {F : FTy → Type} [FloatOps F] (main_arg19 : FVec F S128x64 .f32) (main_arg20 : FVec F S64 .f32) (main_arg21 : FVec F S64x1 .f32) (main_arg22 : FVec F S1 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x64 .f32 := Host.absf main_arg19
  let main_cst_34 : FVec F S_ .f32 := constant S_ .f32 0x7F800000#32
  let main_v90 : FVec F S128x64 .f32 := broadcastInDim S128x64 ![] bcast_S_S128x64 main_cst_34
  let main_v91 : IVec S128x64 1 := cmpf .olt main_v89 main_v90
  let main_c_35 : IVec S_ 1 := constantI S_ 1 1#1
  let main_v92 : IVec S_ 1 := (fun x v => Host.reduce IntOp.andi x v reducesTo_S128x64_S_d0_1 h_S_) main_v91 main_c_35
  let main_v93 : IVec S_ 1 := andi main_v88 main_v92
  let main_v94 : FVec F S64 .f32 := Host.absf main_arg20
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64x1 .f32 := Host.absf main_arg21
  let main_cst_38 : FVec F S_ .f32 := constant S_ .f32 0x7F800000#32
  let main_v100 : FVec F S64x1 .f32 := broadcastInDim S64x1 ![] bcast_S_S64x1 main_cst_38
  let main_v101 : IVec S64x1 1 := cmpf .olt main_v99 main_v100
  let main_c_39 : IVec S_ 1 := constantI S_ 1 1#1
  fn_part6 (F := F) main_arg22 main_v98 main_v101 main_c_39

def fn_part4 {F : FTy → Type} [FloatOps F] (main_arg15 : FVec F S128 .f32) (main_arg16 : FVec F S128 .f32) (main_arg17 : FVec F S384x128 .f32) (main_arg18 : FVec F S128 .f32) (main_arg19 : FVec F S128x64 .f32) (main_arg20 : FVec F S64 .f32) (main_arg21 : FVec F S64x1 .f32) (main_arg22 : FVec F S1 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S384x128 .f32 := Host.absf main_arg17
  let main_cst_30 : FVec F S_ .f32 := constant S_ .f32 0x7F800000#32
  let main_v80 : FVec F S384x128 .f32 := broadcastInDim S384x128 ![] bcast_S_S384x128 main_cst_30
  let main_v81 : IVec S384x128 1 := cmpf .olt main_v79 main_v80
  let main_c_31 : IVec S_ 1 := constantI S_ 1 1#1
  let main_v82 : IVec S_ 1 := (fun x v => Host.reduce IntOp.andi x v reducesTo_S384x128_S_d0_1 h_S_) main_v81 main_c_31
  let main_v83 : IVec S_ 1 := andi main_v78 main_v82
  let main_v84 : FVec F S128 .f32 := Host.absf main_arg18
  let main_cst_32 : FVec F S_ .f32 := constant S_ .f32 0x7F800000#32
  fn_part5 (F := F) main_arg19 main_arg20 main_arg21 main_arg22 main_v83 main_v84 main_cst_32

def fn_part3 {F : FTy → Type} [FloatOps F] (main_arg12 : FVec F S128 .f32) (main_arg13 : FVec F S130x128 .f32) (main_arg14 : FVec F S128x128 .f32) (main_arg15 : FVec F S128 .f32) (main_arg16 : FVec F S128 .f32) (main_arg17 : FVec F S384x128 .f32) (main_arg18 : FVec F S128 .f32) (main_arg19 : FVec F S128x64 .f32) (main_arg20 : FVec F S64 .f32) (main_arg21 : FVec F S64x1 .f32) (main_arg22 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S130x128 .f32 := Host.absf main_arg13
  let main_cst_22 : FVec F S_ .f32 := constant S_ .f32 0x7F800000#32
  let main_v60 : FVec F S130x128 .f32 := broadcastInDim S130x128 ![] bcast_S_S130x128 main_cst_22
  let main_v61 : IVec S130x128 1 := cmpf .olt main_v59 main_v60
  let main_c_23 : IVec S_ 1 := constantI S_ 1 1#1
  let main_v62 : IVec S_ 1 := (fun x v => Host.reduce IntOp.andi x v reducesTo_S130x128_S_d0_1 h_S_) main_v61 main_c_23
  let main_v63 : IVec S_ 1 := andi main_v58 main_v62
  let main_v64 : FVec F S128x128 .f32 := Host.absf main_arg14
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg15 main_arg16 main_arg17 main_arg18 main_arg19 main_arg20 main_arg21 main_arg22 main_v63 main_v67

def fn_part2 {F : FTy → Type} [FloatOps F] (main_arg8 : FVec F S128 .f32) (main_arg9 : FVec F S130x128 .f32) (main_arg10 : FVec F S128x128 .f32) (main_arg11 : FVec F S128 .f32) (main_arg12 : FVec F S128 .f32) (main_arg13 : FVec F S130x128 .f32) (main_arg14 : FVec F S128x128 .f32) (main_arg15 : FVec F S128 .f32) (main_arg16 : FVec F S128 .f32) (main_arg17 : FVec F S384x128 .f32) (main_arg18 : FVec F S128 .f32) (main_arg19 : FVec F S128x64 .f32) (main_arg20 : FVec F S64 .f32) (main_arg21 : FVec F S64x1 .f32) (main_arg22 : FVec F S1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S130x128 .f32 := Host.absf main_arg9
  let main_cst_14 : FVec F S_ .f32 := constant S_ .f32 0x7F800000#32
  let main_v40 : FVec F S130x128 .f32 := broadcastInDim S130x128 ![] bcast_S_S130x128 main_cst_14
  let main_v41 : IVec S130x128 1 := cmpf .olt main_v39 main_v40
  let main_c_15 : IVec S_ 1 := constantI S_ 1 1#1
  let main_v42 : IVec S_ 1 := (fun x v => Host.reduce IntOp.andi x v reducesTo_S130x128_S_d0_1 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_arg18 main_arg19 main_arg20 main_arg21 main_arg22 main_v48 main_v49 main_v50

def fn_part1 {F : FTy → Type} [FloatOps F] (main_arg5 : FVec F S130x128 .f32) (main_arg6 : FVec F S128x128 .f32) (main_arg7 : FVec F S128 .f32) (main_arg8 : FVec F S128 .f32) (main_arg9 : FVec F S130x128 .f32) (main_arg10 : FVec F S128x128 .f32) (main_arg11 : FVec F S128 .f32) (main_arg12 : FVec F S128 .f32) (main_arg13 : FVec F S130x128 .f32) (main_arg14 : FVec F S128x128 .f32) (main_arg15 : FVec F S128 .f32) (main_arg16 : FVec F S128 .f32) (main_arg17 : FVec F S384x128 .f32) (main_arg18 : FVec F S128 .f32) (main_arg19 : FVec F S128x64 .f32) (main_arg20 : FVec F S64 .f32) (main_arg21 : FVec F S64x1 .f32) (main_arg22 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S130x128 .f32 := Host.absf main_arg5
  let main_cst_6 : FVec F S_ .f32 := constant S_ .f32 0x7F800000#32
  let main_v20 : FVec F S130x128 .f32 := broadcastInDim S130x128 ![] bcast_S_S130x128 main_cst_6
  let main_v21 : IVec S130x128 1 := cmpf .olt main_v19 main_v20
  let main_c_7 : IVec S_ 1 := constantI S_ 1 1#1
  let main_v22 : IVec S_ 1 := (fun x v => Host.reduce IntOp.andi x v reducesTo_S130x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S100000x4 .f32) (main_arg1 : IVec S2x1600000 32) (main_arg2 : FVec F S1600000x2 .f32) (main_arg3 : FVec F S4x128 .f32) (main_arg4 : FVec F S128 .f32) (main_arg5 : FVec F S130x128 .f32) (main_arg6 : FVec F S128x128 .f32) (main_arg7 : FVec F S128 .f32) (main_arg8 : FVec F S128 .f32) (main_arg9 : FVec F S130x128 .f32) (main_arg10 : FVec F S128x128 .f32) (main_arg11 : FVec F S128 .f32) (main_arg12 : FVec F S128 .f32) (main_arg13 : FVec F S130x128 .f32) (main_arg14 : FVec F S128x128 .f32) (main_arg15 : FVec F S128 .f32) (main_arg16 : FVec F S128 .f32) (main_arg17 : FVec F S384x128 .f32) (main_arg18 : FVec F S128 .f32) (main_arg19 : FVec F S128x64 .f32) (main_arg20 : FVec F S64 .f32) (main_arg21 : FVec F S64x1 .f32) (main_arg22 : FVec F S1 .f32) : IVec S_ 1 :=
  let main_v0 : FVec F S100000x4 .f32 := Host.absf main_arg0
  let main_cst : FVec F S_ .f32 := constant S_ .f32 0x7F800000#32
  let main_v1 : FVec F S100000x4 .f32 := broadcastInDim S100000x4 ![] bcast_S_S100000x4 main_cst
  let main_v2 : IVec S100000x4 1 := cmpf .olt main_v0 main_v1
  let main_c : IVec S_ 1 := constantI S_ 1 1#1
  let main_v3 : IVec S_ 1 := (fun x v => Host.reduce IntOp.andi x v reducesTo_S100000x4_S_d0_1 h_S_) main_v2 main_c
  let main_v4 : FVec F S1600000x2 .f32 := Host.absf main_arg2
  let main_cst_0 : FVec F S_ .f32 := constant S_ .f32 0x7F800000#32
  let main_v5 : FVec F S1600000x2 .f32 := broadcastInDim S1600000x2 ![] bcast_S_S1600000x2 main_cst_0
  let main_v6 : IVec S1600000x2 1 := cmpf .olt main_v4 main_v5
  let main_c_1 : IVec S_ 1 := constantI S_ 1 1#1
  let main_v7 : IVec S_ 1 := (fun x v => Host.reduce IntOp.andi x v reducesTo_S1600000x2_S_d0_1 h_S_) main_v6 main_c_1
  let main_v8 : IVec S_ 1 := andi main_v3 main_v7
  let main_v9 : FVec F S4x128 .f32 := Host.absf main_arg3
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S100000x4 : Shape := ⟨2, ![100000, 4]⟩
abbrev S2x1600000 : Shape := ⟨2, ![2, 1600000]⟩
abbrev S1600000x2 : Shape := ⟨2, ![1600000, 2]⟩
abbrev S4x128 : Shape := ⟨2, ![4, 128]⟩
abbrev S128 : Shape := ⟨1, ![128]⟩
abbrev S130x128 : Shape := ⟨2, ![130, 128]⟩
abbrev S128x128 : Shape := ⟨2, ![128, 128]⟩
abbrev S384x128 : Shape := ⟨2, ![384, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S100000x2 : Shape := ⟨2, ![100000, 2]⟩
abbrev S1700000x2 : Shape := ⟨2, ![1700000, 2]⟩
abbrev S1700000x1 : Shape := ⟨2, ![1700000, 1]⟩
abbrev S100000x1 : Shape := ⟨2, ![100000, 1]⟩
abbrev S100000x128 : Shape := ⟨2, ![100000, 128]⟩
abbrev S4000x4 : Shape := ⟨2, ![4000, 4]⟩
abbrev S4000x128 : Shape := ⟨2, ![4000, 128]⟩
abbrev S1x128 : Shape := ⟨2, ![1, 128]⟩
abbrev S1700000x128 : Shape := ⟨2, ![1700000, 128]⟩
abbrev S2x128 : Shape := ⟨2, ![2, 128]⟩
abbrev S4000x2 : Shape := ⟨2, ![4000, 2]⟩
abbrev S4000x1 : Shape := ⟨2, ![4000, 1]⟩
abbrev S4000 : Shape := ⟨1, ![4000]⟩
abbrev S4000x64 : Shape := ⟨2, ![4000, 64]⟩
abbrev S1x64 : Shape := ⟨2, ![1, 64]⟩
abbrev S1x1 : Shape := ⟨2, ![1, 1]⟩

abbrev nBuf : Space → Nat
  | .hbm => 188
  | .vmem => 85
  | .smem => 0
  | _ => 0

abbrev hbmTy0_0 (i : Nat) : BufTy := match i % 128 with
  | 0 => ⟨S100000x4, .f32⟩
  | 1 => ⟨S2x1600000, .i32⟩
  | 2 => ⟨S1600000x2, .f32⟩
  | 3 => ⟨S4x128, .f32⟩
  | 4 => ⟨S128, .f32⟩
  | 5 => ⟨S130x128, .f32⟩
  | 6 => ⟨S128x128, .f32⟩
  | 7 => ⟨S128, .f32⟩
  | 8 => ⟨S128, .f32⟩
  | 9 => ⟨S130x128, .f32⟩
  | 10 => ⟨S128x128, .f32⟩
  | 11 => ⟨S128, .f32⟩
  | 12 => ⟨S128, .f32⟩
  | 13 => ⟨S130x128, .f32⟩
  | 14 => ⟨S128x128, .f32⟩
  | 15 => ⟨S128, .f32⟩
  | 16 => ⟨S128, .f32⟩
  | 17 => ⟨S384x128, .f32⟩
  | 18 => ⟨S128, .f32⟩
  | 19 => ⟨S128x64, .f32⟩
  | 20 => ⟨S64, .f32⟩
  | 21 => ⟨S64x1, .f32⟩
  | 22 => ⟨S1, .f32⟩
  | 23 => ⟨S100000, .i32⟩
  | 24 => ⟨S1x1600000, .i32⟩
  | 25 => ⟨S1600000, .i32⟩
  | 26 => ⟨S1700000, .i32⟩
  | 27 => ⟨S1x1600000, .i32⟩
  | 28 => ⟨S1600000, .i32⟩
  | 29 => ⟨S1700000, .i32⟩
  | 30 => ⟨S_, .f32⟩
  | 31 => ⟨S100000x2, .f32⟩
  | 32 => ⟨S1700000x2, .f32⟩
  | 33 => ⟨S_, .f32⟩
  | 34 => ⟨S1700000, .f32⟩
  | 35 => ⟨S_, .f32⟩
  | 36 => ⟨S100000, .f32⟩
  | 37 => ⟨S1700000x1, .i32⟩
  | 38 => ⟨S100000, .f32⟩
  | 39 => ⟨S_, .f32⟩
  | 40 => ⟨S100000, .f32⟩
  | 41 => ⟨S100000, .f32⟩
  | 42 => ⟨S100000x1, .f32⟩
  | 43 => ⟨S_, .f32⟩
  | 44 => ⟨S100000x2, .f32⟩
  | 45 => ⟨S1700000x1, .i32⟩
  | 46 => ⟨S100000x2, .f32⟩
  | 47 => ⟨S100000x128, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000x128, .f32⟩
  | 57 => ⟨S_, .f32⟩
  | 58 => ⟨S100000x128, .f32⟩
  | 59 => ⟨S1700000x1, .i32⟩
  | 60 => ⟨S100000x128, .f32⟩
  | 61 => ⟨S128x128, .f32⟩
  | 62 => ⟨S2x128, .f32⟩
  | 63 => ⟨S100000x128, .f32⟩
  | 64 => ⟨S_, .f32⟩
  | 65 => ⟨S128, .f32⟩
  | 66 => ⟨S_, .f32⟩
  | 67 => ⟨S128, .f32⟩
  | 68 => ⟨S128, .f32⟩
  | 69 => ⟨S_, .i32⟩
  | 70 => ⟨S_, .f32⟩
  | 71 => ⟨S128, .f32⟩
  | 72 => ⟨S1x128, .f32⟩
  | 73 => ⟨S_, .f32⟩
  | 74 => ⟨S1x128, .f32⟩
  | 75 => ⟨S1x128, .f32⟩
  | 76 => ⟨S100000x128, .f32⟩
  | 77 => ⟨S100000x128, .f32⟩
  | 78 => ⟨S100000x128, .f32⟩
  | 79 => ⟨S_, .f32⟩
  | 80 => ⟨S_, .f32⟩
  | 81 => ⟨S_, .f32⟩
  | 82 => ⟨S_, .f32⟩
  | 83 => ⟨S128, .f32⟩
  | 84 => ⟨S128, .f32⟩
  | 85 => ⟨S128, .f32⟩
  | 86 => ⟨S_, .f32⟩
  | 87 => ⟨S_, .i1⟩
  | 88 => ⟨S_, .f32⟩
  | 89 => ⟨S_, .f32⟩
  | 90 => ⟨S128, .f32⟩
  | 91 => ⟨S128, .f32⟩
  | 92 => ⟨S100000x128, .f32⟩
  | 93 => ⟨S_, .i32⟩
  | 94 => ⟨S1700000, .i32⟩
  | 95 => ⟨S1700000, .i1⟩
  | 96 => ⟨S_, .i32⟩
  | 97 => ⟨S1700000, .i32⟩
  | 98 => ⟨S1700000, .i32⟩
  | 99 => ⟨S1700000, .i32⟩
  | 100 => ⟨S1700000x1, .i32⟩
  | 101 => ⟨S1700000x128, .f32⟩
  | 102 => ⟨S_, .f32⟩
  | 103 => ⟨S100000x128, .f32⟩
  | 104 => ⟨S1700000x1, .i32⟩
  | 105 => ⟨S100000x128, .f32⟩
  | 106 => ⟨S128x128, .f32⟩
  | 107 => ⟨S2x128, .f32⟩
  | 108 => ⟨S100000x128, .f32⟩
  | 109 => ⟨S_, .f32⟩
  | 110 => ⟨S128, .f32⟩
  | 111 => ⟨S_, .f32⟩
  | 112 => ⟨S128, .f32⟩
  | 113 => ⟨S128, .f32⟩
  | 114 => ⟨S_, .i32⟩
  | 115 => ⟨S_, .f32⟩
  | 116 => ⟨S128, .f32⟩
  | 117 => ⟨S1x128, .f32⟩
  | 118 => ⟨S_, .f32⟩
  | 119 => ⟨S1x128, .f32⟩
  | 120 => ⟨S1x128, .f32⟩
  | 121 => ⟨S100000x128, .f32⟩
  | 122 => ⟨S100000x128, .f32⟩
  | 123 => ⟨S100000x128, .f32⟩
  | 124 => ⟨S_, .f32⟩
  | 125 => ⟨S_, .f32⟩
  | 126 => ⟨S_, .f32⟩
  | 127 => ⟨S_, .f32⟩
  | _ => ⟨S100000x4, .f32⟩

abbrev hbmTy0_1 (i : Nat) : BufTy := match i % 128 with
  | 0 => ⟨S128, .f32⟩
  | 1 => ⟨S128, .f32⟩
  | 2 => ⟨S128, .f32⟩
  | 3 => ⟨S_, .f32⟩
  | 4 => ⟨S_, .i1⟩
  | 5 => ⟨S_, .f32⟩
  | 6 => ⟨S_, .f32⟩
  | 7 => ⟨S128, .f32⟩
  | 8 => ⟨S128, .f32⟩
  | 9 => ⟨S100000x128, .f32⟩
  | 10 => ⟨S_, .i32⟩
  | 11 => ⟨S1700000, .i32⟩
  | 12 => ⟨S1700000, .i1⟩
  | 13 => ⟨S_, .i32⟩
  | 14 => ⟨S1700000, .i32⟩
  | 15 => ⟨S1700000, .i32⟩
  | 16 => ⟨S1700000, .i32⟩
  | 17 => ⟨S1700000x1, .i32⟩
  | 18 => ⟨S1700000x128, .f32⟩
  | 19 => ⟨S_, .f32⟩
  | 20 => ⟨S100000x128, .f32⟩
  | 21 => ⟨S1700000x1, .i32⟩
  | 22 => ⟨S100000x128, .f32⟩
  | 23 => ⟨S128x128, .f32⟩
  | 24 => ⟨S2x128, .f32⟩
  | 25 => ⟨S100000x128, .f32⟩
  | 26 => ⟨S_, .f32⟩
  | 27 => ⟨S128, .f32⟩
  | 28 => ⟨S_, .f32⟩
  | 29 => ⟨S128, .f32⟩
  | 30 => ⟨S128, .f32⟩
  | 31 => ⟨S_, .i32⟩
  | 32 => ⟨S_, .f32⟩
  | 33 => ⟨S128, .f32⟩
  | 34 => ⟨S1x128, .f32⟩
  | 35 => ⟨S_, .f32⟩
  | 36 => ⟨S1x128, .f32⟩
  | 37 => ⟨S1x128, .f32⟩
  | 38 => ⟨S100000x128, .f32⟩
  | 39 => ⟨S100000x128, .f32⟩
  | 40 => ⟨S100000x128, .f32⟩
  | 41 => ⟨S_, .f32⟩
  | 42 => ⟨S_, .f32⟩
  | 43 => ⟨S_, .f32⟩
  | 44 => ⟨S_, .f32⟩
  | 45 => ⟨S128, .f32⟩
  | 46 => ⟨S128, .f32⟩
  | 47 => ⟨S128, .f32⟩
  | 48 => ⟨S_, .f32⟩
  | 49 => ⟨S_, .i1⟩
  | 50 => ⟨S_, .f32⟩
  | 51 => ⟨S_, .f32⟩
  | 52 => ⟨S128, .f32⟩
  | 53 => ⟨S128, .f32⟩
  | 54 => ⟨S100000x128, .f32⟩
  | 55 => ⟨S128x128, .f32⟩
  | 56 => ⟨S128x128, .f32⟩
  | 57 => ⟨S128x128, .f32⟩
  | 58 => ⟨S100000x1, .f32⟩
  | 59 => ⟨S100000, .f32⟩
  | _ => ⟨S100000x4, .f32⟩

abbrev hbmTy (i : Nat) : BufTy := match i / 128 with
  | 0 => hbmTy0_0 i
  | 1 => hbmTy0_1 i
  | _ => ⟨S100000x4, .f32⟩

abbrev bufTy : (tb : Table) → Fin (tcTables nBuf tb) → BufTy
  | .hbm, ⟨i, _⟩ => hbmTy i
  | .local _ .vmem, ⟨0, _⟩ => ⟨S4000x4, .f32⟩
  | .local _ .vmem, ⟨1, _⟩ => ⟨S4000x4, .f32⟩
  | .local _ .vmem, ⟨2, _⟩ => ⟨S4x128, .f32⟩
  | .local _ .vmem, ⟨3, _⟩ => ⟨S128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x2, .f32⟩
  | .local _ .vmem, ⟨9, _⟩ => ⟨S4000x2, .f32⟩
  | .local _ .vmem, ⟨10, _⟩ => ⟨S4000x128, .f32⟩
  | .local _ .vmem, ⟨11, _⟩ => ⟨S4000x128, .f32⟩
  | .local _ .vmem, ⟨12, _⟩ => ⟨S128x128, .f32⟩
  | .local _ .vmem, ⟨13, _⟩ => ⟨S2x128, .f32⟩
  | .local _ .vmem, ⟨14, _⟩ => ⟨S128x128, .f32⟩
  | .local _ .vmem, ⟨15, _⟩ => ⟨S4000x1, .f32⟩
  | .local _ .vmem, ⟨16, _⟩ => ⟨S4000x1, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S128, .f32⟩
  | .local _ .vmem, ⟨22, _⟩ => ⟨S128, .f32⟩
  | .local _ .vmem, ⟨23, _⟩ => ⟨S128, .f32⟩
  | .local _ .vmem, ⟨24, _⟩ => ⟨S128, .f32⟩
  | .local _ .vmem, ⟨25, _⟩ => ⟨S4000x128, .f32⟩
  | .local _ .vmem, ⟨26, _⟩ => ⟨S4000x128, .f32⟩
  | .local _ .vmem, ⟨27, _⟩ => ⟨S4000x128, .f32⟩
  | .local _ .vmem, ⟨28, _⟩ => ⟨S4000x128, .f32⟩
  | .local _ .vmem, ⟨29, _⟩ => ⟨S4000x2, .f32⟩
  | .local _ .vmem, ⟨30, _⟩ => ⟨S4000x2, .f32⟩
  | .local _ .vmem, ⟨31, _⟩ => ⟨S4000x128, .f32⟩
  | .local _ .vmem, ⟨32, _⟩ => ⟨S4000x128, .f32⟩
  | .local _ .vmem, ⟨33, _⟩ => ⟨S128x128, .f32⟩
  | .local _ .vmem, ⟨34, _⟩ => ⟨S2x128, .f32⟩
  | .local _ .vmem, ⟨35, _⟩ => ⟨S128x128, .f32⟩
  | .local _ .vmem, ⟨36, _⟩ => ⟨S4000x1, .f32⟩
  | .local _ .vmem, ⟨37, _⟩ => ⟨S4000x1, .f32⟩
  | .local _ .vmem, ⟨38, _⟩ => ⟨S4000x128, .f32⟩
  | .local _ .vmem, ⟨39, _⟩ => ⟨S4000x128, .f32⟩
  | .local _ .vmem, ⟨40, _⟩ => ⟨S4000x128, .f32⟩
  | .local _ .vmem, ⟨41, _⟩ => ⟨S4000x128, .f32⟩
  | .local _ .vmem, ⟨42, _⟩ => ⟨S128, .f32⟩
  | .local _ .vmem, ⟨43, _⟩ => ⟨S128, .f32⟩
  | .local _ .vmem, ⟨44, _⟩ => ⟨S128, .f32⟩
  | .local _ .vmem, ⟨45, _⟩ => ⟨S128, .f32⟩
  | .local _ .vmem, ⟨46, _⟩ => ⟨S4000x128, .f32⟩
  | .local _ .vmem, ⟨47, _⟩ => ⟨S4000x128, .f32⟩
  | .local _ .vmem, ⟨48, _⟩ => ⟨S4000x128, .f32⟩
  | .local _ .vmem, ⟨49, _⟩ => ⟨S4000x128, .f32⟩
  | .local _ .vmem, ⟨50, _⟩ => ⟨S4000x2, .f32⟩
  | .local _ .vmem, ⟨51, _⟩ => ⟨S4000x2, .f32⟩
  | .local _ .vmem, ⟨52, _⟩ => ⟨S4000x128, .f32⟩
  | .local _ .vmem, ⟨53, _⟩ => ⟨S4000x128, .f32⟩
  | .local _ .vmem, ⟨54, _⟩ => ⟨S128x128, .f32⟩
  | .local _ .vmem, ⟨55, _⟩ => ⟨S2x128, .f32⟩
  | .local _ .vmem, ⟨56, _⟩ => ⟨S128x128, .f32⟩
  | .local _ .vmem, ⟨57, _⟩ => ⟨S4000x1, .f32⟩
  | .local _ .vmem, ⟨58, _⟩ => ⟨S4000x1, .f32⟩
  | .local _ .vmem, ⟨59, _⟩ => ⟨S4000x128, .f32⟩
  | .local _ .vmem, ⟨60, _⟩ => ⟨S4000x128, .f32⟩
  | .local _ .vmem, ⟨61, _⟩ => ⟨S4000x128, .f32⟩
  | .local _ .vmem, ⟨62, _⟩ => ⟨S4000x128, .f32⟩
  | .local _ .vmem, ⟨63, _⟩ => ⟨S128, .f32⟩
  | .local _ .vmem, ⟨64, _⟩ => ⟨S128, .f32⟩
  | .local _ .vmem, ⟨65, _⟩ => ⟨S128, .f32⟩
  | .local _ .vmem, ⟨66, _⟩ => ⟨S128, .f32⟩
  | .local _ .vmem, ⟨67, _⟩ => ⟨S4000x128, .f32⟩
  | .local _ .vmem, ⟨68, _⟩ => ⟨S4000x128, .f32⟩
  | .local _ .vmem, ⟨69, _⟩ => ⟨S4000x128, .f32⟩
  | .local _ .vmem, ⟨70, _⟩ => ⟨S4000x128, .f32⟩
  | .local _ .vmem, ⟨71, _⟩ => ⟨S4000x128, .f32⟩
  | .local _ .vmem, ⟨72, _⟩ => ⟨S4000x128, .f32⟩
  | .local _ .vmem, ⟨73, _⟩ => ⟨S4000x128, .f32⟩
  | .local _ .vmem, ⟨74, _⟩ => ⟨S4000x128, .f32⟩
  | .local _ .vmem, ⟨75, _⟩ => ⟨S128x128, .f32⟩
  | .local _ .vmem, ⟨76, _⟩ => ⟨S128x128, .f32⟩
  | .local _ .vmem, ⟨77, _⟩ => ⟨S128x128, .f32⟩
  | .local _ .vmem, ⟨78, _⟩ => ⟨S128, .f32⟩
  | .local _ .vmem, ⟨79, _⟩ => ⟨S128x64, .f32⟩
  | .local _ .vmem, ⟨80, _⟩ => ⟨S64, .f32⟩
  | .local _ .vmem, ⟨81, _⟩ => ⟨S64x1, .f32⟩
  | .local _ .vmem, ⟨82, _⟩ => ⟨S1, .f32⟩
  | .local _ .vmem, ⟨83, _⟩ => ⟨S4000x1, .f32⟩
  | .local _ .vmem, ⟨84, _⟩ => ⟨S4000x1, .f32⟩
  | _, _ => ⟨S100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | _, _ => false

abbrev semScoped : Fin 0 → Bool
  | ⟨_, h⟩ => absurd h (Nat.not_lt_zero _)

abbrev dmaSemScoped : Fin 85 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | _ => false

abbrev sig : RefSig :=
  ofTc nBuf bufTy 0 85 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_cst : Ref sig .tc := ⟨.hbm, 30, rfl⟩
abbrev main_v7 : Ref sig .tc := ⟨.hbm, 31, rfl⟩
abbrev main_v8 : Ref sig .tc := ⟨.hbm, 32, rfl⟩
abbrev main_cst_0 : Ref sig .tc := ⟨.hbm, 33, rfl⟩
abbrev main_v9 : Ref sig .tc := ⟨.hbm, 34, rfl⟩
abbrev main_cst_1 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_cst_2 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_cst_3 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_c : Ref sig .tc := ⟨.hbm, 48, rfl⟩
abbrev main_v20 : Ref sig .tc := ⟨.hbm, 49, rfl⟩
abbrev main_v21 : Ref sig .tc := ⟨.hbm, 50, rfl⟩
abbrev main_c_4 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_cst_5 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_cst_6 : Ref sig .tc := ⟨.hbm, 64, rfl⟩
abbrev main_v33 : Ref sig .tc := ⟨.hbm, 65, rfl⟩
abbrev main_cst_7 : Ref sig .tc := ⟨.hbm, 66, rfl⟩
abbrev main_v34 : Ref sig .tc := ⟨.hbm, 67, rfl⟩
abbrev main_v35 : Ref sig .tc := ⟨.hbm, 68, rfl⟩
abbrev main_c_8 : Ref sig .tc := ⟨.hbm, 69, rfl⟩
abbrev main_call0_cst : Ref sig .tc := ⟨.hbm, 70, rfl⟩
abbrev main_call0_v0 : Ref sig .tc := ⟨.hbm, 71, rfl⟩
abbrev main_call0_v1 : Ref sig .tc := ⟨.hbm, 72, rfl⟩
abbrev main_call0_cst_0 : Ref sig .tc := ⟨.hbm, 73, rfl⟩
abbrev main_call0_v2 : Ref sig .tc := ⟨.hbm, 74, rfl⟩
abbrev main_call0_v3 : Ref sig .tc := ⟨.hbm, 75, rfl⟩
abbrev main_call0_v4 : Ref sig .tc := ⟨.hbm, 76, rfl⟩
abbrev main_call0_v5 : Ref sig .tc := ⟨.hbm, 77, rfl⟩
abbrev main_call0_v6 : Ref sig .tc := ⟨.hbm, 78, rfl⟩
abbrev main_call0_v7 : Ref sig .tc := ⟨.hbm, 79, rfl⟩
abbrev main_call0_cst_1 : Ref sig .tc := ⟨.hbm, 80, rfl⟩
abbrev main_call0_v8 : Ref sig .tc := ⟨.hbm, 81, rfl⟩
abbrev main_call0_cst_2 : Ref sig .tc := ⟨.hbm, 82, rfl⟩
abbrev main_call0_v9 : Ref sig .tc := ⟨.hbm, 83, rfl⟩
abbrev main_call0_v10 : Ref sig .tc := ⟨.hbm, 84, rfl⟩
abbrev main_call0_v11 : Ref sig .tc := ⟨.hbm, 85, rfl⟩
abbrev main_call0_cst_3 : Ref sig .tc := ⟨.hbm, 86, rfl⟩
abbrev main_call0_v12 : Ref sig .tc := ⟨.hbm, 87, rfl⟩
abbrev main_call0_cst_4 : Ref sig .tc := ⟨.hbm, 88, rfl⟩
abbrev main_call0_call0_v0 : Ref sig .tc := ⟨.hbm, 89, rfl⟩
abbrev main_call0_call0_v1 : Ref sig .tc := ⟨.hbm, 90, rfl⟩
abbrev main_v36 : Ref sig .tc := ⟨.hbm, 91, rfl⟩
abbrev main_v37 : Ref sig .tc := ⟨.hbm, 92, rfl⟩
abbrev main_c_9 : Ref sig .tc := ⟨.hbm, 93, rfl⟩
abbrev main_v38 : Ref sig .tc := ⟨.hbm, 94, rfl⟩
abbrev main_v39 : Ref sig .tc := ⟨.hbm, 95, rfl⟩
abbrev main_c_10 : Ref sig .tc := ⟨.hbm, 96, rfl⟩
abbrev main_v40 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_cst_11 : Ref sig .tc := ⟨.hbm, 102, rfl⟩
abbrev main_v45 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_cst_12 : Ref sig .tc := ⟨.hbm, 109, rfl⟩
abbrev main_v51 : Ref sig .tc := ⟨.hbm, 110, rfl⟩
abbrev main_cst_13 : Ref sig .tc := ⟨.hbm, 111, rfl⟩
abbrev main_v52 : Ref sig .tc := ⟨.hbm, 112, rfl⟩
abbrev main_v53 : Ref sig .tc := ⟨.hbm, 113, rfl⟩
abbrev main_c_14 : Ref sig .tc := ⟨.hbm, 114, rfl⟩
abbrev main_call1_cst : Ref sig .tc := ⟨.hbm, 115, rfl⟩
abbrev main_call1_v0 : Ref sig .tc := ⟨.hbm, 116, rfl⟩
abbrev main_call1_v1 : Ref sig .tc := ⟨.hbm, 117, rfl⟩
abbrev main_call1_cst_0 : Ref sig .tc := ⟨.hbm, 118, rfl⟩
abbrev main_call1_v2 : Ref sig .tc := ⟨.hbm, 119, rfl⟩
abbrev main_call1_v3 : Ref sig .tc := ⟨.hbm, 120, rfl⟩
abbrev main_call1_v4 : Ref sig .tc := ⟨.hbm, 121, rfl⟩
abbrev main_call1_v5 : Ref sig .tc := ⟨.hbm, 122, rfl⟩
abbrev main_call1_v6 : Ref sig .tc := ⟨.hbm, 123, rfl⟩
abbrev main_call1_v7 : Ref sig .tc := ⟨.hbm, 124, rfl⟩
abbrev main_call1_cst_1 : Ref sig .tc := ⟨.hbm, 125, rfl⟩
abbrev main_call1_v8 : Ref sig .tc := ⟨.hbm, 126, rfl⟩
abbrev main_call1_cst_2 : Ref sig .tc := ⟨.hbm, 127, rfl⟩
abbrev main_call1_v9 : Ref sig .tc := ⟨.hbm, 128, rfl⟩
abbrev main_call1_v10 : Ref sig .tc := ⟨.hbm, 129, rfl⟩
abbrev main_call1_v11 : Ref sig .tc := ⟨.hbm, 130, rfl⟩
abbrev main_call1_cst_3 : Ref sig .tc := ⟨.hbm, 131, rfl⟩
abbrev main_call1_v12 : Ref sig .tc := ⟨.hbm, 132, rfl⟩
abbrev main_call1_cst_4 : Ref sig .tc := ⟨.hbm, 133, rfl⟩
abbrev main_call1_call0_v0 : Ref sig .tc := ⟨.hbm, 134, rfl⟩
abbrev main_call1_call0_v1 : Ref sig .tc := ⟨.hbm, 135, rfl⟩
abbrev main_v54 : Ref sig .tc := ⟨.hbm, 136, rfl⟩
abbrev main_v55 : Ref sig .tc := ⟨.hbm, 137, rfl⟩
abbrev main_c_15 : Ref sig .tc := ⟨.hbm, 138, rfl⟩
abbrev main_v56 : Ref sig .tc := ⟨.hbm, 139, rfl⟩
abbrev main_v57 : Ref sig .tc := ⟨.hbm, 140, rfl⟩
abbrev main_c_16 : Ref sig .tc := ⟨.hbm, 141, rfl⟩
abbrev main_v58 : Ref sig .tc := ⟨.hbm, 142, rfl⟩
abbrev main_v59 : Ref sig .tc := ⟨.hbm, 143, rfl⟩
abbrev main_v60 : Ref sig .tc := ⟨.hbm, 144, rfl⟩
abbrev main_v61 : Ref sig .tc := ⟨.hbm, 145, rfl⟩
abbrev main_v62 : Ref sig .tc := ⟨.hbm, 146, rfl⟩
abbrev main_cst_17 : Ref sig .tc := ⟨.hbm, 147, rfl⟩
abbrev main_v63 : Ref sig .tc := ⟨.hbm, 148, rfl⟩
abbrev main_v64 : Ref sig .tc := ⟨.hbm, 149, rfl⟩
abbrev main_v65 : Ref sig .tc := ⟨.hbm, 150, rfl⟩
abbrev main_v66 : Ref sig .tc := ⟨.hbm, 151, rfl⟩
abbrev main_v67 : Ref sig .tc := ⟨.hbm, 152, rfl⟩
abbrev main_v68 : Ref sig .tc := ⟨.hbm, 153, rfl⟩
abbrev main_cst_18 : Ref sig .tc := ⟨.hbm, 154, rfl⟩
abbrev main_v69 : Ref sig .tc := ⟨.hbm, 155, rfl⟩
abbrev main_cst_19 : Ref sig .tc := ⟨.hbm, 156, rfl⟩
abbrev main_v70 : Ref sig .tc := ⟨.hbm, 157, rfl⟩
abbrev main_v71 : Ref sig .tc := ⟨.hbm, 158, rfl⟩
abbrev main_c_20 : Ref sig .tc := ⟨.hbm, 159, rfl⟩
abbrev main_call2_cst : Ref sig .tc := ⟨.hbm, 160, rfl⟩
abbrev main_call2_v0 : Ref sig .tc := ⟨.hbm, 161, rfl⟩
abbrev main_call2_v1 : Ref sig .tc := ⟨.hbm, 162, rfl⟩
abbrev main_call2_cst_0 : Ref sig .tc := ⟨.hbm, 163, rfl⟩
abbrev main_call2_v2 : Ref sig .tc := ⟨.hbm, 164, rfl⟩
abbrev main_call2_v3 : Ref sig .tc := ⟨.hbm, 165, rfl⟩
abbrev main_call2_v4 : Ref sig .tc := ⟨.hbm, 166, rfl⟩
abbrev main_call2_v5 : Ref sig .tc := ⟨.hbm, 167, rfl⟩
abbrev main_call2_v6 : Ref sig .tc := ⟨.hbm, 168, rfl⟩
abbrev main_call2_v7 : Ref sig .tc := ⟨.hbm, 169, rfl⟩
abbrev main_call2_cst_1 : Ref sig .tc := ⟨.hbm, 170, rfl⟩
abbrev main_call2_v8 : Ref sig .tc := ⟨.hbm, 171, rfl⟩
abbrev main_call2_cst_2 : Ref sig .tc := ⟨.hbm, 172, rfl⟩
abbrev main_call2_v9 : Ref sig .tc := ⟨.hbm, 173, rfl⟩
abbrev main_call2_v10 : Ref sig .tc := ⟨.hbm, 174, rfl⟩
abbrev main_call2_v11 : Ref sig .tc := ⟨.hbm, 175, rfl⟩
abbrev main_call2_cst_3 : Ref sig .tc := ⟨.hbm, 176, rfl⟩
abbrev main_call2_v12 : Ref sig .tc := ⟨.hbm, 177, rfl⟩
abbrev main_call2_cst_4 : Ref sig .tc := ⟨.hbm, 178, rfl⟩
abbrev main_call2_call0_v0 : Ref sig .tc := ⟨.hbm, 179, rfl⟩
abbrev main_call2_call0_v1 : Ref sig .tc := ⟨.hbm, 180, rfl⟩
abbrev main_v72 : Ref sig .tc := ⟨.hbm, 181, rfl⟩
abbrev main_v73 : Ref sig .tc := ⟨.hbm, 182, rfl⟩
abbrev main_v74 : Ref sig .tc := ⟨.hbm, 183, rfl⟩
abbrev main_v75 : Ref sig .tc := ⟨.hbm, 184, rfl⟩
abbrev main_v76 : Ref sig .tc := ⟨.hbm, 185, rfl⟩
abbrev main_v77 : Ref sig .tc := ⟨.hbm, 186, rfl⟩
abbrev main_v78 : Ref sig .tc := ⟨.hbm, 187, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc1_stg7_0 : Ref sig .tc := ⟨.vmem, 17, rfl⟩
abbrev cc1_stg7_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg6_0 : Ref sig .tc := ⟨.vmem, 36, rfl⟩
abbrev cc3_stg6_1 : Ref sig .tc := ⟨.vmem, 37, rfl⟩
abbrev cc3_stg7_0 : Ref sig .tc := ⟨.vmem, 38, rfl⟩
abbrev cc3_stg7_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg2_0 : Ref sig .tc := ⟨.vmem, 43, rfl⟩
abbrev cc4_stg3_0 : Ref sig .tc := ⟨.vmem, 44, rfl⟩
abbrev cc4_stg4_0 : Ref sig .tc := ⟨.vmem, 45, rfl⟩
abbrev cc4_stg5_0 : Ref sig .tc := ⟨.vmem, 46, rfl⟩
abbrev cc4_stg5_1 : Ref sig .tc := ⟨.vmem, 47, rfl⟩
abbrev cc5_stg0_0 : Ref sig .tc := ⟨.vmem, 48, rfl⟩
abbrev cc5_stg0_1 : Ref sig .tc := ⟨.vmem, 49, rfl⟩
abbrev cc5_stg1_0 : Ref sig .tc := ⟨.vmem, 50, rfl⟩
abbrev cc5_stg1_1 : Ref sig .tc := ⟨.vmem, 51, rfl⟩
abbrev cc5_stg2_0 : Ref sig .tc := ⟨.vmem, 52, rfl⟩
abbrev cc5_stg2_1 : Ref sig .tc := ⟨.vmem, 53, rfl⟩
abbrev cc5_stg3_0 : Ref sig .tc := ⟨.vmem, 54, rfl⟩
abbrev cc5_stg4_0 : Ref sig .tc := ⟨.vmem, 55, rfl⟩
abbrev cc5_stg5_0 : Ref sig .tc := ⟨.vmem, 56, rfl⟩
abbrev cc5_stg6_0 : Ref sig .tc := ⟨.vmem, 57, rfl⟩
abbrev cc5_stg6_1 : Ref sig .tc := ⟨.vmem, 58, rfl⟩
abbrev cc5_stg7_0 : Ref sig .tc := ⟨.vmem, 59, rfl⟩
abbrev cc5_stg7_1 : Ref sig .tc := ⟨.vmem, 60, rfl⟩
abbrev cc6_stg0_0 : Ref sig .tc := ⟨.vmem, 61, rfl⟩
abbrev cc6_stg0_1 : Ref sig .tc := ⟨.vmem, 62, rfl⟩
abbrev cc6_stg1_0 : Ref sig .tc := ⟨.vmem, 63, rfl⟩
abbrev cc6_stg2_0 : Ref sig .tc := ⟨.vmem, 64, rfl⟩
abbrev cc6_stg3_0 : Ref sig .tc := ⟨.vmem, 65, rfl⟩
abbrev cc6_stg4_0 : Ref sig .tc := ⟨.vmem, 66, rfl⟩
abbrev cc6_stg5_0 : Ref sig .tc := ⟨.vmem, 67, rfl⟩
abbrev cc6_stg5_1 : Ref sig .tc := ⟨.vmem, 68, rfl⟩
abbrev cc7_stg0_0 : Ref sig .tc := ⟨.vmem, 69, rfl⟩
abbrev cc7_stg0_1 : Ref sig .tc := ⟨.vmem, 70, rfl⟩
abbrev cc7_stg1_0 : Ref sig .tc := ⟨.vmem, 71, rfl⟩
abbrev cc7_stg1_1 : Ref sig .tc := ⟨.vmem, 72, rfl⟩
abbrev cc7_stg2_0 : Ref sig .tc := ⟨.vmem, 73, rfl⟩
abbrev cc7_stg2_1 : Ref sig .tc := ⟨.vmem, 74, rfl⟩
abbrev cc7_stg3_0 : Ref sig .tc := ⟨.vmem, 75, rfl⟩
abbrev cc7_stg4_0 : Ref sig .tc := ⟨.vmem, 76, rfl⟩
abbrev cc7_stg5_0 : Ref sig .tc := ⟨.vmem, 77, rfl⟩
abbrev cc7_stg6_0 : Ref sig .tc := ⟨.vmem, 78, rfl⟩
abbrev cc7_stg7_0 : Ref sig .tc := ⟨.vmem, 79, rfl⟩
abbrev cc7_stg8_0 : Ref sig .tc := ⟨.vmem, 80, rfl⟩
abbrev cc7_stg9_0 : Ref sig .tc := ⟨.vmem, 81, rfl⟩
abbrev cc7_stg10_0 : Ref sig .tc := ⟨.vmem, 82, rfl⟩
abbrev cc7_stg11_0 : Ref sig .tc := ⟨.vmem, 83, rfl⟩
abbrev cc7_stg11_1 : Ref sig .tc := ⟨.vmem, 84, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16
abbrev cc1_sem7_0 : DmaSem sig := 17
abbrev cc1_sem7_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem4_0 : DmaSem sig := 34
abbrev cc3_sem5_0 : DmaSem sig := 35
abbrev cc3_sem6_0 : DmaSem sig := 36
abbrev cc3_sem6_1 : DmaSem sig := 37
abbrev cc3_sem7_0 : DmaSem sig := 38
abbrev cc3_sem7_1 : DmaSem sig := 39
abbrev cc4_sem0_0 : DmaSem sig := 40
abbrev cc4_sem0_1 : DmaSem sig := 41
abbrev cc4_sem1_0 : DmaSem sig := 42
abbrev cc4_sem2_0 : DmaSem sig := 43
abbrev cc4_sem3_0 : DmaSem sig := 44
abbrev cc4_sem4_0 : DmaSem sig := 45
abbrev cc4_sem5_0 : DmaSem sig := 46
abbrev cc4_sem5_1 : DmaSem sig := 47
abbrev cc5_sem0_0 : DmaSem sig := 48
abbrev cc5_sem0_1 : DmaSem sig := 49
abbrev cc5_sem1_0 : DmaSem sig := 50
abbrev cc5_sem1_1 : DmaSem sig := 51
abbrev cc5_sem2_0 : DmaSem sig := 52
abbrev cc5_sem2_1 : DmaSem sig := 53
abbrev cc5_sem3_0 : DmaSem sig := 54
abbrev cc5_sem4_0 : DmaSem sig := 55
abbrev cc5_sem5_0 : DmaSem sig := 56
abbrev cc5_sem6_0 : DmaSem sig := 57
abbrev cc5_sem6_1 : DmaSem sig := 58
abbrev cc5_sem7_0 : DmaSem sig := 59
abbrev cc5_sem7_1 : DmaSem sig := 60
abbrev cc6_sem0_0 : DmaSem sig := 61
abbrev cc6_sem0_1 : DmaSem sig := 62
abbrev cc6_sem1_0 : DmaSem sig := 63
abbrev cc6_sem2_0 : DmaSem sig := 64
abbrev cc6_sem3_0 : DmaSem sig := 65
abbrev cc6_sem4_0 : DmaSem sig := 66
abbrev cc6_sem5_0 : DmaSem sig := 67
abbrev cc6_sem5_1 : DmaSem sig := 68
abbrev cc7_sem0_0 : DmaSem sig := 69
abbrev cc7_sem0_1 : DmaSem sig := 70
abbrev cc7_sem1_0 : DmaSem sig := 71
abbrev cc7_sem1_1 : DmaSem sig := 72
abbrev cc7_sem2_0 : DmaSem sig := 73
abbrev cc7_sem2_1 : DmaSem sig := 74
abbrev cc7_sem3_0 : DmaSem sig := 75
abbrev cc7_sem4_0 : DmaSem sig := 76
abbrev cc7_sem5_0 : DmaSem sig := 77
abbrev cc7_sem6_0 : DmaSem sig := 78
abbrev cc7_sem7_0 : DmaSem sig := 79
abbrev cc7_sem8_0 : DmaSem sig := 80
abbrev cc7_sem9_0 : DmaSem sig := 81
abbrev cc7_sem10_0 : DmaSem sig := 82
abbrev cc7_sem11_0 : DmaSem sig := 83
abbrev cc7_sem11_1 : DmaSem sig := 84

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S4000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x2 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S2x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S4000x1 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S4000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S4000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4000x2 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S4000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S2x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S4000x1 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 2 → Memref sig .tc .vmem S4000x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_4 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S4000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_9 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_10 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_11 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S4000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S4000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S4000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S128x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S128x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S128x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S128x64 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 1 → Memref sig .tc .vmem S64 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

abbrev stage7_9 : Fin 1 → Memref sig .tc .vmem S64x1 .f32 := fun | 0 => Memref.whole cc7_stg9_0 | ⟨_ + 1, h⟩ => absurd h (Nat.not_lt.2 (Nat.le_add_left _ _))
abbrev sem7_9 : Fin 1 → DmaSem sig := fun | 0 => cc7_sem9_0 | ⟨_ + 1, h⟩ => absurd h (Nat.not_lt.2 (Nat.le_add_left _ _))
abbrev reads7_9 : Fin grid7.rank → Bool := ![false]

abbrev stage7_10 : Fin 1 → Memref sig .tc .vmem S1 .f32 := fun | 0 => Memref.whole cc7_stg10_0 | ⟨_ + 1, h⟩ => absurd h (Nat.not_lt.2 (Nat.le_add_left _ _))
abbrev sem7_10 : Fin 1 → DmaSem sig := fun | 0 => cc7_sem10_0 | ⟨_ + 1, h⟩ => absurd h (Nat.not_lt.2 (Nat.le_add_left _ _))
abbrev reads7_10 : Fin grid7.rank → Bool := ![false]

abbrev stage7_11 : Fin 2 → Memref sig .tc .vmem S4000x1 .f32 := fun | 0 => Memref.whole cc7_stg11_0 | 1 => Memref.whole cc7_stg11_1 | ⟨_ + 2, h⟩ => absurd h (Nat.not_lt.2 (Nat.le_add_left _ _))
abbrev sem7_11 : Fin 2 → DmaSem sig := fun | 0 => cc7_sem11_0 | 1 => cc7_sem11_1 | ⟨_ + 2, h⟩ => absurd h (Nat.not_lt.2 (Nat.le_add_left _ _))
abbrev reads7_11 : Fin grid7.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000x2 : S_.BroadcastsInDim S100000x2 (![] : Fin 0 → Fin S100000x2.rank)
  concatenates_S1600000x2_S100000x2_S1700000x2_d0 : Shape.Concatenates [S1600000x2, S100000x2] S1700000x2 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  inb_S4000x4_S4000x4_0_0 : ∀ a, (![0, 0] : Fin 2 → Nat) a + S4000x4.size a ≤ S4000x4.size a
  h_S4000x4 : 0 < S4000x4.numel
  bitsLt_bf16_f32 : FTy.bits .bf16 < FTy.bits .f32
  inb_S4x128_S4x128_0_0 : ∀ a, (![0, 0] : Fin 2 → Nat) a + S4x128.size a ≤ S4x128.size a
  h_S4x128 : 0 < S4x128.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  bcast_S_S100000x128 : S_.BroadcastsInDim S100000x128 (![] : Fin 0 → Fin S100000x128.rank)
  slices_S130x128_S128x128_0_0 : S130x128.Slices ![0, 0] S128x128
  slices_S130x128_S2x128_128_0 : S130x128.Slices ![128, 0] S2x128
  shapeCasts_S4000x128_S4000x128 : S4000x128.ShapeCasts S4000x128
  inb_S4000x2_S4000x2_0_0 : ∀ a, (![0, 0] : Fin 2 → Nat) a + S4000x2.size a ≤ S4000x2.size a
  h_S4000x2 : 0 < S4000x2.numel
  shapeCasts_S4000x2_S4000x2 : S4000x2.ShapeCasts S4000x2
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S2x128_S2x128_0_0 : ∀ a, (![0, 0] : Fin 2 → Nat) a + S2x128.size a ≤ S2x128.size a
  h_S2x128 : 0 < S2x128.numel
  shapeCasts_S2x128_S2x128 : S2x128.ShapeCasts S2x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  reducesTo_S100000x128_S128_d0 : S100000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S100000x128_0_1 : S1x128.BroadcastsInDim S100000x128 (![0, 1] : Fin 2 → Fin S100000x128.rank)
  shapeCasts_S128_S128 : S128.ShapeCasts S128
  reduces_S4000x128_S4000 : S4000x128.Reduces [1] S4000
  shapeCasts_S4000_S4000x1 : S4000.ShapeCasts S4000x1
  slices_S384x128_S128x128_0_0 : S384x128.Slices ![0, 0] S128x128
  slices_S384x128_S128x128_128_0 : S384x128.Slices ![128, 0] S128x128
  slices_S384x128_S128x128_256_0 : S384x128.Slices ![256, 0] S128x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S4000x64 : S1x64.Broadcasts S4000x64
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  broadcasts_S1x1_S4000x1 : S1x1.Broadcasts S4000x1
  shapeCasts_S100000x1_S100000 : S100000x1.ShapeCasts S100000
  scatter_S100000_S1700000x1_S1700000_n_0_0_1_wf : ScatterDims.WF S100000 S1700000x1 S1700000 [] [0] [0] 1
  scatter_S100000x2_S1700000x1_S1700000x2_1_0_0_1_wf : ScatterDims.WF S100000x2 S1700000x1 S1700000x2 [1] [0] [0] 1
  dot_S4000x4_S4x128_S4000x128_1_0_0_1_n_n_wf : DotDims.WF S4000x4 S4x128 S4000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S4000x128_S128x128_S4000x128_1_0_0_1_n_n_wf : DotDims.WF S4000x128 S128x128 S4000x128 [1] [0] [0] [1] [] []
  dot_S4000x2_S2x128_S4000x128_1_0_0_1_n_n_wf : DotDims.WF S4000x2 S2x128 S4000x128 [1] [0] [0] [1] [] []
  dot_S4000x128_S128x64_S4000x64_1_0_0_1_n_n_wf : DotDims.WF S4000x128 S128x64 S4000x64 [1] [0] [0] [1] [] []
  dot_S4000x64_S64x1_S4000x1_1_0_0_1_n_n_wf : DotDims.WF S4000x64 S64x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x4.size a ≤ S100000x4.size a
  hwx0_0 : ∀ i : grid0.Coords, EltTy.bits .f32 = 32 ∨ (Rect.block (s := S100000x4) S4000x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x128.size a ≤ S4x128.size a
  hwx0_1 : ∀ i : grid0.Coords, EltTy.bits .f32 = 32 ∨ (Rect.block (s := S4x128) S4x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .f32 = 32 ∨ (Rect.block (s := S100000x128) S4000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x2.size a ≤ S100000x2.size a
  hwx1_1 : ∀ i : grid1.Coords, EltTy.bits .f32 = 32 ∨ (Rect.block (s := S100000x2) S4000x2.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S100000x128.size a
  hwx1_2 : ∀ i : grid1.Coords, EltTy.bits .f32 = 32 ∨ (Rect.block (s := S100000x128) S4000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S2x128.size a ≤ S2x128.size a
  hwx1_4 : ∀ i : grid1.Coords, EltTy.bits .f32 = 32 ∨ (Rect.block (s := S2x128) S2x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x1.size a ≤ S100000x1.size a
  hwx1_6 : ∀ i : grid1.Coords, EltTy.bits .f32 = 32 ∨ (Rect.block (s := S100000x1) S4000x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x128.size a ≤ S100000x128.size a
  hwx1_7 : ∀ i : grid1.Coords, EltTy.bits .f32 = 32 ∨ (Rect.block (s := S100000x128) S4000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128.size a ≤ S128.size a
  hwx2_1 : ∀ i : grid2.Coords, EltTy.bits .f32 = 32 ∨ (Rect.block (s := S128) S128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x128.size a ≤ S100000x128.size a
  hwx2_5 : ∀ i : grid2.Coords, EltTy.bits .f32 = 32 ∨ (Rect.block (s := S100000x128) S4000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x2.size a ≤ S100000x2.size a
  hwx3_1 : ∀ i : grid3.Coords, EltTy.bits .f32 = 32 ∨ (Rect.block (s := S100000x2) S4000x2.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x128.size a ≤ S100000x128.size a
  hwx3_2 : ∀ i : grid3.Coords, EltTy.bits .f32 = 32 ∨ (Rect.block (s := S100000x128) S4000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S2x128.size a ≤ S2x128.size a
  hwx3_4 : ∀ i : grid3.Coords, EltTy.bits .f32 = 32 ∨ (Rect.block (s := S2x128) S2x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S4000x1.size a ≤ S100000x1.size a
  hwx3_6 : ∀ i : grid3.Coords, EltTy.bits .f32 = 32 ∨ (Rect.block (s := S100000x1) S4000x1.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S4000x128.size a ≤ S100000x128.size a
  hwx3_7 : ∀ i : grid3.Coords, EltTy.bits .f32 = 32 ∨ (Rect.block (s := S100000x128) S4000x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S100000x128.size a
  hwx4_0 : ∀ i : grid4.Coords, EltTy.bits .f32 = 32 ∨ (Rect.block (s := S100000x128) S4000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128.size a ≤ S128.size a
  hwx4_1 : ∀ i : grid4.Coords, EltTy.bits .f32 = 32 ∨ (Rect.block (s := S128) S128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128.size a ≤ S128.size a
  hwx4_2 : ∀ i : grid4.Coords, EltTy.bits .f32 = 32 ∨ (Rect.block (s := S128) S128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128.size a ≤ S128.size a
  hwx4_3 : ∀ i : grid4.Coords, EltTy.bits .f32 = 32 ∨ (Rect.block (s := S128) S128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128.size a ≤ S128.size a
  hwx4_4 : ∀ i : grid4.Coords, EltTy.bits .f32 = 32 ∨ (Rect.block (s := S128) S128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S4000x128.size a ≤ S100000x128.size a
  hwx4_5 : ∀ i : grid4.Coords, EltTy.bits .f32 = 32 ∨ (Rect.block (s := S100000x128) S4000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x128.size a ≤ S100000x128.size a
  hwx5_0 : ∀ i : grid5.Coords, EltTy.bits .f32 = 32 ∨ (Rect.block (s := S100000x128) S4000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4000x2.size a ≤ S100000x2.size a
  hwx5_1 : ∀ i : grid5.Coords, EltTy.bits .f32 = 32 ∨ (Rect.block (s := S100000x2) S4000x2.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4000x128.size a ≤ S100000x128.size a
  hwx5_2 : ∀ i : grid5.Coords, EltTy.bits .f32 = 32 ∨ (Rect.block (s := S100000x128) S4000x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S2x128.size a ≤ S2x128.size a
  hwx5_4 : ∀ i : grid5.Coords, EltTy.bits .f32 = 32 ∨ (Rect.block (s := S2x128) S2x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x128.size a ≤ S128x128.size a
  hwx5_5 : ∀ i : grid5.Coords, EltTy.bits .f32 = 32 ∨ (Rect.block (s := S128x128) S128x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S4000x1.size a ≤ S100000x1.size a
  hwx5_6 : ∀ i : grid5.Coords, EltTy.bits .f32 = 32 ∨ (Rect.block (s := S100000x1) S4000x1.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S4000x128.size a ≤ S100000x128.size a
  hwx5_7 : ∀ i : grid5.Coords, EltTy.bits .f32 = 32 ∨ (Rect.block (s := S100000x128) S4000x128.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x128.size a ≤ S100000x128.size a
  hwx6_0 : ∀ i : grid6.Coords, EltTy.bits .f32 = 32 ∨ (Rect.block (s := S100000x128) S4000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128.size a ≤ S128.size a
  hwx6_1 : ∀ i : grid6.Coords, EltTy.bits .f32 = 32 ∨ (Rect.block (s := S128) S128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128.size a ≤ S128.size a
  hwx6_2 : ∀ i : grid6.Coords, EltTy.bits .f32 = 32 ∨ (Rect.block (s := S128) S128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128.size a ≤ S128.size a
  hwx6_3 : ∀ i : grid6.Coords, EltTy.bits .f32 = 32 ∨ (Rect.block (s := S128) S128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128.size a ≤ S128.size a
  hwx6_4 : ∀ i : grid6.Coords, EltTy.bits .f32 = 32 ∨ (Rect.block (s := S128) S128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S4000x128.size a ≤ S100000x128.size a
  hwx6_5 : ∀ i : grid6.Coords, EltTy.bits .f32 = 32 ∨ (Rect.block (s := S100000x128) S4000x128.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S4000x128.size a ≤ S100000x128.size a
  hwx7_0 : ∀ i : grid7.Coords, EltTy.bits .f32 = 32 ∨ (Rect.block (s := S100000x128) S4000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S4000x128.size a ≤ S100000x128.size a
  hwx7_1 : ∀ i : grid7.Coords, EltTy.bits .f32 = 32 ∨ (Rect.block (s := S100000x128) S4000x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S4000x128.size a ≤ S100000x128.size a
  hwx7_2 : ∀ i : grid7.Coords, EltTy.bits .f32 = 32 ∨ (Rect.block (s := S100000x128) S4000x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x128.size a ≤ S128x128.size a
  hwx7_3 : ∀ i : grid7.Coords, EltTy.bits .f32 = 32 ∨ (Rect.block (s := S128x128) S128x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S128x128.size a ≤ S128x128.size a
  hwx7_4 : ∀ i : grid7.Coords, EltTy.bits .f32 = 32 ∨ (Rect.block (s := S128x128) S128x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S128x128.size a ≤ S128x128.size a
  hwx7_5 : ∀ i : grid7.Coords, EltTy.bits .f32 = 32 ∨ (Rect.block (s := S128x128) S128x128.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S128.size a ≤ S128.size a
  hwx7_6 : ∀ i : grid7.Coords, EltTy.bits .f32 = 32 ∨ (Rect.block (s := S128) S128.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S128x64.size a ≤ S128x64.size a
  hwx7_7 : ∀ i : grid7.Coords, EltTy.bits .f32 = 32 ∨ (Rect.block (s := S128x64) S128x64.size (cc7_transform_7 i) (hinb7_7 i)).WholeWords (EltTy.packing .f32)
  hstage7_8 : ∀ j, (stage7_8 j).IsWhole
  nbuf7_8 : grid7.bufCount reads7_8 true = 1
  hreads7_8 : ∀ i i' : grid7.Coords, (∀ a, reads7_8 a = true → i a = i' a) → cc7_transform_8 i = cc7_transform_8 i'
  hinb7_8 : ∀ (i : grid7.Coords) a, (cc7_transform_8 i a + 1) * S64.size a ≤ S64.size a
  hwx7_8 : ∀ i : grid7.Coords, EltTy.bits .f32 = 32 ∨ (Rect.block (s := S64) S64.size (cc7_transform_8 i) (hinb7_8 i)).WholeWords (EltTy.packing .f32)
  hstage7_9 : ∀ j, (stage7_9 j).IsWhole
  nbuf7_9 : grid7.bufCount reads7_9 true = 1
  hreads7_9 : ∀ i i' : grid7.Coords, (∀ a, reads7_9 a = true → i a = i' a) → cc7_transform_9 i = cc7_transform_9 i'
  hinb7_9 : ∀ (i : grid7.Coords) a, (cc7_transform_9 i a + 1) * S64x1.size a ≤ S64x1.size a
  hwx7_9 : ∀ i : grid7.Coords, EltTy.bits .f32 = 32 ∨ (Rect.block (s := S64x1) S64x1.size (cc7_transform_9 i) (hinb7_9 i)).WholeWords (EltTy.packing .f32)
  hstage7_10 : ∀ j, (stage7_10 j).IsWhole
  nbuf7_10 : grid7.bufCount reads7_10 true = 1
  hreads7_10 : ∀ i i' : grid7.Coords, (∀ a, reads7_10 a = true → i a = i' a) → cc7_transform_10 i = cc7_transform_10 i'
  hinb7_10 : ∀ (i : grid7.Coords) a, (cc7_transform_10 i a + 1) * S1.size a ≤ S1.size a
  hwx7_10 : ∀ i : grid7.Coords, EltTy.bits .f32 = 32 ∨ (Rect.block (s := S1) S1.size (cc7_transform_10 i) (hinb7_10 i)).WholeWords (EltTy.packing .f32)
  hstage7_11 : ∀ j, (stage7_11 j).IsWhole
  nbuf7_11 : grid7.bufCount reads7_11 false = 2
  hreads7_11 : ∀ i i' : grid7.Coords, (∀ a, reads7_11 a = true → i a = i' a) → cc7_transform_11 i = cc7_transform_11 i'
  hinb7_11 : ∀ (i : grid7.Coords) a, (cc7_transform_11 i a + 1) * S4000x1.size a ≤ S100000x1.size a
  hwx7_11 : ∀ i : grid7.Coords, EltTy.bits .f32 = 32 ∨ (Rect.block (s := S100000x1) S4000x1.size (cc7_transform_11 i) (hinb7_11 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def scatter_S100000x2_S1700000x1_S1700000x2_1_0_0_1 : ScatterDims S100000x2 S1700000x1 S1700000x2 where
  updateWindowDims := [1]
  insertedWindowDims := [0]
  scatterDimsToOperandDims := [0]
  indexVectorDim := 1
  wf := scatter_S100000x2_S1700000x1_S1700000x2_1_0_0_1_wf
def dot_S4000x4_S4x128_S4000x128_1_0_0_1_n_n : DotDims S4000x4 S4x128 S4000x128 where
  lhsContracting := [1]
  rhsContracting := [0]
  lhsNonContracting := [0]
  rhsNonContracting := [1]
  lhsBatch := []
  rhsBatch := []
  wf := dot_S4000x4_S4x128_S4000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x2_S2x128_S4000x128_1_0_0_1_n_n : DotDims S4000x2 S2x128 S4000x128 where
  lhsContracting := [1]
  rhsContracting := [0]
  lhsNonContracting := [0]
  rhsNonContracting := [1]
  lhsBatch := []
  rhsBatch := []
  wf := dot_S4000x2_S2x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def dot_S4000x64_S64x1_S4000x1_1_0_0_1_n_n : DotDims S4000x64 S64x1 S4000x1 where
  lhsContracting := [1]
  rhsContracting := [0]
  lhsNonContracting := [0]
  rhsNonContracting := [1]
  lhsBatch := []
  rhsBatch := []
  wf := dot_S4000x64_S64x1_S4000x1_1_0_0_1_n_n_wf

abbrev win0_0 : Pipeline.Window sig grid0 :=
  Pipeline.Window.ofSpec (Memref.whole main_arg0) S4000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S4x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S4000x2.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S4000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v30) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S2x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v15) S4000x1.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v32) S4000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v32) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v36) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v37) S4000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v47) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v18) S4000x2.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v37) S4000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v48) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v49) S2x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg10) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v15) S4000x1.size cc3_transform_6 reads3_6 false false 2 stage3_6 sem3_6
    hrank3 hreads3_6 hinb3_6 nbuf3_6 (Memref.isWhole_whole _) hwx3_6 hstage3_6

abbrev win3_7 : Pipeline.Window sig grid3 :=
  Pipeline.Window.ofSpec (Memref.whole main_v50) S4000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v50) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v53) S128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v54) S128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg11) S128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg12) S128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v55) S4000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v65) S4000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v18) S4000x2.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v55) S4000x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v66) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v67) S2x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg14) S128x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v15) S4000x1.size cc5_transform_6 reads5_6 false false 2 stage5_6 sem5_6
    hrank5 hreads5_6 hinb5_6 nbuf5_6 (Memref.isWhole_whole _) hwx5_6 hstage5_6

abbrev win5_7 : Pipeline.Window sig grid5 :=
  Pipeline.Window.ofSpec (Memref.whole main_v68) S4000x128.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v68) S4000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v71) S128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v72) S128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg15) S128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg16) S128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v73) S4000x128.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v37) S4000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v55) S4000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v73) S4000x128.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v74) S128x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v75) S128x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v76) S128x128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_arg18) S128.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_arg19) S128x64.size cc7_transform_7 reads7_7 false true 1 stage7_7 sem7_7
    hrank7 hreads7_7 hinb7_7 nbuf7_7 (Memref.isWhole_whole _) hwx7_7 hstage7_7

abbrev win7_8 : Pipeline.Window sig grid7 :=
  Pipeline.Window.ofSpec (Memref.whole main_arg20) S64.size cc7_transform_8 reads7_8 false true 1 stage7_8 sem7_8
    hrank7 hreads7_8 hinb7_8 nbuf7_8 (Memref.isWhole_whole _) hwx7_8 hstage7_8

abbrev win7_9 : Pipeline.Window sig grid7 :=
  Pipeline.Window.ofSpec (Memref.whole main_arg21) S64x1.size cc7_transform_9 reads7_9 false true 1 stage7_9 sem7_9
    hrank7 hreads7_9 hinb7_9 nbuf7_9 (Memref.isWhole_whole _) hwx7_9 hstage7_9

abbrev win7_10 : Pipeline.Window sig grid7 :=
  Pipeline.Window.ofSpec (Memref.whole main_arg22) S1.size cc7_transform_10 reads7_10 false true 1 stage7_10 sem7_10
    hrank7 hreads7_10 hinb7_10 nbuf7_10 (Memref.isWhole_whole _) hwx7_10 hstage7_10

abbrev win7_11 : Pipeline.Window sig grid7 :=
  Pipeline.Window.ofSpec (Memref.whole main_v77) S4000x1.size cc7_transform_11 reads7_11 true false 2 stage7_11 sem7_11
    hrank7 hreads7_11 hinb7_11 nbuf7_11 (Memref.isWhole_whole _) hwx7_11 hstage7_11

abbrev win7 : Fin 12 → Pipeline.Window sig grid7 := fun | 0 => win7_0 | 1 => win7_1 | 2 => win7_2 | 3 => win7_3 | 4 => win7_4 | 5 => win7_5 | 6 => win7_6 | 7 => win7_7 | 8 => win7_8 | 9 => win7_9 | 10 => win7_10 | 11 => win7_11 | ⟨_ + 12, h⟩ => absurd h (Nat.not_lt.2 (Nat.le_add_left _ _))
abbrev spec7 : Fin 12 → Pipeline.WinSpec sig grid7.rank := fun w => (win7 w).toWinSpec

class Facts : Prop extends Facts₀ where

variable [Facts]
-- ==== ReferenceIdeal.lean ====
abbrev S100000x4 : Shape := ⟨2, ![100000, 4]⟩
abbrev S2x1600000 : Shape := ⟨2, ![2, 1600000]⟩
abbrev S1600000x2 : Shape := ⟨2, ![1600000, 2]⟩
abbrev S4x128 : Shape := ⟨2, ![4, 128]⟩
abbrev S128 : Shape := ⟨1, ![128]⟩
abbrev S130x128 : Shape := ⟨2, ![130, 128]⟩
abbrev S128x128 : Shape := ⟨2, ![128, 128]⟩
abbrev S384x128 : Shape := ⟨2, ![384, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S100000x2 : Shape := ⟨2, ![100000, 2]⟩
abbrev S1700000x2 : Shape := ⟨2, ![1700000, 2]⟩
abbrev S100000x128 : Shape := ⟨2, ![100000, 128]⟩
abbrev S1x128 : Shape := ⟨2, ![1, 128]⟩
abbrev S1700000x1 : Shape := ⟨2, ![1700000, 1]⟩
abbrev S1700000x128 : Shape := ⟨2, ![1700000, 128]⟩
abbrev S1700000x130 : Shape := ⟨2, ![1700000, 130]⟩
abbrev S100000x1 : Shape := ⟨2, ![100000, 1]⟩
abbrev S100000x384 : Shape := ⟨2, ![100000, 384]⟩
abbrev S100000x64 : Shape := ⟨2, ![100000, 64]⟩
abbrev S1x64 : Shape := ⟨2, ![1, 64]⟩
abbrev S1x1 : Shape := ⟨2, ![1, 1]⟩

abbrev nBuf : Space → Nat
  | .hbm => 315
  | .vmem => 0
  | .smem => 0
  | _ => 0

abbrev hbmTy0_0 (i : Nat) : BufTy := match i % 128 with
  | 0 => ⟨S100000x4, .f32⟩
  | 1 => ⟨S2x1600000, .i32⟩
  | 2 => ⟨S1600000x2, .f32⟩
  | 3 => ⟨S4x128, .f32⟩
  | 4 => ⟨S128, .f32⟩
  | 5 => ⟨S130x128, .f32⟩
  | 6 => ⟨S128x128, .f32⟩
  | 7 => ⟨S128, .f32⟩
  | 8 => ⟨S128, .f32⟩
  | 9 => ⟨S130x128, .f32⟩
  | 10 => ⟨S128x128, .f32⟩
  | 11 => ⟨S128, .f32⟩
  | 12 => ⟨S128, .f32⟩
  | 13 => ⟨S130x128, .f32⟩
  | 14 => ⟨S128x128, .f32⟩
  | 15 => ⟨S128, .f32⟩
  | 16 => ⟨S128, .f32⟩
  | 17 => ⟨S384x128, .f32⟩
  | 18 => ⟨S128, .f32⟩
  | 19 => ⟨S128x64, .f32⟩
  | 20 => ⟨S64, .f32⟩
  | 21 => ⟨S64x1, .f32⟩
  | 22 => ⟨S1, .f32⟩
  | 23 => ⟨S100000, .i32⟩
  | 24 => ⟨S1x1600000, .i32⟩
  | 25 => ⟨S1600000, .i32⟩
  | 26 => ⟨S1700000, .i32⟩
  | 27 => ⟨S1x1600000, .i32⟩
  | 28 => ⟨S1600000, .i32⟩
  | 29 => ⟨S1700000, .i32⟩
  | 30 => ⟨S_, .f32⟩
  | 31 => ⟨S100000x2, .f32⟩
  | 32 => ⟨S1700000x2, .f32⟩
  | 33 => ⟨S100000x128, .f32⟩
  | 34 => ⟨S1x128, .f32⟩
  | 35 => ⟨S100000x128, .f32⟩
  | 36 => ⟨S100000x128, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000x128, .f32⟩
  | 46 => ⟨S1700000x130, .f32⟩
  | 47 => ⟨S1700000x128, .f32⟩
  | 48 => ⟨S_, .f32⟩
  | 49 => ⟨S100000x128, .f32⟩
  | 50 => ⟨S1700000x1, .i32⟩
  | 51 => ⟨S100000x128, .f32⟩
  | 52 => ⟨S_, .f32⟩
  | 53 => ⟨S1700000, .f32⟩
  | 54 => ⟨S_, .f32⟩
  | 55 => ⟨S100000, .f32⟩
  | 56 => ⟨S1700000x1, .i32⟩
  | 57 => ⟨S100000, .f32⟩
  | 58 => ⟨S_, .f32⟩
  | 59 => ⟨S100000, .f32⟩
  | 60 => ⟨S100000, .f32⟩
  | 61 => ⟨S100000x1, .f32⟩
  | 62 => ⟨S100000x128, .f32⟩
  | 63 => ⟨S100000x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S_, .f32⟩
  | 70 => ⟨S128, .f32⟩
  | 71 => ⟨S_, .f32⟩
  | 72 => ⟨S128, .f32⟩
  | 73 => ⟨S128, .f32⟩
  | 74 => ⟨S_, .i32⟩
  | 75 => ⟨S_, .f32⟩
  | 76 => ⟨S128, .f32⟩
  | 77 => ⟨S1x128, .f32⟩
  | 78 => ⟨S_, .f32⟩
  | 79 => ⟨S1x128, .f32⟩
  | 80 => ⟨S1x128, .f32⟩
  | 81 => ⟨S100000x128, .f32⟩
  | 82 => ⟨S100000x128, .f32⟩
  | 83 => ⟨S100000x128, .f32⟩
  | 84 => ⟨S_, .f32⟩
  | 85 => ⟨S_, .f32⟩
  | 86 => ⟨S_, .f32⟩
  | 87 => ⟨S_, .f32⟩
  | 88 => ⟨S128, .f32⟩
  | 89 => ⟨S128, .f32⟩
  | 90 => ⟨S128, .f32⟩
  | 91 => ⟨S_, .f32⟩
  | 92 => ⟨S_, .i1⟩
  | 93 => ⟨S_, .f32⟩
  | 94 => ⟨S_, .f32⟩
  | 95 => ⟨S128, .f32⟩
  | 96 => ⟨S128, .f32⟩
  | 97 => ⟨S1x128, .f32⟩
  | 98 => ⟨S100000x128, .f32⟩
  | 99 => ⟨S100000x128, .f32⟩
  | 100 => ⟨S_, .f32⟩
  | 101 => ⟨S128, .f32⟩
  | 102 => ⟨S128, .f32⟩
  | 103 => ⟨S128, .f32⟩
  | 104 => ⟨S1x128, .f32⟩
  | 105 => ⟨S100000x128, .f32⟩
  | 106 => ⟨S100000x128, .f32⟩
  | 107 => ⟨S1x128, .f32⟩
  | 108 => ⟨S100000x128, .f32⟩
  | 109 => ⟨S100000x128, .f32⟩
  | 110 => ⟨S1x128, .f32⟩
  | 111 => ⟨S100000x128, .f32⟩
  | 112 => ⟨S100000x128, .f32⟩
  | 113 => ⟨S100000x128, .f32⟩
  | 114 => ⟨S_, .f32⟩
  | 115 => ⟨S100000, .f32⟩
  | 116 => ⟨S100000x1, .f32⟩
  | 117 => ⟨S100000x1, .f32⟩
  | 118 => ⟨S_, .f32⟩
  | 119 => ⟨S100000x1, .f32⟩
  | 120 => ⟨S100000x1, .f32⟩
  | 121 => ⟨S100000x128, .f32⟩
  | 122 => ⟨S100000x128, .f32⟩
  | 123 => ⟨S_, .i32⟩
  | 124 => ⟨S1700000, .i32⟩
  | 125 => ⟨S1700000, .i1⟩
  | 126 => ⟨S_, .i32⟩
  | 127 => ⟨S1700000, .i32⟩
  | _ => ⟨S100000x4, .f32⟩

abbrev hbmTy0_1 (i : Nat) : BufTy := match i % 128 with
  | 0 => ⟨S1700000, .i32⟩
  | 1 => ⟨S1700000, .i32⟩
  | 2 => ⟨S1700000x1, .i32⟩
  | 3 => ⟨S1700000x128, .f32⟩
  | 4 => ⟨S1700000x130, .f32⟩
  | 5 => ⟨S1700000x128, .f32⟩
  | 6 => ⟨S_, .f32⟩
  | 7 => ⟨S100000x128, .f32⟩
  | 8 => ⟨S1700000x1, .i32⟩
  | 9 => ⟨S100000x128, .f32⟩
  | 10 => ⟨S_, .f32⟩
  | 11 => ⟨S1700000, .f32⟩
  | 12 => ⟨S_, .f32⟩
  | 13 => ⟨S100000, .f32⟩
  | 14 => ⟨S1700000x1, .i32⟩
  | 15 => ⟨S100000, .f32⟩
  | 16 => ⟨S_, .f32⟩
  | 17 => ⟨S100000, .f32⟩
  | 18 => ⟨S100000, .f32⟩
  | 19 => ⟨S100000x1, .f32⟩
  | 20 => ⟨S100000x128, .f32⟩
  | 21 => ⟨S100000x128, .f32⟩
  | 22 => ⟨S100000x128, .f32⟩
  | 23 => ⟨S100000x128, .f32⟩
  | 24 => ⟨S_, .f32⟩
  | 25 => ⟨S100000x128, .f32⟩
  | 26 => ⟨S100000x128, .f32⟩
  | 27 => ⟨S_, .f32⟩
  | 28 => ⟨S128, .f32⟩
  | 29 => ⟨S_, .f32⟩
  | 30 => ⟨S128, .f32⟩
  | 31 => ⟨S128, .f32⟩
  | 32 => ⟨S_, .i32⟩
  | 33 => ⟨S_, .f32⟩
  | 34 => ⟨S128, .f32⟩
  | 35 => ⟨S1x128, .f32⟩
  | 36 => ⟨S_, .f32⟩
  | 37 => ⟨S1x128, .f32⟩
  | 38 => ⟨S1x128, .f32⟩
  | 39 => ⟨S100000x128, .f32⟩
  | 40 => ⟨S100000x128, .f32⟩
  | 41 => ⟨S100000x128, .f32⟩
  | 42 => ⟨S_, .f32⟩
  | 43 => ⟨S_, .f32⟩
  | 44 => ⟨S_, .f32⟩
  | 45 => ⟨S_, .f32⟩
  | 46 => ⟨S128, .f32⟩
  | 47 => ⟨S128, .f32⟩
  | 48 => ⟨S128, .f32⟩
  | 49 => ⟨S_, .f32⟩
  | 50 => ⟨S_, .i1⟩
  | 51 => ⟨S_, .f32⟩
  | 52 => ⟨S_, .f32⟩
  | 53 => ⟨S128, .f32⟩
  | 54 => ⟨S128, .f32⟩
  | 55 => ⟨S1x128, .f32⟩
  | 56 => ⟨S100000x128, .f32⟩
  | 57 => ⟨S100000x128, .f32⟩
  | 58 => ⟨S_, .f32⟩
  | 59 => ⟨S128, .f32⟩
  | 60 => ⟨S128, .f32⟩
  | 61 => ⟨S128, .f32⟩
  | 62 => ⟨S1x128, .f32⟩
  | 63 => ⟨S100000x128, .f32⟩
  | 64 => ⟨S100000x128, .f32⟩
  | 65 => ⟨S1x128, .f32⟩
  | 66 => ⟨S100000x128, .f32⟩
  | 67 => ⟨S100000x128, .f32⟩
  | 68 => ⟨S1x128, .f32⟩
  | 69 => ⟨S100000x128, .f32⟩
  | 70 => ⟨S100000x128, .f32⟩
  | 71 => ⟨S100000x128, .f32⟩
  | 72 => ⟨S_, .f32⟩
  | 73 => ⟨S100000, .f32⟩
  | 74 => ⟨S100000x1, .f32⟩
  | 75 => ⟨S100000x1, .f32⟩
  | 76 => ⟨S_, .f32⟩
  | 77 => ⟨S100000x1, .f32⟩
  | 78 => ⟨S100000x1, .f32⟩
  | 79 => ⟨S100000x128, .f32⟩
  | 80 => ⟨S100000x128, .f32⟩
  | 81 => ⟨S_, .i32⟩
  | 82 => ⟨S1700000, .i32⟩
  | 83 => ⟨S1700000, .i1⟩
  | 84 => ⟨S_, .i32⟩
  | 85 => ⟨S1700000, .i32⟩
  | 86 => ⟨S1700000, .i32⟩
  | 87 => ⟨S1700000, .i32⟩
  | 88 => ⟨S1700000x1, .i32⟩
  | 89 => ⟨S1700000x128, .f32⟩
  | 90 => ⟨S1700000x130, .f32⟩
  | 91 => ⟨S1700000x128, .f32⟩
  | 92 => ⟨S_, .f32⟩
  | 93 => ⟨S100000x128, .f32⟩
  | 94 => ⟨S1700000x1, .i32⟩
  | 95 => ⟨S100000x128, .f32⟩
  | 96 => ⟨S_, .f32⟩
  | 97 => ⟨S1700000, .f32⟩
  | 98 => ⟨S_, .f32⟩
  | 99 => ⟨S100000, .f32⟩
  | 100 => ⟨S1700000x1, .i32⟩
  | 101 => ⟨S100000, .f32⟩
  | 102 => ⟨S_, .f32⟩
  | 103 => ⟨S100000, .f32⟩
  | 104 => ⟨S100000, .f32⟩
  | 105 => ⟨S100000x1, .f32⟩
  | 106 => ⟨S100000x128, .f32⟩
  | 107 => ⟨S100000x128, .f32⟩
  | 108 => ⟨S100000x128, .f32⟩
  | 109 => ⟨S100000x128, .f32⟩
  | 110 => ⟨S_, .f32⟩
  | 111 => ⟨S100000x128, .f32⟩
  | 112 => ⟨S100000x128, .f32⟩
  | 113 => ⟨S_, .f32⟩
  | 114 => ⟨S128, .f32⟩
  | 115 => ⟨S_, .f32⟩
  | 116 => ⟨S128, .f32⟩
  | 117 => ⟨S128, .f32⟩
  | 118 => ⟨S_, .i32⟩
  | 119 => ⟨S_, .f32⟩
  | 120 => ⟨S128, .f32⟩
  | 121 => ⟨S1x128, .f32⟩
  | 122 => ⟨S_, .f32⟩
  | 123 => ⟨S1x128, .f32⟩
  | 124 => ⟨S1x128, .f32⟩
  | 125 => ⟨S100000x128, .f32⟩
  | 126 => ⟨S100000x128, .f32⟩
  | 127 => ⟨S100000x128, .f32⟩
  | _ => ⟨S100000x4, .f32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S128, .f32⟩
  | 5 => ⟨S128, .f32⟩
  | 6 => ⟨S128, .f32⟩
  | 7 => ⟨S_, .f32⟩
  | 8 => ⟨S_, .i1⟩
  | 9 => ⟨S_, .f32⟩
  | 10 => ⟨S_, .f32⟩
  | 11 => ⟨S128, .f32⟩
  | 12 => ⟨S128, .f32⟩
  | 13 => ⟨S1x128, .f32⟩
  | 14 => ⟨S100000x128, .f32⟩
  | 15 => ⟨S100000x128, .f32⟩
  | 16 => ⟨S_, .f32⟩
  | 17 => ⟨S128, .f32⟩
  | 18 => ⟨S128, .f32⟩
  | 19 => ⟨S128, .f32⟩
  | 20 => ⟨S1x128, .f32⟩
  | 21 => ⟨S100000x128, .f32⟩
  | 22 => ⟨S100000x128, .f32⟩
  | 23 => ⟨S1x128, .f32⟩
  | 24 => ⟨S100000x128, .f32⟩
  | 25 => ⟨S100000x128, .f32⟩
  | 26 => ⟨S1x128, .f32⟩
  | 27 => ⟨S100000x128, .f32⟩
  | 28 => ⟨S100000x128, .f32⟩
  | 29 => ⟨S100000x128, .f32⟩
  | 30 => ⟨S_, .f32⟩
  | 31 => ⟨S100000, .f32⟩
  | 32 => ⟨S100000x1, .f32⟩
  | 33 => ⟨S100000x1, .f32⟩
  | 34 => ⟨S_, .f32⟩
  | 35 => ⟨S100000x1, .f32⟩
  | 36 => ⟨S100000x1, .f32⟩
  | 37 => ⟨S100000x128, .f32⟩
  | 38 => ⟨S100000x128, .f32⟩
  | 39 => ⟨S100000x384, .f32⟩
  | 40 => ⟨S100000x128, .f32⟩
  | 41 => ⟨S1x128, .f32⟩
  | 42 => ⟨S100000x128, .f32⟩
  | 43 => ⟨S100000x128, .f32⟩
  | 44 => ⟨S_, .f32⟩
  | 45 => ⟨S100000x128, .f32⟩
  | 46 => ⟨S100000x128, .f32⟩
  | 47 => ⟨S100000x64, .f32⟩
  | 48 => ⟨S1x64, .f32⟩
  | 49 => ⟨S100000x64, .f32⟩
  | 50 => ⟨S100000x64, .f32⟩
  | 51 => ⟨S_, .f32⟩
  | 52 => ⟨S100000x64, .f32⟩
  | 53 => ⟨S100000x64, .f32⟩
  | 54 => ⟨S100000x1, .f32⟩
  | 55 => ⟨S1x1, .f32⟩
  | 56 => ⟨S100000x1, .f32⟩
  | 57 => ⟨S100000x1, .f32⟩
  | 58 => ⟨S100000, .f32⟩
  | _ => ⟨S100000x4, .f32⟩

abbrev hbmTy (i : Nat) : BufTy := match i / 128 with
  | 0 => hbmTy0_0 i
  | 1 => hbmTy0_1 i
  | 2 => hbmTy0_2 i
  | _ => ⟨S100000x4, .f32⟩

abbrev bufTy : (tb : Table) → Fin (tcTables nBuf tb) → BufTy
  | .hbm, ⟨i, _⟩ => hbmTy i
  | _, _ => ⟨S100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_cst : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_c : Ref sig .tc := ⟨.hbm, 37, rfl⟩
abbrev main_v13 : Ref sig .tc := ⟨.hbm, 38, rfl⟩
abbrev main_v14 : Ref sig .tc := ⟨.hbm, 39, rfl⟩
abbrev main_c_0 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_cst_1 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_cst_2 : Ref sig .tc := ⟨.hbm, 52, rfl⟩
abbrev main_v25 : Ref sig .tc := ⟨.hbm, 53, rfl⟩
abbrev main_cst_3 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_cst_4 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_call0_cst : Ref sig .tc := ⟨.hbm, 66, rfl⟩
abbrev main_call0_v0 : Ref sig .tc := ⟨.hbm, 67, rfl⟩
abbrev main_v36 : Ref sig .tc := ⟨.hbm, 68, rfl⟩
abbrev main_cst_5 : Ref sig .tc := ⟨.hbm, 69, rfl⟩
abbrev main_v37 : Ref sig .tc := ⟨.hbm, 70, rfl⟩
abbrev main_cst_6 : Ref sig .tc := ⟨.hbm, 71, rfl⟩
abbrev main_v38 : Ref sig .tc := ⟨.hbm, 72, rfl⟩
abbrev main_v39 : Ref sig .tc := ⟨.hbm, 73, rfl⟩
abbrev main_c_7 : Ref sig .tc := ⟨.hbm, 74, rfl⟩
abbrev main_call1_cst : Ref sig .tc := ⟨.hbm, 75, rfl⟩
abbrev main_call1_v0 : Ref sig .tc := ⟨.hbm, 76, rfl⟩
abbrev main_call1_v1 : Ref sig .tc := ⟨.hbm, 77, rfl⟩
abbrev main_call1_cst_0 : Ref sig .tc := ⟨.hbm, 78, rfl⟩
abbrev main_call1_v2 : Ref sig .tc := ⟨.hbm, 79, rfl⟩
abbrev main_call1_v3 : Ref sig .tc := ⟨.hbm, 80, rfl⟩
abbrev main_call1_v4 : Ref sig .tc := ⟨.hbm, 81, rfl⟩
abbrev main_call1_v5 : Ref sig .tc := ⟨.hbm, 82, rfl⟩
abbrev main_call1_v6 : Ref sig .tc := ⟨.hbm, 83, rfl⟩
abbrev main_call1_v7 : Ref sig .tc := ⟨.hbm, 84, rfl⟩
abbrev main_call1_cst_1 : Ref sig .tc := ⟨.hbm, 85, rfl⟩
abbrev main_call1_v8 : Ref sig .tc := ⟨.hbm, 86, rfl⟩
abbrev main_call1_cst_2 : Ref sig .tc := ⟨.hbm, 87, rfl⟩
abbrev main_call1_v9 : Ref sig .tc := ⟨.hbm, 88, rfl⟩
abbrev main_call1_v10 : Ref sig .tc := ⟨.hbm, 89, rfl⟩
abbrev main_call1_v11 : Ref sig .tc := ⟨.hbm, 90, rfl⟩
abbrev main_call1_cst_3 : Ref sig .tc := ⟨.hbm, 91, rfl⟩
abbrev main_call1_v12 : Ref sig .tc := ⟨.hbm, 92, rfl⟩
abbrev main_call1_cst_4 : Ref sig .tc := ⟨.hbm, 93, rfl⟩
abbrev main_call1_call0_v0 : Ref sig .tc := ⟨.hbm, 94, rfl⟩
abbrev main_call1_call0_v1 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_cst_8 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_call2_v0 : Ref sig .tc := ⟨.hbm, 113, rfl⟩
abbrev main_call2_cst : Ref sig .tc := ⟨.hbm, 114, rfl⟩
abbrev main_call2_v1 : Ref sig .tc := ⟨.hbm, 115, rfl⟩
abbrev main_call2_v2 : Ref sig .tc := ⟨.hbm, 116, rfl⟩
abbrev main_v56 : Ref sig .tc := ⟨.hbm, 117, rfl⟩
abbrev main_cst_9 : Ref sig .tc := ⟨.hbm, 118, rfl⟩
abbrev main_v57 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_c_10 : Ref sig .tc := ⟨.hbm, 123, rfl⟩
abbrev main_v61 : Ref sig .tc := ⟨.hbm, 124, rfl⟩
abbrev main_v62 : Ref sig .tc := ⟨.hbm, 125, rfl⟩
abbrev main_c_11 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_v66 : Ref sig .tc := ⟨.hbm, 130, rfl⟩
abbrev main_v67 : Ref sig .tc := ⟨.hbm, 131, rfl⟩
abbrev main_v68 : Ref sig .tc := ⟨.hbm, 132, rfl⟩
abbrev main_v69 : Ref sig .tc := ⟨.hbm, 133, rfl⟩
abbrev main_cst_12 : Ref sig .tc := ⟨.hbm, 134, rfl⟩
abbrev main_v70 : Ref sig .tc := ⟨.hbm, 135, rfl⟩
abbrev main_v71 : Ref sig .tc := ⟨.hbm, 136, rfl⟩
abbrev main_v72 : Ref sig .tc := ⟨.hbm, 137, rfl⟩
abbrev main_cst_13 : Ref sig .tc := ⟨.hbm, 138, rfl⟩
abbrev main_v73 : Ref sig .tc := ⟨.hbm, 139, rfl⟩
abbrev main_cst_14 : Ref sig .tc := ⟨.hbm, 140, rfl⟩
abbrev main_v74 : Ref sig .tc := ⟨.hbm, 141, rfl⟩
abbrev main_v75 : Ref sig .tc := ⟨.hbm, 142, rfl⟩
abbrev main_v76 : Ref sig .tc := ⟨.hbm, 143, rfl⟩
abbrev main_cst_15 : Ref sig .tc := ⟨.hbm, 144, rfl⟩
abbrev main_v77 : Ref sig .tc := ⟨.hbm, 145, rfl⟩
abbrev main_v78 : Ref sig .tc := ⟨.hbm, 146, rfl⟩
abbrev main_v79 : Ref sig .tc := ⟨.hbm, 147, rfl⟩
abbrev main_v80 : Ref sig .tc := ⟨.hbm, 148, rfl⟩
abbrev main_v81 : Ref sig .tc := ⟨.hbm, 149, rfl⟩
abbrev main_v82 : Ref sig .tc := ⟨.hbm, 150, rfl⟩
abbrev main_v83 : Ref sig .tc := ⟨.hbm, 151, rfl⟩
abbrev main_call3_cst : Ref sig .tc := ⟨.hbm, 152, rfl⟩
abbrev main_call3_v0 : Ref sig .tc := ⟨.hbm, 153, rfl⟩
abbrev main_v84 : Ref sig .tc := ⟨.hbm, 154, rfl⟩
abbrev main_cst_16 : Ref sig .tc := ⟨.hbm, 155, rfl⟩
abbrev main_v85 : Ref sig .tc := ⟨.hbm, 156, rfl⟩
abbrev main_cst_17 : Ref sig .tc := ⟨.hbm, 157, rfl⟩
abbrev main_v86 : Ref sig .tc := ⟨.hbm, 158, rfl⟩
abbrev main_v87 : Ref sig .tc := ⟨.hbm, 159, rfl⟩
abbrev main_c_18 : Ref sig .tc := ⟨.hbm, 160, rfl⟩
abbrev main_call4_cst : Ref sig .tc := ⟨.hbm, 161, rfl⟩
abbrev main_call4_v0 : Ref sig .tc := ⟨.hbm, 162, rfl⟩
abbrev main_call4_v1 : Ref sig .tc := ⟨.hbm, 163, rfl⟩
abbrev main_call4_cst_0 : Ref sig .tc := ⟨.hbm, 164, rfl⟩
abbrev main_call4_v2 : Ref sig .tc := ⟨.hbm, 165, rfl⟩
abbrev main_call4_v3 : Ref sig .tc := ⟨.hbm, 166, rfl⟩
abbrev main_call4_v4 : Ref sig .tc := ⟨.hbm, 167, rfl⟩
abbrev main_call4_v5 : Ref sig .tc := ⟨.hbm, 168, rfl⟩
abbrev main_call4_v6 : Ref sig .tc := ⟨.hbm, 169, rfl⟩
abbrev main_call4_v7 : Ref sig .tc := ⟨.hbm, 170, rfl⟩
abbrev main_call4_cst_1 : Ref sig .tc := ⟨.hbm, 171, rfl⟩
abbrev main_call4_v8 : Ref sig .tc := ⟨.hbm, 172, rfl⟩
abbrev main_call4_cst_2 : Ref sig .tc := ⟨.hbm, 173, rfl⟩
abbrev main_call4_v9 : Ref sig .tc := ⟨.hbm, 174, rfl⟩
abbrev main_call4_v10 : Ref sig .tc := ⟨.hbm, 175, rfl⟩
abbrev main_call4_v11 : Ref sig .tc := ⟨.hbm, 176, rfl⟩
abbrev main_call4_cst_3 : Ref sig .tc := ⟨.hbm, 177, rfl⟩
abbrev main_call4_v12 : Ref sig .tc := ⟨.hbm, 178, rfl⟩
abbrev main_call4_cst_4 : Ref sig .tc := ⟨.hbm, 179, rfl⟩
abbrev main_call4_call0_v0 : Ref sig .tc := ⟨.hbm, 180, rfl⟩
abbrev main_call4_call0_v1 : Ref sig .tc := ⟨.hbm, 181, rfl⟩
abbrev main_v88 : Ref sig .tc := ⟨.hbm, 182, rfl⟩
abbrev main_v89 : Ref sig .tc := ⟨.hbm, 183, rfl⟩
abbrev main_v90 : Ref sig .tc := ⟨.hbm, 184, rfl⟩
abbrev main_v91 : Ref sig .tc := ⟨.hbm, 185, rfl⟩
abbrev main_cst_19 : Ref sig .tc := ⟨.hbm, 186, rfl⟩
abbrev main_v92 : Ref sig .tc := ⟨.hbm, 187, rfl⟩
abbrev main_v93 : Ref sig .tc := ⟨.hbm, 188, rfl⟩
abbrev main_v94 : Ref sig .tc := ⟨.hbm, 189, rfl⟩
abbrev main_v95 : Ref sig .tc := ⟨.hbm, 190, rfl⟩
abbrev main_v96 : Ref sig .tc := ⟨.hbm, 191, rfl⟩
abbrev main_v97 : Ref sig .tc := ⟨.hbm, 192, rfl⟩
abbrev main_v98 : Ref sig .tc := ⟨.hbm, 193, rfl⟩
abbrev main_v99 : Ref sig .tc := ⟨.hbm, 194, rfl⟩
abbrev main_v100 : Ref sig .tc := ⟨.hbm, 195, rfl⟩
abbrev main_v101 : Ref sig .tc := ⟨.hbm, 196, rfl⟩
abbrev main_v102 : Ref sig .tc := ⟨.hbm, 197, rfl⟩
abbrev main_v103 : Ref sig .tc := ⟨.hbm, 198, rfl⟩
abbrev main_call5_v0 : Ref sig .tc := ⟨.hbm, 199, rfl⟩
abbrev main_call5_cst : Ref sig .tc := ⟨.hbm, 200, rfl⟩
abbrev main_call5_v1 : Ref sig .tc := ⟨.hbm, 201, rfl⟩
abbrev main_call5_v2 : Ref sig .tc := ⟨.hbm, 202, rfl⟩
abbrev main_v104 : Ref sig .tc := ⟨.hbm, 203, rfl⟩
abbrev main_cst_20 : Ref sig .tc := ⟨.hbm, 204, rfl⟩
abbrev main_v105 : Ref sig .tc := ⟨.hbm, 205, rfl⟩
abbrev main_v106 : Ref sig .tc := ⟨.hbm, 206, rfl⟩
abbrev main_v107 : Ref sig .tc := ⟨.hbm, 207, rfl⟩
abbrev main_v108 : Ref sig .tc := ⟨.hbm, 208, rfl⟩
abbrev main_c_21 : Ref sig .tc := ⟨.hbm, 209, rfl⟩
abbrev main_v109 : Ref sig .tc := ⟨.hbm, 210, rfl⟩
abbrev main_v110 : Ref sig .tc := ⟨.hbm, 211, rfl⟩
abbrev main_c_22 : Ref sig .tc := ⟨.hbm, 212, rfl⟩
abbrev main_v111 : Ref sig .tc := ⟨.hbm, 213, rfl⟩
abbrev main_v112 : Ref sig .tc := ⟨.hbm, 214, rfl⟩
abbrev main_v113 : Ref sig .tc := ⟨.hbm, 215, rfl⟩
abbrev main_v114 : Ref sig .tc := ⟨.hbm, 216, rfl⟩
abbrev main_v115 : Ref sig .tc := ⟨.hbm, 217, rfl⟩
abbrev main_v116 : Ref sig .tc := ⟨.hbm, 218, rfl⟩
abbrev main_v117 : Ref sig .tc := ⟨.hbm, 219, rfl⟩
abbrev main_cst_23 : Ref sig .tc := ⟨.hbm, 220, rfl⟩
abbrev main_v118 : Ref sig .tc := ⟨.hbm, 221, rfl⟩
abbrev main_v119 : Ref sig .tc := ⟨.hbm, 222, rfl⟩
abbrev main_v120 : Ref sig .tc := ⟨.hbm, 223, rfl⟩
abbrev main_cst_24 : Ref sig .tc := ⟨.hbm, 224, rfl⟩
abbrev main_v121 : Ref sig .tc := ⟨.hbm, 225, rfl⟩
abbrev main_cst_25 : Ref sig .tc := ⟨.hbm, 226, rfl⟩
abbrev main_v122 : Ref sig .tc := ⟨.hbm, 227, rfl⟩
abbrev main_v123 : Ref sig .tc := ⟨.hbm, 228, rfl⟩
abbrev main_v124 : Ref sig .tc := ⟨.hbm, 229, rfl⟩
abbrev main_cst_26 : Ref sig .tc := ⟨.hbm, 230, rfl⟩
abbrev main_v125 : Ref sig .tc := ⟨.hbm, 231, rfl⟩
abbrev main_v126 : Ref sig .tc := ⟨.hbm, 232, rfl⟩
abbrev main_v127 : Ref sig .tc := ⟨.hbm, 233, rfl⟩
abbrev main_v128 : Ref sig .tc := ⟨.hbm, 234, rfl⟩
abbrev main_v129 : Ref sig .tc := ⟨.hbm, 235, rfl⟩
abbrev main_v130 : Ref sig .tc := ⟨.hbm, 236, rfl⟩
abbrev main_v131 : Ref sig .tc := ⟨.hbm, 237, rfl⟩
abbrev main_call6_cst : Ref sig .tc := ⟨.hbm, 238, rfl⟩
abbrev main_call6_v0 : Ref sig .tc := ⟨.hbm, 239, rfl⟩
abbrev main_v132 : Ref sig .tc := ⟨.hbm, 240, rfl⟩
abbrev main_cst_27 : Ref sig .tc := ⟨.hbm, 241, rfl⟩
abbrev main_v133 : Ref sig .tc := ⟨.hbm, 242, rfl⟩
abbrev main_cst_28 : Ref sig .tc := ⟨.hbm, 243, rfl⟩
abbrev main_v134 : Ref sig .tc := ⟨.hbm, 244, rfl⟩
abbrev main_v135 : Ref sig .tc := ⟨.hbm, 245, rfl⟩
abbrev main_c_29 : Ref sig .tc := ⟨.hbm, 246, rfl⟩
abbrev main_call7_cst : Ref sig .tc := ⟨.hbm, 247, rfl⟩
abbrev main_call7_v0 : Ref sig .tc := ⟨.hbm, 248, rfl⟩
abbrev main_call7_v1 : Ref sig .tc := ⟨.hbm, 249, rfl⟩
abbrev main_call7_cst_0 : Ref sig .tc := ⟨.hbm, 250, rfl⟩
abbrev main_call7_v2 : Ref sig .tc := ⟨.hbm, 251, rfl⟩
abbrev main_call7_v3 : Ref sig .tc := ⟨.hbm, 252, rfl⟩
abbrev main_call7_v4 : Ref sig .tc := ⟨.hbm, 253, rfl⟩
abbrev main_call7_v5 : Ref sig .tc := ⟨.hbm, 254, rfl⟩
abbrev main_call7_v6 : Ref sig .tc := ⟨.hbm, 255, rfl⟩
abbrev main_call7_v7 : Ref sig .tc := ⟨.hbm, 256, rfl⟩
abbrev main_call7_cst_1 : Ref sig .tc := ⟨.hbm, 257, rfl⟩
abbrev main_call7_v8 : Ref sig .tc := ⟨.hbm, 258, rfl⟩
abbrev main_call7_cst_2 : Ref sig .tc := ⟨.hbm, 259, rfl⟩
abbrev main_call7_v9 : Ref sig .tc := ⟨.hbm, 260, rfl⟩
abbrev main_call7_v10 : Ref sig .tc := ⟨.hbm, 261, rfl⟩
abbrev main_call7_v11 : Ref sig .tc := ⟨.hbm, 262, rfl⟩
abbrev main_call7_cst_3 : Ref sig .tc := ⟨.hbm, 263, rfl⟩
abbrev main_call7_v12 : Ref sig .tc := ⟨.hbm, 264, rfl⟩
abbrev main_call7_cst_4 : Ref sig .tc := ⟨.hbm, 265, rfl⟩
abbrev main_call7_call0_v0 : Ref sig .tc := ⟨.hbm, 266, rfl⟩
abbrev main_call7_call0_v1 : Ref sig .tc := ⟨.hbm, 267, rfl⟩
abbrev main_v136 : Ref sig .tc := ⟨.hbm, 268, rfl⟩
abbrev main_v137 : Ref sig .tc := ⟨.hbm, 269, rfl⟩
abbrev main_v138 : Ref sig .tc := ⟨.hbm, 270, rfl⟩
abbrev main_v139 : Ref sig .tc := ⟨.hbm, 271, rfl⟩
abbrev main_cst_30 : Ref sig .tc := ⟨.hbm, 272, rfl⟩
abbrev main_v140 : Ref sig .tc := ⟨.hbm, 273, rfl⟩
abbrev main_v141 : Ref sig .tc := ⟨.hbm, 274, rfl⟩
abbrev main_v142 : Ref sig .tc := ⟨.hbm, 275, rfl⟩
abbrev main_v143 : Ref sig .tc := ⟨.hbm, 276, rfl⟩
abbrev main_v144 : Ref sig .tc := ⟨.hbm, 277, rfl⟩
abbrev main_v145 : Ref sig .tc := ⟨.hbm, 278, rfl⟩
abbrev main_v146 : Ref sig .tc := ⟨.hbm, 279, rfl⟩
abbrev main_v147 : Ref sig .tc := ⟨.hbm, 280, rfl⟩
abbrev main_v148 : Ref sig .tc := ⟨.hbm, 281, rfl⟩
abbrev main_v149 : Ref sig .tc := ⟨.hbm, 282, rfl⟩
abbrev main_v150 : Ref sig .tc := ⟨.hbm, 283, rfl⟩
abbrev main_v151 : Ref sig .tc := ⟨.hbm, 284, rfl⟩
abbrev main_call8_v0 : Ref sig .tc := ⟨.hbm, 285, rfl⟩
abbrev main_call8_cst : Ref sig .tc := ⟨.hbm, 286, rfl⟩
abbrev main_call8_v1 : Ref sig .tc := ⟨.hbm, 287, rfl⟩
abbrev main_call8_v2 : Ref sig .tc := ⟨.hbm, 288, rfl⟩
abbrev main_v152 : Ref sig .tc := ⟨.hbm, 289, rfl⟩
abbrev main_cst_31 : Ref sig .tc := ⟨.hbm, 290, rfl⟩
abbrev main_v153 : Ref sig .tc := ⟨.hbm, 291, rfl⟩
abbrev main_v154 : Ref sig .tc := ⟨.hbm, 292, rfl⟩
abbrev main_v155 : Ref sig .tc := ⟨.hbm, 293, rfl⟩
abbrev main_v156 : Ref sig .tc := ⟨.hbm, 294, rfl⟩
abbrev main_v157 : Ref sig .tc := ⟨.hbm, 295, rfl⟩
abbrev main_v158 : Ref sig .tc := ⟨.hbm, 296, rfl⟩
abbrev main_v159 : Ref sig .tc := ⟨.hbm, 297, rfl⟩
abbrev main_v160 : Ref sig .tc := ⟨.hbm, 298, rfl⟩
abbrev main_v161 : Ref sig .tc := ⟨.hbm, 299, rfl⟩
abbrev main_call9_cst : Ref sig .tc := ⟨.hbm, 300, rfl⟩
abbrev main_call9_v0 : Ref sig .tc := ⟨.hbm, 301, rfl⟩
abbrev main_v162 : Ref sig .tc := ⟨.hbm, 302, rfl⟩
abbrev main_v163 : Ref sig .tc := ⟨.hbm, 303, rfl⟩
abbrev main_v164 : Ref sig .tc := ⟨.hbm, 304, rfl⟩
abbrev main_v165 : Ref sig .tc := ⟨.hbm, 305, rfl⟩
abbrev main_v166 : Ref sig .tc := ⟨.hbm, 306, rfl⟩
abbrev main_call10_cst : Ref sig .tc := ⟨.hbm, 307, rfl⟩
abbrev main_call10_v0 : Ref sig .tc := ⟨.hbm, 308, rfl⟩
abbrev main_v167 : Ref sig .tc := ⟨.hbm, 309, rfl⟩
abbrev main_v168 : Ref sig .tc := ⟨.hbm, 310, rfl⟩
abbrev main_v169 : Ref sig .tc := ⟨.hbm, 311, rfl⟩
abbrev main_v170 : Ref sig .tc := ⟨.hbm, 312, rfl⟩
abbrev main_v171 : Ref sig .tc := ⟨.hbm, 313, rfl⟩
abbrev main_v172 : Ref sig .tc := ⟨.hbm, 314, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000x2 : S_.BroadcastsInDim S100000x2 (![] : Fin 0 → Fin S100000x2.rank)
  concatenates_S1600000x2_S100000x2_S1700000x2_d0 : Shape.Concatenates [S1600000x2, S100000x2] S1700000x2 0
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  concatenates_S1700000x128_S1700000x2_S1700000x130_d1 : Shape.Concatenates [S1700000x128, S1700000x2] S1700000x130 1
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  reducesTo_S100000x128_S100000_d1 : S100000x128.ReducesTo [1] S100000
  bcast_S_S100000x1 : S_.BroadcastsInDim S100000x1 (![] : Fin 0 → Fin S100000x1.rank)
  concatenates_S100000x128_S100000x128_S100000x128_S100000x384_d1 : Shape.Concatenates [S100000x128, S100000x128, S100000x128] S100000x384 1
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  dot_S100000x4_S4x128_S100000x128_1_0_0_1_n_n_wf : DotDims.WF S100000x4 S4x128 S100000x128 [1] [0] [0] [1] [] []
  gather_S100000x128_S1700000x1_S1700000x128_1_0_n_n_0_1_1128_wf : GatherDims.WF S100000x128 S1700000x1 S1700000x128 [1] [0] [] [0] [] 1 ![1, 128]
  dot_S1700000x130_S130x128_S1700000x128_1_0_0_1_n_n_wf : DotDims.WF S1700000x130 S130x128 S1700000x128 [1] [0] [0] [1] [] []
  scatter_S100000x128_S1700000x1_S1700000x128_1_0_0_1_wf : ScatterDims.WF S100000x128 S1700000x1 S1700000x128 [1] [0] [0] 1
  scatter_S100000_S1700000x1_S1700000_n_0_0_1_wf : ScatterDims.WF S100000 S1700000x1 S1700000 [] [0] [0] 1
  dot_S100000x128_S128x128_S100000x128_1_0_0_1_n_n_wf : DotDims.WF S100000x128 S128x128 S100000x128 [1] [0] [0] [1] [] []
  dot_S100000x384_S384x128_S100000x128_1_0_0_1_n_n_wf : DotDims.WF S100000x384 S384x128 S100000x128 [1] [0] [0] [1] [] []
  dot_S100000x128_S128x64_S100000x64_1_0_0_1_n_n_wf : DotDims.WF S100000x128 S128x64 S100000x64 [1] [0] [0] [1] [] []
  dot_S100000x64_S64x1_S100000x1_1_0_0_1_n_n_wf : DotDims.WF S100000x64 S64x1 S100000x1 [1] [0] [0] [1] [] []

variable [Facts₀]

def dot_S100000x4_S4x128_S100000x128_1_0_0_1_n_n : DotDims S100000x4 S4x128 S100000x128 where
  lhsContracting := [1]
  rhsContracting := [0]
  lhsNonContracting := [0]
  rhsNonContracting := [1]
  lhsBatch := []
  rhsBatch := []
  wf := dot_S100000x4_S4x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def dot_S1700000x130_S130x128_S1700000x128_1_0_0_1_n_n : DotDims S1700000x130 S130x128 S1700000x128 where
  lhsContracting := [1]
  rhsContracting := [0]
  lhsNonContracting := [0]
  rhsNonContracting := [1]
  lhsBatch := []
  rhsBatch := []
  wf := dot_S1700000x130_S130x128_S1700000x128_1_0_0_1_n_n_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x384_S384x128_S100000x128_1_0_0_1_n_n : DotDims S100000x384 S384x128 S100000x128 where
  lhsContracting := [1]
  rhsContracting := [0]
  lhsNonContracting := [0]
  rhsNonContracting := [1]
  lhsBatch := []
  rhsBatch := []
  wf := dot_S100000x384_S384x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KValueRun.lean ====
/-
  The whole program's run, with the result named.

  The program is a chain of twenty segments: stretches of host operations and eight blocked regions.  The buffer contents at
  every boundary are a fold from the launch memory: a host stretch applies its operations, a region replaces its windows'
  arrays by what its twenty-five write-backs leave.  Every weakly fair execution ends, without a fault, in a memory that
  agrees with the last boundary's contents on every unscoped buffer; read at the result buffer this names the result, and
  read at the twenty-three argument arrays it says they end as launched.
-/
import proofs.«113076_j55267639165123_2_alg».proof.Proof.Gen.KernelIdeal.Frame
import Idealize.ShloMosaic.PureOps.Ideal

set_option maxRecDepth 16384

noncomputable section

namespace Cert.KernelIdeal.KVal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

set_option backward.isDefEq.respectTransparency.types false in
/-- Every weakly fair execution of the program from a memory with zero counters terminates, nothing faulting; in every
    final state the result buffer holds the last boundary's contents of it, and every argument array is as launched. -/
theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v78) = Gen.W20 m ρ c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c =>
      ⟨h c _ (mem_uc main_v78 (by decide)),
       (h c _ (mem_uc main_arg0 (by decide))).trans (W20_main_arg0 m ρ c),
       (h c _ (mem_uc main_arg1 (by decide))).trans (W20_main_arg1 m ρ c),
       (h c _ (mem_uc main_arg2 (by decide))).trans (W20_main_arg2 m ρ c),
       (h c _ (mem_uc main_arg3 (by decide))).trans (W20_main_arg3 m ρ c),
       (h c _ (mem_uc main_arg4 (by decide))).trans (W20_main_arg4 m ρ c),
       (h c _ (mem_uc main_arg5 (by decide))).trans (W20_main_arg5 m ρ c),
       (h c _ (mem_uc main_arg6 (by decide))).trans (W20_main_arg6 m ρ c),
       (h c _ (mem_uc main_arg7 (by decide))).trans (W20_main_arg7 m ρ c),
       (h c _ (mem_uc main_arg8 (by decide))).trans (W20_main_arg8 m ρ c),
       (h c _ (mem_uc main_arg9 (by decide))).trans (W20_main_arg9 m ρ c),
       (h c _ (mem_uc main_arg10 (by decide))).trans (W20_main_arg10 m ρ c),
       (h c _ (mem_uc main_arg11 (by decide))).trans (W20_main_arg11 m ρ c),
       (h c _ (mem_uc main_arg12 (by decide))).trans (W20_main_arg12 m ρ c),
       (h c _ (mem_uc main_arg13 (by decide))).trans (W20_main_arg13 m ρ c),
       (h c _ (mem_uc main_arg14 (by decide))).trans (W20_main_arg14 m ρ c),
       (h c _ (mem_uc main_arg15 (by decide))).trans (W20_main_arg15 m ρ c),
       (h c _ (mem_uc main_arg16 (by decide))).trans (W20_main_arg16 m ρ c),
       (h c _ (mem_uc main_arg17 (by decide))).trans (W20_main_arg17 m ρ c),
       (h c _ (mem_uc main_arg18 (by decide))).trans (W20_main_arg18 m ρ c),
       (h c _ (mem_uc main_arg19 (by decide))).trans (W20_main_arg19 m ρ c),
       (h c _ (mem_uc main_arg20 (by decide))).trans (W20_main_arg20 m ρ c),
       (h c _ (mem_uc main_arg21 (by decide))).trans (W20_main_arg21 m ρ c),
       (h c _ (mem_uc main_arg22 (by decide))).trans (W20_main_arg22 m ρ c)⟩)

end Cert.KernelIdeal.KVal

end
-- ==== Proof.RefOps.lean ====
/-
  The reference program's @main as a straight line of host operations.

  @main is printed in four consecutive windows, and ten of its statements are calls of the module-local functions
  (the rectifier, the column variance, which itself calls the selection helper, and the row norm). A call means its
  callee's body on the call's own buffers, so the whole of @main is one list of host operations: the table below lists
  them window by window, in printed order, each call replaced by its callee's operations over the call's buffer record,
  and beside each window's list the reference every operation writes. The program is in single-assignment form: the
  list of written references has no repetition and holds no argument, which is what later lets one operation's result
  be read at its own buffer without looking at any other operation.

  Proved here: each window is the sequence of its list and @main the sequence of the concatenation (the binds of the free
  monad reassociate by computation); every operation touches TensorCore references only; and every operation writes
  exactly the reference listed at its place.
-/
import proofs.«113076_j55267639165123_2_alg».proof.Proof.Gen.ReferenceIdeal
import Idealize.ShloMosaic.Lib.StableHlo.Run

noncomputable section

namespace Cert.ReferenceIdeal.RefVal

open Cert.ReferenceIdeal Cert.ReferenceIdeal.Gen Idealize.ShloMosaic Idealize.ShloMosaic.TcCoe Idealize.SL.Sem Idealize.ShloMosaic.StableHlo

variable {F : FTy → Type} [FloatOps F]

-- BEGIN TABLE
/-- @main's operations 1 … 83 of 292, in order (window `main_part0`, its calls' operations in place). -/
abbrev ops_part0 : List (HloOp τ sig (Elt F)) :=
  [ StableHlo.nullary main_v0 (iotaInDim S100000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x00000000#32),
    StableHlo.unary main_cst main_v7 (broadcastInDim S100000x2 ![] bcast_S_S100000x2 : (⟨S_, .f32⟩ : BufTy).Contents (Elt F) → (⟨S100000x2, .f32⟩ : BufTy).Contents (Elt F)),
    StableHlo.binary main_arg2 main_v7 main_v8 ((fun a b => concatenate S1700000x2 0 [⟨S1600000x2, a⟩, ⟨S100000x2, b⟩] concatenates_S1600000x2_S100000x2_S1700000x2_d0) : (⟨S1600000x2, .f32⟩ : BufTy).Contents (Elt F) → (⟨S100000x2, .f32⟩ : BufTy).Contents (Elt F) → (⟨S1700000x2, .f32⟩ : BufTy).Contents (Elt F)),
    StableHlo.binary main_arg0 main_arg3 main_v9 ((fun l r => Host.dotGeneral dot_S100000x4_S4x128_S100000x128_1_0_0_1_n_n none l r) : (⟨S100000x4, .f32⟩ : BufTy).Contents (Elt F) → (⟨S4x128, .f32⟩ : BufTy).Contents (Elt F) → (⟨S100000x128, .f32⟩ : BufTy).Contents (Elt F)),
    StableHlo.unary main_arg4 main_v10 (broadcastInDim S1x128 ![1] bcast_S128_S1x128_1 : (⟨S128, .f32⟩ : BufTy).Contents (Elt F) → (⟨S1x128, .f32⟩ : BufTy).Contents (Elt F)),
    StableHlo.unary main_v10 main_v11 (broadcastInDim S100000x128 ![0, 1] bcast_S1x128_S100000x128_0_1 : (⟨S1x128, .f32⟩ : BufTy).Contents (Elt F) → (⟨S100000x128, .f32⟩ : BufTy).Contents (Elt F)),
    StableHlo.binary main_v9 main_v11 main_v12 (addf : (⟨S100000x128, .f32⟩ : BufTy).Contents (Elt F) → (⟨S100000x128, .f32⟩ : BufTy).Contents (Elt F) → (⟨S100000x128, .f32⟩ : BufTy).Contents (Elt F)),
    StableHlo.nullary main_c (constantI S_ 32 0#32),
    StableHlo.unary main_c main_v13 (broadcastInDim S1700000 ![] bcast_S_S1700000 : (⟨S_, .i32⟩ : BufTy).Contents (Elt F) → (⟨S1700000, .i32⟩ : BufTy).Contents (Elt F)),
    StableHlo.binary main_v3 main_v13 main_v14 (cmpi .slt : (⟨S1700000, .i32⟩ : BufTy).Contents (Elt F) → (⟨S1700000, .i32⟩ : BufTy).Contents (Elt F) → (⟨S1700000, .i1⟩ : BufTy).Contents (Elt F)),
    StableHlo.nullary main_c_0 (constantI S_ 32 100000#32),
    StableHlo.unary main_c_0 main_v15 (broadcastInDim S1700000 ![] bcast_S_S1700000 : (⟨S_, .i32⟩ : BufTy).Contents (Elt F) → (⟨S1700000, .i32⟩ : BufTy).Contents (Elt F)),
    StableHlo.binary main_v3 main_v15 main_v16 (addi : (⟨S1700000, .i32⟩ : BufTy).Contents (Elt F) → (⟨S1700000, .i32⟩ : BufTy).Contents (Elt F) → (⟨S1700000, .i32⟩ : BufTy).Contents (Elt F)),
    StableHlo.ternary main_v14 main_v16 main_v3 main_v17 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v17 main_v18 (broadcastInDim S1700000x1 ![0] bcast_S1700000_S1700000x1_0 : (⟨S1700000, .i32⟩ : BufTy).Contents (Elt F) → (⟨S1700000x1, .i32⟩ : BufTy).Contents (Elt F)),
    StableHlo.binary main_v12 main_v18 main_v19 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.binary main_v19 main_v8 main_v20 ((fun a b => concatenate S1700000x130 1 [⟨S1700000x128, a⟩, ⟨S1700000x2, b⟩] concatenates_S1700000x128_S1700000x2_S1700000x130_d1) : (⟨S1700000x128, .f32⟩ : BufTy).Contents (Elt F) → (⟨S1700000x2, .f32⟩ : BufTy).Contents (Elt F) → (⟨S1700000x130, .f32⟩ : BufTy).Contents (Elt F)),
    StableHlo.binary main_v20 main_arg5 main_v21 ((fun l r => Host.dotGeneral dot_S1700000x130_S130x128_S1700000x128_1_0_0_1_n_n none l r) : (⟨S1700000x130, .f32⟩ : BufTy).Contents (Elt F) → (⟨S130x128, .f32⟩ : BufTy).Contents (Elt F) → (⟨S1700000x128, .f32⟩ : BufTy).Contents (Elt F)),
    StableHlo.nullary main_cst_1 (constant S_ .f32 0x00000000#32),
    StableHlo.unary main_cst_1 main_v22 (broadcastInDim S100000x128 ![] bcast_S_S100000x128 : (⟨S_, .f32⟩ : BufTy).Contents (Elt F) → (⟨S100000x128, .f32⟩ : BufTy).Contents (Elt F)),
    StableHlo.unary main_v6 main_v23 (broadcastInDim S1700000x1 ![0] bcast_S1700000_S1700000x1_0 : (⟨S1700000, .i32⟩ : BufTy).Contents (Elt F) → (⟨S1700000x1, .i32⟩ : BufTy).Contents (Elt F)),
    StableHlo.ternary main_v22 main_v23 main_v21 main_v24 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.nullary main_cst_2 (constant S_ .f32 0x3F800000#32),
    StableHlo.unary main_cst_2 main_v25 (broadcastInDim S1700000 ![] bcast_S_S1700000 : (⟨S_, .f32⟩ : BufTy).Contents (Elt F) → (⟨S1700000, .f32⟩ : BufTy).Contents (Elt F)),
    StableHlo.nullary main_cst_3 (constant S_ .f32 0x00000000#32),
    StableHlo.unary main_cst_3 main_v26 (broadcastInDim S100000 ![] bcast_S_S100000 : (⟨S_, .f32⟩ : BufTy).Contents (Elt F) → (⟨S100000, .f32⟩ : BufTy).Contents (Elt F)),
    StableHlo.unary main_v6 main_v27 (broadcastInDim S1700000x1 ![0] bcast_S1700000_S1700000x1_0 : (⟨S1700000, .i32⟩ : BufTy).Contents (Elt F) → (⟨S1700000x1, .i32⟩ : BufTy).Contents (Elt F)),
    StableHlo.ternary main_v26 main_v27 main_v25 main_v28 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_4 (constant S_ .f32 0x3F800000#32),
    StableHlo.unary main_cst_4 main_v29 (broadcastInDim S100000 ![] bcast_S_S100000 : (⟨S_, .f32⟩ : BufTy).Contents (Elt F) → (⟨S100000, .f32⟩ : BufTy).Contents (Elt F)),
    StableHlo.binary main_v28 main_v29 main_v30 (maximumf : (⟨S100000, .f32⟩ : BufTy).Contents (Elt F) → (⟨S100000, .f32⟩ : BufTy).Contents (Elt F) → (⟨S100000, .f32⟩ : BufTy).Contents (Elt F)),
    StableHlo.unary main_v30 main_v31 (broadcastInDim S100000x1 ![0] bcast_S100000_S100000x1_0 : (⟨S100000, .f32⟩ : BufTy).Contents (Elt F) → (⟨S100000x1, .f32⟩ : BufTy).Contents (Elt F)),
    StableHlo.unary main_v31 main_v32 (broadcastInDim S100000x128 ![0, 1] bcast_S100000x1_S100000x128_0_1 : (⟨S100000x1, .f32⟩ : BufTy).Contents (Elt F) → (⟨S100000x128, .f32⟩ : BufTy).Contents (Elt F)),
    StableHlo.binary main_v24 main_v32 main_v33 (Host.divf : (⟨S100000x128, .f32⟩ : BufTy).Contents (Elt F) → (⟨S100000x128, .f32⟩ : BufTy).Contents (Elt F) → (⟨S100000x128, .f32⟩ : BufTy).Contents (Elt F)),
    StableHlo.binary main_v12 main_arg6 main_v34 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v33 main_v34 main_v35 (addf : (⟨S100000x128, .f32⟩ : BufTy).Contents (Elt F) → (⟨S100000x128, .f32⟩ : BufTy).Contents (Elt F) → (⟨S100000x128, .f32⟩ : BufTy).Contents (Elt F)),
    StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v0 : StableHlo.TRef sig ⟨S100000x128, .f32⟩) (broadcastInDim S100000x128 ![] bcast_S_S100000x128),
    StableHlo.TRef.binary (.of main_v35 : StableHlo.TRef sig ⟨S100000x128, .f32⟩) (.of main_call0_v0 : StableHlo.TRef sig ⟨S100000x128, .f32⟩) (.of main_v36 : StableHlo.TRef sig ⟨S100000x128, .f32⟩) maximumf,
    StableHlo.nullary main_cst_5 (constant S_ .f32 0x00000000#32),
    StableHlo.binary main_v36 main_cst_5 main_v37 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_6 (constant S_ .f32 0x47C35000#32),
    StableHlo.unary main_cst_6 main_v38 (broadcastInDim S128 ![] bcast_S_S128 : (⟨S_, .f32⟩ : BufTy).Contents (Elt F) → (⟨S128, .f32⟩ : BufTy).Contents (Elt F)),
    StableHlo.binary main_v37 main_v38 main_v39 (Host.divf : (⟨S128, .f32⟩ : BufTy).Contents (Elt F) → (⟨S128, .f32⟩ : BufTy).Contents (Elt F) → (⟨S128, .f32⟩ : BufTy).Contents (Elt F)),
    StableHlo.nullary main_c_7 (constantI S_ 32 0#32),
    StableHlo.TRef.nullary (.of main_call1_cst : StableHlo.TRef sig ⟨S_, .f32⟩) (constant S_ .f32 0x00000000#32),
    StableHlo.TRef.binary (.of main_v36 : StableHlo.TRef sig ⟨S100000x128, .f32⟩) (.of main_call1_cst : StableHlo.TRef sig ⟨S_, .f32⟩) (.of main_call1_v0 : StableHlo.TRef sig ⟨S128, .f32⟩) (fun x v => Host.reduceAdd x v reducesTo_S100000x128_S128_d0 h_S_),
    StableHlo.TRef.unary (.of main_call1_v0 : StableHlo.TRef sig ⟨S128, .f32⟩) (.of main_call1_v1 : StableHlo.TRef sig ⟨S1x128, .f32⟩) (broadcastInDim S1x128 ![1] bcast_S128_S1x128_1),
    StableHlo.TRef.nullary (.of main_call1_cst_0 : StableHlo.TRef sig ⟨S_, .f32⟩) (constant S_ .f32 0x47C35000#32),
    StableHlo.TRef.unary (.of main_call1_cst_0 : StableHlo.TRef sig ⟨S_, .f32⟩) (.of main_call1_v2 : StableHlo.TRef sig ⟨S1x128, .f32⟩) (broadcastInDim S1x128 ![] bcast_S_S1x128),
    StableHlo.TRef.binary (.of main_call1_v1 : StableHlo.TRef sig ⟨S1x128, .f32⟩) (.of main_call1_v2 : StableHlo.TRef sig ⟨S1x128, .f32⟩) (.of main_call1_v3 : StableHlo.TRef sig ⟨S1x128, .f32⟩) Host.divf,
    StableHlo.TRef.unary (.of main_call1_v3 : StableHlo.TRef sig ⟨S1x128, .f32⟩) (.of main_call1_v4 : StableHlo.TRef sig ⟨S100000x128, .f32⟩) (broadcastInDim S100000x128 ![0, 1] bcast_S1x128_S100000x128_0_1),
    StableHlo.TRef.binary (.of main_v36 : StableHlo.TRef sig ⟨S100000x128, .f32⟩) (.of main_call1_v4 : StableHlo.TRef sig ⟨S100000x128, .f32⟩) (.of main_call1_v5 : StableHlo.TRef sig ⟨S100000x128, .f32⟩) subf,
    StableHlo.TRef.binary (.of main_call1_v5 : StableHlo.TRef sig ⟨S100000x128, .f32⟩) (.of main_call1_v5 : StableHlo.TRef sig ⟨S100000x128, .f32⟩) (.of main_call1_v6 : StableHlo.TRef sig ⟨S100000x128, .f32⟩) mulf,
    StableHlo.TRef.unary (.of main_c_7 : StableHlo.TRef sig ⟨S_, .i32⟩) (.of main_call1_v7 : StableHlo.TRef sig ⟨S_, .f32⟩) (sitofp .f32),
    StableHlo.TRef.nullary (.of main_call1_cst_1 : StableHlo.TRef sig ⟨S_, .f32⟩) (constant S_ .f32 0x47C35000#32),
    StableHlo.TRef.binary (.of main_call1_cst_1 : StableHlo.TRef sig ⟨S_, .f32⟩) (.of main_call1_v7 : StableHlo.TRef sig ⟨S_, .f32⟩) (.of main_call1_v8 : StableHlo.TRef sig ⟨S_, .f32⟩) subf,
    StableHlo.TRef.nullary (.of main_call1_cst_2 : StableHlo.TRef sig ⟨S_, .f32⟩) (constant S_ .f32 0x00000000#32),
    StableHlo.TRef.binary (.of main_call1_v6 : StableHlo.TRef sig ⟨S100000x128, .f32⟩) (.of main_call1_cst_2 : StableHlo.TRef sig ⟨S_, .f32⟩) (.of main_call1_v9 : StableHlo.TRef sig ⟨S128, .f32⟩) (fun x v => Host.reduceAdd x v reducesTo_S100000x128_S128_d0 h_S_),
    StableHlo.TRef.unary (.of main_call1_v8 : StableHlo.TRef sig ⟨S_, .f32⟩) (.of main_call1_v10 : StableHlo.TRef sig ⟨S128, .f32⟩) (broadcastInDim S128 ![] bcast_S_S128),
    StableHlo.TRef.binary (.of main_call1_v9 : StableHlo.TRef sig ⟨S128, .f32⟩) (.of main_call1_v10 : StableHlo.TRef sig ⟨S128, .f32⟩) (.of main_call1_v11 : StableHlo.TRef sig ⟨S128, .f32⟩) Host.divf,
    StableHlo.TRef.nullary (.of main_call1_cst_3 : StableHlo.TRef sig ⟨S_, .f32⟩) (constant S_ .f32 0x00000000#32),
    StableHlo.TRef.binary (.of main_call1_v8 : StableHlo.TRef sig ⟨S_, .f32⟩) (.of main_call1_cst_3 : StableHlo.TRef sig ⟨S_, .f32⟩) (.of main_call1_v12 : StableHlo.TRef sig ⟨S_, .i1⟩) (cmpf .ogt),
    StableHlo.TRef.nullary (.of main_call1_cst_4 : StableHlo.TRef sig ⟨S_, .f32⟩) (constant S_ .f32 0x7FC00000#32),
    StableHlo.TRef.unary (.of main_call1_cst_4 : StableHlo.TRef sig ⟨S_, .f32⟩) (.of main_call1_call0_v0 : StableHlo.TRef sig ⟨S_, .f32⟩) id,
    StableHlo.TRef.unary (.of main_call1_call0_v0 : StableHlo.TRef sig ⟨S_, .f32⟩) (.of main_call1_call0_v1 : StableHlo.TRef sig ⟨S128, .f32⟩) (broadcastInDim S128 ![] bcast_S_S128),
    StableHlo.TRef.ternary (.of main_call1_v12 : StableHlo.TRef sig ⟨S_, .i1⟩) (.of main_call1_v11 : StableHlo.TRef sig ⟨S128, .f32⟩) (.of main_call1_call0_v1 : StableHlo.TRef sig ⟨S128, .f32⟩) (.of main_v40 : StableHlo.TRef sig ⟨S128, .f32⟩) (fun p a b => select (broadcastInDim S128 ![] bcast_S_S128 p) a b),
    StableHlo.unary main_v39 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S100000x128 ![0, 1] bcast_S1x128_S100000x128_0_1 : (⟨S1x128, .f32⟩ : BufTy).Contents (Elt F) → (⟨S100000x128, .f32⟩ : BufTy).Contents (Elt F)),
    StableHlo.binary main_v36 main_v42 main_v43 (subf : (⟨S100000x128, .f32⟩ : BufTy).Contents (Elt F) → (⟨S100000x128, .f32⟩ : BufTy).Contents (Elt F) → (⟨S100000x128, .f32⟩ : BufTy).Contents (Elt F)),
    StableHlo.nullary main_cst_8 (constant S_ .f32 0x3727C5AC#32),
    StableHlo.unary main_cst_8 main_v44 (broadcastInDim S128 ![] bcast_S_S128 : (⟨S_, .f32⟩ : BufTy).Contents (Elt F) → (⟨S128, .f32⟩ : BufTy).Contents (Elt F)),
    StableHlo.binary main_v40 main_v44 main_v45 (addf : (⟨S128, .f32⟩ : BufTy).Contents (Elt F) → (⟨S128, .f32⟩ : BufTy).Contents (Elt F) → (⟨S128, .f32⟩ : BufTy).Contents (Elt F)),
    StableHlo.unary main_v45 main_v46 (Host.rsqrt : (⟨S128, .f32⟩ : BufTy).Contents (Elt F) → (⟨S128, .f32⟩ : BufTy).Contents (Elt F)),
    StableHlo.unary main_v46 main_v47 (broadcastInDim S1x128 ![1] bcast_S128_S1x128_1 : (⟨S128, .f32⟩ : BufTy).Contents (Elt F) → (⟨S1x128, .f32⟩ : BufTy).Contents (Elt F)),
    StableHlo.unary main_v47 main_v48 (broadcastInDim S100000x128 ![0, 1] bcast_S1x128_S100000x128_0_1 : (⟨S1x128, .f32⟩ : BufTy).Contents (Elt F) → (⟨S100000x128, .f32⟩ : BufTy).Contents (Elt F)) ]
/-- The reference each operation of `ops_part0` writes, in the same order. -/
abbrev W_part0 : List (Ref sig .tc) :=
  [main_v0, main_v1, main_v2, main_v3, main_v4, main_v5, main_v6, main_cst, main_v7, main_v8, main_v9, main_v10, main_v11, main_v12, main_c, main_v13, main_v14, main_c_0, main_v15, main_v16, main_v17, main_v18, main_v19, main_v20, main_v21, main_cst_1, main_v22, main_v23, main_v24, main_cst_2, main_v25, main_cst_3, main_v26, main_v27, main_v28, main_cst_4, main_v29, main_v30, main_v31, main_v32, main_v33, main_v34, main_v35, main_call0_cst, main_call0_v0, main_v36, main_cst_5, main_v37, main_cst_6, main_v38, main_v39, main_c_7, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v40, main_v41, main_v42, main_v43, main_cst_8, main_v44, main_v45, main_v46, main_v47, main_v48]

/-- @main's operations 84 … 170 of 292, in order (window `main_part1`, its calls' operations in place). -/
abbrev ops_part1 : List (HloOp τ sig (Elt F)) :=
  [ StableHlo.binary main_v43 main_v48 main_v49 (mulf : (⟨S100000x128, .f32⟩ : BufTy).Contents (Elt F) → (⟨S100000x128, .f32⟩ : BufTy).Contents (Elt F) → (⟨S100000x128, .f32⟩ : BufTy).Contents (Elt F)),
    StableHlo.unary main_arg7 main_v50 (broadcastInDim S1x128 ![1] bcast_S128_S1x128_1 : (⟨S128, .f32⟩ : BufTy).Contents (Elt F) → (⟨S1x128, .f32⟩ : BufTy).Contents (Elt F)),
    StableHlo.unary main_v50 main_v51 (broadcastInDim S100000x128 ![0, 1] bcast_S1x128_S100000x128_0_1 : (⟨S1x128, .f32⟩ : BufTy).Contents (Elt F) → (⟨S100000x128, .f32⟩ : BufTy).Contents (Elt F)),
    StableHlo.binary main_v49 main_v51 main_v52 (mulf : (⟨S100000x128, .f32⟩ : BufTy).Contents (Elt F) → (⟨S100000x128, .f32⟩ : BufTy).Contents (Elt F) → (⟨S100000x128, .f32⟩ : BufTy).Contents (Elt F)),
    StableHlo.unary main_arg8 main_v53 (broadcastInDim S1x128 ![1] bcast_S128_S1x128_1 : (⟨S128, .f32⟩ : BufTy).Contents (Elt F) → (⟨S1x128, .f32⟩ : BufTy).Contents (Elt F)),
    StableHlo.unary main_v53 main_v54 (broadcastInDim S100000x128 ![0, 1] bcast_S1x128_S100000x128_0_1 : (⟨S1x128, .f32⟩ : BufTy).Contents (Elt F) → (⟨S100000x128, .f32⟩ : BufTy).Contents (Elt F)),
    StableHlo.binary main_v52 main_v54 main_v55 (addf : (⟨S100000x128, .f32⟩ : BufTy).Contents (Elt F) → (⟨S100000x128, .f32⟩ : BufTy).Contents (Elt F) → (⟨S100000x128, .f32⟩ : BufTy).Contents (Elt F)),
    StableHlo.TRef.binary (.of main_v55 : StableHlo.TRef sig ⟨S100000x128, .f32⟩) (.of main_v55 : StableHlo.TRef sig ⟨S100000x128, .f32⟩) (.of main_call2_v0 : StableHlo.TRef sig ⟨S100000x128, .f32⟩) mulf,
    StableHlo.TRef.nullary (.of main_call2_cst : StableHlo.TRef sig ⟨S_, .f32⟩) (constant S_ .f32 0x00000000#32),
    StableHlo.TRef.binary (.of main_call2_v0 : StableHlo.TRef sig ⟨S100000x128, .f32⟩) (.of main_call2_cst : StableHlo.TRef sig ⟨S_, .f32⟩) (.of main_call2_v1 : StableHlo.TRef sig ⟨S100000, .f32⟩) (fun x v => Host.reduceAdd x v reducesTo_S100000x128_S100000_d1 h_S_),
    StableHlo.TRef.unary (.of main_call2_v1 : StableHlo.TRef sig ⟨S100000, .f32⟩) (.of main_call2_v2 : StableHlo.TRef sig ⟨S100000x1, .f32⟩) (broadcastInDim S100000x1 ![0] bcast_S100000_S100000x1_0),
    StableHlo.TRef.unary (.of main_call2_v2 : StableHlo.TRef sig ⟨S100000x1, .f32⟩) (.of main_v56 : StableHlo.TRef sig ⟨S100000x1, .f32⟩) Host.sqrt,
    StableHlo.nullary main_cst_9 (constant S_ .f32 0x2B8CBCCC#32),
    StableHlo.unary main_cst_9 main_v57 (broadcastInDim S100000x1 ![] bcast_S_S100000x1 : (⟨S_, .f32⟩ : BufTy).Contents (Elt F) → (⟨S100000x1, .f32⟩ : BufTy).Contents (Elt F)),
    StableHlo.binary main_v56 main_v57 main_v58 (maximumf : (⟨S100000x1, .f32⟩ : BufTy).Contents (Elt F) → (⟨S100000x1, .f32⟩ : BufTy).Contents (Elt F) → (⟨S100000x1, .f32⟩ : BufTy).Contents (Elt F)),
    StableHlo.unary main_v58 main_v59 (broadcastInDim S100000x128 ![0, 1] bcast_S100000x1_S100000x128_0_1 : (⟨S100000x1, .f32⟩ : BufTy).Contents (Elt F) → (⟨S100000x128, .f32⟩ : BufTy).Contents (Elt F)),
    StableHlo.binary main_v55 main_v59 main_v60 (Host.divf : (⟨S100000x128, .f32⟩ : BufTy).Contents (Elt F) → (⟨S100000x128, .f32⟩ : BufTy).Contents (Elt F) → (⟨S100000x128, .f32⟩ : BufTy).Contents (Elt F)),
    StableHlo.nullary main_c_10 (constantI S_ 32 0#32),
    StableHlo.unary main_c_10 main_v61 (broadcastInDim S1700000 ![] bcast_S_S1700000 : (⟨S_, .i32⟩ : BufTy).Contents (Elt F) → (⟨S1700000, .i32⟩ : BufTy).Contents (Elt F)),
    StableHlo.binary main_v3 main_v61 main_v62 (cmpi .slt : (⟨S1700000, .i32⟩ : BufTy).Contents (Elt F) → (⟨S1700000, .i32⟩ : BufTy).Contents (Elt F) → (⟨S1700000, .i1⟩ : BufTy).Contents (Elt F)),
    StableHlo.nullary main_c_11 (constantI S_ 32 100000#32),
    StableHlo.unary main_c_11 main_v63 (broadcastInDim S1700000 ![] bcast_S_S1700000 : (⟨S_, .i32⟩ : BufTy).Contents (Elt F) → (⟨S1700000, .i32⟩ : BufTy).Contents (Elt F)),
    StableHlo.binary main_v3 main_v63 main_v64 (addi : (⟨S1700000, .i32⟩ : BufTy).Contents (Elt F) → (⟨S1700000, .i32⟩ : BufTy).Contents (Elt F) → (⟨S1700000, .i32⟩ : BufTy).Contents (Elt F)),
    StableHlo.ternary main_v62 main_v64 main_v3 main_v65 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v65 main_v66 (broadcastInDim S1700000x1 ![0] bcast_S1700000_S1700000x1_0 : (⟨S1700000, .i32⟩ : BufTy).Contents (Elt F) → (⟨S1700000x1, .i32⟩ : BufTy).Contents (Elt F)),
    StableHlo.binary main_v60 main_v66 main_v67 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.binary main_v67 main_v8 main_v68 ((fun a b => concatenate S1700000x130 1 [⟨S1700000x128, a⟩, ⟨S1700000x2, b⟩] concatenates_S1700000x128_S1700000x2_S1700000x130_d1) : (⟨S1700000x128, .f32⟩ : BufTy).Contents (Elt F) → (⟨S1700000x2, .f32⟩ : BufTy).Contents (Elt F) → (⟨S1700000x130, .f32⟩ : BufTy).Contents (Elt F)),
    StableHlo.binary main_v68 main_arg9 main_v69 ((fun l r => Host.dotGeneral dot_S1700000x130_S130x128_S1700000x128_1_0_0_1_n_n none l r) : (⟨S1700000x130, .f32⟩ : BufTy).Contents (Elt F) → (⟨S130x128, .f32⟩ : BufTy).Contents (Elt F) → (⟨S1700000x128, .f32⟩ : BufTy).Contents (Elt F)),
    StableHlo.nullary main_cst_12 (constant S_ .f32 0x00000000#32),
    StableHlo.unary main_cst_12 main_v70 (broadcastInDim S100000x128 ![] bcast_S_S100000x128 : (⟨S_, .f32⟩ : BufTy).Contents (Elt F) → (⟨S100000x128, .f32⟩ : BufTy).Contents (Elt F)),
    StableHlo.unary main_v6 main_v71 (broadcastInDim S1700000x1 ![0] bcast_S1700000_S1700000x1_0 : (⟨S1700000, .i32⟩ : BufTy).Contents (Elt F) → (⟨S1700000x1, .i32⟩ : BufTy).Contents (Elt F)),
    StableHlo.ternary main_v70 main_v71 main_v69 main_v72 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.nullary main_cst_13 (constant S_ .f32 0x3F800000#32),
    StableHlo.unary main_cst_13 main_v73 (broadcastInDim S1700000 ![] bcast_S_S1700000 : (⟨S_, .f32⟩ : BufTy).Contents (Elt F) → (⟨S1700000, .f32⟩ : BufTy).Contents (Elt F)),
    StableHlo.nullary main_cst_14 (constant S_ .f32 0x00000000#32),
    StableHlo.unary main_cst_14 main_v74 (broadcastInDim S100000 ![] bcast_S_S100000 : (⟨S_, .f32⟩ : BufTy).Contents (Elt F) → (⟨S100000, .f32⟩ : BufTy).Contents (Elt F)),
    StableHlo.unary main_v6 main_v75 (broadcastInDim S1700000x1 ![0] bcast_S1700000_S1700000x1_0 : (⟨S1700000, .i32⟩ : BufTy).Contents (Elt F) → (⟨S1700000x1, .i32⟩ : BufTy).Contents (Elt F)),
    StableHlo.ternary main_v74 main_v75 main_v73 main_v76 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_15 (constant S_ .f32 0x3F800000#32),
    StableHlo.unary main_cst_15 main_v77 (broadcastInDim S100000 ![] bcast_S_S100000 : (⟨S_, .f32⟩ : BufTy).Contents (Elt F) → (⟨S100000, .f32⟩ : BufTy).Contents (Elt F)),
    StableHlo.binary main_v76 main_v77 main_v78 (maximumf : (⟨S100000, .f32⟩ : BufTy).Contents (Elt F) → (⟨S100000, .f32⟩ : BufTy).Contents (Elt F) → (⟨S100000, .f32⟩ : BufTy).Contents (Elt F)),
    StableHlo.unary main_v78 main_v79 (broadcastInDim S100000x1 ![0] bcast_S100000_S100000x1_0 : (⟨S100000, .f32⟩ : BufTy).Contents (Elt F) → (⟨S100000x1, .f32⟩ : BufTy).Contents (Elt F)),
    StableHlo.unary main_v79 main_v80 (broadcastInDim S100000x128 ![0, 1] bcast_S100000x1_S100000x128_0_1 : (⟨S100000x1, .f32⟩ : BufTy).Contents (Elt F) → (⟨S100000x128, .f32⟩ : BufTy).Contents (Elt F)),
    StableHlo.binary main_v72 main_v80 main_v81 (Host.divf : (⟨S100000x128, .f32⟩ : BufTy).Contents (Elt F) → (⟨S100000x128, .f32⟩ : BufTy).Contents (Elt F) → (⟨S100000x128, .f32⟩ : BufTy).Contents (Elt F)),
    StableHlo.binary main_v60 main_arg10 main_v82 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v81 main_v82 main_v83 (addf : (⟨S100000x128, .f32⟩ : BufTy).Contents (Elt F) → (⟨S100000x128, .f32⟩ : BufTy).Contents (Elt F) → (⟨S100000x128, .f32⟩ : BufTy).Contents (Elt F)),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S100000x128, .f32⟩) (broadcastInDim S100000x128 ![] bcast_S_S100000x128),
    StableHlo.TRef.binary (.of main_v83 : StableHlo.TRef sig ⟨S100000x128, .f32⟩) (.of main_call3_v0 : StableHlo.TRef sig ⟨S100000x128, .f32⟩) (.of main_v84 : StableHlo.TRef sig ⟨S100000x128, .f32⟩) maximumf,
    StableHlo.nullary main_cst_16 (constant S_ .f32 0x00000000#32),
    StableHlo.binary main_v84 main_cst_16 main_v85 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_17 (constant S_ .f32 0x47C35000#32),
    StableHlo.unary main_cst_17 main_v86 (broadcastInDim S128 ![] bcast_S_S128 : (⟨S_, .f32⟩ : BufTy).Contents (Elt F) → (⟨S128, .f32⟩ : BufTy).Contents (Elt F)),
    StableHlo.binary main_v85 main_v86 main_v87 (Host.divf : (⟨S128, .f32⟩ : BufTy).Contents (Elt F) → (⟨S128, .f32⟩ : BufTy).Contents (Elt F) → (⟨S128, .f32⟩ : BufTy).Contents (Elt F)),
    StableHlo.nullary main_c_18 (constantI S_ 32 0#32),
    StableHlo.TRef.nullary (.of main_call4_cst : StableHlo.TRef sig ⟨S_, .f32⟩) (constant S_ .f32 0x00000000#32),
    StableHlo.TRef.binary (.of main_v84 : StableHlo.TRef sig ⟨S100000x128, .f32⟩) (.of main_call4_cst : StableHlo.TRef sig ⟨S_, .f32⟩) (.of main_call4_v0 : StableHlo.TRef sig ⟨S128, .f32⟩) (fun x v => Host.reduceAdd x v reducesTo_S100000x128_S128_d0 h_S_),
    StableHlo.TRef.unary (.of main_call4_v0 : StableHlo.TRef sig ⟨S128, .f32⟩) (.of main_call4_v1 : StableHlo.TRef sig ⟨S1x128, .f32⟩) (broadcastInDim S1x128 ![1] bcast_S128_S1x128_1),
    StableHlo.TRef.nullary (.of main_call4_cst_0 : StableHlo.TRef sig ⟨S_, .f32⟩) (constant S_ .f32 0x47C35000#32),
    StableHlo.TRef.unary (.of main_call4_cst_0 : StableHlo.TRef sig ⟨S_, .f32⟩) (.of main_call4_v2 : StableHlo.TRef sig ⟨S1x128, .f32⟩) (broadcastInDim S1x128 ![] bcast_S_S1x128),
    StableHlo.TRef.binary (.of main_call4_v1 : StableHlo.TRef sig ⟨S1x128, .f32⟩) (.of main_call4_v2 : StableHlo.TRef sig ⟨S1x128, .f32⟩) (.of main_call4_v3 : StableHlo.TRef sig ⟨S1x128, .f32⟩) Host.divf,
    StableHlo.TRef.unary (.of main_call4_v3 : StableHlo.TRef sig ⟨S1x128, .f32⟩) (.of main_call4_v4 : StableHlo.TRef sig ⟨S100000x128, .f32⟩) (broadcastInDim S100000x128 ![0, 1] bcast_S1x128_S100000x128_0_1),
    StableHlo.TRef.binary (.of main_v84 : StableHlo.TRef sig ⟨S100000x128, .f32⟩) (.of main_call4_v4 : StableHlo.TRef sig ⟨S100000x128, .f32⟩) (.of main_call4_v5 : StableHlo.TRef sig ⟨S100000x128, .f32⟩) subf,
    StableHlo.TRef.binary (.of main_call4_v5 : StableHlo.TRef sig ⟨S100000x128, .f32⟩) (.of main_call4_v5 : StableHlo.TRef sig ⟨S100000x128, .f32⟩) (.of main_call4_v6 : StableHlo.TRef sig ⟨S100000x128, .f32⟩) mulf,
    StableHlo.TRef.unary (.of main_c_18 : StableHlo.TRef sig ⟨S_, .i32⟩) (.of main_call4_v7 : StableHlo.TRef sig ⟨S_, .f32⟩) (sitofp .f32),
    StableHlo.TRef.nullary (.of main_call4_cst_1 : StableHlo.TRef sig ⟨S_, .f32⟩) (constant S_ .f32 0x47C35000#32),
    StableHlo.TRef.binary (.of main_call4_cst_1 : StableHlo.TRef sig ⟨S_, .f32⟩) (.of main_call4_v7 : StableHlo.TRef sig ⟨S_, .f32⟩) (.of main_call4_v8 : StableHlo.TRef sig ⟨S_, .f32⟩) subf,
    StableHlo.TRef.nullary (.of main_call4_cst_2 : StableHlo.TRef sig ⟨S_, .f32⟩) (constant S_ .f32 0x00000000#32),
    StableHlo.TRef.binary (.of main_call4_v6 : StableHlo.TRef sig ⟨S100000x128, .f32⟩) (.of main_call4_cst_2 : StableHlo.TRef sig ⟨S_, .f32⟩) (.of main_call4_v9 : StableHlo.TRef sig ⟨S128, .f32⟩) (fun x v => Host.reduceAdd x v reducesTo_S100000x128_S128_d0 h_S_),
    StableHlo.TRef.unary (.of main_call4_v8 : StableHlo.TRef sig ⟨S_, .f32⟩) (.of main_call4_v10 : StableHlo.TRef sig ⟨S128, .f32⟩) (broadcastInDim S128 ![] bcast_S_S128),
    StableHlo.TRef.binary (.of main_call4_v9 : StableHlo.TRef sig ⟨S128, .f32⟩) (.of main_call4_v10 : StableHlo.TRef sig ⟨S128, .f32⟩) (.of main_call4_v11 : StableHlo.TRef sig ⟨S128, .f32⟩) Host.divf,
    StableHlo.TRef.nullary (.of main_call4_cst_3 : StableHlo.TRef sig ⟨S_, .f32⟩) (constant S_ .f32 0x00000000#32),
    StableHlo.TRef.binary (.of main_call4_v8 : StableHlo.TRef sig ⟨S_, .f32⟩) (.of main_call4_cst_3 : StableHlo.TRef sig ⟨S_, .f32⟩) (.of main_call4_v12 : StableHlo.TRef sig ⟨S_, .i1⟩) (cmpf .ogt),
    StableHlo.TRef.nullary (.of main_call4_cst_4 : StableHlo.TRef sig ⟨S_, .f32⟩) (constant S_ .f32 0x7FC00000#32),
    StableHlo.TRef.unary (.of main_call4_cst_4 : StableHlo.TRef sig ⟨S_, .f32⟩) (.of main_call4_call0_v0 : StableHlo.TRef sig ⟨S_, .f32⟩) id,
    StableHlo.TRef.unary (.of main_call4_call0_v0 : StableHlo.TRef sig ⟨S_, .f32⟩) (.of main_call4_call0_v1 : StableHlo.TRef sig ⟨S128, .f32⟩) (broadcastInDim S128 ![] bcast_S_S128),
    StableHlo.TRef.ternary (.of main_call4_v12 : StableHlo.TRef sig ⟨S_, .i1⟩) (.of main_call4_v11 : StableHlo.TRef sig ⟨S128, .f32⟩) (.of main_call4_call0_v1 : StableHlo.TRef sig ⟨S128, .f32⟩) (.of main_v88 : StableHlo.TRef sig ⟨S128, .f32⟩) (fun p a b => select (broadcastInDim S128 ![] bcast_S_S128 p) a b),
    StableHlo.unary main_v87 main_v89 (broadcastInDim S1x128 ![1] bcast_S128_S1x128_1 : (⟨S128, .f32⟩ : BufTy).Contents (Elt F) → (⟨S1x128, .f32⟩ : BufTy).Contents (Elt F)),
    StableHlo.unary main_v89 main_v90 (broadcastInDim S100000x128 ![0, 1] bcast_S1x128_S100000x128_0_1 : (⟨S1x128, .f32⟩ : BufTy).Contents (Elt F) → (⟨S100000x128, .f32⟩ : BufTy).Contents (Elt F)),
    StableHlo.binary main_v84 main_v90 main_v91 (subf : (⟨S100000x128, .f32⟩ : BufTy).Contents (Elt F) → (⟨S100000x128, .f32⟩ : BufTy).Contents (Elt F) → (⟨S100000x128, .f32⟩ : BufTy).Contents (Elt F)),
    StableHlo.nullary main_cst_19 (constant S_ .f32 0x3727C5AC#32),
    StableHlo.unary main_cst_19 main_v92 (broadcastInDim S128 ![] bcast_S_S128 : (⟨S_, .f32⟩ : BufTy).Contents (Elt F) → (⟨S128, .f32⟩ : BufTy).Contents (Elt F)),
    StableHlo.binary main_v88 main_v92 main_v93 (addf : (⟨S128, .f32⟩ : BufTy).Contents (Elt F) → (⟨S128, .f32⟩ : BufTy).Contents (Elt F) → (⟨S128, .f32⟩ : BufTy).Contents (Elt F)),
    StableHlo.unary main_v93 main_v94 (Host.rsqrt : (⟨S128, .f32⟩ : BufTy).Contents (Elt F) → (⟨S128, .f32⟩ : BufTy).Contents (Elt F)),
    StableHlo.unary main_v94 main_v95 (broadcastInDim S1x128 ![1] bcast_S128_S1x128_1 : (⟨S128, .f32⟩ : BufTy).Contents (Elt F) → (⟨S1x128, .f32⟩ : BufTy).Contents (Elt F)),
    StableHlo.unary main_v95 main_v96 (broadcastInDim S100000x128 ![0, 1] bcast_S1x128_S100000x128_0_1 : (⟨S1x128, .f32⟩ : BufTy).Contents (Elt F) → (⟨S100000x128, .f32⟩ : BufTy).Contents (Elt F)),
    StableHlo.binary main_v91 main_v96 main_v97 (mulf : (⟨S100000x128, .f32⟩ : BufTy).Contents (Elt F) → (⟨S100000x128, .f32⟩ : BufTy).Contents (Elt F) → (⟨S100000x128, .f32⟩ : BufTy).Contents (Elt F)) ]
/-- The reference each operation of `ops_part1` writes, in the same order. -/
abbrev W_part1 : List (Ref sig .tc) :=
  [main_v49, main_v50, main_v51, main_v52, main_v53, main_v54, main_v55, main_call2_v0, main_call2_cst, main_call2_v1, main_call2_v2, main_v56, main_cst_9, main_v57, main_v58, main_v59, main_v60, main_c_10, main_v61, main_v62, main_c_11, main_v63, main_v64, main_v65, main_v66, main_v67, main_v68, main_v69, main_cst_12, main_v70, main_v71, main_v72, main_cst_13, main_v73, main_cst_14, main_v74, main_v75, main_v76, main_cst_15, main_v77, main_v78, main_v79, main_v80, main_v81, main_v82, main_v83, main_call3_cst, main_call3_v0, main_v84, main_cst_16, main_v85, main_cst_17, main_v86, main_v87, main_c_18, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v88, main_v89, main_v90, main_v91, main_cst_19, main_v92, main_v93, main_v94, main_v95, main_v96, main_v97]

/-- @main's operations 171 … 257 of 292, in order (window `main_part2`, its calls' operations in place). -/
abbrev ops_part2 : List (HloOp τ sig (Elt F)) :=
  [ StableHlo.unary main_arg11 main_v98 (broadcastInDim S1x128 ![1] bcast_S128_S1x128_1 : (⟨S128, .f32⟩ : BufTy).Contents (Elt F) → (⟨S1x128, .f32⟩ : BufTy).Contents (Elt F)),
    StableHlo.unary main_v98 main_v99 (broadcastInDim S100000x128 ![0, 1] bcast_S1x128_S100000x128_0_1 : (⟨S1x128, .f32⟩ : BufTy).Contents (Elt F) → (⟨S100000x128, .f32⟩ : BufTy).Contents (Elt F)),
    StableHlo.binary main_v97 main_v99 main_v100 (mulf : (⟨S100000x128, .f32⟩ : BufTy).Contents (Elt F) → (⟨S100000x128, .f32⟩ : BufTy).Contents (Elt F) → (⟨S100000x128, .f32⟩ : BufTy).Contents (Elt F)),
    StableHlo.unary main_arg12 main_v101 (broadcastInDim S1x128 ![1] bcast_S128_S1x128_1 : (⟨S128, .f32⟩ : BufTy).Contents (Elt F) → (⟨S1x128, .f32⟩ : BufTy).Contents (Elt F)),
    StableHlo.unary main_v101 main_v102 (broadcastInDim S100000x128 ![0, 1] bcast_S1x128_S100000x128_0_1 : (⟨S1x128, .f32⟩ : BufTy).Contents (Elt F) → (⟨S100000x128, .f32⟩ : BufTy).Contents (Elt F)),
    StableHlo.binary main_v100 main_v102 main_v103 (addf : (⟨S100000x128, .f32⟩ : BufTy).Contents (Elt F) → (⟨S100000x128, .f32⟩ : BufTy).Contents (Elt F) → (⟨S100000x128, .f32⟩ : BufTy).Contents (Elt F)),
    StableHlo.TRef.binary (.of main_v103 : StableHlo.TRef sig ⟨S100000x128, .f32⟩) (.of main_v103 : StableHlo.TRef sig ⟨S100000x128, .f32⟩) (.of main_call5_v0 : StableHlo.TRef sig ⟨S100000x128, .f32⟩) mulf,
    StableHlo.TRef.nullary (.of main_call5_cst : StableHlo.TRef sig ⟨S_, .f32⟩) (constant S_ .f32 0x00000000#32),
    StableHlo.TRef.binary (.of main_call5_v0 : StableHlo.TRef sig ⟨S100000x128, .f32⟩) (.of main_call5_cst : StableHlo.TRef sig ⟨S_, .f32⟩) (.of main_call5_v1 : StableHlo.TRef sig ⟨S100000, .f32⟩) (fun x v => Host.reduceAdd x v reducesTo_S100000x128_S100000_d1 h_S_),
    StableHlo.TRef.unary (.of main_call5_v1 : StableHlo.TRef sig ⟨S100000, .f32⟩) (.of main_call5_v2 : StableHlo.TRef sig ⟨S100000x1, .f32⟩) (broadcastInDim S100000x1 ![0] bcast_S100000_S100000x1_0),
    StableHlo.TRef.unary (.of main_call5_v2 : StableHlo.TRef sig ⟨S100000x1, .f32⟩) (.of main_v104 : StableHlo.TRef sig ⟨S100000x1, .f32⟩) Host.sqrt,
    StableHlo.nullary main_cst_20 (constant S_ .f32 0x2B8CBCCC#32),
    StableHlo.unary main_cst_20 main_v105 (broadcastInDim S100000x1 ![] bcast_S_S100000x1 : (⟨S_, .f32⟩ : BufTy).Contents (Elt F) → (⟨S100000x1, .f32⟩ : BufTy).Contents (Elt F)),
    StableHlo.binary main_v104 main_v105 main_v106 (maximumf : (⟨S100000x1, .f32⟩ : BufTy).Contents (Elt F) → (⟨S100000x1, .f32⟩ : BufTy).Contents (Elt F) → (⟨S100000x1, .f32⟩ : BufTy).Contents (Elt F)),
    StableHlo.unary main_v106 main_v107 (broadcastInDim S100000x128 ![0, 1] bcast_S100000x1_S100000x128_0_1 : (⟨S100000x1, .f32⟩ : BufTy).Contents (Elt F) → (⟨S100000x128, .f32⟩ : BufTy).Contents (Elt F)),
    StableHlo.binary main_v103 main_v107 main_v108 (Host.divf : (⟨S100000x128, .f32⟩ : BufTy).Contents (Elt F) → (⟨S100000x128, .f32⟩ : BufTy).Contents (Elt F) → (⟨S100000x128, .f32⟩ : BufTy).Contents (Elt F)),
    StableHlo.nullary main_c_21 (constantI S_ 32 0#32),
    StableHlo.unary main_c_21 main_v109 (broadcastInDim S1700000 ![] bcast_S_S1700000 : (⟨S_, .i32⟩ : BufTy).Contents (Elt F) → (⟨S1700000, .i32⟩ : BufTy).Contents (Elt F)),
    StableHlo.binary main_v3 main_v109 main_v110 (cmpi .slt : (⟨S1700000, .i32⟩ : BufTy).Contents (Elt F) → (⟨S1700000, .i32⟩ : BufTy).Contents (Elt F) → (⟨S1700000, .i1⟩ : BufTy).Contents (Elt F)),
    StableHlo.nullary main_c_22 (constantI S_ 32 100000#32),
    StableHlo.unary main_c_22 main_v111 (broadcastInDim S1700000 ![] bcast_S_S1700000 : (⟨S_, .i32⟩ : BufTy).Contents (Elt F) → (⟨S1700000, .i32⟩ : BufTy).Contents (Elt F)),
    StableHlo.binary main_v3 main_v111 main_v112 (addi : (⟨S1700000, .i32⟩ : BufTy).Contents (Elt F) → (⟨S1700000, .i32⟩ : BufTy).Contents (Elt F) → (⟨S1700000, .i32⟩ : BufTy).Contents (Elt F)),
    StableHlo.ternary main_v110 main_v112 main_v3 main_v113 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v113 main_v114 (broadcastInDim S1700000x1 ![0] bcast_S1700000_S1700000x1_0 : (⟨S1700000, .i32⟩ : BufTy).Contents (Elt F) → (⟨S1700000x1, .i32⟩ : BufTy).Contents (Elt F)),
    StableHlo.binary main_v108 main_v114 main_v115 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.binary main_v115 main_v8 main_v116 ((fun a b => concatenate S1700000x130 1 [⟨S1700000x128, a⟩, ⟨S1700000x2, b⟩] concatenates_S1700000x128_S1700000x2_S1700000x130_d1) : (⟨S1700000x128, .f32⟩ : BufTy).Contents (Elt F) → (⟨S1700000x2, .f32⟩ : BufTy).Contents (Elt F) → (⟨S1700000x130, .f32⟩ : BufTy).Contents (Elt F)),
    StableHlo.binary main_v116 main_arg13 main_v117 ((fun l r => Host.dotGeneral dot_S1700000x130_S130x128_S1700000x128_1_0_0_1_n_n none l r) : (⟨S1700000x130, .f32⟩ : BufTy).Contents (Elt F) → (⟨S130x128, .f32⟩ : BufTy).Contents (Elt F) → (⟨S1700000x128, .f32⟩ : BufTy).Contents (Elt F)),
    StableHlo.nullary main_cst_23 (constant S_ .f32 0x00000000#32),
    StableHlo.unary main_cst_23 main_v118 (broadcastInDim S100000x128 ![] bcast_S_S100000x128 : (⟨S_, .f32⟩ : BufTy).Contents (Elt F) → (⟨S100000x128, .f32⟩ : BufTy).Contents (Elt F)),
    StableHlo.unary main_v6 main_v119 (broadcastInDim S1700000x1 ![0] bcast_S1700000_S1700000x1_0 : (⟨S1700000, .i32⟩ : BufTy).Contents (Elt F) → (⟨S1700000x1, .i32⟩ : BufTy).Contents (Elt F)),
    StableHlo.ternary main_v118 main_v119 main_v117 main_v120 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.nullary main_cst_24 (constant S_ .f32 0x3F800000#32),
    StableHlo.unary main_cst_24 main_v121 (broadcastInDim S1700000 ![] bcast_S_S1700000 : (⟨S_, .f32⟩ : BufTy).Contents (Elt F) → (⟨S1700000, .f32⟩ : BufTy).Contents (Elt F)),
    StableHlo.nullary main_cst_25 (constant S_ .f32 0x00000000#32),
    StableHlo.unary main_cst_25 main_v122 (broadcastInDim S100000 ![] bcast_S_S100000 : (⟨S_, .f32⟩ : BufTy).Contents (Elt F) → (⟨S100000, .f32⟩ : BufTy).Contents (Elt F)),
    StableHlo.unary main_v6 main_v123 (broadcastInDim S1700000x1 ![0] bcast_S1700000_S1700000x1_0 : (⟨S1700000, .i32⟩ : BufTy).Contents (Elt F) → (⟨S1700000x1, .i32⟩ : BufTy).Contents (Elt F)),
    StableHlo.ternary main_v122 main_v123 main_v121 main_v124 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_26 (constant S_ .f32 0x3F800000#32),
    StableHlo.unary main_cst_26 main_v125 (broadcastInDim S100000 ![] bcast_S_S100000 : (⟨S_, .f32⟩ : BufTy).Contents (Elt F) → (⟨S100000, .f32⟩ : BufTy).Contents (Elt F)),
    StableHlo.binary main_v124 main_v125 main_v126 (maximumf : (⟨S100000, .f32⟩ : BufTy).Contents (Elt F) → (⟨S100000, .f32⟩ : BufTy).Contents (Elt F) → (⟨S100000, .f32⟩ : BufTy).Contents (Elt F)),
    StableHlo.unary main_v126 main_v127 (broadcastInDim S100000x1 ![0] bcast_S100000_S100000x1_0 : (⟨S100000, .f32⟩ : BufTy).Contents (Elt F) → (⟨S100000x1, .f32⟩ : BufTy).Contents (Elt F)),
    StableHlo.unary main_v127 main_v128 (broadcastInDim S100000x128 ![0, 1] bcast_S100000x1_S100000x128_0_1 : (⟨S100000x1, .f32⟩ : BufTy).Contents (Elt F) → (⟨S100000x128, .f32⟩ : BufTy).Contents (Elt F)),
    StableHlo.binary main_v120 main_v128 main_v129 (Host.divf : (⟨S100000x128, .f32⟩ : BufTy).Contents (Elt F) → (⟨S100000x128, .f32⟩ : BufTy).Contents (Elt F) → (⟨S100000x128, .f32⟩ : BufTy).Contents (Elt F)),
    StableHlo.binary main_v108 main_arg14 main_v130 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v129 main_v130 main_v131 (addf : (⟨S100000x128, .f32⟩ : BufTy).Contents (Elt F) → (⟨S100000x128, .f32⟩ : BufTy).Contents (Elt F) → (⟨S100000x128, .f32⟩ : BufTy).Contents (Elt F)),
    StableHlo.TRef.nullary (.of main_call6_cst : StableHlo.TRef sig ⟨S_, .f32⟩) (constant S_ .f32 0x00000000#32),
    StableHlo.TRef.unary (.of main_call6_cst : StableHlo.TRef sig ⟨S_, .f32⟩) (.of main_call6_v0 : StableHlo.TRef sig ⟨S100000x128, .f32⟩) (broadcastInDim S100000x128 ![] bcast_S_S100000x128),
    StableHlo.TRef.binary (.of main_v131 : StableHlo.TRef sig ⟨S100000x128, .f32⟩) (.of main_call6_v0 : StableHlo.TRef sig ⟨S100000x128, .f32⟩) (.of main_v132 : StableHlo.TRef sig ⟨S100000x128, .f32⟩) maximumf,
    StableHlo.nullary main_cst_27 (constant S_ .f32 0x00000000#32),
    StableHlo.binary main_v132 main_cst_27 main_v133 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_28 (constant S_ .f32 0x47C35000#32),
    StableHlo.unary main_cst_28 main_v134 (broadcastInDim S128 ![] bcast_S_S128 : (⟨S_, .f32⟩ : BufTy).Contents (Elt F) → (⟨S128, .f32⟩ : BufTy).Contents (Elt F)),
    StableHlo.binary main_v133 main_v134 main_v135 (Host.divf : (⟨S128, .f32⟩ : BufTy).Contents (Elt F) → (⟨S128, .f32⟩ : BufTy).Contents (Elt F) → (⟨S128, .f32⟩ : BufTy).Contents (Elt F)),
    StableHlo.nullary main_c_29 (constantI S_ 32 0#32),
    StableHlo.TRef.nullary (.of main_call7_cst : StableHlo.TRef sig ⟨S_, .f32⟩) (constant S_ .f32 0x00000000#32),
    StableHlo.TRef.binary (.of main_v132 : StableHlo.TRef sig ⟨S100000x128, .f32⟩) (.of main_call7_cst : StableHlo.TRef sig ⟨S_, .f32⟩) (.of main_call7_v0 : StableHlo.TRef sig ⟨S128, .f32⟩) (fun x v => Host.reduceAdd x v reducesTo_S100000x128_S128_d0 h_S_),
    StableHlo.TRef.unary (.of main_call7_v0 : StableHlo.TRef sig ⟨S128, .f32⟩) (.of main_call7_v1 : StableHlo.TRef sig ⟨S1x128, .f32⟩) (broadcastInDim S1x128 ![1] bcast_S128_S1x128_1),
    StableHlo.TRef.nullary (.of main_call7_cst_0 : StableHlo.TRef sig ⟨S_, .f32⟩) (constant S_ .f32 0x47C35000#32),
    StableHlo.TRef.unary (.of main_call7_cst_0 : StableHlo.TRef sig ⟨S_, .f32⟩) (.of main_call7_v2 : StableHlo.TRef sig ⟨S1x128, .f32⟩) (broadcastInDim S1x128 ![] bcast_S_S1x128),
    StableHlo.TRef.binary (.of main_call7_v1 : StableHlo.TRef sig ⟨S1x128, .f32⟩) (.of main_call7_v2 : StableHlo.TRef sig ⟨S1x128, .f32⟩) (.of main_call7_v3 : StableHlo.TRef sig ⟨S1x128, .f32⟩) Host.divf,
    StableHlo.TRef.unary (.of main_call7_v3 : StableHlo.TRef sig ⟨S1x128, .f32⟩) (.of main_call7_v4 : StableHlo.TRef sig ⟨S100000x128, .f32⟩) (broadcastInDim S100000x128 ![0, 1] bcast_S1x128_S100000x128_0_1),
    StableHlo.TRef.binary (.of main_v132 : StableHlo.TRef sig ⟨S100000x128, .f32⟩) (.of main_call7_v4 : StableHlo.TRef sig ⟨S100000x128, .f32⟩) (.of main_call7_v5 : StableHlo.TRef sig ⟨S100000x128, .f32⟩) subf,
    StableHlo.TRef.binary (.of main_call7_v5 : StableHlo.TRef sig ⟨S100000x128, .f32⟩) (.of main_call7_v5 : StableHlo.TRef sig ⟨S100000x128, .f32⟩) (.of main_call7_v6 : StableHlo.TRef sig ⟨S100000x128, .f32⟩) mulf,
    StableHlo.TRef.unary (.of main_c_29 : StableHlo.TRef sig ⟨S_, .i32⟩) (.of main_call7_v7 : StableHlo.TRef sig ⟨S_, .f32⟩) (sitofp .f32),
    StableHlo.TRef.nullary (.of main_call7_cst_1 : StableHlo.TRef sig ⟨S_, .f32⟩) (constant S_ .f32 0x47C35000#32),
    StableHlo.TRef.binary (.of main_call7_cst_1 : StableHlo.TRef sig ⟨S_, .f32⟩) (.of main_call7_v7 : StableHlo.TRef sig ⟨S_, .f32⟩) (.of main_call7_v8 : StableHlo.TRef sig ⟨S_, .f32⟩) subf,
    StableHlo.TRef.nullary (.of main_call7_cst_2 : StableHlo.TRef sig ⟨S_, .f32⟩) (constant S_ .f32 0x00000000#32),
    StableHlo.TRef.binary (.of main_call7_v6 : StableHlo.TRef sig ⟨S100000x128, .f32⟩) (.of main_call7_cst_2 : StableHlo.TRef sig ⟨S_, .f32⟩) (.of main_call7_v9 : StableHlo.TRef sig ⟨S128, .f32⟩) (fun x v => Host.reduceAdd x v reducesTo_S100000x128_S128_d0 h_S_),
    StableHlo.TRef.unary (.of main_call7_v8 : StableHlo.TRef sig ⟨S_, .f32⟩) (.of main_call7_v10 : StableHlo.TRef sig ⟨S128, .f32⟩) (broadcastInDim S128 ![] bcast_S_S128),
    StableHlo.TRef.binary (.of main_call7_v9 : StableHlo.TRef sig ⟨S128, .f32⟩) (.of main_call7_v10 : StableHlo.TRef sig ⟨S128, .f32⟩) (.of main_call7_v11 : StableHlo.TRef sig ⟨S128, .f32⟩) Host.divf,
    StableHlo.TRef.nullary (.of main_call7_cst_3 : StableHlo.TRef sig ⟨S_, .f32⟩) (constant S_ .f32 0x00000000#32),
    StableHlo.TRef.binary (.of main_call7_v8 : StableHlo.TRef sig ⟨S_, .f32⟩) (.of main_call7_cst_3 : StableHlo.TRef sig ⟨S_, .f32⟩) (.of main_call7_v12 : StableHlo.TRef sig ⟨S_, .i1⟩) (cmpf .ogt),
    StableHlo.TRef.nullary (.of main_call7_cst_4 : StableHlo.TRef sig ⟨S_, .f32⟩) (constant S_ .f32 0x7FC00000#32),
    StableHlo.TRef.unary (.of main_call7_cst_4 : StableHlo.TRef sig ⟨S_, .f32⟩) (.of main_call7_call0_v0 : StableHlo.TRef sig ⟨S_, .f32⟩) id,
    StableHlo.TRef.unary (.of main_call7_call0_v0 : StableHlo.TRef sig ⟨S_, .f32⟩) (.of main_call7_call0_v1 : StableHlo.TRef sig ⟨S128, .f32⟩) (broadcastInDim S128 ![] bcast_S_S128),
    StableHlo.TRef.ternary (.of main_call7_v12 : StableHlo.TRef sig ⟨S_, .i1⟩) (.of main_call7_v11 : StableHlo.TRef sig ⟨S128, .f32⟩) (.of main_call7_call0_v1 : StableHlo.TRef sig ⟨S128, .f32⟩) (.of main_v136 : StableHlo.TRef sig ⟨S128, .f32⟩) (fun p a b => select (broadcastInDim S128 ![] bcast_S_S128 p) a b),
    StableHlo.unary main_v135 main_v137 (broadcastInDim S1x128 ![1] bcast_S128_S1x128_1 : (⟨S128, .f32⟩ : BufTy).Contents (Elt F) → (⟨S1x128, .f32⟩ : BufTy).Contents (Elt F)),
    StableHlo.unary main_v137 main_v138 (broadcastInDim S100000x128 ![0, 1] bcast_S1x128_S100000x128_0_1 : (⟨S1x128, .f32⟩ : BufTy).Contents (Elt F) → (⟨S100000x128, .f32⟩ : BufTy).Contents (Elt F)),
    StableHlo.binary main_v132 main_v138 main_v139 (subf : (⟨S100000x128, .f32⟩ : BufTy).Contents (Elt F) → (⟨S100000x128, .f32⟩ : BufTy).Contents (Elt F) → (⟨S100000x128, .f32⟩ : BufTy).Contents (Elt F)),
    StableHlo.nullary main_cst_30 (constant S_ .f32 0x3727C5AC#32),
    StableHlo.unary main_cst_30 main_v140 (broadcastInDim S128 ![] bcast_S_S128 : (⟨S_, .f32⟩ : BufTy).Contents (Elt F) → (⟨S128, .f32⟩ : BufTy).Contents (Elt F)),
    StableHlo.binary main_v136 main_v140 main_v141 (addf : (⟨S128, .f32⟩ : BufTy).Contents (Elt F) → (⟨S128, .f32⟩ : BufTy).Contents (Elt F) → (⟨S128, .f32⟩ : BufTy).Contents (Elt F)),
    StableHlo.unary main_v141 main_v142 (Host.rsqrt : (⟨S128, .f32⟩ : BufTy).Contents (Elt F) → (⟨S128, .f32⟩ : BufTy).Contents (Elt F)),
    StableHlo.unary main_v142 main_v143 (broadcastInDim S1x128 ![1] bcast_S128_S1x128_1 : (⟨S128, .f32⟩ : BufTy).Contents (Elt F) → (⟨S1x128, .f32⟩ : BufTy).Contents (Elt F)),
    StableHlo.unary main_v143 main_v144 (broadcastInDim S100000x128 ![0, 1] bcast_S1x128_S100000x128_0_1 : (⟨S1x128, .f32⟩ : BufTy).Contents (Elt F) → (⟨S100000x128, .f32⟩ : BufTy).Contents (Elt F)),
    StableHlo.binary main_v139 main_v144 main_v145 (mulf : (⟨S100000x128, .f32⟩ : BufTy).Contents (Elt F) → (⟨S100000x128, .f32⟩ : BufTy).Contents (Elt F) → (⟨S100000x128, .f32⟩ : BufTy).Contents (Elt F)),
    StableHlo.unary main_arg15 main_v146 (broadcastInDim S1x128 ![1] bcast_S128_S1x128_1 : (⟨S128, .f32⟩ : BufTy).Contents (Elt F) → (⟨S1x128, .f32⟩ : BufTy).Contents (Elt F)) ]
/-- The reference each operation of `ops_part2` writes, in the same order. -/
abbrev W_part2 : List (Ref sig .tc) :=
  [main_v98, main_v99, main_v100, main_v101, main_v102, main_v103, main_call5_v0, main_call5_cst, main_call5_v1, main_call5_v2, main_v104, main_cst_20, main_v105, main_v106, main_v107, main_v108, main_c_21, main_v109, main_v110, main_c_22, main_v111, main_v112, main_v113, main_v114, main_v115, main_v116, main_v117, main_cst_23, main_v118, main_v119, main_v120, main_cst_24, main_v121, main_cst_25, main_v122, main_v123, main_v124, main_cst_26, main_v125, main_v126, main_v127, main_v128, main_v129, main_v130, main_v131, main_call6_cst, main_call6_v0, main_v132, main_cst_27, main_v133, main_cst_28, main_v134, main_v135, main_c_29, main_call7_cst, main_call7_v0, main_call7_v1, main_call7_cst_0, main_call7_v2, main_call7_v3, main_call7_v4, main_call7_v5, main_call7_v6, main_call7_v7, main_call7_cst_1, main_call7_v8, main_call7_cst_2, main_call7_v9, main_call7_v10, main_call7_v11, main_call7_cst_3, main_call7_v12, main_call7_cst_4, main_call7_call0_v0, main_call7_call0_v1, main_v136, main_v137, main_v138, main_v139, main_cst_30, main_v140, main_v141, main_v142, main_v143, main_v144, main_v145, main_v146]

/-- @main's operations 258 … 292 of 292, in order (window `main_part3`, its calls' operations in place). -/
abbrev ops_part3 : List (HloOp τ sig (Elt F)) :=
  [ StableHlo.unary main_v146 main_v147 (broadcastInDim S100000x128 ![0, 1] bcast_S1x128_S100000x128_0_1 : (⟨S1x128, .f32⟩ : BufTy).Contents (Elt F) → (⟨S100000x128, .f32⟩ : BufTy).Contents (Elt F)),
    StableHlo.binary main_v145 main_v147 main_v148 (mulf : (⟨S100000x128, .f32⟩ : BufTy).Contents (Elt F) → (⟨S100000x128, .f32⟩ : BufTy).Contents (Elt F) → (⟨S100000x128, .f32⟩ : BufTy).Contents (Elt F)),
    StableHlo.unary main_arg16 main_v149 (broadcastInDim S1x128 ![1] bcast_S128_S1x128_1 : (⟨S128, .f32⟩ : BufTy).Contents (Elt F) → (⟨S1x128, .f32⟩ : BufTy).Contents (Elt F)),
    StableHlo.unary main_v149 main_v150 (broadcastInDim S100000x128 ![0, 1] bcast_S1x128_S100000x128_0_1 : (⟨S1x128, .f32⟩ : BufTy).Contents (Elt F) → (⟨S100000x128, .f32⟩ : BufTy).Contents (Elt F)),
    StableHlo.binary main_v148 main_v150 main_v151 (addf : (⟨S100000x128, .f32⟩ : BufTy).Contents (Elt F) → (⟨S100000x128, .f32⟩ : BufTy).Contents (Elt F) → (⟨S100000x128, .f32⟩ : BufTy).Contents (Elt F)),
    StableHlo.TRef.binary (.of main_v151 : StableHlo.TRef sig ⟨S100000x128, .f32⟩) (.of main_v151 : StableHlo.TRef sig ⟨S100000x128, .f32⟩) (.of main_call8_v0 : StableHlo.TRef sig ⟨S100000x128, .f32⟩) mulf,
    StableHlo.TRef.nullary (.of main_call8_cst : StableHlo.TRef sig ⟨S_, .f32⟩) (constant S_ .f32 0x00000000#32),
    StableHlo.TRef.binary (.of main_call8_v0 : StableHlo.TRef sig ⟨S100000x128, .f32⟩) (.of main_call8_cst : StableHlo.TRef sig ⟨S_, .f32⟩) (.of main_call8_v1 : StableHlo.TRef sig ⟨S100000, .f32⟩) (fun x v => Host.reduceAdd x v reducesTo_S100000x128_S100000_d1 h_S_),
    StableHlo.TRef.unary (.of main_call8_v1 : StableHlo.TRef sig ⟨S100000, .f32⟩) (.of main_call8_v2 : StableHlo.TRef sig ⟨S100000x1, .f32⟩) (broadcastInDim S100000x1 ![0] bcast_S100000_S100000x1_0),
    StableHlo.TRef.unary (.of main_call8_v2 : StableHlo.TRef sig ⟨S100000x1, .f32⟩) (.of main_v152 : StableHlo.TRef sig ⟨S100000x1, .f32⟩) Host.sqrt,
    StableHlo.nullary main_cst_31 (constant S_ .f32 0x2B8CBCCC#32),
    StableHlo.unary main_cst_31 main_v153 (broadcastInDim S100000x1 ![] bcast_S_S100000x1 : (⟨S_, .f32⟩ : BufTy).Contents (Elt F) → (⟨S100000x1, .f32⟩ : BufTy).Contents (Elt F)),
    StableHlo.binary main_v152 main_v153 main_v154 (maximumf : (⟨S100000x1, .f32⟩ : BufTy).Contents (Elt F) → (⟨S100000x1, .f32⟩ : BufTy).Contents (Elt F) → (⟨S100000x1, .f32⟩ : BufTy).Contents (Elt F)),
    StableHlo.unary main_v154 main_v155 (broadcastInDim S100000x128 ![0, 1] bcast_S100000x1_S100000x128_0_1 : (⟨S100000x1, .f32⟩ : BufTy).Contents (Elt F) → (⟨S100000x128, .f32⟩ : BufTy).Contents (Elt F)),
    StableHlo.binary main_v151 main_v155 main_v156 (Host.divf : (⟨S100000x128, .f32⟩ : BufTy).Contents (Elt F) → (⟨S100000x128, .f32⟩ : BufTy).Contents (Elt F) → (⟨S100000x128, .f32⟩ : BufTy).Contents (Elt F)),
    StableHlo.nary ![main_v60, main_v108, main_v156] main_v157 (fun u => concatenate S100000x384 1 [⟨S100000x128, u 0⟩, ⟨S100000x128, u 1⟩, ⟨S100000x128, u 2⟩] concatenates_S100000x128_S100000x128_S100000x128_S100000x384_d1),
    StableHlo.binary main_v157 main_arg17 main_v158 ((fun l r => Host.dotGeneral dot_S100000x384_S384x128_S100000x128_1_0_0_1_n_n none l r) : (⟨S100000x384, .f32⟩ : BufTy).Contents (Elt F) → (⟨S384x128, .f32⟩ : BufTy).Contents (Elt F) → (⟨S100000x128, .f32⟩ : BufTy).Contents (Elt F)),
    StableHlo.unary main_arg18 main_v159 (broadcastInDim S1x128 ![1] bcast_S128_S1x128_1 : (⟨S128, .f32⟩ : BufTy).Contents (Elt F) → (⟨S1x128, .f32⟩ : BufTy).Contents (Elt F)),
    StableHlo.unary main_v159 main_v160 (broadcastInDim S100000x128 ![0, 1] bcast_S1x128_S100000x128_0_1 : (⟨S1x128, .f32⟩ : BufTy).Contents (Elt F) → (⟨S100000x128, .f32⟩ : BufTy).Contents (Elt F)),
    StableHlo.binary main_v158 main_v160 main_v161 (addf : (⟨S100000x128, .f32⟩ : BufTy).Contents (Elt F) → (⟨S100000x128, .f32⟩ : BufTy).Contents (Elt F) → (⟨S100000x128, .f32⟩ : BufTy).Contents (Elt F)),
    StableHlo.TRef.nullary (.of main_call9_cst : StableHlo.TRef sig ⟨S_, .f32⟩) (constant S_ .f32 0x00000000#32),
    StableHlo.TRef.unary (.of main_call9_cst : StableHlo.TRef sig ⟨S_, .f32⟩) (.of main_call9_v0 : StableHlo.TRef sig ⟨S100000x128, .f32⟩) (broadcastInDim S100000x128 ![] bcast_S_S100000x128),
    StableHlo.TRef.binary (.of main_v161 : StableHlo.TRef sig ⟨S100000x128, .f32⟩) (.of main_call9_v0 : StableHlo.TRef sig ⟨S100000x128, .f32⟩) (.of main_v162 : StableHlo.TRef sig ⟨S100000x128, .f32⟩) maximumf,
    StableHlo.binary main_v162 main_arg19 main_v163 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg20 main_v164 (broadcastInDim S1x64 ![1] bcast_S64_S1x64_1 : (⟨S64, .f32⟩ : BufTy).Contents (Elt F) → (⟨S1x64, .f32⟩ : BufTy).Contents (Elt F)),
    StableHlo.unary main_v164 main_v165 (broadcastInDim S100000x64 ![0, 1] bcast_S1x64_S100000x64_0_1 : (⟨S1x64, .f32⟩ : BufTy).Contents (Elt F) → (⟨S100000x64, .f32⟩ : BufTy).Contents (Elt F)),
    StableHlo.binary main_v163 main_v165 main_v166 (addf : (⟨S100000x64, .f32⟩ : BufTy).Contents (Elt F) → (⟨S100000x64, .f32⟩ : BufTy).Contents (Elt F) → (⟨S100000x64, .f32⟩ : BufTy).Contents (Elt F)),
    StableHlo.TRef.nullary (.of main_call10_cst : StableHlo.TRef sig ⟨S_, .f32⟩) (constant S_ .f32 0x00000000#32),
    StableHlo.TRef.unary (.of main_call10_cst : StableHlo.TRef sig ⟨S_, .f32⟩) (.of main_call10_v0 : StableHlo.TRef sig ⟨S100000x64, .f32⟩) (broadcastInDim S100000x64 ![] bcast_S_S100000x64),
    StableHlo.TRef.binary (.of main_v166 : StableHlo.TRef sig ⟨S100000x64, .f32⟩) (.of main_call10_v0 : StableHlo.TRef sig ⟨S100000x64, .f32⟩) (.of main_v167 : StableHlo.TRef sig ⟨S100000x64, .f32⟩) maximumf,
    StableHlo.binary main_v167 main_arg21 main_v168 ((fun l r => Host.dotGeneral dot_S100000x64_S64x1_S100000x1_1_0_0_1_n_n none l r) : (⟨S100000x64, .f32⟩ : BufTy).Contents (Elt F) → (⟨S64x1, .f32⟩ : BufTy).Contents (Elt F) → (⟨S100000x1, .f32⟩ : BufTy).Contents (Elt F)),
    StableHlo.unary main_arg22 main_v169 (broadcastInDim S1x1 ![1] bcast_S1_S1x1_1 : (⟨S1, .f32⟩ : BufTy).Contents (Elt F) → (⟨S1x1, .f32⟩ : BufTy).Contents (Elt F)),
    StableHlo.unary main_v169 main_v170 (broadcastInDim S100000x1 ![0, 1] bcast_S1x1_S100000x1_0_1 : (⟨S1x1, .f32⟩ : BufTy).Contents (Elt F) → (⟨S100000x1, .f32⟩ : BufTy).Contents (Elt F)),
    StableHlo.binary main_v168 main_v170 main_v171 (addf : (⟨S100000x1, .f32⟩ : BufTy).Contents (Elt F) → (⟨S100000x1, .f32⟩ : BufTy).Contents (Elt F) → (⟨S100000x1, .f32⟩ : BufTy).Contents (Elt F)),
    StableHlo.reshape main_v171 main_v172 rfl shapeCasts_S100000x1_S100000 ]
/-- The reference each operation of `ops_part3` writes, in the same order. -/
abbrev W_part3 : List (Ref sig .tc) :=
  [main_v147, main_v148, main_v149, main_v150, main_v151, main_call8_v0, main_call8_cst, main_call8_v1, main_call8_v2, main_v152, main_cst_31, main_v153, main_v154, main_v155, main_v156, main_v157, main_v158, main_v159, main_v160, main_v161, main_call9_cst, main_call9_v0, main_v162, main_v163, main_v164, main_v165, main_v166, main_call10_cst, main_call10_v0, main_v167, main_v168, main_v169, main_v170, main_v171, main_v172]

/-- @main's 292 operations, in order: the windows' lists, concatenated. -/
abbrev ops : List (HloOp τ sig (Elt F)) := ops_part0 ++ ops_part1 ++ ops_part2 ++ ops_part3
/-- The reference each operation of `ops` writes, in the same order. -/
abbrev W : List (Ref sig .tc) := W_part0 ++ W_part1 ++ W_part2 ++ W_part3
-- END TABLE

/-! ## @main is the sequence of the list -/

set_option maxRecDepth 8192 in
set_option maxHeartbeats 4000000 in
theorem main_part0_eq (c : Dev nD) : main_part0 (F := F) c = seq ops_part0 := rfl
set_option maxRecDepth 8192 in
set_option maxHeartbeats 4000000 in
theorem main_part1_eq (c : Dev nD) : main_part1 (F := F) c = seq ops_part1 := rfl
set_option maxRecDepth 8192 in
set_option maxHeartbeats 4000000 in
theorem main_part2_eq (c : Dev nD) : main_part2 (F := F) c = seq ops_part2 := rfl
set_option maxRecDepth 8192 in
set_option maxHeartbeats 4000000 in
theorem main_part3_eq (c : Dev nD) : main_part3 (F := F) c = seq ops_part3 := rfl

/-- @main runs its four windows in order, and a sequence of a concatenation is the sequences in order. -/
theorem main_eq (c : Dev nD) : main (F := F) c = seq ops := by
  simp only [ops, seq_append, bind_assoc, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore references only -/

set_option maxRecDepth 8192 in
theorem ops_part0_sub : (ops_part0 : List (HloOp τ sig (Elt F))).Forall fun op => op.bufs ⊆ tcRefs τ sig := by
  simp only [ops_part0, List.Forall, nullary_bufs_sub, unary_bufs_sub, binary_bufs_sub, ternary_bufs_sub, reshape_bufs_sub,
    nary_bufs_sub, and_self]
set_option maxRecDepth 8192 in
theorem ops_part1_sub : (ops_part1 : List (HloOp τ sig (Elt F))).Forall fun op => op.bufs ⊆ tcRefs τ sig := by
  simp only [ops_part1, List.Forall, nullary_bufs_sub, unary_bufs_sub, binary_bufs_sub, ternary_bufs_sub, reshape_bufs_sub,
    nary_bufs_sub, and_self]
set_option maxRecDepth 8192 in
theorem ops_part2_sub : (ops_part2 : List (HloOp τ sig (Elt F))).Forall fun op => op.bufs ⊆ tcRefs τ sig := by
  simp only [ops_part2, List.Forall, nullary_bufs_sub, unary_bufs_sub, binary_bufs_sub, ternary_bufs_sub, reshape_bufs_sub,
    nary_bufs_sub, and_self]
set_option maxRecDepth 8192 in
theorem ops_part3_sub : (ops_part3 : List (HloOp τ sig (Elt F))).Forall fun op => op.bufs ⊆ tcRefs τ sig := by
  simp only [ops_part3, List.Forall, nullary_bufs_sub, unary_bufs_sub, binary_bufs_sub, ternary_bufs_sub, reshape_bufs_sub,
    nary_bufs_sub, and_self]

theorem ops_sub : (ops : List (HloOp τ sig (Elt F))).Forall fun op => op.bufs ⊆ tcRefs τ sig :=
  List.forall_iff_forall_mem.mpr fun op h => by
    simp only [ops, List.mem_append] at h
    rcases h with ((h | h) | h) | h
    exacts [List.forall_iff_forall_mem.mp ops_part0_sub op h, List.forall_iff_forall_mem.mp ops_part1_sub op h,
      List.forall_iff_forall_mem.mp ops_part2_sub op h, List.forall_iff_forall_mem.mp ops_part3_sub op h]

/-! ## Every operation writes exactly the reference listed at its place -/

/-- An operation and a reference are paired when the operation's written set is that one reference. -/
abbrev WritesAt (o : HloOp τ sig (Elt F)) (w : Ref sig .tc) : Prop := o.writes = {Proc.devRef (τ := τ) .tc w}

set_option maxRecDepth 8192 in
theorem ops_part0_writes : List.Forall₂ (WritesAt (F := F)) ops_part0 W_part0 := by
  repeat (first | exact List.Forall₂.nil | refine List.Forall₂.cons rfl ?_)
set_option maxRecDepth 8192 in
theorem ops_part1_writes : List.Forall₂ (WritesAt (F := F)) ops_part1 W_part1 := by
  repeat (first | exact List.Forall₂.nil | refine List.Forall₂.cons rfl ?_)
set_option maxRecDepth 8192 in
theorem ops_part2_writes : List.Forall₂ (WritesAt (F := F)) ops_part2 W_part2 := by
  repeat (first | exact List.Forall₂.nil | refine List.Forall₂.cons rfl ?_)
set_option maxRecDepth 8192 in
theorem ops_part3_writes : List.Forall₂ (WritesAt (F := F)) ops_part3 W_part3 := by
  repeat (first | exact List.Forall₂.nil | refine List.Forall₂.cons rfl ?_)

theorem ops_writes : List.Forall₂ (WritesAt (F := F)) ops W :=
  List.rel_append (List.rel_append (List.rel_append ops_part0_writes ops_part1_writes) ops_part2_writes) ops_part3_writes

end Cert.ReferenceIdeal.RefVal

end
-- ==== Proof.RefRun.lean ====
/-
  The reference program's run, read back.

  The reference's @main is a straight line of 292 host operations in single-assignment form: operation k writes exactly
  the reference W[k], no reference is written twice, and no argument is written. For such a line the buffer contents
  after the run (the fold of the operations' results over the launch contents) are read one operation at a time:

    * a reference that no operation from place k on writes holds after the first k operations what it holds at the end;
    * the reference written at place k holds, at the end, the result of operation k over the contents after the first k
      operations, that is, the operation's function of its operands' FINAL contents, since the operands were written
      before place k and never again.

  So every stage of the reference is its printed operation applied to the final contents of its operand buffers,
  whatever the other operations are. The run theorem states the result buffer at the fold and every argument unchanged;
  the stage lemmas then walk from the result back to the arguments.
-/
import proofs.«113076_j55267639165123_2_alg».proof.Proof.RefOps

noncomputable section

namespace Cert.ReferenceIdeal.RefVal

open Cert.ReferenceIdeal Cert.ReferenceIdeal.Gen Idealize.ShloMosaic Idealize.ShloMosaic.TcCoe Idealize.SL.Sem Idealize.ShloMosaic.StableHlo

variable {F : FTy → Type} [FloatOps F]

/-! ## The fold over a line in single-assignment form -/

/-- The fold of a concatenation is the two folds in order. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- A reference that is none of those a line writes keeps its contents through the line. -/
theorem after_keep : ∀ {l : List (HloOp τ sig (Elt F))} {Wl : List (Ref sig .tc)}, List.Forall₂ (WritesAt (F := F)) l Wl →
    ∀ (V : Valuation τ sig (Elt F)) {r : Ref sig .tc}, r ∉ Wl → after l V (Proc.devRef .tc r) = V (Proc.devRef .tc r)
  | _, _, .nil, _, _, _ => rfl
  | _, _, @List.Forall₂.cons _ _ _ o w _ _ h t, V, r, hr => by
    have hne : (Proc.devRef (τ := τ) .tc r) ∉ o.writes := by
      rw [h, Finset.mem_singleton]
      intro e
      exact hr (List.mem_cons.mpr (Or.inl (Proc.devRef_injective _ e)))
    rw [after_cons, after_keep t _ (fun hm => hr (List.mem_cons_of_mem _ hm))]
    exact o.result_of_not_mem V hne

/-- A reference not written from place k on holds, after the first k operations, what it holds at the end. -/
theorem after_take {l : List (HloOp τ sig (Elt F))} {Wl : List (Ref sig .tc)} (hW : List.Forall₂ (WritesAt (F := F)) l Wl)
    (k : Nat) (V : Valuation τ sig (Elt F)) (a : Ref sig .tc) (ha : a ∉ Wl.drop k) :
    after (l.take k) V (Proc.devRef .tc a) = after l V (Proc.devRef .tc a) :=
  calc after (l.take k) V (Proc.devRef .tc a)
      = after (l.drop k) (after (l.take k) V) (Proc.devRef .tc a) := (after_keep (List.forall₂_drop k hW) _ ha).symm
    _ = after (l.take k ++ l.drop k) V (Proc.devRef .tc a) := by rw [after_app]
    _ = after l V (Proc.devRef .tc a) := by rw [List.take_append_drop]

/-- The reference written at place k holds, at the end, the result of operation k over the contents after the first k
    operations: no later operation writes it. -/
theorem after_at {l : List (HloOp τ sig (Elt F))} {Wl : List (Ref sig .tc)} (hW : List.Forall₂ (WritesAt (F := F)) l Wl)
    (k : Nat) {op : HloOp τ sig (Elt F)} (hk : l[k]? = some op) (V : Valuation τ sig (Elt F)) (y : Ref sig .tc)
    (hy : y ∉ Wl.drop (k + 1)) :
    after l V (Proc.devRef .tc y) = op.result (after (l.take k) V) (Proc.devRef .tc y) := by
  obtain ⟨hlt, rfl⟩ := List.getElem?_eq_some_iff.mp hk
  have e : l.take k ++ l[k] :: l.drop (k + 1) = l := by rw [← List.drop_eq_getElem_cons hlt, List.take_append_drop]
  calc after l V (Proc.devRef .tc y)
      = after (l.take k ++ l[k] :: l.drop (k + 1)) V (Proc.devRef .tc y) := by rw [e]
    _ = after (l.drop (k + 1)) (l[k].result (after (l.take k) V)) (Proc.devRef .tc y) := by rw [after_app, after_cons]
    _ = l[k].result (after (l.take k) V) (Proc.devRef .tc y) := after_keep (List.forall₂_drop (k + 1) hW) _ hy

/-! ## The run -/

/-- No operation of @main writes a reference outside the list: such a reference ends as it was launched. -/
theorem arg_keep (V : Valuation τ sig (Elt F)) (a : Ref sig .tc) (ha : a ∉ (W : List (Ref sig .tc))) :
    after ops V (Proc.devRef .tc a) = V (Proc.devRef .tc a) :=
  after_keep ops_writes V ha

/-- On every device, for any float values, from any memory with zero counters: every weakly fair execution of @main
    terminates with the result buffer at the fold of the 292 operations over the launch contents, and every argument
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v172) = after ops (launchContents m c) (Proc.devRef .tc main_v172)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  (θ_run defs _ _).mono (fun _ h c => ⟨h c main_v172,
      (h c main_arg0).trans (arg_keep _ main_arg0 (by decide)),
      (h c main_arg1).trans (arg_keep _ main_arg1 (by decide)),
      (h c main_arg2).trans (arg_keep _ main_arg2 (by decide)),
      (h c main_arg3).trans (arg_keep _ main_arg3 (by decide)),
      (h c main_arg4).trans (arg_keep _ main_arg4 (by decide)),
      (h c main_arg5).trans (arg_keep _ main_arg5 (by decide)),
      (h c main_arg6).trans (arg_keep _ main_arg6 (by decide)),
      (h c main_arg7).trans (arg_keep _ main_arg7 (by decide)),
      (h c main_arg8).trans (arg_keep _ main_arg8 (by decide)),
      (h c main_arg9).trans (arg_keep _ main_arg9 (by decide)),
      (h c main_arg10).trans (arg_keep _ main_arg10 (by decide)),
      (h c main_arg11).trans (arg_keep _ main_arg11 (by decide)),
      (h c main_arg12).trans (arg_keep _ main_arg12 (by decide)),
      (h c main_arg13).trans (arg_keep _ main_arg13 (by decide)),
      (h c main_arg14).trans (arg_keep _ main_arg14 (by decide)),
      (h c main_arg15).trans (arg_keep _ main_arg15 (by decide)),
      (h c main_arg16).trans (arg_keep _ main_arg16 (by decide)),
      (h c main_arg17).trans (arg_keep _ main_arg17 (by decide)),
      (h c main_arg18).trans (arg_keep _ main_arg18 (by decide)),
      (h c main_arg19).trans (arg_keep _ main_arg19 (by decide)),
      (h c main_arg20).trans (arg_keep _ main_arg20 (by decide)),
      (h c main_arg21).trans (arg_keep _ main_arg21 (by decide)),
      (h c main_arg22).trans (arg_keep _ main_arg22 (by decide))⟩)
    (run_seq scopedRefs_eq scopedSems_eq defs main (fun _ => ops) main_eq (fun _ => ops_sub) m ρ)

/-! ## One stage at a time

For the operation at place k of @main, of each arity: the final contents of the reference it writes are its function of
the final contents of its operands. The operands were written before place k (or are arguments) and nothing from place
k on writes them; nothing after place k writes the result. -/

theorem stage_nullary (k : Nat) {y : Ref sig .tc} {v : y.ty.Contents (Elt F)} {hy}
    (hk : (ops : List (HloOp τ sig (Elt F)))[k]? = some (nullary y v hy))
    (hy' : y ∉ (W : List (Ref sig .tc)).drop (k + 1)) (V : Valuation τ sig (Elt F)) :
    after ops V (Proc.devRef .tc y) = v := by
  rw [after_at ops_writes k hk V y hy', nullary_result]

theorem stage_unary (k : Nat) {x y : Ref sig .tc} {f : x.ty.Contents (Elt F) → y.ty.Contents (Elt F)} {hx hy}
    (hk : (ops : List (HloOp τ sig (Elt F)))[k]? = some (unary x y f hx hy))
    (hy' : y ∉ (W : List (Ref sig .tc)).drop (k + 1)) (hx' : x ∉ (W : List (Ref sig .tc)).drop k)
    (V : Valuation τ sig (Elt F)) :
    after ops V (Proc.devRef .tc y) = f (after ops V (Proc.devRef .tc x)) := by
  rw [after_at ops_writes k hk V y hy', unary_result, after_take ops_writes k V x hx']

theorem stage_binary (k : Nat) {a b y : Ref sig .tc}
    {f : a.ty.Contents (Elt F) → b.ty.Contents (Elt F) → y.ty.Contents (Elt F)} {ha hb hy}
    (hk : (ops : List (HloOp τ sig (Elt F)))[k]? = some (binary a b y f ha hb hy))
    (hy' : y ∉ (W : List (Ref sig .tc)).drop (k + 1)) (ha' : a ∉ (W : List (Ref sig .tc)).drop k)
    (hb' : b ∉ (W : List (Ref sig .tc)).drop k) (V : Valuation τ sig (Elt F)) :
    after ops V (Proc.devRef .tc y) = f (after ops V (Proc.devRef .tc a)) (after ops V (Proc.devRef .tc b)) := by
  rw [after_at ops_writes k hk V y hy', binary_result, after_take ops_writes k V a ha', after_take ops_writes k V b hb']

theorem stage_ternary (k : Nat) {c a b y : Ref sig .tc}
    {f : c.ty.Contents (Elt F) → a.ty.Contents (Elt F) → b.ty.Contents (Elt F) → y.ty.Contents (Elt F)} {hc ha hb hy}
    (hk : (ops : List (HloOp τ sig (Elt F)))[k]? = some (ternary c a b y f hc ha hb hy))
    (hy' : y ∉ (W : List (Ref sig .tc)).drop (k + 1)) (hc' : c ∉ (W : List (Ref sig .tc)).drop k)
    (ha' : a ∉ (W : List (Ref sig .tc)).drop k) (hb' : b ∉ (W : List (Ref sig .tc)).drop k)
    (V : Valuation τ sig (Elt F)) :
    after ops V (Proc.devRef .tc y)
      = f (after ops V (Proc.devRef .tc c)) (after ops V (Proc.devRef .tc a)) (after ops V (Proc.devRef .tc b)) := by
  rw [after_at ops_writes k hk V y hy', ternary_result, after_take ops_writes k V c hc', after_take ops_writes k V a ha',
    after_take ops_writes k V b hb']

/-! The same at a literal place k: the operation is the one the line holds at place k, and that the later operations
write neither its result nor, from place k on, its operands is decided over the list of written references. -/

/-- The stage written by the nullary operation at place k. -/
macro "stage0 " k:num ppSpace V:term:max : tactic =>
  `(tactic| (have h := stage_nullary $k rfl (by decide) $V; exact h))
/-- The stage written by the unary operation at place k. -/
macro "stage1 " k:num ppSpace V:term:max : tactic =>
  `(tactic| (have h := stage_unary $k rfl (by decide) (by decide) $V; exact h))
/-- The stage written by the binary operation at place k. -/
macro "stage2 " k:num ppSpace V:term:max : tactic =>
  `(tactic| (have h := stage_binary $k rfl (by decide) (by decide) (by decide) $V; exact h))
/-- The stage written by the ternary operation at place k. -/
macro "stage3 " k:num ppSpace V:term:max : tactic =>
  `(tactic| (have h := stage_ternary $k rfl (by decide) (by decide) (by decide) (by decide) $V; exact h))

/-- The stage written by a reshape at place k: the operand's final contents, re-indexed along the row-major order. -/
theorem stage_reshape (k : Nat) {x y : Ref sig .tc} {he hn hx hy}
    (hk : (ops : List (HloOp τ sig (Elt F)))[k]? = some (reshape x y he hn hx hy))
    (hy' : y ∉ (W : List (Ref sig .tc)).drop (k + 1)) (hx' : x ∉ (W : List (Ref sig .tc)).drop k)
    (V : Valuation τ sig (Elt F)) :
    after ops V (Proc.devRef .tc y) = fun i => he ▸ shapeCast y.ty.shape (after ops V (Proc.devRef .tc x)) hn i := by
  rw [after_at ops_writes k hk V y hy', reshape_result, after_take ops_writes k V x hx']

/-- The stage written by an operation over a family of operands at place k. -/
theorem stage_nary (k : Nat) {n : Nat} {xs : Fin n → Ref sig .tc} {y : Ref sig .tc}
    {f : ((j : Fin n) → (xs j).ty.Contents (Elt F)) → y.ty.Contents (Elt F)} {hxs hy}
    (hk : (ops : List (HloOp τ sig (Elt F)))[k]? = some (nary xs y f hxs hy))
    (hy' : y ∉ (W : List (Ref sig .tc)).drop (k + 1)) (hxs' : ∀ j, xs j ∉ (W : List (Ref sig .tc)).drop k)
    (V : Valuation τ sig (Elt F)) :
    after ops V (Proc.devRef .tc y) = f (fun j => after ops V (Proc.devRef .tc (xs j))) := by
  rw [after_at ops_writes k hk V y hy', nary_result]
  congr 1
  funext j
  exact after_take ops_writes k V (xs j) (hxs' j)

/-- The stage written by the reshape at place k. -/
macro "stageR " k:num ppSpace V:term:max : tactic =>
  `(tactic| (have h := stage_reshape $k rfl (by decide) (by decide) $V; exact h))
/-- The stage written by the operation over a family of operands at place k. -/
macro "stageN " k:num ppSpace V:term:max : tactic =>
  `(tactic| (have h := stage_nary $k rfl (by decide) (by decide) $V; exact h))

/-! ## The arguments -/

/-- The launch contents of a device's buffer are the launch memory at that buffer's location. -/
theorem launch_at (m : (ℓ : Loc nD τ sig) → Buf (Elt F) ℓ) (c : Dev nD) (b : Ref sig .tc) :
    launchContents m c (Proc.devRef .tc b) = m ((c.tc : Thread nD τ).loc b) := rfl

theorem arg_main_arg0 (m : (ℓ : Loc nD τ sig) → Buf (Elt F) ℓ) (c : Dev nD) :
    after ops (launchContents m c) (Proc.devRef .tc main_arg0) = m ((c.tc : Thread nD τ).loc main_arg0) := arg_keep _ main_arg0 (by decide)
theorem arg_main_arg1 (m : (ℓ : Loc nD τ sig) → Buf (Elt F) ℓ) (c : Dev nD) :
    after ops (launchContents m c) (Proc.devRef .tc main_arg1) = m ((c.tc : Thread nD τ).loc main_arg1) := arg_keep _ main_arg1 (by decide)
theorem arg_main_arg2 (m : (ℓ : Loc nD τ sig) → Buf (Elt F) ℓ) (c : Dev nD) :
    after ops (launchContents m c) (Proc.devRef .tc main_arg2) = m ((c.tc : Thread nD τ).loc main_arg2) := arg_keep _ main_arg2 (by decide)
theorem arg_main_arg3 (m : (ℓ : Loc nD τ sig) → Buf (Elt F) ℓ) (c : Dev nD) :
    after ops (launchContents m c) (Proc.devRef .tc main_arg3) = m ((c.tc : Thread nD τ).loc main_arg3) := arg_keep _ main_arg3 (by decide)
theorem arg_main_arg4 (m : (ℓ : Loc nD τ sig) → Buf (Elt F) ℓ) (c : Dev nD) :
    after ops (launchContents m c) (Proc.devRef .tc main_arg4) = m ((c.tc : Thread nD τ).loc main_arg4) := arg_keep _ main_arg4 (by decide)
theorem arg_main_arg5 (m : (ℓ : Loc nD τ sig) → Buf (Elt F) ℓ) (c : Dev nD) :
    after ops (launchContents m c) (Proc.devRef .tc main_arg5) = m ((c.tc : Thread nD τ).loc main_arg5) := arg_keep _ main_arg5 (by decide)
theorem arg_main_arg6 (m : (ℓ : Loc nD τ sig) → Buf (Elt F) ℓ) (c : Dev nD) :
    after ops (launchContents m c) (Proc.devRef .tc main_arg6) = m ((c.tc : Thread nD τ).loc main_arg6) := arg_keep _ main_arg6 (by decide)
theorem arg_main_arg7 (m : (ℓ : Loc nD τ sig) → Buf (Elt F) ℓ) (c : Dev nD) :
    after ops (launchContents m c) (Proc.devRef .tc main_arg7) = m ((c.tc : Thread nD τ).loc main_arg7) := arg_keep _ main_arg7 (by decide)
theorem arg_main_arg8 (m : (ℓ : Loc nD τ sig) → Buf (Elt F) ℓ) (c : Dev nD) :
    after ops (launchContents m c) (Proc.devRef .tc main_arg8) = m ((c.tc : Thread nD τ).loc main_arg8) := arg_keep _ main_arg8 (by decide)
theorem arg_main_arg9 (m : (ℓ : Loc nD τ sig) → Buf (Elt F) ℓ) (c : Dev nD) :
    after ops (launchContents m c) (Proc.devRef .tc main_arg9) = m ((c.tc : Thread nD τ).loc main_arg9) := arg_keep _ main_arg9 (by decide)
theorem arg_main_arg10 (m : (ℓ : Loc nD τ sig) → Buf (Elt F) ℓ) (c : Dev nD) :
    after ops (launchContents m c) (Proc.devRef .tc main_arg10) = m ((c.tc : Thread nD τ).loc main_arg10) := arg_keep _ main_arg10 (by decide)
theorem arg_main_arg11 (m : (ℓ : Loc nD τ sig) → Buf (Elt F) ℓ) (c : Dev nD) :
    after ops (launchContents m c) (Proc.devRef .tc main_arg11) = m ((c.tc : Thread nD τ).loc main_arg11) := arg_keep _ main_arg11 (by decide)
theorem arg_main_arg12 (m : (ℓ : Loc nD τ sig) → Buf (Elt F) ℓ) (c : Dev nD) :
    after ops (launchContents m c) (Proc.devRef .tc main_arg12) = m ((c.tc : Thread nD τ).loc main_arg12) := arg_keep _ main_arg12 (by decide)
theorem arg_main_arg13 (m : (ℓ : Loc nD τ sig) → Buf (Elt F) ℓ) (c : Dev nD) :
    after ops (launchContents m c) (Proc.devRef .tc main_arg13) = m ((c.tc : Thread nD τ).loc main_arg13) := arg_keep _ main_arg13 (by decide)
theorem arg_main_arg14 (m : (ℓ : Loc nD τ sig) → Buf (Elt F) ℓ) (c : Dev nD) :
    after ops (launchContents m c) (Proc.devRef .tc main_arg14) = m ((c.tc : Thread nD τ).loc main_arg14) := arg_keep _ main_arg14 (by decide)
theorem arg_main_arg15 (m : (ℓ : Loc nD τ sig) → Buf (Elt F) ℓ) (c : Dev nD) :
    after ops (launchContents m c) (Proc.devRef .tc main_arg15) = m ((c.tc : Thread nD τ).loc main_arg15) := arg_keep _ main_arg15 (by decide)
theorem arg_main_arg16 (m : (ℓ : Loc nD τ sig) → Buf (Elt F) ℓ) (c : Dev nD) :
    after ops (launchContents m c) (Proc.devRef .tc main_arg16) = m ((c.tc : Thread nD τ).loc main_arg16) := arg_keep _ main_arg16 (by decide)
theorem arg_main_arg17 (m : (ℓ : Loc nD τ sig) → Buf (Elt F) ℓ) (c : Dev nD) :
    after ops (launchContents m c) (Proc.devRef .tc main_arg17) = m ((c.tc : Thread nD τ).loc main_arg17) := arg_keep _ main_arg17 (by decide)
theorem arg_main_arg18 (m : (ℓ : Loc nD τ sig) → Buf (Elt F) ℓ) (c : Dev nD) :
    after ops (launchContents m c) (Proc.devRef .tc main_arg18) = m ((c.tc : Thread nD τ).loc main_arg18) := arg_keep _ main_arg18 (by decide)
theorem arg_main_arg19 (m : (ℓ : Loc nD τ sig) → Buf (Elt F) ℓ) (c : Dev nD) :
    after ops (launchContents m c) (Proc.devRef .tc main_arg19) = m ((c.tc : Thread nD τ).loc main_arg19) := arg_keep _ main_arg19 (by decide)
theorem arg_main_arg20 (m : (ℓ : Loc nD τ sig) → Buf (Elt F) ℓ) (c : Dev nD) :
    after ops (launchContents m c) (Proc.devRef .tc main_arg20) = m ((c.tc : Thread nD τ).loc main_arg20) := arg_keep _ main_arg20 (by decide)
theorem arg_main_arg21 (m : (ℓ : Loc nD τ sig) → Buf (Elt F) ℓ) (c : Dev nD) :
    after ops (launchContents m c) (Proc.devRef .tc main_arg21) = m ((c.tc : Thread nD τ).loc main_arg21) := arg_keep _ main_arg21 (by decide)
theorem arg_main_arg22 (m : (ℓ : Loc nD τ sig) → Buf (Elt F) ℓ) (c : Dev nD) :
    after ops (launchContents m c) (Proc.devRef .tc main_arg22) = m ((c.tc : Thread nD τ).loc main_arg22) := arg_keep _ main_arg22 (by decide)

end Cert.ReferenceIdeal.RefVal

end
-- ==== Proof.KFoldTac.lean ====
/-
  Walking a buffer's contents back through the run.

  The run's buffer contents are a fold over @main's segments: a stretch of host operations rewrites the buffers its
  operations write and leaves every other buffer as it was; a region rewrites its output array and leaves every other
  buffer, its own input arrays included, as it found them.  A value produced at one segment and used at a later one is
  therefore the same at both: one step per segment in between.
-/
import proofs.«113076_j55267639165123_2_alg».proof.Proof.Gen.KernelIdeal.Frame
import Idealize.ShloMosaic.Lib.StableHlo.Run
import Idealize.ShloMosaic.Lib.ValueIdx

set_option maxRecDepth 16384

noncomputable section

namespace Cert.KernelIdeal.KVal

open Idealize.ShloMosaic Idealize.ShloMosaic.TcCoe Idealize.ShloMosaic.ValueIdx Idealize.SL.Sem Cert.KernelIdeal Cert.KernelIdeal.Gen

/-- A stretch of host operations leaves a buffer it does not write as it was. -/
macro "host_skip" : tactic => `(tactic|
  exact StableHlo.after_of_forall_not_mem _ _ (List.forall_iff_forall_mem.mp (by
    simp only [hostOps0, hostOps1, hostOps2, hostOps2_1, hostOps3, hostOps4, hostOps4_1, hostOps5, hostOps6, hostOps6_1,
      hostOps7, hostOps8, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-- One step back through a host stretch that does not write the buffer. -/
macro "hb" : tactic => `(tactic| refine Eq.trans (by host_skip) ?_)
/-- One step back through a region none of whose arrays is the buffer (one step per region, named by the level the region
    leaves). -/
macro "rb2" : tactic => `(tactic| refine Eq.trans (W2_of_ne _ _ _ _ (by decide)) ?_)
macro "rb4" : tactic => `(tactic| refine Eq.trans (W4_of_ne _ _ _ _ (by decide)) ?_)
macro "rb7" : tactic => `(tactic| refine Eq.trans (W7_of_ne _ _ _ _ (by decide)) ?_)
macro "rb9" : tactic => `(tactic| refine Eq.trans (W9_of_ne _ _ _ _ (by decide)) ?_)
macro "rb12" : tactic => `(tactic| refine Eq.trans (W12_of_ne _ _ _ _ (by decide)) ?_)
macro "rb14" : tactic => `(tactic| refine Eq.trans (W14_of_ne _ _ _ _ (by decide)) ?_)
macro "rb17" : tactic => `(tactic| refine Eq.trans (W17_of_ne _ _ _ _ (by decide)) ?_)
macro "rb19" : tactic => `(tactic| refine Eq.trans (W19_of_ne _ _ _ _ (by decide)) ?_)

variable (m : (ℓ : Loc nD τ sig) → Buf (Elt Ideal) ℓ) (ρ : Dev nD → PrngReg) (c : Dev nD)

/-! A region leaves each of its input arrays as it found it. -/

theorem W2_in (w : Fin cfg0.W) (hw : (cfg0.win w).isOut = false) :
    W2 (F := Ideal) m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))
theorem W4_in (w : Fin cfg1.W) (hw : (cfg1.win w).isOut = false) :
    W4 (F := Ideal) m ρ c (Proc.devRef .tc (Pipeline.arrRef spec1 w)) = W3 m ρ c (Proc.devRef .tc (Pipeline.arrRef spec1 w)) :=
  (W4_arr m ρ c w).trans (((dat1 (V3 m ρ) c).arrAt_in w hw _).trans (A_eq1 (V3 m ρ) c w))
theorem W7_in (w : Fin cfg2.W) (hw : (cfg2.win w).isOut = false) :
    W7 (F := Ideal) m ρ c (Proc.devRef .tc (Pipeline.arrRef spec2 w)) = W6 m ρ c (Proc.devRef .tc (Pipeline.arrRef spec2 w)) :=
  (W7_arr m ρ c w).trans (((dat2 (V6 m ρ) c).arrAt_in w hw _).trans (A_eq2 (V6 m ρ) c w))
theorem W9_in (w : Fin cfg3.W) (hw : (cfg3.win w).isOut = false) :
    W9 (F := Ideal) m ρ c (Proc.devRef .tc (Pipeline.arrRef spec3 w)) = W8 m ρ c (Proc.devRef .tc (Pipeline.arrRef spec3 w)) :=
  (W9_arr m ρ c w).trans (((dat3 (V8 m ρ) c).arrAt_in w hw _).trans (A_eq3 (V8 m ρ) c w))
theorem W12_in (w : Fin cfg4.W) (hw : (cfg4.win w).isOut = false) :
    W12 (F := Ideal) m ρ c (Proc.devRef .tc (Pipeline.arrRef spec4 w)) = W11 m ρ c (Proc.devRef .tc (Pipeline.arrRef spec4 w)) :=
  (W12_arr m ρ c w).trans (((dat4 (V11 m ρ) c).arrAt_in w hw _).trans (A_eq4 (V11 m ρ) c w))
theorem W14_in (w : Fin cfg5.W) (hw : (cfg5.win w).isOut = false) :
    W14 (F := Ideal) m ρ c (Proc.devRef .tc (Pipeline.arrRef spec5 w)) = W13 m ρ c (Proc.devRef .tc (Pipeline.arrRef spec5 w)) :=
  (W14_arr m ρ c w).trans (((dat5 (V13 m ρ) c).arrAt_in w hw _).trans (A_eq5 (V13 m ρ) c w))
theorem W17_in (w : Fin cfg6.W) (hw : (cfg6.win w).isOut = false) :
    W17 (F := Ideal) m ρ c (Proc.devRef .tc (Pipeline.arrRef spec6 w)) = W16 m ρ c (Proc.devRef .tc (Pipeline.arrRef spec6 w)) :=
  (W17_arr m ρ c w).trans (((dat6 (V16 m ρ) c).arrAt_in w hw _).trans (A_eq6 (V16 m ρ) c w))
theorem W19_in (w : Fin cfg7.W) (hw : (cfg7.win w).isOut = false) :
    W19 (F := Ideal) m ρ c (Proc.devRef .tc (Pipeline.arrRef spec7 w)) = W18 m ρ c (Proc.devRef .tc (Pipeline.arrRef spec7 w)) :=
  (W19_arr m ρ c w).trans (((dat7 (V18 m ρ) c).arrAt_in w hw _).trans (A_eq7 (V18 m ρ) c w))

end Cert.KernelIdeal.KVal

end
-- ==== Proof.KHost1.lean ====
/-
  The kernel side's aggregation stretch, read off the run: the aggregated neighbour features are the row scatter-add,
  onto zeros and by the destination indices, of the rows gathered from the features by the source indices (a negative
  source index wrapped once by the node count); the two pieces of the neighbour weight are its first 128 rows and its
  last 2 rows.  The indices, the edge aggregates and the degree were computed before the first region and are the same
  values at every later point of the run.
-/
import proofs.«113076_j55267639165123_2_alg».proof.Proof.KFoldTac

set_option maxRecDepth 16384

noncomputable section

namespace Cert.KernelIdeal.KVal

open Idealize.ShloMosaic Idealize.ShloMosaic.TcCoe Idealize.ShloMosaic.ValueIdx Idealize.SL.Sem Cert.KernelIdeal Cert.KernelIdeal.Gen

/-- The gather's start indices from the source node numbers. -/
def gidx (src : IVec S1700000 32) : IVec S1700000x1 32 :=
  broadcastInDim S1700000x1 ![0] bcast_S1700000_S1700000x1_0
    (select (cmpi .slt src (broadcastInDim S1700000 ![] bcast_S_S1700000 (constantI S_ 32 0#32)))
      (addi src (broadcastInDim S1700000 ![] bcast_S_S1700000 (constantI S_ 32 100000#32))) src)

/-- The scatter's indices from the destination node numbers. -/
def sidx (dst : IVec S1700000 32) : IVec S1700000x1 32 :=
  broadcastInDim S1700000x1 ![0] bcast_S1700000_S1700000x1_0 dst

/-- The zero array the aggregation starts from. -/
def zeros128 : FVec Ideal S100000x128 .f32 :=
  broadcastInDim S100000x128 ![] bcast_S_S100000x128 (constant S_ .f32 0x00000000#32)

/-- Aggregated neighbour features of a feature array. -/
def aggK (h : FVec Ideal S100000x128 .f32) (src dst : IVec S1700000 32) : FVec Ideal S100000x128 .f32 :=
  Host.scatterAdd scatter_S100000x128_S1700000x1_S1700000x128_1_0_0_1 zeros128 (sidx dst)
    (Host.gather gather_S100000x128_S1700000x1_S1700000x128_1_0_n_n_0_1_1128 h (gidx src))

variable (m : (ℓ : Loc nD τ sig) → Buf (Elt Ideal) ℓ) (ρ : Dev nD → PrngReg) (c : Dev nD)

set_option maxHeartbeats 4000000 in
theorem G0_at3 : (W3 (F := Ideal) m ρ c (Proc.devRef .tc main_v29) : S100000x128.Idx → EReal)
    = aggK (W2 (F := Ideal) m ρ c (Proc.devRef .tc main_v19)) (W2 (F := Ideal) m ρ c (Proc.devRef .tc main_v3))
        (W2 (F := Ideal) m ρ c (Proc.devRef .tc main_v6)) := by
  unfold aggK gidx sidx zeros128
  show StableHlo.after hostOps1 (W2 m ρ c) (Proc.devRef .tc main_v29) = _
  after_results

theorem Wn1_0_at3 : (W3 (F := Ideal) m ρ c (Proc.devRef .tc main_v30) : S128x128.Idx → EReal)
    = extractStridedSlice S128x128 ![0, 0] (W2 (F := Ideal) m ρ c (Proc.devRef .tc main_arg5) : S130x128.Idx → EReal)
        slices_S130x128_S128x128_0_0 := by
  show StableHlo.after hostOps1 (W2 m ρ c) (Proc.devRef .tc main_v30) = _
  after_results

theorem Wn2_0_at3 : (W3 (F := Ideal) m ρ c (Proc.devRef .tc main_v31) : S2x128.Idx → EReal)
    = extractStridedSlice S2x128 ![128, 0] (W2 (F := Ideal) m ρ c (Proc.devRef .tc main_arg5) : S130x128.Idx → EReal)
        slices_S130x128_S2x128_128_0 := by
  show StableHlo.after hostOps1 (W2 m ρ c) (Proc.devRef .tc main_v31) = _
  after_results

/-! The values computed before the first region, at the first aggregation stretch's entry. -/
theorem src_at2 : W2 (F := Ideal) m ρ c (Proc.devRef .tc main_v3) = W1 m ρ c (Proc.devRef .tc main_v3) := by rb2; rfl
theorem dst_at2 : W2 (F := Ideal) m ρ c (Proc.devRef .tc main_v6) = W1 m ρ c (Proc.devRef .tc main_v6) := by rb2; rfl
theorem arg5_at2 : W2 (F := Ideal) m ρ c (Proc.devRef .tc main_arg5) = m ((c : Thread nD τ).loc main_arg5) := by
  rb2; hb; rfl
/-! … and at the first update region's entry. -/
theorem Se_at3 : W3 (F := Ideal) m ρ c (Proc.devRef .tc main_v18) = W1 m ρ c (Proc.devRef .tc main_v18) := by hb; rb2; rfl
theorem den_at3 : W3 (F := Ideal) m ρ c (Proc.devRef .tc main_v15) = W1 m ρ c (Proc.devRef .tc main_v15) := by hb; rb2; rfl
theorem h0_at3 : W3 (F := Ideal) m ρ c (Proc.devRef .tc main_v19) = W2 m ρ c (Proc.devRef .tc main_v19) := by hb; rfl
theorem arg6_at3 : W3 (F := Ideal) m ρ c (Proc.devRef .tc main_arg6) = m ((c : Thread nD τ).loc main_arg6) := by
  hb; rb2; hb; rfl

end Cert.KernelIdeal.KVal

end
-- ==== Proof.LibRowScatter.lean ====
/-
  A scatter-add of rows, read at an entry.

  The operand has N rows of C entries; update row e (of E rows, C entries each) is added onto the operand row named by
  the e-th scatter index, read as a signed integer, and is dropped when that integer is not a row number.  Entry (n, q)
  of the result is therefore the operand's entry plus the sum, over the update rows e whose index is n, of the update's
  entry (e, q): a sum over a set of rows that depends on n and on the indices only, not on the column q and not on the
  updates.  That is what lets a row-wise linear map pass through the scatter.
-/
import Idealize.ShloMosaic.PureOps.Ideal
import Idealize.ShloMosaic.Lib.ValueIdx

noncomputable section

namespace Cert.LibRowScatter

open Idealize.ShloMosaic Idealize.ShloMosaic.ValueIdx Finset

variable {N E C : Nat}

/-- The dimension numbers of a scatter of whole rows: the update's axis 1 is the window, the operand's axis 0 is
    inserted and is the one the single index component names. -/
abbrev rowDims (wf : ScatterDims.WF (⟨2, ![N, C]⟩ : Shape) ⟨2, ![E, 1]⟩ ⟨2, ![E, C]⟩ [1] [0] [0] 1) :
    ScatterDims ⟨2, ![N, C]⟩ ⟨2, ![E, 1]⟩ ⟨2, ![E, C]⟩ := ⟨[1], [0], [0], 1, wf⟩

theorem window_zero (wf : ScatterDims.WF (⟨2, ![N, C]⟩ : Shape) ⟨2, ![E, 1]⟩ ⟨2, ![E, C]⟩ [1] [0] [0] 1) (j : (⟨2, ![E, C]⟩ : Shape).Idx) :
    (rowDims (N := N) wf).window j 0 = 0 := by
  unfold ScatterDims.window
  rw [dif_neg (by simp [ScatterDims.sKept, Shape.kept, List.mem_filter, List.mem_finRange])]

theorem window_one (wf : ScatterDims.WF (⟨2, ![N, C]⟩ : Shape) ⟨2, ![E, 1]⟩ ⟨2, ![E, C]⟩ [1] [0] [0] 1) (j : (⟨2, ![E, C]⟩ : Shape).Idx) :
    (rowDims (N := N) wf).window j 1 = (j 1).val := by
  unfold ScatterDims.window
  rw [dif_pos (by simp [ScatterDims.sKept, Shape.kept, List.mem_filter, List.mem_finRange])]
  rfl

theorem start_one (wf : ScatterDims.WF (⟨2, ![N, C]⟩ : Shape) ⟨2, ![E, 1]⟩ ⟨2, ![E, C]⟩ [1] [0] [0] 1) {w : Nat} (idx : IVec ⟨2, ![E, 1]⟩ w) (j : (⟨2, ![E, C]⟩ : Shape).Idx) :
    (rowDims (N := N) wf).start j idx 1 = 0 := by
  unfold ScatterDims.start
  rw [dif_neg (by simp)]

theorem start_zero (wf : ScatterDims.WF (⟨2, ![N, C]⟩ : Shape) ⟨2, ![E, 1]⟩ ⟨2, ![E, C]⟩ [1] [0] [0] 1) {w : Nat} (idx : IVec ⟨2, ![E, 1]⟩ w) (e : Fin E) (c : Fin C) :
    (rowDims (N := N) wf).start (ix2 e c) idx 0 = (idx (ix2 e 0)).toInt := by
  unfold ScatterDims.start
  rw [dif_pos (by simp)]
  congr 2
  funext b
  match b with
  | ⟨0, _⟩ => rfl
  | ⟨1, _⟩ => rfl

/-- Update entry (e, c) lands on operand entry (n, q) exactly when row e's index is n and the columns agree. -/
theorem resultIdx_iff (wf : ScatterDims.WF (⟨2, ![N, C]⟩ : Shape) ⟨2, ![E, 1]⟩ ⟨2, ![E, C]⟩ [1] [0] [0] 1) {w : Nat} (idx : IVec ⟨2, ![E, 1]⟩ w) (e : Fin E) (c q : Fin C) (n : Fin N) :
    (rowDims (N := N) wf).resultIdx? (ix2 e c) idx = some (ix2 n q)
      ↔ (idx (ix2 e 0)).toInt = (n.val : ℤ) ∧ c = q := by
  have hs0 := start_zero (N := N) wf idx e c
  have hw0 := window_zero (N := N) wf (ix2 e c)
  have hs1 := start_one (N := N) wf idx (ix2 e c)
  have hw1 := window_one (N := N) wf (ix2 e c)
  have hj1 : ((ix2 e c : (⟨2, ![E, C]⟩ : Shape).Idx) 1).val = c.val := rfl
  unfold ScatterDims.resultIdx?
  constructor
  · intro h
    split at h
    · rename_i hc
      have hf := Option.some.inj h
      have h0 : ((rowDims (N := N) wf).start (ix2 e c) idx 0 + ((rowDims (N := N) wf).window (ix2 e c) 0 : ℤ)).toNat = n.val :=
        congrArg Fin.val (congrFun hf 0)
      have h1 : ((rowDims (N := N) wf).start (ix2 e c) idx 1 + ((rowDims (N := N) wf).window (ix2 e c) 1 : ℤ)).toNat = q.val :=
        congrArg Fin.val (congrFun hf 1)
      have hnn := (hc 0).1
      rw [hs0, hw0] at h0 hnn
      rw [hs1, hw1, hj1] at h1
      refine ⟨by omega, Fin.ext (by omega)⟩
    · exact absurd h (by simp)
  · rintro ⟨hz, rfl⟩
    have hc : ∀ a, 0 ≤ (rowDims (N := N) wf).start (ix2 e c) idx a + ((rowDims (N := N) wf).window (ix2 e c) a : ℤ)
        ∧ (rowDims (N := N) wf).start (ix2 e c) idx a + ((rowDims (N := N) wf).window (ix2 e c) a : ℤ)
            < ((⟨2, ![N, C]⟩ : Shape).size a : ℤ) := by
      intro a
      match a with
      | ⟨0, _⟩ =>
        show 0 ≤ (rowDims (N := N) wf).start (ix2 e c) idx 0 + ((rowDims (N := N) wf).window (ix2 e c) 0 : ℤ)
          ∧ (rowDims (N := N) wf).start (ix2 e c) idx 0 + ((rowDims (N := N) wf).window (ix2 e c) 0 : ℤ) < ((N : ℕ) : ℤ)
        rw [hs0, hw0, hz]
        have := n.isLt
        constructor <;> omega
      | ⟨1, _⟩ =>
        show 0 ≤ (rowDims (N := N) wf).start (ix2 e c) idx 1 + ((rowDims (N := N) wf).window (ix2 e c) 1 : ℤ)
          ∧ (rowDims (N := N) wf).start (ix2 e c) idx 1 + ((rowDims (N := N) wf).window (ix2 e c) 1 : ℤ) < ((C : ℕ) : ℤ)
        rw [hs1, hw1, hj1]
        have := c.isLt
        constructor <;> omega
    rw [dif_pos hc]
    congr 1
    funext a
    match a with
    | ⟨0, _⟩ =>
      refine Fin.ext ?_
      show ((rowDims (N := N) wf).start (ix2 e c) idx 0 + ((rowDims (N := N) wf).window (ix2 e c) 0 : ℤ)).toNat = n.val
      rw [hs0, hw0, hz]; omega
    | ⟨1, _⟩ =>
      refine Fin.ext ?_
      show ((rowDims (N := N) wf).start (ix2 e c) idx 1 + ((rowDims (N := N) wf).window (ix2 e c) 1 : ℤ)).toNat = c.val
      rw [hs1, hw1, hj1]; omega

/-- The host's accumulating scatter of rows at entry (n, q): the operand's entry plus the sum of the updates' entries
    (e, q) over the rows e whose index is n. -/
theorem scatterAdd_row_apply (wf : ScatterDims.WF (⟨2, ![N, C]⟩ : Shape) ⟨2, ![E, 1]⟩ ⟨2, ![E, C]⟩ [1] [0] [0] 1) {w : Nat} (x : (⟨2, ![N, C]⟩ : Shape).Idx → EReal) (idx : IVec ⟨2, ![E, 1]⟩ w)
    (upd : (⟨2, ![E, C]⟩ : Shape).Idx → EReal) (n : Fin N) (q : Fin C) :
    Ideal.hostScatterAdd (rowDims (N := N) wf) x idx upd (ix2 n q)
      = x (ix2 n q) + ∑ e ∈ univ.filter (fun e : Fin E => (idx (ix2 e 0)).toInt = (n.val : ℤ)), upd (ix2 e q) := by
  unfold Ideal.hostScatterAdd
  congr 1
  rw [Finset.sum_filter, sum_idx2, Finset.sum_filter]
  refine Finset.sum_congr rfl fun e _ => ?_
  simp only [resultIdx_iff (N := N) wf idx e _ q n]
  by_cases hz : (idx (ix2 e 0)).toInt = (n.val : ℤ)
  · simp only [hz, true_and, if_true]
    rw [Finset.sum_ite_eq' univ q (fun c => upd (ix2 e c))]
    simp
  · simp [hz]

/-- The same for the printed form of the operation, at any record that is the row scatter's. -/
theorem host_scatterAdd_row_apply (wf : ScatterDims.WF (⟨2, ![N, C]⟩ : Shape) ⟨2, ![E, 1]⟩ ⟨2, ![E, C]⟩ [1] [0] [0] 1) (d : ScatterDims (⟨2, ![N, C]⟩ : Shape) ⟨2, ![E, 1]⟩ ⟨2, ![E, C]⟩)
    (hd : d = rowDims (N := N) wf) {w : Nat} (x : FVec Ideal ⟨2, ![N, C]⟩ .f32) (idx : IVec ⟨2, ![E, 1]⟩ w)
    (upd : FVec Ideal ⟨2, ![E, C]⟩ .f32) (n : Fin N) (q : Fin C) :
    Host.scatterAdd d x idx upd (ix2 n q)
      = x (ix2 n q) + ∑ e ∈ univ.filter (fun e : Fin E => (idx (ix2 e 0)).toInt = (n.val : ℤ)), upd (ix2 e q) := by
  subst hd
  exact scatterAdd_row_apply (N := N) wf x idx upd n q

end Cert.LibRowScatter

end
-- ==== Proof.Spec.lean ====
/-
  The mathematics of the node-scoring network, index by index on the extended reals, with no program in sight.

  A graph has 100000 nodes carrying 128 features each.  Four kinds of dense stages act on node rows:
  * the input projection        h = x · W + b                                   (a 4-term contraction per entry);
  * the node update             relu((G · Wn₁ + Se · Wn₂) / denom + h · Ws)     (G, Se the aggregated neighbour and
                                                                                  edge features of the row, denom its degree);
  * normalisation               y = (pre − mean) · rsqrt(var + ε₅) · γ + β, then y / max(‖y‖₂, ε₁₂) row by row;
  * the scoring head            relu(l₀·J₀ + l₁·J₁ + l₂·J₂ + bj), then relu(· W₁ + b₁), then · W₂ + b₂.
  Every function below is the value of one entry, written over explicit row and column coordinates.
-/
import Idealize.ShloMosaic.PureOps.Ideal
import Idealize.ShloMosaic.Lib.ValueIdx

noncomputable section

namespace Cert.Spec

open Idealize.ShloMosaic Idealize.ShloMosaic.ValueIdx

/-- Arrays of extended reals over a literal two-axis or one-axis extent. -/
abbrev Arr2 (a b : Nat) := (⟨2, ![a, b]⟩ : Shape).Idx → EReal
abbrev Arr1 (a : Nat) := (⟨1, ![a]⟩ : Shape).Idx → EReal

/-- The two small positive constants of the normalisation, as the binary values both programs spell. -/
abbrev eps5 : EReal := Ideal.ofBits .f32 0x3727C5AC#32
abbrev eps12 : EReal := Ideal.ofBits .f32 0x2B8CBCCC#32

/-- Entry (r, q) of the input projection: the row of x against the column of W, plus the bias. -/
def projAt (x : Arr2 100000 4) (W : Arr2 4 128) (b : Arr1 128) (r : Fin 100000) (q : Fin 128) : EReal :=
  (∑ k : Fin 4, x (ix2 r k) * W (ix2 k q)) + b (ix1 q)

/-- Entry (r, q) of the node update: aggregated neighbour features through Wn₁ plus aggregated edge features through
    Wn₂, divided by the row's degree, plus the row's own features through Ws, clipped below at zero. -/
def nodeAt (G : Arr2 100000 128) (Se : Arr2 100000 2) (h : Arr2 100000 128) (Wn1 : Arr2 128 128) (Wn2 : Arr2 2 128)
    (Ws : Arr2 128 128) (denom : Arr2 100000 1) (r : Fin 100000) (q : Fin 128) : EReal :=
  max (Ideal.div ((∑ k : Fin 128, G (ix2 r k) * Wn1 (ix2 k q)) + (∑ k : Fin 2, Se (ix2 r k) * Wn2 (ix2 k q)))
        (denom (ix2 r 0))
      + ∑ k : Fin 128, h (ix2 r k) * Ws (ix2 k q)) 0

/-- Entry (r, k) after the affine normalisation by the column statistics. -/
def affAt (pre : Arr2 100000 128) (mean var gamma beta : Arr1 128) (r : Fin 100000) (k : Fin 128) : EReal :=
  ((pre (ix2 r k) - mean (ix1 k)) * Ideal.rsqrt (var (ix1 k) + eps5)) * gamma (ix1 k) + beta (ix1 k)

/-- Entry (r, q) of the normalised row: the affine value over the larger of the row's Euclidean length and ε₁₂. -/
def unitAt (pre : Arr2 100000 128) (mean var gamma beta : Arr1 128) (r : Fin 100000) (q : Fin 128) : EReal :=
  Ideal.div (affAt pre mean var gamma beta r q)
    (max (Ideal.sqrt (∑ k : Fin 128, affAt pre mean var gamma beta r k * affAt pre mean var gamma beta r k)) eps12)

/-- Entry (r, q) of the jump layer: the three layer outputs through their own 128 × 128 pieces, plus the bias,
    clipped below at zero. -/
def jumpAt (l0 l1 l2 : Arr2 100000 128) (J0 J1 J2 : Arr2 128 128) (bj : Arr1 128) (r : Fin 100000) (q : Fin 128) : EReal :=
  max ((((∑ k : Fin 128, l0 (ix2 r k) * J0 (ix2 k q)) + (∑ k : Fin 128, l1 (ix2 r k) * J1 (ix2 k q)))
        + (∑ k : Fin 128, l2 (ix2 r k) * J2 (ix2 k q))) + bj (ix1 q)) 0

/-- Entry (r, p) of the scorer's hidden layer. -/
def hidAt (l0 l1 l2 : Arr2 100000 128) (J0 J1 J2 : Arr2 128 128) (bj : Arr1 128) (W1 : Arr2 128 64) (b1 : Arr1 64)
    (r : Fin 100000) (p : Fin 64) : EReal :=
  max ((∑ k : Fin 128, jumpAt l0 l1 l2 J0 J1 J2 bj r k * W1 (ix2 k p)) + b1 (ix1 p)) 0

/-- The score of node r. -/
def scoreAt (l0 l1 l2 : Arr2 100000 128) (J0 J1 J2 : Arr2 128 128) (bj : Arr1 128) (W1 : Arr2 128 64) (b1 : Arr1 64)
    (W2 : Arr2 64 1) (b2 : Arr1 1) (r : Fin 100000) : EReal :=
  (∑ p : Fin 64, hidAt l0 l1 l2 J0 J1 J2 bj W1 b1 r p * W2 (ix2 p 0)) + b2 (ix1 0)

end Cert.Spec

end
-- ==== Proof.LibUnitRow.lean ====
/-
  A row divided by the larger of its Euclidean length and a positive constant has real entries, whatever the row.

  If every entry of y is real, the sum of squares is a non-negative real, its square root is real, the larger of that
  and ε is a positive real, and the quotient is a real.  If some entry is infinite, its square is ⊤, the other squares
  are non-negative, so the sum of squares is ⊤, its square root is ⊤, the maximum is ⊤, and every quotient y q / ⊤ is
  y q · 0 = 0.
-/
import Idealize.ShloMosaic.PureOps.Ideal

namespace Cert.LibUnitRow

open Idealize.ShloMosaic Finset

/-- A square of an extended real is non-negative. -/
theorem mul_self_nonneg' (x : EReal) : 0 ≤ x * x := by
  induction x using EReal.rec with
  | bot => simp [EReal.bot_mul_bot]
  | coe r => exact_mod_cast mul_self_nonneg r
  | top => simp [EReal.top_mul_top]

/-- An extended real is real or one of the two infinities. -/
theorem real_or_inf (x : EReal) : (∃ r : ℝ, x = (r : EReal)) ∨ x = ⊤ ∨ x = ⊥ := by
  induction x using EReal.rec with
  | bot => exact Or.inr (Or.inr rfl)
  | coe r => exact Or.inl ⟨r, rfl⟩
  | top => exact Or.inr (Or.inl rfl)

/-- The square of an infinity is ⊤. -/
theorem sq_inf {x : EReal} (h : x = ⊤ ∨ x = ⊥) : x * x = ⊤ := by
  rcases h with rfl | rfl
  · exact EReal.top_mul_top
  · exact EReal.bot_mul_bot

/-- Every entry of a row over max(‖row‖₂, ε), ε a positive real, is real. -/
theorem unit_entry_real {n : ℕ} (y : Fin n → EReal) (ε : ℝ) (hε : 0 < ε) (q : Fin n) :
    ∃ r : ℝ, Ideal.div (y q) (max (Ideal.sqrt (∑ k : Fin n, y k * y k)) (ε : EReal)) = (r : EReal) := by
  by_cases hall : ∀ k, ∃ r : ℝ, y k = (r : EReal)
  · choose y' hy' using hall
    have hsum : (∑ k : Fin n, y k * y k) = ((∑ k : Fin n, y' k * y' k : ℝ) : EReal) := by
      simp only [hy', ← EReal.coe_mul]
      classical
      refine (Finset.induction_on (univ : Finset (Fin n)) (by simp) ?_)
      intro i s hi ih
      rw [Finset.sum_insert hi, Finset.sum_insert hi, EReal.coe_add, ih]
    have hnn : 0 ≤ ∑ k : Fin n, y' k * y' k := Finset.sum_nonneg fun k _ => mul_self_nonneg (y' k)
    have hsqrt : Ideal.sqrt (((∑ k : Fin n, y' k * y' k : ℝ)) : EReal) = ((Real.sqrt (∑ k : Fin n, y' k * y' k) : ℝ) : EReal) := by
      show (if (∑ k : Fin n, y' k * y' k) < 0 then (⊥ : EReal) else _) = _
      rw [if_neg (not_lt.2 hnn)]
    have hmax : max ((Real.sqrt (∑ k : Fin n, y' k * y' k) : ℝ) : EReal) (ε : EReal)
        = ((max (Real.sqrt (∑ k : Fin n, y' k * y' k)) ε : ℝ) : EReal) := by
      rcases le_total (Real.sqrt (∑ k : Fin n, y' k * y' k)) ε with h | h
      · rw [max_eq_right h, max_eq_right (by exact_mod_cast h)]
      · rw [max_eq_left h, max_eq_left (by exact_mod_cast h)]
    have hpos : (0 : ℝ) < max (Real.sqrt (∑ k : Fin n, y' k * y' k)) ε := lt_max_of_lt_right hε
    refine ⟨y' q * (1 / max (Real.sqrt (∑ k : Fin n, y' k * y' k)) ε), ?_⟩
    rw [hsum, hsqrt, hmax, Ideal.div_coe (ne_of_gt hpos), hy', ← EReal.coe_mul]
  · simp only [not_forall, not_exists] at hall
    obtain ⟨k0, hk0⟩ := hall
    have hinf : y k0 = ⊤ ∨ y k0 = ⊥ := by
      rcases real_or_inf (y k0) with ⟨r, hr⟩ | h
      · exact absurd hr (hk0 r)
      · exact h
    have htop : (∑ k : Fin n, y k * y k) = ⊤ := by
      refine top_le_iff.1 ?_
      calc (⊤ : EReal) = y k0 * y k0 := (sq_inf hinf).symm
        _ ≤ ∑ k : Fin n, y k * y k :=
          Finset.single_le_sum (f := fun k => y k * y k) (fun k _ => mul_self_nonneg' (y k)) (Finset.mem_univ k0)
    refine ⟨0, ?_⟩
    rw [htop]
    have h1 : Ideal.sqrt (⊤ : EReal) = ⊤ := rfl
    rw [h1, max_eq_left le_top]
    unfold Ideal.div
    rw [if_neg (by simp), EReal.inv_top, mul_zero]
    rfl

end Cert.LibUnitRow
-- ==== Proof.LibSegSum.lean ====
/-
  A segment sum commutes with a matrix product, on real entries.

  Rows e of a table carry m + n numbers: the first m from g e, the last n from a e.  Multiply each row into a
  column W and add the rows selected by P.  The same number is obtained by first adding the selected rows of g and of a
  column by column, and then multiplying the two sums into the matching parts of W.  Over the reals this is
  distributivity and an exchange of two finite sums; on the extended reals it holds as soon as every entry is real
  (with infinities it fails: (⊤ + ⊥) · (−1) = ⊤ while ⊤ · (−1) + ⊥ · (−1) = ⊥).
-/
import Mathlib.Data.EReal.Basic
import Mathlib.Algebra.BigOperators.Fin
import Mathlib.Algebra.BigOperators.Ring.Finset

namespace Cert.LibSegSum

open Finset

/-- The coercion of a finite real sum is the sum of the coercions. -/
theorem coe_sum {ι : Type*} (s : Finset ι) (f : ι → ℝ) : ((∑ i ∈ s, f i : ℝ) : EReal) = ∑ i ∈ s, (f i : EReal) := by
  classical
  refine Finset.induction_on s ?_ ?_
  · simp
  · intro i s hi ih
    rw [Finset.sum_insert hi, Finset.sum_insert hi, EReal.coe_add, ih]

/-- Over the reals: selected rows of [g | a] times W, summed, is (selected column sums of g) times W's first part plus
    (selected column sums of a) times W's second part. -/
theorem real_law {E : Type*} [Fintype E] (P : E → Prop) [DecidablePred P] {m n : ℕ}
    (g : E → Fin m → ℝ) (a : E → Fin n → ℝ) (W : Fin (m + n) → ℝ) :
    ∑ e ∈ univ.filter P, ∑ k : Fin (m + n), Fin.addCases (g e) (a e) k * W k
      = ∑ k : Fin m, (∑ e ∈ univ.filter P, g e k) * W (Fin.castAdd n k)
        + ∑ k : Fin n, (∑ e ∈ univ.filter P, a e k) * W (Fin.natAdd m k) := by
  simp only [Fin.sum_univ_add, Fin.addCases_left, Fin.addCases_right, Finset.sum_add_distrib, Finset.sum_mul]
  rw [Finset.sum_comm, Finset.sum_comm (s := univ.filter P) (t := (univ : Finset (Fin n)))]

/-- The same on the extended reals, when every entry of g, a and W is real. -/
theorem ereal_law {E : Type*} [Fintype E] (P : E → Prop) [DecidablePred P] {m n : ℕ}
    (g : E → Fin m → EReal) (a : E → Fin n → EReal) (W : Fin (m + n) → EReal)
    (hg : ∀ e k, ∃ r : ℝ, g e k = (r : EReal)) (ha : ∀ e k, ∃ r : ℝ, a e k = (r : EReal))
    (hW : ∀ k, ∃ r : ℝ, W k = (r : EReal)) :
    ∑ e ∈ univ.filter P, ∑ k : Fin (m + n), Fin.addCases (g e) (a e) k * W k
      = ∑ k : Fin m, (∑ e ∈ univ.filter P, g e k) * W (Fin.castAdd n k)
        + ∑ k : Fin n, (∑ e ∈ univ.filter P, a e k) * W (Fin.natAdd m k) := by
  choose g' hg' using hg
  choose a' ha' using ha
  choose W' hW' using hW
  have hcat : ∀ e (k : Fin (m + n)), Fin.addCases (g e) (a e) k = ((Fin.addCases (g' e) (a' e) k : ℝ) : EReal) := by
    intro e k
    refine Fin.addCases (fun i => ?_) (fun i => ?_) k
    · rw [Fin.addCases_left, Fin.addCases_left, hg']
    · rw [Fin.addCases_right, Fin.addCases_right, ha']
  simp only [hcat, hg', ha', hW', ← EReal.coe_mul, ← coe_sum, ← EReal.coe_add]
  exact congrArg _ (real_law P g' a' W')

end Cert.LibSegSum
-- ==== Proof.Literals.lean ====
/-
  Three f32 patterns on the extended reals: the pattern of +∞ is ⊤, and the two small constants of the normalisation
  (about 1e-5 and 1e-12) are positive real numbers; nothing more about them is used.
-/
import Idealize.ShloMosaic.PureOps.Ideal.Laws

namespace Cert.Literals

open Idealize.ShloMosaic

theorem ofBits_f32_inf : Ideal.ofBits .f32 0x7F800000#32 = (⊤ : EReal) := by
  simp [Ideal.ofBits, Ideal.ieee]

theorem ofBits_f32_eps12 : ∃ e : ℝ, 0 < e ∧ Ideal.ofBits .f32 0x2B8CBCCC#32 = (e : EReal) := by
  refine ⟨_, ?_, by simp [Ideal.ofBits, Ideal.ieee, -EReal.coe_mul]; rfl⟩
  positivity

theorem ofBits_f32_eps5 : ∃ e : ℝ, 0 < e ∧ Ideal.ofBits .f32 0x3727C5AC#32 = (e : EReal) := by
  refine ⟨_, ?_, by simp [Ideal.ofBits, Ideal.ieee, -EReal.coe_mul]; rfl⟩
  positivity

end Cert.Literals
-- ==== Proof.Realness.lean ====
/-
  Which stage values are real numbers.

  The commutation of the aggregation with the neighbour weight needs the node features entering each layer to be real.
  The projected features are: a finite sum of products of real inputs plus a real bias.  The features leaving a layer
  are rows divided by the larger of their Euclidean length and a positive constant, and such an entry is real whatever
  the row holds - so nothing need be known about the batch statistics, the affine map or the layer's own update.
-/
import proofs.«113076_j55267639165123_2_alg».proof.Proof.Spec
import proofs.«113076_j55267639165123_2_alg».proof.Proof.LibUnitRow
import proofs.«113076_j55267639165123_2_alg».proof.Proof.LibSegSum
import proofs.«113076_j55267639165123_2_alg».proof.Proof.Literals

noncomputable section

namespace Cert.Realness

open Idealize.ShloMosaic Idealize.ShloMosaic.ValueIdx Cert.Spec

/-- A projected entry of real features through a real weight with a real bias is real. -/
theorem projAt_real (x : Arr2 100000 4) (W : Arr2 4 128) (b : Arr1 128)
    (hx : ∀ i, ∃ r : ℝ, x i = (r : EReal)) (hW : ∀ i, ∃ r : ℝ, W i = (r : EReal)) (hb : ∀ i, ∃ r : ℝ, b i = (r : EReal))
    (r : Fin 100000) (q : Fin 128) : ∃ v : ℝ, projAt x W b r q = (v : EReal) := by
  choose x' hx' using hx
  choose W' hW' using hW
  choose b' hb' using hb
  refine ⟨(∑ k : Fin 4, x' (ix2 r k) * W' (ix2 k q)) + b' (ix1 q), ?_⟩
  unfold projAt
  simp only [hx', hW', hb', ← EReal.coe_mul, ← Cert.LibSegSum.coe_sum, ← EReal.coe_add]

/-- A normalised entry is real, whatever the pre-activation, the statistics and the affine parameters are. -/
theorem unitAt_real (pre : Arr2 100000 128) (mean var gamma beta : Arr1 128) (r : Fin 100000) (q : Fin 128) :
    ∃ v : ℝ, unitAt pre mean var gamma beta r q = (v : EReal) := by
  obtain ⟨ε, hε, he⟩ := Cert.Literals.ofBits_f32_eps12
  unfold unitAt
  rw [show eps12 = (ε : EReal) from he]
  exact Cert.LibUnitRow.unit_entry_real (fun k => affAt pre mean var gamma beta r k) ε hε q

end Cert.Realness

end
-- ==== Proof.Network.lean ====
/-
  The two arrangements of the whole network agree, abstractly.

  Both programs compute, from the same arguments, three rounds of  gather - aggregate - update - normalise  followed by
  the scoring head.  They share the gather (any map that only picks entries), the set of edges landing on each node, the
  clipped degree, and the column statistics (any functions of the pre-activations).  They differ in one place per round:
  one multiplies every edge's 130 numbers into the neighbour weight and then adds over the edges landing on a node; the
  other adds first and multiplies after.  The two agree when the features entering the round are real (the aggregation
  law); the projected features are real because the inputs are, and every later round's features are real because a
  normalised row always is.  So round by round the features agree, and the head, the same function of them, agrees.
-/
import proofs.«113076_j55267639165123_2_alg».proof.Proof.Spec
import proofs.«113076_j55267639165123_2_alg».proof.Proof.Realness
import proofs.«113076_j55267639165123_2_alg».proof.Proof.LibSegSum

noncomputable section

namespace Cert.Network

open Idealize.ShloMosaic Idealize.ShloMosaic.ValueIdx Cert.Spec Finset

/-- Every entry is a real number. -/
def Real2 {a b : Nat} (x : Arr2 a b) : Prop := ∀ i, ∃ r : ℝ, x i = (r : EReal)

/-- What the two programs share around one round: the edges landing on each node, the gathered rows of a feature array,
    the edge attributes and the clipped degree. -/
structure Shared (E : Nat) where
  lands : Fin 100000 → Fin E → Prop
  landsDec : ∀ n, DecidablePred (lands n)
  gath : Arr2 100000 128 → Arr2 E 128
  ea : Arr2 E 2
  denom : Arr2 100000 1

attribute [instance] Shared.landsDec

/-- The shared data from a column of scatter indices (row e lands on node n when index e, read signed, is n), a gather,
    the edge attributes and the degree. -/
def mkShared {E : Nat} {w : Nat} (sidxArr : IVec ⟨2, ![E, 1]⟩ w) (gath : Arr2 100000 128 → Arr2 E 128) (ea : Arr2 E 2)
    (denom : Arr2 100000 1) : Shared E where
  lands n e := (sidxArr (ix2 e 0)).toInt = (n.val : ℤ)
  landsDec _ := fun _ => inferInstance
  gath := gath
  ea := ea
  denom := denom

variable {E : Nat} (S : Shared E)

/-- The sum over the edges landing on node n of column q of a per-edge array. -/
def aggOf {C : Nat} (u : Arr2 E C) (n : Fin 100000) (q : Fin C) : EReal :=
  ∑ e ∈ univ.filter (S.lands n), u (ix2 e q)

/-- One arrangement: add the gathered rows and the attributes over the landing edges, then multiply. -/
def preK (h : Arr2 100000 128) (Wn : Arr2 130 128) (Ws : Arr2 128 128) (r : Fin 100000) (q : Fin 128) : EReal :=
  max (Ideal.div ((∑ k : Fin 128, aggOf S (S.gath h) r k * Wn (ix2 (Fin.castAdd 2 k) q))
        + (∑ k : Fin 2, aggOf S S.ea r k * Wn (ix2 (Fin.natAdd 128 k) q))) (S.denom (ix2 r 0))
      + ∑ k : Fin 128, h (ix2 r k) * Ws (ix2 k q)) 0

/-- The other: multiply every edge's 130 numbers into the weight, then add over the landing edges. -/
def preR (h : Arr2 100000 128) (Wn : Arr2 130 128) (Ws : Arr2 128 128) (r : Fin 100000) (q : Fin 128) : EReal :=
  max (Ideal.div (∑ e ∈ univ.filter (S.lands r),
          ∑ k : Fin (128 + 2), Fin.addCases (fun k => S.gath h (ix2 e k)) (fun k => S.ea (ix2 e k)) k * Wn (ix2 k q))
        (S.denom (ix2 r 0))
      + ∑ k : Fin 128, h (ix2 r k) * Ws (ix2 k q)) 0

/-- The two arrangements of a round's pre-activation agree on real features and a real neighbour weight. -/
theorem preK_eq_preR (h : Arr2 100000 128) (Wn : Arr2 130 128) (Ws : Arr2 128 128) (hg : Real2 (S.gath h)) (ha : Real2 S.ea)
    (hW : Real2 Wn) (r : Fin 100000) (q : Fin 128) : preK S h Wn Ws r q = preR S h Wn Ws r q := by
  unfold preK preR aggOf
  have key := Cert.LibSegSum.ereal_law (E := Fin E) (m := 128) (n := 2) (S.lands r)
    (fun e k => S.gath h (ix2 e k)) (fun e k => S.ea (ix2 e k)) (fun k => Wn (ix2 k q))
    (fun e k => hg _) (fun e k => ha _) (fun k => hW _)
  rw [key]

end Cert.Network

end
-- ==== Proof.RReadLay.lean ====
/-
  Repeating a vector along an axis, read entry by entry.

  A vector of b entries laid as one row and repeated down a rows reads, at (r, q), its entry at q.  A vector of a entries
  laid as one column and repeated across b columns reads, at (r, q), its entry at r.  A single number repeated over any
  extent reads that number everywhere.  The sum of a row's entries is the sum over the column coordinate.
-/
import Idealize.ShloMosaic.PureOps.Ideal.Laws
import Idealize.ShloMosaic.Lib.ValueIdx
import Idealize.ShloMosaic.Lib.IdealHost
import Idealize.ShloMosaic.Lib.Pipeline.Value

noncomputable section

namespace Cert.ReferenceIdeal.RRead

open Idealize.ShloMosaic Idealize.ShloMosaic.ValueIdx

/-- A vector laid as one row reads, at (0, q), its entry at q. -/
theorem asRow_apply {α : Type} {b : ℕ} (v : (⟨1, ![b]⟩ : Shape).Idx → α)
    (h : (⟨1, ![b]⟩ : Shape).BroadcastsInDim ⟨2, ![1, b]⟩ (![1] : Fin 1 → Fin 2)) (z : Fin 1) (q : Fin b) :
    broadcastInDim ⟨2, ![1, b]⟩ (![1] : Fin 1 → Fin 2) h v (ix2 z q) = v (ix1 q) := by
  refine broadcastInDim_apply (![1] : Fin 1 → Fin 2) h v (ix2 z q) (ix1 q) fun ax => ?_
  match ax with
  | ⟨0, _⟩ =>
    show q.val = if b = 1 then 0 else q.val
    split
    · have := q.isLt; omega
    · rfl

/-- One row repeated down a rows reads, at (r, q), the row's entry at q. -/
theorem downRows_apply {α : Type} {a b : ℕ} (v : (⟨2, ![1, b]⟩ : Shape).Idx → α)
    (h : (⟨2, ![1, b]⟩ : Shape).BroadcastsInDim ⟨2, ![a, b]⟩ (![0, 1] : Fin 2 → Fin 2)) (r : Fin a) (q : Fin b) :
    broadcastInDim ⟨2, ![a, b]⟩ (![0, 1] : Fin 2 → Fin 2) h v (ix2 r q) = v (ix2 (0 : Fin 1) q) := by
  refine broadcastInDim_apply (![0, 1] : Fin 2 → Fin 2) h v (ix2 r q) (ix2 (0 : Fin 1) q) fun ax => ?_
  match ax with
  | ⟨0, _⟩ => rfl
  | ⟨1, _⟩ =>
    show q.val = if b = 1 then 0 else q.val
    split
    · have := q.isLt; omega
    · rfl

/-- A vector laid as one row and repeated down a rows reads, at (r, q), the vector's entry at q. -/
theorem rowOf_apply {α : Type} {a b : ℕ} (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (r : Fin a) (q : Fin b) :
    broadcastInDim ⟨2, ![a, b]⟩ (![0, 1] : Fin 2 → Fin 2) h2 (broadcastInDim ⟨2, ![1, b]⟩ (![1] : Fin 1 → Fin 2) h1 v) (ix2 r q)
      = v (ix1 q) :=
  (downRows_apply _ h2 r q).trans (asRow_apply v h1 0 q)

/-- A vector laid as one column reads, at (r, 0), its entry at r. -/
theorem asCol_apply {α : Type} {a : ℕ} (v : (⟨1, ![a]⟩ : Shape).Idx → α)
    (h : (⟨1, ![a]⟩ : Shape).BroadcastsInDim ⟨2, ![a, 1]⟩ (![0] : Fin 1 → Fin 2)) (r : Fin a) (z : Fin 1) :
    broadcastInDim ⟨2, ![a, 1]⟩ (![0] : Fin 1 → Fin 2) h v (ix2 r z) = v (ix1 r) := by
  refine broadcastInDim_apply (![0] : Fin 1 → Fin 2) h v (ix2 r z) (ix1 r) fun ax => ?_
  match ax with
  | ⟨0, _⟩ =>
    show r.val = if a = 1 then 0 else r.val
    split
    · have := r.isLt; omega
    · rfl

/-- One column repeated across b columns reads, at (r, q), the column's entry at r. -/
theorem acrossCols_apply {α : Type} {a b : ℕ} (v : (⟨2, ![a, 1]⟩ : Shape).Idx → α)
    (h : (⟨2, ![a, 1]⟩ : Shape).BroadcastsInDim ⟨2, ![a, b]⟩ (![0, 1] : Fin 2 → Fin 2)) (r : Fin a) (q : Fin b) :
    broadcastInDim ⟨2, ![a, b]⟩ (![0, 1] : Fin 2 → Fin 2) h v (ix2 r q) = v (ix2 r (0 : Fin 1)) := by
  refine broadcastInDim_apply (![0, 1] : Fin 2 → Fin 2) h v (ix2 r q) (ix2 r (0 : Fin 1)) fun ax => ?_
  match ax with
  | ⟨0, _⟩ =>
    show r.val = if a = 1 then 0 else r.val
    split
    · have := r.isLt; omega
    · rfl
  | ⟨1, _⟩ => rfl

/-- A single number repeated over any extent reads that number everywhere. -/
theorem splat_apply {T : Shape} (h : (⟨0, ![]⟩ : Shape).BroadcastsInDim T ![]) (w : BitVec 32) (j : T.Idx) :
    broadcastInDim T ![] h (constant (F := Ideal) ⟨0, ![]⟩ .f32 w) j = Ideal.ofBits .f32 w :=
  broadcastInDim_scalar_apply h _ j

/-- The host's sum along the second axis of an a × b array, from a starting value, at row r: the starting value plus the
    sum of the row's entries. -/
theorem rowSum_apply {a b : ℕ} (x : FVec Ideal ⟨2, ![a, b]⟩ .f32) (init : (⟨0, ![]⟩ : Shape).Idx → Ideal .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduceAdd x init h' hu (ix1 r) = init (Shape.Idx.first hu) + ∑ k : Fin b, x (ix2 r k) := by
  refine (Ideal.hostReduceAdd_single h' h x (init (Shape.Idx.first hu)) (ix1 r)).trans ?_
  show _ + ∑ k : Fin b, x (h.lift (ix1 r) k) = _
  refine congrArg (init (Shape.Idx.first hu) + ·) (Finset.sum_congr rfl fun k _ => congrArg x ?_)
  funext ax
  match ax with
  | ⟨0, _⟩ => exact Fin.ext rfl
  | ⟨1, _⟩ => exact Fin.ext rfl

end Cert.ReferenceIdeal.RRead

end
-- ==== Proof.KAggRead.lean ====
/-
  The kernel side's first pre-activation, in the abstract arrangement "add over the landing edges, then multiply".

  The aggregated neighbour features at (n, k) are the sum, over the edges whose destination index is n, of the gathered
  feature (e, k); the aggregated edge attributes likewise; the two weight pieces are rows 0..127 and 128..129 of the
  neighbour weight.  With these the update region's output entry is the abstract pre-activation of the run's own shared
  data (its landing sets, its gather, its padded attributes, its degree).
-/
import proofs.«113076_j55267639165123_2_alg».proof.Proof.KHost1
import proofs.«113076_j55267639165123_2_alg».proof.Proof.LibRowScatter
import proofs.«113076_j55267639165123_2_alg».proof.Proof.Network
import Idealize.ShloMosaic.Lib.Pipeline.Value
import proofs.«113076_j55267639165123_2_alg».proof.Proof.RReadLay

set_option maxRecDepth 16384

noncomputable section

namespace Cert.KernelIdeal.KVal

open Idealize.ShloMosaic Idealize.ShloMosaic.TcCoe Idealize.ShloMosaic.ValueIdx Idealize.SL.Sem Cert.KernelIdeal Cert.KernelIdeal.Gen
open Finset

/-- The aggregated neighbour features at an entry: a sum over the edges landing on the node. -/
theorem aggK_apply (h : FVec Ideal S100000x128 .f32) (src dst : IVec S1700000 32) (n : Fin 100000) (k : Fin 128) :
    aggK h src dst (ix2 n k)
      = ∑ e ∈ univ.filter (fun e : Fin 1700000 => ((sidx dst) (ix2 e 0)).toInt = (n.val : ℤ)),
          Host.gather gather_S100000x128_S1700000x1_S1700000x128_1_0_n_n_0_1_1128 h (gidx src) (ix2 e k) := by
  have hrec : scatter_S100000x128_S1700000x1_S1700000x128_1_0_0_1
      = Cert.LibRowScatter.rowDims (N := 100000) (E := 1700000) (C := 128)
          Facts₀.scatter_S100000x128_S1700000x1_S1700000x128_1_0_0_1_wf := rfl
  have hz : zeros128 (ix2 n k) = 0 := by
    unfold zeros128
    rw [Cert.ReferenceIdeal.RRead.splat_apply, Ideal.ofBits_zero_f32]
  show Host.scatterAdd scatter_S100000x128_S1700000x1_S1700000x128_1_0_0_1 zeros128 (sidx dst)
      (Host.gather gather_S100000x128_S1700000x1_S1700000x128_1_0_n_n_0_1_1128 h (gidx src)) (ix2 n k) = _
  rw [Cert.LibRowScatter.host_scatterAdd_row_apply Facts₀.scatter_S100000x128_S1700000x1_S1700000x128_1_0_0_1_wf _ hrec, hz,
    zero_add]

/-- The zero array the edge-attribute aggregation starts from. -/
def zeros2 : FVec Ideal S100000x2 .f32 :=
  broadcastInDim S100000x2 ![] bcast_S_S100000x2 (constant S_ .f32 0x00000000#32)

/-- Aggregated edge attributes. -/
def aggE (ea : FVec Ideal S1700000x2 .f32) (dst : IVec S1700000 32) : FVec Ideal S100000x2 .f32 :=
  Host.scatterAdd scatter_S100000x2_S1700000x1_S1700000x2_1_0_0_1 zeros2 (sidx dst) ea

theorem aggE_apply (ea : FVec Ideal S1700000x2 .f32) (dst : IVec S1700000 32) (n : Fin 100000) (k : Fin 2) :
    aggE ea dst (ix2 n k)
      = ∑ e ∈ univ.filter (fun e : Fin 1700000 => ((sidx dst) (ix2 e 0)).toInt = (n.val : ℤ)), ea (ix2 e k) := by
  have hrec : scatter_S100000x2_S1700000x1_S1700000x2_1_0_0_1
      = Cert.LibRowScatter.rowDims (N := 100000) (E := 1700000) (C := 2)
          Facts₀.scatter_S100000x2_S1700000x1_S1700000x2_1_0_0_1_wf := rfl
  have hz : zeros2 (ix2 n k) = 0 := by
    unfold zeros2
    rw [Cert.ReferenceIdeal.RRead.splat_apply, Ideal.ofBits_zero_f32]
  show Host.scatterAdd scatter_S100000x2_S1700000x1_S1700000x2_1_0_0_1 zeros2 (sidx dst) ea (ix2 n k) = _
  rw [Cert.LibRowScatter.host_scatterAdd_row_apply Facts₀.scatter_S100000x2_S1700000x1_S1700000x2_1_0_0_1_wf _ hrec, hz,
    zero_add]

end Cert.KernelIdeal.KVal

end
-- ==== Proof.KLib.lean ====
/-
  Reading the block operations entry by entry, on the extended reals.

  A block product into a zero accumulator is, at entry (p, q), the sum over the contracted axis of the left factor's row p
  against the right factor's column q.  A vector laid as one row and repeated down the rows reads its entry at the column;
  a column repeated across the columns reads its entry at the row.  The zero word is the real number zero.
-/
import proofs.«113076_j55267639165123_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.KVal

open Idealize.ShloMosaic Idealize.ShloMosaic.ValueIdx
open Cert.KernelIdeal Cert.KernelIdeal.Gen

/-- The two-axis offset of a whole block is zero on both axes. -/
theorem hz2 : (![0, 0] : Fin 2 → Nat) = fun _ => 0 := funext fun a => by fin_cases a <;> rfl
/-- The one-axis offset of a whole block is zero. -/
theorem hz1 : (![0] : Fin 1 → Nat) = fun _ => 0 := funext fun a => by fin_cases a <;> rfl

/-- A column repeated across b columns reads, at (p, c), the column's entry at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector laid as one row and repeated down a rows reads, at (p, c), the vector's entry at c. -/
theorem row_apply {α : Type} {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) := by
  rw [broadcastTo_1b_ab_apply, shapeCast_a_1a_apply]

/-! ### The contraction of a 4000 × 4 block with a 4 × 128 matrix -/

theorem lhs0_4000x4_4x128 (i : S4000x128.Idx) (q : dot_S4000x4_S4x128_S4000x128_1_0_0_1_n_n.contr.Idx) : (dot_S4000x4_S4x128_S4000x128_1_0_0_1_n_n.lhsIdx i q 0).val = (i 0).val := by
  unfold DotDims.lhsIdx
  rw [dif_neg (show ¬(0 : Fin S4000x4.rank) ∈ dot_S4000x4_S4x128_S4000x128_1_0_0_1_n_n.lhsBatch by decide), dif_pos (show (0 : Fin S4000x4.rank) ∈ dot_S4000x4_S4x128_S4000x128_1_0_0_1_n_n.lhsNonContracting by decide)]
  rfl
theorem lhs1_4000x4_4x128 (i : S4000x128.Idx) (q : dot_S4000x4_S4x128_S4000x128_1_0_0_1_n_n.contr.Idx) : (dot_S4000x4_S4x128_S4000x128_1_0_0_1_n_n.lhsIdx i q 1).val = (q ⟨0, by decide⟩).val :=
  dot_S4000x4_S4x128_S4000x128_1_0_0_1_n_n.lhsIdx_val_of_single rfl i q
theorem rhs0_4000x4_4x128 (i : S4000x128.Idx) (q : dot_S4000x4_S4x128_S4000x128_1_0_0_1_n_n.contr.Idx) : (dot_S4000x4_S4x128_S4000x128_1_0_0_1_n_n.rhsIdx i q 0).val = (q ⟨0, by decide⟩).val :=
  dot_S4000x4_S4x128_S4000x128_1_0_0_1_n_n.rhsIdx_val_of_single rfl i q
theorem rhs1_4000x4_4x128 (i : S4000x128.Idx) (q : dot_S4000x4_S4x128_S4000x128_1_0_0_1_n_n.contr.Idx) : (dot_S4000x4_S4x128_S4000x128_1_0_0_1_n_n.rhsIdx i q 1).val = (i 1).val := by
  unfold DotDims.rhsIdx
  rw [dif_neg (show ¬(1 : Fin S4x128.rank) ∈ dot_S4000x4_S4x128_S4000x128_1_0_0_1_n_n.rhsBatch by decide), dif_pos (show (1 : Fin S4x128.rank) ∈ dot_S4000x4_S4x128_S4000x128_1_0_0_1_n_n.rhsNonContracting by decide)]
  rfl

/-- Entry (p, q) of the product into a zero accumulator: the row of the left factor against the column of the right. -/
theorem mm_4000x4_4x128 {φ₁ φ₂ : FTy} (prec : Option ContractPrecision) (lhs : FVec Ideal S4000x4 φ₁) (rhs : FVec Ideal S4x128 φ₂)
    (p : Fin 4000) (q : Fin 128) :
    matmul dot_S4000x4_S4x128_S4000x128_1_0_0_1_n_n prec lhs rhs (constant S4000x128 .f32 0x00000000#32) (ix2 p q) = ∑ k : Fin 4, lhs (ix2 p k) * rhs (ix2 k q) := by
  refine (Ideal.matmul_constant_zero_apply dot_S4000x4_S4x128_S4000x128_1_0_0_1_n_n prec lhs rhs (ix2 p q)).trans ?_
  rw [← Equiv.sum_comp (contrEquiv1 dot_S4000x4_S4x128_S4000x128_1_0_0_1_n_n 4 rfl rfl).symm]
  refine Finset.sum_congr rfl fun k _ => ?_
  have hk := contrEquiv1_symm_val dot_S4000x4_S4x128_S4000x128_1_0_0_1_n_n 4 rfl rfl k
  have el : dot_S4000x4_S4x128_S4000x128_1_0_0_1_n_n.lhsIdx (ix2 p q) ((contrEquiv1 dot_S4000x4_S4x128_S4000x128_1_0_0_1_n_n 4 rfl rfl).symm k) = ix2 p k := funext fun a => Fin.ext (by
    match a with
    | ⟨0, _⟩ => exact lhs0_4000x4_4x128 _ _
    | ⟨1, _⟩ => exact (lhs1_4000x4_4x128 _ _).trans hk)
  have er : dot_S4000x4_S4x128_S4000x128_1_0_0_1_n_n.rhsIdx (ix2 p q) ((contrEquiv1 dot_S4000x4_S4x128_S4000x128_1_0_0_1_n_n 4 rfl rfl).symm k) = ix2 k q := funext fun a => Fin.ext (by
    match a with
    | ⟨0, _⟩ => exact (rhs0_4000x4_4x128 _ _).trans hk
    | ⟨1, _⟩ => exact rhs1_4000x4_4x128 _ _)
  rw [el, er]

/-! ### The contraction of a 4000 × 128 block with a 128 × 128 matrix -/

theorem lhs0_4000x128_128x128 (i : S4000x128.Idx) (q : dot_S4000x128_S128x128_S4000x128_1_0_0_1_n_n.contr.Idx) : (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs1_4000x128_128x128 (i : S4000x128.Idx) (q : dot_S4000x128_S128x128_S4000x128_1_0_0_1_n_n.contr.Idx) : (dot_S4000x128_S128x128_S4000x128_1_0_0_1_n_n.lhsIdx i q 1).val = (q ⟨0, by decide⟩).val :=
  dot_S4000x128_S128x128_S4000x128_1_0_0_1_n_n.lhsIdx_val_of_single rfl i q
theorem rhs0_4000x128_128x128 (i : S4000x128.Idx) (q : dot_S4000x128_S128x128_S4000x128_1_0_0_1_n_n.contr.Idx) : (dot_S4000x128_S128x128_S4000x128_1_0_0_1_n_n.rhsIdx i q 0).val = (q ⟨0, by decide⟩).val :=
  dot_S4000x128_S128x128_S4000x128_1_0_0_1_n_n.rhsIdx_val_of_single rfl i q
theorem rhs1_4000x128_128x128 (i : S4000x128.Idx) (q : dot_S4000x128_S128x128_S4000x128_1_0_0_1_n_n.contr.Idx) : (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- Entry (p, q) of the product into a zero accumulator: the row of the left factor against the column of the right. -/
theorem mm_4000x128_128x128 {φ₁ φ₂ : FTy} (prec : Option ContractPrecision) (lhs : FVec Ideal S4000x128 φ₁) (rhs : FVec Ideal S128x128 φ₂)
    (p : Fin 4000) (q : Fin 128) :
    matmul dot_S4000x128_S128x128_S4000x128_1_0_0_1_n_n prec lhs rhs (constant S4000x128 .f32 0x00000000#32) (ix2 p q) = ∑ k : Fin 128, lhs (ix2 p k) * rhs (ix2 k q) := by
  refine (Ideal.matmul_constant_zero_apply dot_S4000x128_S128x128_S4000x128_1_0_0_1_n_n prec lhs rhs (ix2 p q)).trans ?_
  rw [← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
    match a with
    | ⟨0, _⟩ => exact lhs0_4000x128_128x128 _ _
    | ⟨1, _⟩ => exact (lhs1_4000x128_128x128 _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
    match a with
    | ⟨0, _⟩ => exact (rhs0_4000x128_128x128 _ _).trans hk
    | ⟨1, _⟩ => exact rhs1_4000x128_128x128 _ _)
  rw [el, er]

/-! ### The contraction of a 4000 × 2 block with a 2 × 128 matrix -/

theorem lhs0_4000x2_2x128 (i : S4000x128.Idx) (q : dot_S4000x2_S2x128_S4000x128_1_0_0_1_n_n.contr.Idx) : (dot_S4000x2_S2x128_S4000x128_1_0_0_1_n_n.lhsIdx i q 0).val = (i 0).val := by
  unfold DotDims.lhsIdx
  rw [dif_neg (show ¬(0 : Fin S4000x2.rank) ∈ dot_S4000x2_S2x128_S4000x128_1_0_0_1_n_n.lhsBatch by decide), dif_pos (show (0 : Fin S4000x2.rank) ∈ dot_S4000x2_S2x128_S4000x128_1_0_0_1_n_n.lhsNonContracting by decide)]
  rfl
theorem lhs1_4000x2_2x128 (i : S4000x128.Idx) (q : dot_S4000x2_S2x128_S4000x128_1_0_0_1_n_n.contr.Idx) : (dot_S4000x2_S2x128_S4000x128_1_0_0_1_n_n.lhsIdx i q 1).val = (q ⟨0, by decide⟩).val :=
  dot_S4000x2_S2x128_S4000x128_1_0_0_1_n_n.lhsIdx_val_of_single rfl i q
theorem rhs0_4000x2_2x128 (i : S4000x128.Idx) (q : dot_S4000x2_S2x128_S4000x128_1_0_0_1_n_n.contr.Idx) : (dot_S4000x2_S2x128_S4000x128_1_0_0_1_n_n.rhsIdx i q 0).val = (q ⟨0, by decide⟩).val :=
  dot_S4000x2_S2x128_S4000x128_1_0_0_1_n_n.rhsIdx_val_of_single rfl i q
theorem rhs1_4000x2_2x128 (i : S4000x128.Idx) (q : dot_S4000x2_S2x128_S4000x128_1_0_0_1_n_n.contr.Idx) : (dot_S4000x2_S2x128_S4000x128_1_0_0_1_n_n.rhsIdx i q 1).val = (i 1).val := by
  unfold DotDims.rhsIdx
  rw [dif_neg (show ¬(1 : Fin S2x128.rank) ∈ dot_S4000x2_S2x128_S4000x128_1_0_0_1_n_n.rhsBatch by decide), dif_pos (show (1 : Fin S2x128.rank) ∈ dot_S4000x2_S2x128_S4000x128_1_0_0_1_n_n.rhsNonContracting by decide)]
  rfl

/-- Entry (p, q) of the product into a zero accumulator: the row of the left factor against the column of the right. -/
theorem mm_4000x2_2x128 {φ₁ φ₂ : FTy} (prec : Option ContractPrecision) (lhs : FVec Ideal S4000x2 φ₁) (rhs : FVec Ideal S2x128 φ₂)
    (p : Fin 4000) (q : Fin 128) :
    matmul dot_S4000x2_S2x128_S4000x128_1_0_0_1_n_n prec lhs rhs (constant S4000x128 .f32 0x00000000#32) (ix2 p q) = ∑ k : Fin 2, lhs (ix2 p k) * rhs (ix2 k q) := by
  refine (Ideal.matmul_constant_zero_apply dot_S4000x2_S2x128_S4000x128_1_0_0_1_n_n prec lhs rhs (ix2 p q)).trans ?_
  rw [← Equiv.sum_comp (contrEquiv1 dot_S4000x2_S2x128_S4000x128_1_0_0_1_n_n 2 rfl rfl).symm]
  refine Finset.sum_congr rfl fun k _ => ?_
  have hk := contrEquiv1_symm_val dot_S4000x2_S2x128_S4000x128_1_0_0_1_n_n 2 rfl rfl k
  have el : dot_S4000x2_S2x128_S4000x128_1_0_0_1_n_n.lhsIdx (ix2 p q) ((contrEquiv1 dot_S4000x2_S2x128_S4000x128_1_0_0_1_n_n 2 rfl rfl).symm k) = ix2 p k := funext fun a => Fin.ext (by
    match a with
    | ⟨0, _⟩ => exact lhs0_4000x2_2x128 _ _
    | ⟨1, _⟩ => exact (lhs1_4000x2_2x128 _ _).trans hk)
  have er : dot_S4000x2_S2x128_S4000x128_1_0_0_1_n_n.rhsIdx (ix2 p q) ((contrEquiv1 dot_S4000x2_S2x128_S4000x128_1_0_0_1_n_n 2 rfl rfl).symm k) = ix2 k q := funext fun a => Fin.ext (by
    match a with
    | ⟨0, _⟩ => exact (rhs0_4000x2_2x128 _ _).trans hk
    | ⟨1, _⟩ => exact rhs1_4000x2_2x128 _ _)
  rw [el, er]

/-! ### The contraction of a 4000 × 128 block with a 128 × 64 matrix -/

theorem lhs0_4000x128_128x64 (i : S4000x64.Idx) (q : dot_S4000x128_S128x64_S4000x64_1_0_0_1_n_n.contr.Idx) : (dot_S4000x128_S128x64_S4000x64_1_0_0_1_n_n.lhsIdx i q 0).val = (i 0).val := by
  unfold DotDims.lhsIdx
  rw [dif_neg (show ¬(0 : Fin S4000x128.rank) ∈ dot_S4000x128_S128x64_S4000x64_1_0_0_1_n_n.lhsBatch by decide), dif_pos (show (0 : Fin S4000x128.rank) ∈ dot_S4000x128_S128x64_S4000x64_1_0_0_1_n_n.lhsNonContracting by decide)]
  rfl
theorem lhs1_4000x128_128x64 (i : S4000x64.Idx) (q : dot_S4000x128_S128x64_S4000x64_1_0_0_1_n_n.contr.Idx) : (dot_S4000x128_S128x64_S4000x64_1_0_0_1_n_n.lhsIdx i q 1).val = (q ⟨0, by decide⟩).val :=
  dot_S4000x128_S128x64_S4000x64_1_0_0_1_n_n.lhsIdx_val_of_single rfl i q
theorem rhs0_4000x128_128x64 (i : S4000x64.Idx) (q : dot_S4000x128_S128x64_S4000x64_1_0_0_1_n_n.contr.Idx) : (dot_S4000x128_S128x64_S4000x64_1_0_0_1_n_n.rhsIdx i q 0).val = (q ⟨0, by decide⟩).val :=
  dot_S4000x128_S128x64_S4000x64_1_0_0_1_n_n.rhsIdx_val_of_single rfl i q
theorem rhs1_4000x128_128x64 (i : S4000x64.Idx) (q : dot_S4000x128_S128x64_S4000x64_1_0_0_1_n_n.contr.Idx) : (dot_S4000x128_S128x64_S4000x64_1_0_0_1_n_n.rhsIdx i q 1).val = (i 1).val := by
  unfold DotDims.rhsIdx
  rw [dif_neg (show ¬(1 : Fin S128x64.rank) ∈ dot_S4000x128_S128x64_S4000x64_1_0_0_1_n_n.rhsBatch by decide), dif_pos (show (1 : Fin S128x64.rank) ∈ dot_S4000x128_S128x64_S4000x64_1_0_0_1_n_n.rhsNonContracting by decide)]
  rfl

/-- Entry (p, q) of the product into a zero accumulator: the row of the left factor against the column of the right. -/
theorem mm_4000x128_128x64 {φ₁ φ₂ : FTy} (prec : Option ContractPrecision) (lhs : FVec Ideal S4000x128 φ₁) (rhs : FVec Ideal S128x64 φ₂)
    (p : Fin 4000) (q : Fin 64) :
    matmul dot_S4000x128_S128x64_S4000x64_1_0_0_1_n_n prec lhs rhs (constant S4000x64 .f32 0x00000000#32) (ix2 p q) = ∑ k : Fin 128, lhs (ix2 p k) * rhs (ix2 k q) := by
  refine (Ideal.matmul_constant_zero_apply dot_S4000x128_S128x64_S4000x64_1_0_0_1_n_n prec lhs rhs (ix2 p q)).trans ?_
  rw [← Equiv.sum_comp (contrEquiv1 dot_S4000x128_S128x64_S4000x64_1_0_0_1_n_n 128 rfl rfl).symm]
  refine Finset.sum_congr rfl fun k _ => ?_
  have hk := contrEquiv1_symm_val dot_S4000x128_S128x64_S4000x64_1_0_0_1_n_n 128 rfl rfl k
  have el : dot_S4000x128_S128x64_S4000x64_1_0_0_1_n_n.lhsIdx (ix2 p q) ((contrEquiv1 dot_S4000x128_S128x64_S4000x64_1_0_0_1_n_n 128 rfl rfl).symm k) = ix2 p k := funext fun a => Fin.ext (by
    match a with
    | ⟨0, _⟩ => exact lhs0_4000x128_128x64 _ _
    | ⟨1, _⟩ => exact (lhs1_4000x128_128x64 _ _).trans hk)
  have er : dot_S4000x128_S128x64_S4000x64_1_0_0_1_n_n.rhsIdx (ix2 p q) ((contrEquiv1 dot_S4000x128_S128x64_S4000x64_1_0_0_1_n_n 128 rfl rfl).symm k) = ix2 k q := funext fun a => Fin.ext (by
    match a with
    | ⟨0, _⟩ => exact (rhs0_4000x128_128x64 _ _).trans hk
    | ⟨1, _⟩ => exact rhs1_4000x128_128x64 _ _)
  rw [el, er]

/-! ### The contraction of a 4000 × 64 block with a 64 × 1 matrix -/

theorem lhs0_4000x64_64x1 (i : S4000x1.Idx) (q : dot_S4000x64_S64x1_S4000x1_1_0_0_1_n_n.contr.Idx) : (dot_S4000x64_S64x1_S4000x1_1_0_0_1_n_n.lhsIdx i q 0).val = (i 0).val := by
  unfold DotDims.lhsIdx
  rw [dif_neg (show ¬(0 : Fin S4000x64.rank) ∈ dot_S4000x64_S64x1_S4000x1_1_0_0_1_n_n.lhsBatch by decide), dif_pos (show (0 : Fin S4000x64.rank) ∈ dot_S4000x64_S64x1_S4000x1_1_0_0_1_n_n.lhsNonContracting by decide)]
  rfl
theorem lhs1_4000x64_64x1 (i : S4000x1.Idx) (q : dot_S4000x64_S64x1_S4000x1_1_0_0_1_n_n.contr.Idx) : (dot_S4000x64_S64x1_S4000x1_1_0_0_1_n_n.lhsIdx i q 1).val = (q ⟨0, by decide⟩).val :=
  dot_S4000x64_S64x1_S4000x1_1_0_0_1_n_n.lhsIdx_val_of_single rfl i q
theorem rhs0_4000x64_64x1 (i : S4000x1.Idx) (q : dot_S4000x64_S64x1_S4000x1_1_0_0_1_n_n.contr.Idx) : (dot_S4000x64_S64x1_S4000x1_1_0_0_1_n_n.rhsIdx i q 0).val = (q ⟨0, by decide⟩).val :=
  dot_S4000x64_S64x1_S4000x1_1_0_0_1_n_n.rhsIdx_val_of_single rfl i q
theorem rhs1_4000x64_64x1 (i : S4000x1.Idx) (q : dot_S4000x64_S64x1_S4000x1_1_0_0_1_n_n.contr.Idx) : (dot_S4000x64_S64x1_S4000x1_1_0_0_1_n_n.rhsIdx i q 1).val = (i 1).val := by
  unfold DotDims.rhsIdx
  rw [dif_neg (show ¬(1 : Fin S64x1.rank) ∈ dot_S4000x64_S64x1_S4000x1_1_0_0_1_n_n.rhsBatch by decide), dif_pos (show (1 : Fin S64x1.rank) ∈ dot_S4000x64_S64x1_S4000x1_1_0_0_1_n_n.rhsNonContracting by decide)]
  rfl

/-- Entry (p, q) of the product into a zero accumulator: the row of the left factor against the column of the right. -/
theorem mm_4000x64_64x1 {φ₁ φ₂ : FTy} (prec : Option ContractPrecision) (lhs : FVec Ideal S4000x64 φ₁) (rhs : FVec Ideal S64x1 φ₂)
    (p : Fin 4000) (q : Fin 1) :
    matmul dot_S4000x64_S64x1_S4000x1_1_0_0_1_n_n prec lhs rhs (constant S4000x1 .f32 0x00000000#32) (ix2 p q) = ∑ k : Fin 64, lhs (ix2 p k) * rhs (ix2 k q) := by
  refine (Ideal.matmul_constant_zero_apply dot_S4000x64_S64x1_S4000x1_1_0_0_1_n_n prec lhs rhs (ix2 p q)).trans ?_
  rw [← Equiv.sum_comp (contrEquiv1 dot_S4000x64_S64x1_S4000x1_1_0_0_1_n_n 64 rfl rfl).symm]
  refine Finset.sum_congr rfl fun k _ => ?_
  have hk := contrEquiv1_symm_val dot_S4000x64_S64x1_S4000x1_1_0_0_1_n_n 64 rfl rfl k
  have el : dot_S4000x64_S64x1_S4000x1_1_0_0_1_n_n.lhsIdx (ix2 p q) ((contrEquiv1 dot_S4000x64_S64x1_S4000x1_1_0_0_1_n_n 64 rfl rfl).symm k) = ix2 p k := funext fun a => Fin.ext (by
    match a with
    | ⟨0, _⟩ => exact lhs0_4000x64_64x1 _ _
    | ⟨1, _⟩ => exact (lhs1_4000x64_64x1 _ _).trans hk)
  have er : dot_S4000x64_S64x1_S4000x1_1_0_0_1_n_n.rhsIdx (ix2 p q) ((contrEquiv1 dot_S4000x64_S64x1_S4000x1_1_0_0_1_n_n 64 rfl rfl).symm k) = ix2 k q := funext fun a => Fin.ext (by
    match a with
    | ⟨0, _⟩ => exact (rhs0_4000x64_64x1 _ _).trans hk
    | ⟨1, _⟩ => exact rhs1_4000x64_64x1 _ _)
  rw [el, er]

end Cert.KernelIdeal.KVal

end
-- ==== Proof.KPayNode.lean ====
/-
  The node update's block, entry by entry.

  From 4000 rows of the aggregated neighbour features G, of the aggregated edge features Se, of the node features h and of
  the degree column, and the whole of Wn₁, Wn₂ and Ws, the block holds at (p, q): row p of G against column q of Wn₁ plus
  row p of Se against column q of Wn₂, divided by the degree of row p, plus row p of h against column q of Ws, clipped
  below at zero.  Narrowing to a shorter format is the identity on extended reals, every product runs into a zero
  accumulator, and the degree column is repeated across the columns.  The three layers' blocks are the same function.
-/
import proofs.«113076_j55267639165123_2_alg».proof.Proof.KLib

noncomputable section

namespace Cert.KernelIdeal.KVal

open Idealize.ShloMosaic Idealize.ShloMosaic.ValueIdx
open Cert.KernelIdeal Cert.KernelIdeal.Gen

/-- Entry (p, q) of the node-update block of region 1. -/
theorem pay1_apply (x0 : Vec Ideal S4000x128 .f32) (x1 : Vec Ideal S4000x2 .f32) (x2 : Vec Ideal S4000x128 .f32)
    (x3 : Vec Ideal S128x128 .f32) (x4 : Vec Ideal S2x128 .f32) (x5 : Vec Ideal S128x128 .f32) (x6 : Vec Ideal S4000x1 .f32)
    (p : Fin 4000) (q : Fin 128) :
    k1_pay1 (F := Ideal) x0 x1 x2 x3 x4 x5 x6 (ix2 p q)
      = max (Ideal.div ((∑ k : Fin 128, x0 (ix2 p k) * x3 (ix2 k q)) + (∑ k : Fin 2, x1 (ix2 p k) * x4 (ix2 k q)))
              (x6 (ix2 p 0))
            + ∑ k : Fin 128, x2 (ix2 p k) * x5 (ix2 k q)) 0 := by
  unfold k1_pay1
  rw [maximumf_apply, addf_apply, divf_apply, addf_apply, mm_4000x128_128x128, mm_4000x2_2x128, mm_4000x128_128x128,
    broadcastTo_a1_ab_apply, broadcast_apply]
  simp only [shapeCast_self]
  show max _ (Ideal.ofBits .f32 0x00000000#32) = _
  rw [Ideal.ofBits_zero_f32]
  rfl

/-- Entry (p, q) of the node-update block of region 3. -/
theorem pay3_apply (x0 : Vec Ideal S4000x128 .f32) (x1 : Vec Ideal S4000x2 .f32) (x2 : Vec Ideal S4000x128 .f32)
    (x3 : Vec Ideal S128x128 .f32) (x4 : Vec Ideal S2x128 .f32) (x5 : Vec Ideal S128x128 .f32) (x6 : Vec Ideal S4000x1 .f32)
    (p : Fin 4000) (q : Fin 128) :
    k3_pay1 (F := Ideal) x0 x1 x2 x3 x4 x5 x6 (ix2 p q)
      = max (Ideal.div ((∑ k : Fin 128, x0 (ix2 p k) * x3 (ix2 k q)) + (∑ k : Fin 2, x1 (ix2 p k) * x4 (ix2 k q)))
              (x6 (ix2 p 0))
            + ∑ k : Fin 128, x2 (ix2 p k) * x5 (ix2 k q)) 0 := by
  unfold k3_pay1
  rw [maximumf_apply, addf_apply, divf_apply, addf_apply, mm_4000x128_128x128, mm_4000x2_2x128, mm_4000x128_128x128,
    broadcastTo_a1_ab_apply, broadcast_apply]
  simp only [shapeCast_self]
  show max _ (Ideal.ofBits .f32 0x00000000#32) = _
  rw [Ideal.ofBits_zero_f32]
  rfl

/-- Entry (p, q) of the node-update block of region 5. -/
theorem pay5_apply (x0 : Vec Ideal S4000x128 .f32) (x1 : Vec Ideal S4000x2 .f32) (x2 : Vec Ideal S4000x128 .f32)
    (x3 : Vec Ideal S128x128 .f32) (x4 : Vec Ideal S2x128 .f32) (x5 : Vec Ideal S128x128 .f32) (x6 : Vec Ideal S4000x1 .f32)
    (p : Fin 4000) (q : Fin 128) :
    k5_pay1 (F := Ideal) x0 x1 x2 x3 x4 x5 x6 (ix2 p q)
      = max (Ideal.div ((∑ k : Fin 128, x0 (ix2 p k) * x3 (ix2 k q)) + (∑ k : Fin 2, x1 (ix2 p k) * x4 (ix2 k q)))
              (x6 (ix2 p 0))
            + ∑ k : Fin 128, x2 (ix2 p k) * x5 (ix2 k q)) 0 := by
  unfold k5_pay1
  rw [maximumf_apply, addf_apply, divf_apply, addf_apply, mm_4000x128_128x128, mm_4000x2_2x128, mm_4000x128_128x128,
    broadcastTo_a1_ab_apply, broadcast_apply]
  simp only [shapeCast_self]
  show max _ (Ideal.ofBits .f32 0x00000000#32) = _
  rw [Ideal.ofBits_zero_f32]
  rfl

end Cert.KernelIdeal.KVal

end
-- ==== Proof.KRegion1.lean ====
/-
  A node-update region: after its twenty-five points the output array is the node update of the arrays the region found.

  Point t reads rows 4000 t … 4000 t + 3999 of the aggregated neighbour features, of the aggregated edge features, of the node
  features and of the degree column (and the whole of the three weight matrices) and writes back the same rows of the
  output; row r of the output is written by point r / 4000.  So entry (r, q) of the output ends at the node update of row r.
-/
import proofs.«113076_j55267639165123_2_alg».proof.Proof.Gen.KernelIdeal.Frame
import proofs.«113076_j55267639165123_2_alg».proof.Proof.KPayNode
import proofs.«113076_j55267639165123_2_alg».proof.Proof.Spec

set_option maxRecDepth 16384

noncomputable section

namespace Cert.KernelIdeal.KVal

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The printed index maps over the grid: the row-blocked windows move one block of rows per point, the others stay. -/
theorem idx_facts1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = t.val
    ∧ win1_6.index t (1 : Fin 2) = 0
    ∧ win1_7.index t (0 : Fin 2) = t.val
    ∧ win1_7.index t (1 : Fin 2) = 0 :=
  (by decide +kernel : ∀ t : Fin grid1.N, _)

/-- The region's output as one function of the arrays it finds. -/
abbrev G1 (c : Dev nD) : S100000x128.Idx → EReal := fun i =>
  Cert.Spec.nodeAt (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (i 0) (i 1)

/-- Window 0's block at point t is rows 4000 t … 4000 t + 3999 of its array. -/
theorem iblk1_0_apply (c : Dev nD) (t : Fin cfg1.N) (a : Fin 4000) (b : Fin 128) (r : Fin 100000) (hr : r.val = t.val * 4000 + a.val) :
    (iblk1 V c 0 t : S4000x128.Idx → EReal) (ix2 a b) = (V c (Pipeline.arrRef spec1 0) : S100000x128.Idx → EReal) (ix2 r b) := by
  obtain ⟨e0_0, e0_1, -, -, -, -, -, -, -, -, -, -, -, -, -, -⟩ := idx_facts1 t
  unfold iblk1
  rw [View.read_apply]
  refine congrArg (V c (Pipeline.arrRef spec1 0) : S100000x128.Idx → EReal) ?_
  funext x
  apply Fin.ext
  match x with
  | ⟨0, _⟩ => show win1_0.index t 0 * 4000 + 1 * a.val = r.val; rw [e0_0, hr]; omega
  | ⟨1, _⟩ => show win1_0.index t 1 * 128 + 1 * b.val = b.val; rw [e0_1]; omega

/-- Window 1's block at point t is rows 4000 t … 4000 t + 3999 of its array. -/
theorem iblk1_1_apply (c : Dev nD) (t : Fin cfg1.N) (a : Fin 4000) (b : Fin 2) (r : Fin 100000) (hr : r.val = t.val * 4000 + a.val) :
    (iblk1 V c 1 t : S4000x2.Idx → EReal) (ix2 a b) = (V c (Pipeline.arrRef spec1 1) : S100000x2.Idx → EReal) (ix2 r b) := by
  obtain ⟨-, -, e1_0, e1_1, -, -, -, -, -, -, -, -, -, -, -, -⟩ := idx_facts1 t
  unfold iblk1
  rw [View.read_apply]
  refine congrArg (V c (Pipeline.arrRef spec1 1) : S100000x2.Idx → EReal) ?_
  funext x
  apply Fin.ext
  match x with
  | ⟨0, _⟩ => show win1_1.index t 0 * 4000 + 1 * a.val = r.val; rw [e1_0, hr]; omega
  | ⟨1, _⟩ => show win1_1.index t 1 * 2 + 1 * b.val = b.val; rw [e1_1]; omega

/-- Window 2's block at point t is rows 4000 t … 4000 t + 3999 of its array. -/
theorem iblk1_2_apply (c : Dev nD) (t : Fin cfg1.N) (a : Fin 4000) (b : Fin 128) (r : Fin 100000) (hr : r.val = t.val * 4000 + a.val) :
    (iblk1 V c 2 t : S4000x128.Idx → EReal) (ix2 a b) = (V c (Pipeline.arrRef spec1 2) : S100000x128.Idx → EReal) (ix2 r b) := by
  obtain ⟨-, -, -, -, e2_0, e2_1, -, -, -, -, -, -, -, -, -, -⟩ := idx_facts1 t
  unfold iblk1
  rw [View.read_apply]
  refine congrArg (V c (Pipeline.arrRef spec1 2) : S100000x128.Idx → EReal) ?_
  funext x
  apply Fin.ext
  match x with
  | ⟨0, _⟩ => show win1_2.index t 0 * 4000 + 1 * a.val = r.val; rw [e2_0, hr]; omega
  | ⟨1, _⟩ => show win1_2.index t 1 * 128 + 1 * b.val = b.val; rw [e2_1]; omega

/-- Window 3's block at every point is its whole array. -/
theorem iblk1_3_apply (c : Dev nD) (t : Fin cfg1.N) (a : Fin 128) (b : Fin 128) :
    (iblk1 V c 3 t : S128x128.Idx → EReal) (ix2 a b) = (V c (Pipeline.arrRef spec1 3) : S128x128.Idx → EReal) (ix2 a b) := by
  obtain ⟨-, -, -, -, -, -, e3_0, e3_1, -, -, -, -, -, -, -, -⟩ := idx_facts1 t
  unfold iblk1
  rw [View.read_apply]
  refine congrArg (V c (Pipeline.arrRef spec1 3) : S128x128.Idx → EReal) ?_
  funext x
  apply Fin.ext
  match x with
  | ⟨0, _⟩ => show win1_3.index t 0 * 128 + 1 * a.val = a.val; rw [e3_0]; omega
  | ⟨1, _⟩ => show win1_3.index t 1 * 128 + 1 * b.val = b.val; rw [e3_1]; omega

/-- Window 4's block at every point is its whole array. -/
theorem iblk1_4_apply (c : Dev nD) (t : Fin cfg1.N) (a : Fin 2) (b : Fin 128) :
    (iblk1 V c 4 t : S2x128.Idx → EReal) (ix2 a b) = (V c (Pipeline.arrRef spec1 4) : S2x128.Idx → EReal) (ix2 a b) := by
  obtain ⟨-, -, -, -, -, -, -, -, e4_0, e4_1, -, -, -, -, -, -⟩ := idx_facts1 t
  unfold iblk1
  rw [View.read_apply]
  refine congrArg (V c (Pipeline.arrRef spec1 4) : S2x128.Idx → EReal) ?_
  funext x
  apply Fin.ext
  match x with
  | ⟨0, _⟩ => show win1_4.index t 0 * 2 + 1 * a.val = a.val; rw [e4_0]; omega
  | ⟨1, _⟩ => show win1_4.index t 1 * 128 + 1 * b.val = b.val; rw [e4_1]; omega

/-- Window 5's block at every point is its whole array. -/
theorem iblk1_5_apply (c : Dev nD) (t : Fin cfg1.N) (a : Fin 128) (b : Fin 128) :
    (iblk1 V c 5 t : S128x128.Idx → EReal) (ix2 a b) = (V c (Pipeline.arrRef spec1 5) : S128x128.Idx → EReal) (ix2 a b) := by
  obtain ⟨-, -, -, -, -, -, -, -, -, -, e5_0, e5_1, -, -, -, -⟩ := idx_facts1 t
  unfold iblk1
  rw [View.read_apply]
  refine congrArg (V c (Pipeline.arrRef spec1 5) : S128x128.Idx → EReal) ?_
  funext x
  apply Fin.ext
  match x with
  | ⟨0, _⟩ => show win1_5.index t 0 * 128 + 1 * a.val = a.val; rw [e5_0]; omega
  | ⟨1, _⟩ => show win1_5.index t 1 * 128 + 1 * b.val = b.val; rw [e5_1]; omega

/-- Window 6's block at point t is rows 4000 t … 4000 t + 3999 of its array. -/
theorem iblk1_6_apply (c : Dev nD) (t : Fin cfg1.N) (a : Fin 4000) (b : Fin 1) (r : Fin 100000) (hr : r.val = t.val * 4000 + a.val) :
    (iblk1 V c 6 t : S4000x1.Idx → EReal) (ix2 a b) = (V c (Pipeline.arrRef spec1 6) : S100000x1.Idx → EReal) (ix2 r b) := by
  obtain ⟨-, -, -, -, -, -, -, -, -, -, -, -, e6_0, e6_1, -, -⟩ := idx_facts1 t
  unfold iblk1
  rw [View.read_apply]
  refine congrArg (V c (Pipeline.arrRef spec1 6) : S100000x1.Idx → EReal) ?_
  funext x
  apply Fin.ext
  match x with
  | ⟨0, _⟩ => show win1_6.index t 0 * 4000 + 1 * a.val = r.val; rw [e6_0, hr]; omega
  | ⟨1, _⟩ => show win1_6.index t 1 * 1 + 1 * b.val = b.val; rw [e6_1]; omega

/-- What point t writes back is block t of the region's function. -/
theorem flushed1_eq (c : Dev nD) (t : Fin cfg1.N) :
    (dat1 V c).flushed 7 t = ((cfg1.win 7).blk t).view.read (Elt Ideal) (G1 V c) := by
  show (cfg1.win 7).cut (grid1.coords t) ((dat1 V c).after 7 t) = _
  rw [after1_7]
  unfold out1_7
  rw [View.canon_unit_zero hz2]
  simp only [View.ld_unit_zero (S := S4000x128) hz2, View.ld_unit_zero (S := S4000x2) hz2, View.ld_unit_zero (S := S128x128) hz2, View.ld_unit_zero (S := S2x128) hz2, View.ld_unit_zero (S := S4000x1) hz2]
  obtain ⟨-, -, -, -, -, -, -, -, -, -, -, -, -, -, e7_0, e7_1⟩ := idx_facts1 t
  have hN : cfg1.N = 25 := N_1
  have ht : t.val < 25 := hN ▸ t.isLt
  funext j
  have hp : (j 0).val < 4000 := (j 0).isLt
  have hq : (j 1).val < 128 := (j 1).isLt
  have hj : (j : S4000x128.Idx) = ix2 (⟨(j 0).val, hp⟩ : Fin 4000) (⟨(j 1).val, hq⟩ : Fin 128) :=
    funext fun a => by match a with | ⟨0, _⟩ => rfl | ⟨1, _⟩ => rfl
  have hemb : (((cfg1.win 7).blk t).view.emb j : S100000x128.Idx)
      = ix2 (⟨t.val * 4000 + (j 0).val, by omega⟩ : Fin 100000) (⟨(j 1).val, hq⟩ : Fin 128) :=
    funext fun a => Fin.ext (by
      match a with
      | ⟨0, _⟩ => show win1_7.index t 0 * 4000 + 1 * (j 0).val = t.val * 4000 + (j 0).val; rw [e7_0]; omega
      | ⟨1, _⟩ => show win1_7.index t 1 * 128 + 1 * (j 1).val = (j 1).val; rw [e7_1]; omega)
  show k1_pay1 (F := Ideal) (iblk1 V c 0 t) (iblk1 V c 1 t) (iblk1 V c 2 t) (iblk1 V c 3 t) (iblk1 V c 4 t) (iblk1 V c 5 t) (iblk1 V c 6 t) j = G1 V c (((cfg1.win 7).blk t).view.emb j)
  refine ((congrArg (k1_pay1 (F := Ideal) (iblk1 V c 0 t) (iblk1 V c 1 t) (iblk1 V c 2 t) (iblk1 V c 3 t) (iblk1 V c 4 t) (iblk1 V c 5 t) (iblk1 V c 6 t)) hj).trans (pay1_apply _ _ _ _ _ _ _ _ _)).trans
    (Eq.trans ?_ (congrArg (G1 V c) hemb).symm)
  show _ = Cert.Spec.nodeAt _ _ _ _ _ _ _ _ _
  unfold Cert.Spec.nodeAt
  refine congrArg₂ max (congrArg₂ (· + ·) (congrArg₂ Ideal.div (congrArg₂ (· + ·) ?_ ?_) ?_) ?_) rfl
  · exact Finset.sum_congr rfl fun k _ => congrArg₂ (· * ·) (iblk1_0_apply V c t ⟨(j 0).val, hp⟩ k _ rfl) (iblk1_3_apply V c t k ⟨(j 1).val, hq⟩)
  · exact Finset.sum_congr rfl fun k _ => congrArg₂ (· * ·) (iblk1_1_apply V c t ⟨(j 0).val, hp⟩ k _ rfl) (iblk1_4_apply V c t k ⟨(j 1).val, hq⟩)
  · exact iblk1_6_apply V c t ⟨(j 0).val, hp⟩ 0 _ rfl
  · exact Finset.sum_congr rfl fun k _ => congrArg₂ (· * ·) (iblk1_2_apply V c t ⟨(j 0).val, hp⟩ k _ rfl) (iblk1_5_apply V c t k ⟨(j 1).val, hq⟩)

/-- An index of the output is in point t's block iff each coordinate is in the block's range on its axis. -/
theorem mem_blk1 (t : Fin cfg1.N) (i : S100000x128.Idx) :
    i ∈ ((cfg1.win 7).blk t).view.set ↔ ∀ a : Fin 2, win1_7.index t a * S4000x128.size a ≤ (i a).val ∧ (i a).val < win1_7.index t a * S4000x128.size a + S4000x128.size a := by
  show i ∈ ((View.whole main_v32).slice (win1_7.rect t)).set ↔ _
  rw [View.set_slice_whole, Rect.mem_set_unit]
  exact Iff.rfl

/-- Row r of the output lies in the block of point r / 4000. -/
theorem cover1 (i : S100000x128.Idx) : ∃ t : Fin cfg1.N, (cfg1.win 7).flush t = true ∧ i ∈ ((cfg1.win 7).blk t).view.set := by
  have hi0 : (i 0).val < 100000 := (i 0).isLt
  have hi1 : (i 1).val < 128 := (i 1).isLt
  have hN : cfg1.N = 25 := N_1
  obtain ⟨t, ht⟩ : ∃ t : Fin cfg1.N, t.val = (i 0).val / 4000 := ⟨⟨(i 0).val / 4000, by rw [hN]; omega⟩, rfl⟩
  obtain ⟨-, -, -, -, -, -, -, -, -, -, -, -, -, -, e7_0, e7_1⟩ := idx_facts1 t
  refine ⟨t, flush1_7 t, ?_⟩
  rw [mem_blk1]
  intro a
  match a with
  | ⟨0, _⟩ => show win1_7.index t 0 * 4000 ≤ (i 0).val ∧ (i 0).val < win1_7.index t 0 * 4000 + 4000; omega
  | ⟨1, _⟩ => show win1_7.index t 1 * 128 ≤ (i 1).val ∧ (i 1).val < win1_7.index t 1 * 128 + 128; omega

/-- After the region's twenty-five points every entry of the output is the node update's value there. -/
theorem final1 (c : Dev nD) (r : Fin 100000) (q : Fin 128) :
    ((dat1 (F := Ideal) V c).arrAt 7 cfg1.N : S100000x128.Idx → EReal) (ix2 r q)
      = Cert.Spec.nodeAt (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) r q :=
  congrFun ((dat1 V c).arrAt_eq_of_cover 7 (G1 V c) (fun t _ => flushed1_eq V c t) cover1) (ix2 r q)

end Cert.KernelIdeal.KVal

end
-- ==== Proof.KLibNorm.lean ====
/-
  Reading the normalisation's block operations entry by entry, on the extended reals.

  A vector of row values stood up as a column reads its entry at the row.  The sum along the rows of a 4000 × 128 block
  reads, at row p, the sum of the row's 128 entries.  A square root or a reciprocal square root of a block is taken entry
  by entry.
-/
import proofs.«113076_j55267639165123_2_alg».proof.Proof.KLib

noncomputable section

namespace Cert.KernelIdeal.KVal

open Idealize.ShloMosaic Idealize.ShloMosaic.ValueIdx
open Cert.KernelIdeal Cert.KernelIdeal.Gen

/-- A vector of a entries stood up as an a × 1 column reads, at (p, u), the vector's entry at p. -/
theorem col_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A square root of a block is taken entry by entry. -/
theorem sqrt_apply {s : Shape} {φ : FTy} (x : FVec Ideal s φ) (i : s.Idx) : sqrt x i = Ideal.sqrt (x i) := rfl
/-- A reciprocal square root of a block is taken entry by entry. -/
theorem rsqrt_apply {s : Shape} {φ : FTy} (x : FVec Ideal s φ) (i : s.Idx) : rsqrt x i = Ideal.rsqrt (x i) := rfl

/-- The sum along the rows of a 4000 × 128 block, from the zero word: at row p, the sum of the row's entries. -/
theorem rowsum_apply (src : FVec Ideal S4000x128 .f32) (h : S4000x128.Reduces [1] S4000) (hφ : FKind.Formats .f32)
    (hacc : (0x00000000#32 : BitVec 32) = 0x00000000#32) (p : Fin 4000) :
    multiReduction .add [1] S4000 src 0x00000000#32 h hφ hacc (ix1 p) = ∑ k : Fin 128, src (ix2 p k) := by
  refine (Ideal.multiReduction_add_single src 0x00000000#32 h hφ hacc (ix1 p)).trans ?_
  show ∑ k : Fin 128, src (h.lift (ix1 p) k) = _
  refine Finset.sum_congr rfl fun k _ => congrArg src ?_
  exact funext fun c => Fin.ext (by match c with | ⟨0, _⟩ => rfl | ⟨1, _⟩ => rfl)

end Cert.KernelIdeal.KVal

end
-- ==== Proof.KPayNorm.lean ====
/-
  The normalisation's block, entry by entry.

  From 4000 rows of the pre-normalised features and the whole of the column mean, the column variance, γ and β, the block
  first takes, entry by entry, (pre − mean) · rsqrt(var + ε₅) · γ + β, the statistics and the affine pair laid as rows and
  repeated down the rows; then it divides each row by the larger of its Euclidean length — the square root of the sum of
  the row's squares — and ε₁₂, that column repeated across the columns.  The three layers' blocks are the same function.
-/
import proofs.«113076_j55267639165123_2_alg».proof.Proof.KLibNorm
import proofs.«113076_j55267639165123_2_alg».proof.Proof.Spec

noncomputable section

namespace Cert.KernelIdeal.KVal

open Idealize.ShloMosaic Idealize.ShloMosaic.ValueIdx
open Cert.KernelIdeal Cert.KernelIdeal.Gen

/-- Entry (p, k) of a block after the affine normalisation by the column statistics. -/
def affB (x0 : Vec Ideal S4000x128 .f32) (x1 x2 x3 x4 : Vec Ideal S128 .f32) (p : Fin 4000) (k : Fin 128) : EReal :=
  ((x0 (ix2 p k) - x1 (ix1 k)) * Ideal.rsqrt (x2 (ix1 k) + Cert.Spec.eps5)) * x3 (ix1 k) + x4 (ix1 k)

/-- Entry (p, q) of the normalisation block of region 2. -/
theorem pay2_apply (x0 : Vec Ideal S4000x128 .f32) (x1 x2 x3 x4 : Vec Ideal S128 .f32) (p : Fin 4000) (q : Fin 128) :
    k2_pay1 (F := Ideal) x0 x1 x2 x3 x4 (ix2 p q)
      = Ideal.div (affB x0 x1 x2 x3 x4 p q)
          (max (Ideal.sqrt (∑ k : Fin 128, affB x0 x1 x2 x3 x4 p k * affB x0 x1 x2 x3 x4 p k)) Cert.Spec.eps12) := by
  unfold k2_pay1
  simp only [shapeCast_self]
  rw [divf_apply, broadcastTo_a1_ab_apply, maximumf_apply, broadcast_apply, sqrt_apply, col_apply, rowsum_apply]
  simp only [addf_apply, mulf_apply, subf_apply, row_apply, rsqrt_apply, broadcast_apply]
  rfl

/-- Entry (p, q) of the normalisation block of region 4. -/
theorem pay4_apply (x0 : Vec Ideal S4000x128 .f32) (x1 x2 x3 x4 : Vec Ideal S128 .f32) (p : Fin 4000) (q : Fin 128) :
    k4_pay1 (F := Ideal) x0 x1 x2 x3 x4 (ix2 p q)
      = Ideal.div (affB x0 x1 x2 x3 x4 p q)
          (max (Ideal.sqrt (∑ k : Fin 128, affB x0 x1 x2 x3 x4 p k * affB x0 x1 x2 x3 x4 p k)) Cert.Spec.eps12) := by
  unfold k4_pay1
  simp only [shapeCast_self]
  rw [divf_apply, broadcastTo_a1_ab_apply, maximumf_apply, broadcast_apply, sqrt_apply, col_apply, rowsum_apply]
  simp only [addf_apply, mulf_apply, subf_apply, row_apply, rsqrt_apply, broadcast_apply]
  rfl

/-- Entry (p, q) of the normalisation block of region 6. -/
theorem pay6_apply (x0 : Vec Ideal S4000x128 .f32) (x1 x2 x3 x4 : Vec Ideal S128 .f32) (p : Fin 4000) (q : Fin 128) :
    k6_pay1 (F := Ideal) x0 x1 x2 x3 x4 (ix2 p q)
      = Ideal.div (affB x0 x1 x2 x3 x4 p q)
          (max (Ideal.sqrt (∑ k : Fin 128, affB x0 x1 x2 x3 x4 p k * affB x0 x1 x2 x3 x4 p k)) Cert.Spec.eps12) := by
  unfold k6_pay1
  simp only [shapeCast_self]
  rw [divf_apply, broadcastTo_a1_ab_apply, maximumf_apply, broadcast_apply, sqrt_apply, col_apply, rowsum_apply]
  simp only [addf_apply, mulf_apply, subf_apply, row_apply, rsqrt_apply, broadcast_apply]
  rfl

end Cert.KernelIdeal.KVal

end
-- ==== Proof.KRegion2.lean ====
/-
  A normalisation region: after its twenty-five points the output array is the normalisation of the arrays the region found.

  Point t reads rows 4000 t … 4000 t + 3999 of the pre-normalised features (and the whole of the column mean, the column
  variance, γ and β) and writes back the same rows of the output; row r of the output is written by point r / 4000.  So
  entry (r, q) of the output ends at the affine value of (r, q) over the larger of row r's Euclidean length and ε₁₂.
-/
import proofs.«113076_j55267639165123_2_alg».proof.Proof.Gen.KernelIdeal.Frame
import proofs.«113076_j55267639165123_2_alg».proof.Proof.KPayNorm
import proofs.«113076_j55267639165123_2_alg».proof.Proof.Spec

set_option maxRecDepth 16384

noncomputable section

namespace Cert.KernelIdeal.KVal

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The printed index maps over the grid: the row-blocked windows move one block of rows per point, the others stay. -/
theorem idx_facts2 : ∀ t : Fin cfg2.N, win2_0.index t (0 : Fin 2) = t.val
    ∧ win2_0.index t (1 : Fin 2) = 0
    ∧ win2_1.index t (0 : Fin 1) = 0
    ∧ win2_2.index t (0 : Fin 1) = 0
    ∧ win2_3.index t (0 : Fin 1) = 0
    ∧ win2_4.index t (0 : Fin 1) = 0
    ∧ win2_5.index t (0 : Fin 2) = t.val
    ∧ win2_5.index t (1 : Fin 2) = 0 :=
  (by decide +kernel : ∀ t : Fin grid2.N, _)

/-- The region's output as one function of the arrays it finds. -/
abbrev G2 (c : Dev nD) : S100000x128.Idx → EReal := fun i =>
  Cert.Spec.unitAt (V c (Pipeline.arrRef spec2 0)) (V c (Pipeline.arrRef spec2 1)) (V c (Pipeline.arrRef spec2 2)) (V c (Pipeline.arrRef spec2 3)) (V c (Pipeline.arrRef spec2 4)) (i 0) (i 1)

/-- Window 0's block at point t is rows 4000 t … 4000 t + 3999 of its array. -/
theorem iblk2_0_apply (c : Dev nD) (t : Fin cfg2.N) (a : Fin 4000) (b : Fin 128) (r : Fin 100000) (hr : r.val = t.val * 4000 + a.val) :
    (iblk2 V c 0 t : S4000x128.Idx → EReal) (ix2 a b) = (V c (Pipeline.arrRef spec2 0) : S100000x128.Idx → EReal) (ix2 r b) := by
  obtain ⟨e0_0, e0_1, -, -, -, -, -, -⟩ := idx_facts2 t
  unfold iblk2
  rw [View.read_apply]
  refine congrArg (V c (Pipeline.arrRef spec2 0) : S100000x128.Idx → EReal) ?_
  funext x
  apply Fin.ext
  match x with
  | ⟨0, _⟩ => show win2_0.index t 0 * 4000 + 1 * a.val = r.val; rw [e0_0, hr]; omega
  | ⟨1, _⟩ => show win2_0.index t 1 * 128 + 1 * b.val = b.val; rw [e0_1]; omega

/-- Window 1's block at every point is its whole array. -/
theorem iblk2_1_apply (c : Dev nD) (t : Fin cfg2.N) (a : Fin 128) :
    (iblk2 V c 1 t : S128.Idx → EReal) (ix1 a) = (V c (Pipeline.arrRef spec2 1) : S128.Idx → EReal) (ix1 a) := by
  obtain ⟨-, -, e1_0, -, -, -, -, -⟩ := idx_facts2 t
  unfold iblk2
  rw [View.read_apply]
  refine congrArg (V c (Pipeline.arrRef spec2 1) : S128.Idx → EReal) ?_
  funext x
  apply Fin.ext
  match x with
  | ⟨0, _⟩ => show win2_1.index t 0 * 128 + 1 * a.val = a.val; rw [e1_0]; omega

/-- Window 2's block at every point is its whole array. -/
theorem iblk2_2_apply (c : Dev nD) (t : Fin cfg2.N) (a : Fin 128) :
    (iblk2 V c 2 t : S128.Idx → EReal) (ix1 a) = (V c (Pipeline.arrRef spec2 2) : S128.Idx → EReal) (ix1 a) := by
  obtain ⟨-, -, -, e2_0, -, -, -, -⟩ := idx_facts2 t
  unfold iblk2
  rw [View.read_apply]
  refine congrArg (V c (Pipeline.arrRef spec2 2) : S128.Idx → EReal) ?_
  funext x
  apply Fin.ext
  match x with
  | ⟨0, _⟩ => show win2_2.index t 0 * 128 + 1 * a.val = a.val; rw [e2_0]; omega

/-- Window 3's block at every point is its whole array. -/
theorem iblk2_3_apply (c : Dev nD) (t : Fin cfg2.N) (a : Fin 128) :
    (iblk2 V c 3 t : S128.Idx → EReal) (ix1 a) = (V c (Pipeline.arrRef spec2 3) : S128.Idx → EReal) (ix1 a) := by
  obtain ⟨-, -, -, -, e3_0, -, -, -⟩ := idx_facts2 t
  unfold iblk2
  rw [View.read_apply]
  refine congrArg (V c (Pipeline.arrRef spec2 3) : S128.Idx → EReal) ?_
  funext x
  apply Fin.ext
  match x with
  | ⟨0, _⟩ => show win2_3.index t 0 * 128 + 1 * a.val = a.val; rw [e3_0]; omega

/-- Window 4's block at every point is its whole array. -/
theorem iblk2_4_apply (c : Dev nD) (t : Fin cfg2.N) (a : Fin 128) :
    (iblk2 V c 4 t : S128.Idx → EReal) (ix1 a) = (V c (Pipeline.arrRef spec2 4) : S128.Idx → EReal) (ix1 a) := by
  obtain ⟨-, -, -, -, -, e4_0, -, -⟩ := idx_facts2 t
  unfold iblk2
  rw [View.read_apply]
  refine congrArg (V c (Pipeline.arrRef spec2 4) : S128.Idx → EReal) ?_
  funext x
  apply Fin.ext
  match x with
  | ⟨0, _⟩ => show win2_4.index t 0 * 128 + 1 * a.val = a.val; rw [e4_0]; omega

/-- What point t writes back is block t of the region's function. -/
theorem flushed2_eq (c : Dev nD) (t : Fin cfg2.N) :
    (dat2 V c).flushed 5 t = ((cfg2.win 5).blk t).view.read (Elt Ideal) (G2 V c) := by
  show (cfg2.win 5).cut (grid2.coords t) ((dat2 V c).after 5 t) = _
  rw [after2_5]
  unfold out2_5
  rw [View.canon_unit_zero hz2]
  simp only [View.ld_unit_zero (S := S4000x128) hz2, View.ld_unit_zero (S := S128) hz1]
  obtain ⟨-, -, -, -, -, -, e5_0, e5_1⟩ := idx_facts2 t
  have hN : cfg2.N = 25 := N_2
  have ht : t.val < 25 := hN ▸ t.isLt
  funext j
  have hp : (j 0).val < 4000 := (j 0).isLt
  have hq : (j 1).val < 128 := (j 1).isLt
  have hj : (j : S4000x128.Idx) = ix2 (⟨(j 0).val, hp⟩ : Fin 4000) (⟨(j 1).val, hq⟩ : Fin 128) :=
    funext fun a => by match a with | ⟨0, _⟩ => rfl | ⟨1, _⟩ => rfl
  have hemb : (((cfg2.win 5).blk t).view.emb j : S100000x128.Idx)
      = ix2 (⟨t.val * 4000 + (j 0).val, by omega⟩ : Fin 100000) (⟨(j 1).val, hq⟩ : Fin 128) :=
    funext fun a => Fin.ext (by
      match a with
      | ⟨0, _⟩ => show win2_5.index t 0 * 4000 + 1 * (j 0).val = t.val * 4000 + (j 0).val; rw [e5_0]; omega
      | ⟨1, _⟩ => show win2_5.index t 1 * 128 + 1 * (j 1).val = (j 1).val; rw [e5_1]; omega)
  show k2_pay1 (F := Ideal) (iblk2 V c 0 t) (iblk2 V c 1 t) (iblk2 V c 2 t) (iblk2 V c 3 t) (iblk2 V c 4 t) j = G2 V c (((cfg2.win 5).blk t).view.emb j)
  refine ((congrArg (k2_pay1 (F := Ideal) (iblk2 V c 0 t) (iblk2 V c 1 t) (iblk2 V c 2 t) (iblk2 V c 3 t) (iblk2 V c 4 t)) hj).trans (pay2_apply _ _ _ _ _ _ _)).trans
    (Eq.trans ?_ (congrArg (G2 V c) hemb).symm)
  show _ = Cert.Spec.unitAt _ _ _ _ _ _ _
  have haff : ∀ k : Fin 128, affB (iblk2 V c 0 t) (iblk2 V c 1 t) (iblk2 V c 2 t) (iblk2 V c 3 t) (iblk2 V c 4 t) ⟨(j 0).val, hp⟩ k
      = Cert.Spec.affAt (V c (Pipeline.arrRef spec2 0)) (V c (Pipeline.arrRef spec2 1)) (V c (Pipeline.arrRef spec2 2)) (V c (Pipeline.arrRef spec2 3)) (V c (Pipeline.arrRef spec2 4))
          (⟨t.val * 4000 + (j 0).val, by omega⟩ : Fin 100000) k := fun k => by
    unfold affB Cert.Spec.affAt
    exact congrArg₂ (· + ·) (congrArg₂ (· * ·) (congrArg₂ (· * ·) (congrArg₂ (· - ·) (iblk2_0_apply V c t ⟨(j 0).val, hp⟩ k _ rfl) (iblk2_1_apply V c t k))
      (congrArg Ideal.rsqrt (congrArg (· + Cert.Spec.eps5) (iblk2_2_apply V c t k)))) (iblk2_3_apply V c t k)) (iblk2_4_apply V c t k)
  unfold Cert.Spec.unitAt
  exact congrArg₂ Ideal.div (haff _) (congrArg₂ max (congrArg Ideal.sqrt (Finset.sum_congr rfl fun k _ => congrArg₂ (· * ·) (haff k) (haff k))) rfl)

/-- An index of the output is in point t's block iff each coordinate is in the block's range on its axis. -/
theorem mem_blk2 (t : Fin cfg2.N) (i : S100000x128.Idx) :
    i ∈ ((cfg2.win 5).blk t).view.set ↔ ∀ a : Fin 2, win2_5.index t a * S4000x128.size a ≤ (i a).val ∧ (i a).val < win2_5.index t a * S4000x128.size a + S4000x128.size a := by
  show i ∈ ((View.whole main_v37).slice (win2_5.rect t)).set ↔ _
  rw [View.set_slice_whole, Rect.mem_set_unit]
  exact Iff.rfl

/-- Row r of the output lies in the block of point r / 4000. -/
theorem cover2 (i : S100000x128.Idx) : ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 25 := N_2
  obtain ⟨t, ht⟩ : ∃ t : Fin cfg2.N, t.val = (i 0).val / 4000 := ⟨⟨(i 0).val / 4000, by rw [hN]; omega⟩, rfl⟩
  obtain ⟨-, -, -, -, -, -, e5_0, e5_1⟩ := idx_facts2 t
  refine ⟨t, flush2_5 t, ?_⟩
  rw [mem_blk2]
  intro a
  match a with
  | ⟨0, _⟩ => show win2_5.index t 0 * 4000 ≤ (i 0).val ∧ (i 0).val < win2_5.index t 0 * 4000 + 4000; omega
  | ⟨1, _⟩ => show win2_5.index t 1 * 128 ≤ (i 1).val ∧ (i 1).val < win2_5.index t 1 * 128 + 128; omega

/-- After the region's twenty-five points every entry of the output is the normalised value there. -/
theorem final2 (c : Dev nD) (r : Fin 100000) (q : Fin 128) :
    ((dat2 (F := Ideal) V c).arrAt 5 cfg2.N : S100000x128.Idx → EReal) (ix2 r q)
      = Cert.Spec.unitAt (V c (Pipeline.arrRef spec2 0)) (V c (Pipeline.arrRef spec2 1)) (V c (Pipeline.arrRef spec2 2)) (V c (Pipeline.arrRef spec2 3)) (V c (Pipeline.arrRef spec2 4)) r q :=
  congrFun ((dat2 V c).arrAt_eq_of_cover 5 (G2 V c) (fun t _ => flushed2_eq V c t) cover2) (ix2 r q)

end Cert.KernelIdeal.KVal

end
-- ==== Proof.KRegion3.lean ====
/-
  A node-update region: after its twenty-five points the output array is the node update of the arrays the region found.

  Point t reads rows 4000 t … 4000 t + 3999 of the aggregated neighbour features, of the aggregated edge features, of the node
  features and of the degree column (and the whole of the three weight matrices) and writes back the same rows of the
  output; row r of the output is written by point r / 4000.  So entry (r, q) of the output ends at the node update of row r.
-/
import proofs.«113076_j55267639165123_2_alg».proof.Proof.Gen.KernelIdeal.Frame
import proofs.«113076_j55267639165123_2_alg».proof.Proof.KPayNode
import proofs.«113076_j55267639165123_2_alg».proof.Proof.Spec

set_option maxRecDepth 16384

noncomputable section

namespace Cert.KernelIdeal.KVal

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The printed index maps over the grid: the row-blocked windows move one block of rows per point, the others stay. -/
theorem idx_facts3 : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_2.index t (0 : Fin 2) = t.val
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = t.val
    ∧ win3_6.index t (1 : Fin 2) = 0
    ∧ win3_7.index t (0 : Fin 2) = t.val
    ∧ win3_7.index t (1 : Fin 2) = 0 :=
  (by decide +kernel : ∀ t : Fin grid3.N, _)

/-- The region's output as one function of the arrays it finds. -/
abbrev G3 (c : Dev nD) : S100000x128.Idx → EReal := fun i =>
  Cert.Spec.nodeAt (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (i 0) (i 1)

/-- Window 0's block at point t is rows 4000 t … 4000 t + 3999 of its array. -/
theorem iblk3_0_apply (c : Dev nD) (t : Fin cfg3.N) (a : Fin 4000) (b : Fin 128) (r : Fin 100000) (hr : r.val = t.val * 4000 + a.val) :
    (iblk3 V c 0 t : S4000x128.Idx → EReal) (ix2 a b) = (V c (Pipeline.arrRef spec3 0) : S100000x128.Idx → EReal) (ix2 r b) := by
  obtain ⟨e0_0, e0_1, -, -, -, -, -, -, -, -, -, -, -, -, -, -⟩ := idx_facts3 t
  unfold iblk3
  rw [View.read_apply]
  refine congrArg (V c (Pipeline.arrRef spec3 0) : S100000x128.Idx → EReal) ?_
  funext x
  apply Fin.ext
  match x with
  | ⟨0, _⟩ => show win3_0.index t 0 * 4000 + 1 * a.val = r.val; rw [e0_0, hr]; omega
  | ⟨1, _⟩ => show win3_0.index t 1 * 128 + 1 * b.val = b.val; rw [e0_1]; omega

/-- Window 1's block at point t is rows 4000 t … 4000 t + 3999 of its array. -/
theorem iblk3_1_apply (c : Dev nD) (t : Fin cfg3.N) (a : Fin 4000) (b : Fin 2) (r : Fin 100000) (hr : r.val = t.val * 4000 + a.val) :
    (iblk3 V c 1 t : S4000x2.Idx → EReal) (ix2 a b) = (V c (Pipeline.arrRef spec3 1) : S100000x2.Idx → EReal) (ix2 r b) := by
  obtain ⟨-, -, e1_0, e1_1, -, -, -, -, -, -, -, -, -, -, -, -⟩ := idx_facts3 t
  unfold iblk3
  rw [View.read_apply]
  refine congrArg (V c (Pipeline.arrRef spec3 1) : S100000x2.Idx → EReal) ?_
  funext x
  apply Fin.ext
  match x with
  | ⟨0, _⟩ => show win3_1.index t 0 * 4000 + 1 * a.val = r.val; rw [e1_0, hr]; omega
  | ⟨1, _⟩ => show win3_1.index t 1 * 2 + 1 * b.val = b.val; rw [e1_1]; omega

/-- Window 2's block at point t is rows 4000 t … 4000 t + 3999 of its array. -/
theorem iblk3_2_apply (c : Dev nD) (t : Fin cfg3.N) (a : Fin 4000) (b : Fin 128) (r : Fin 100000) (hr : r.val = t.val * 4000 + a.val) :
    (iblk3 V c 2 t : S4000x128.Idx → EReal) (ix2 a b) = (V c (Pipeline.arrRef spec3 2) : S100000x128.Idx → EReal) (ix2 r b) := by
  obtain ⟨-, -, -, -, e2_0, e2_1, -, -, -, -, -, -, -, -, -, -⟩ := idx_facts3 t
  unfold iblk3
  rw [View.read_apply]
  refine congrArg (V c (Pipeline.arrRef spec3 2) : S100000x128.Idx → EReal) ?_
  funext x
  apply Fin.ext
  match x with
  | ⟨0, _⟩ => show win3_2.index t 0 * 4000 + 1 * a.val = r.val; rw [e2_0, hr]; omega
  | ⟨1, _⟩ => show win3_2.index t 1 * 128 + 1 * b.val = b.val; rw [e2_1]; omega

/-- Window 3's block at every point is its whole array. -/
theorem iblk3_3_apply (c : Dev nD) (t : Fin cfg3.N) (a : Fin 128) (b : Fin 128) :
    (iblk3 V c 3 t : S128x128.Idx → EReal) (ix2 a b) = (V c (Pipeline.arrRef spec3 3) : S128x128.Idx → EReal) (ix2 a b) := by
  obtain ⟨-, -, -, -, -, -, e3_0, e3_1, -, -, -, -, -, -, -, -⟩ := idx_facts3 t
  unfold iblk3
  rw [View.read_apply]
  refine congrArg (V c (Pipeline.arrRef spec3 3) : S128x128.Idx → EReal) ?_
  funext x
  apply Fin.ext
  match x with
  | ⟨0, _⟩ => show win3_3.index t 0 * 128 + 1 * a.val = a.val; rw [e3_0]; omega
  | ⟨1, _⟩ => show win3_3.index t 1 * 128 + 1 * b.val = b.val; rw [e3_1]; omega

/-- Window 4's block at every point is its whole array. -/
theorem iblk3_4_apply (c : Dev nD) (t : Fin cfg3.N) (a : Fin 2) (b : Fin 128) :
    (iblk3 V c 4 t : S2x128.Idx → EReal) (ix2 a b) = (V c (Pipeline.arrRef spec3 4) : S2x128.Idx → EReal) (ix2 a b) := by
  obtain ⟨-, -, -, -, -, -, -, -, e4_0, e4_1, -, -, -, -, -, -⟩ := idx_facts3 t
  unfold iblk3
  rw [View.read_apply]
  refine congrArg (V c (Pipeline.arrRef spec3 4) : S2x128.Idx → EReal) ?_
  funext x
  apply Fin.ext
  match x with
  | ⟨0, _⟩ => show win3_4.index t 0 * 2 + 1 * a.val = a.val; rw [e4_0]; omega
  | ⟨1, _⟩ => show win3_4.index t 1 * 128 + 1 * b.val = b.val; rw [e4_1]; omega

/-- Window 5's block at every point is its whole array. -/
theorem iblk3_5_apply (c : Dev nD) (t : Fin cfg3.N) (a : Fin 128) (b : Fin 128) :
    (iblk3 V c 5 t : S128x128.Idx → EReal) (ix2 a b) = (V c (Pipeline.arrRef spec3 5) : S128x128.Idx → EReal) (ix2 a b) := by
  obtain ⟨-, -, -, -, -, -, -, -, -, -, e5_0, e5_1, -, -, -, -⟩ := idx_facts3 t
  unfold iblk3
  rw [View.read_apply]
  refine congrArg (V c (Pipeline.arrRef spec3 5) : S128x128.Idx → EReal) ?_
  funext x
  apply Fin.ext
  match x with
  | ⟨0, _⟩ => show win3_5.index t 0 * 128 + 1 * a.val = a.val; rw [e5_0]; omega
  | ⟨1, _⟩ => show win3_5.index t 1 * 128 + 1 * b.val = b.val; rw [e5_1]; omega

/-- Window 6's block at point t is rows 4000 t … 4000 t + 3999 of its array. -/
theorem iblk3_6_apply (c : Dev nD) (t : Fin cfg3.N) (a : Fin 4000) (b : Fin 1) (r : Fin 100000) (hr : r.val = t.val * 4000 + a.val) :
    (iblk3 V c 6 t : S4000x1.Idx → EReal) (ix2 a b) = (V c (Pipeline.arrRef spec3 6) : S100000x1.Idx → EReal) (ix2 r b) := by
  obtain ⟨-, -, -, -, -, -, -, -, -, -, -, -, e6_0, e6_1, -, -⟩ := idx_facts3 t
  unfold iblk3
  rw [View.read_apply]
  refine congrArg (V c (Pipeline.arrRef spec3 6) : S100000x1.Idx → EReal) ?_
  funext x
  apply Fin.ext
  match x with
  | ⟨0, _⟩ => show win3_6.index t 0 * 4000 + 1 * a.val = r.val; rw [e6_0, hr]; omega
  | ⟨1, _⟩ => show win3_6.index t 1 * 1 + 1 * b.val = b.val; rw [e6_1]; omega

/-- What point t writes back is block t of the region's function. -/
theorem flushed3_eq (c : Dev nD) (t : Fin cfg3.N) :
    (dat3 V c).flushed 7 t = ((cfg3.win 7).blk t).view.read (Elt Ideal) (G3 V c) := by
  show (cfg3.win 7).cut (grid3.coords t) ((dat3 V c).after 7 t) = _
  rw [after3_7]
  unfold out3_7
  rw [View.canon_unit_zero hz2]
  simp only [View.ld_unit_zero (S := S4000x128) hz2, View.ld_unit_zero (S := S4000x2) hz2, View.ld_unit_zero (S := S128x128) hz2, View.ld_unit_zero (S := S2x128) hz2, View.ld_unit_zero (S := S4000x1) hz2]
  obtain ⟨-, -, -, -, -, -, -, -, -, -, -, -, -, -, e7_0, e7_1⟩ := idx_facts3 t
  have hN : cfg3.N = 25 := N_3
  have ht : t.val < 25 := hN ▸ t.isLt
  funext j
  have hp : (j 0).val < 4000 := (j 0).isLt
  have hq : (j 1).val < 128 := (j 1).isLt
  have hj : (j : S4000x128.Idx) = ix2 (⟨(j 0).val, hp⟩ : Fin 4000) (⟨(j 1).val, hq⟩ : Fin 128) :=
    funext fun a => by match a with | ⟨0, _⟩ => rfl | ⟨1, _⟩ => rfl
  have hemb : (((cfg3.win 7).blk t).view.emb j : S100000x128.Idx)
      = ix2 (⟨t.val * 4000 + (j 0).val, by omega⟩ : Fin 100000) (⟨(j 1).val, hq⟩ : Fin 128) :=
    funext fun a => Fin.ext (by
      match a with
      | ⟨0, _⟩ => show win3_7.index t 0 * 4000 + 1 * (j 0).val = t.val * 4000 + (j 0).val; rw [e7_0]; omega
      | ⟨1, _⟩ => show win3_7.index t 1 * 128 + 1 * (j 1).val = (j 1).val; rw [e7_1]; omega)
  show k3_pay1 (F := Ideal) (iblk3 V c 0 t) (iblk3 V c 1 t) (iblk3 V c 2 t) (iblk3 V c 3 t) (iblk3 V c 4 t) (iblk3 V c 5 t) (iblk3 V c 6 t) j = G3 V c (((cfg3.win 7).blk t).view.emb j)
  refine ((congrArg (k3_pay1 (F := Ideal) (iblk3 V c 0 t) (iblk3 V c 1 t) (iblk3 V c 2 t) (iblk3 V c 3 t) (iblk3 V c 4 t) (iblk3 V c 5 t) (iblk3 V c 6 t)) hj).trans (pay3_apply _ _ _ _ _ _ _ _ _)).trans
    (Eq.trans ?_ (congrArg (G3 V c) hemb).symm)
  show _ = Cert.Spec.nodeAt _ _ _ _ _ _ _ _ _
  unfold Cert.Spec.nodeAt
  refine congrArg₂ max (congrArg₂ (· + ·) (congrArg₂ Ideal.div (congrArg₂ (· + ·) ?_ ?_) ?_) ?_) rfl
  · exact Finset.sum_congr rfl fun k _ => congrArg₂ (· * ·) (iblk3_0_apply V c t ⟨(j 0).val, hp⟩ k _ rfl) (iblk3_3_apply V c t k ⟨(j 1).val, hq⟩)
  · exact Finset.sum_congr rfl fun k _ => congrArg₂ (· * ·) (iblk3_1_apply V c t ⟨(j 0).val, hp⟩ k _ rfl) (iblk3_4_apply V c t k ⟨(j 1).val, hq⟩)
  · exact iblk3_6_apply V c t ⟨(j 0).val, hp⟩ 0 _ rfl
  · exact Finset.sum_congr rfl fun k _ => congrArg₂ (· * ·) (iblk3_2_apply V c t ⟨(j 0).val, hp⟩ k _ rfl) (iblk3_5_apply V c t k ⟨(j 1).val, hq⟩)

/-- An index of the output is in point t's block iff each coordinate is in the block's range on its axis. -/
theorem mem_blk3 (t : Fin cfg3.N) (i : S100000x128.Idx) :
    i ∈ ((cfg3.win 7).blk t).view.set ↔ ∀ a : Fin 2, win3_7.index t a * S4000x128.size a ≤ (i a).val ∧ (i a).val < win3_7.index t a * S4000x128.size a + S4000x128.size a := by
  show i ∈ ((View.whole main_v50).slice (win3_7.rect t)).set ↔ _
  rw [View.set_slice_whole, Rect.mem_set_unit]
  exact Iff.rfl

/-- Row r of the output lies in the block of point r / 4000. -/
theorem cover3 (i : S100000x128.Idx) : ∃ t : Fin cfg3.N, (cfg3.win 7).flush t = true ∧ i ∈ ((cfg3.win 7).blk t).view.set := by
  have hi0 : (i 0).val < 100000 := (i 0).isLt
  have hi1 : (i 1).val < 128 := (i 1).isLt
  have hN : cfg3.N = 25 := N_3
  obtain ⟨t, ht⟩ : ∃ t : Fin cfg3.N, t.val = (i 0).val / 4000 := ⟨⟨(i 0).val / 4000, by rw [hN]; omega⟩, rfl⟩
  obtain ⟨-, -, -, -, -, -, -, -, -, -, -, -, -, -, e7_0, e7_1⟩ := idx_facts3 t
  refine ⟨t, flush3_7 t, ?_⟩
  rw [mem_blk3]
  intro a
  match a with
  | ⟨0, _⟩ => show win3_7.index t 0 * 4000 ≤ (i 0).val ∧ (i 0).val < win3_7.index t 0 * 4000 + 4000; omega
  | ⟨1, _⟩ => show win3_7.index t 1 * 128 ≤ (i 1).val ∧ (i 1).val < win3_7.index t 1 * 128 + 128; omega

/-- After the region's twenty-five points every entry of the output is the node update's value there. -/
theorem final3 (c : Dev nD) (r : Fin 100000) (q : Fin 128) :
    ((dat3 (F := Ideal) V c).arrAt 7 cfg3.N : S100000x128.Idx → EReal) (ix2 r q)
      = Cert.Spec.nodeAt (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) r q :=
  congrFun ((dat3 V c).arrAt_eq_of_cover 7 (G3 V c) (fun t _ => flushed3_eq V c t) cover3) (ix2 r q)

end Cert.KernelIdeal.KVal

end
-- ==== Proof.KRegion4.lean ====
/-
  A normalisation region: after its twenty-five points the output array is the normalisation of the arrays the region found.

  Point t reads rows 4000 t … 4000 t + 3999 of the pre-normalised features (and the whole of the column mean, the column
  variance, γ and β) and writes back the same rows of the output; row r of the output is written by point r / 4000.  So
  entry (r, q) of the output ends at the affine value of (r, q) over the larger of row r's Euclidean length and ε₁₂.
-/
import proofs.«113076_j55267639165123_2_alg».proof.Proof.Gen.KernelIdeal.Frame
import proofs.«113076_j55267639165123_2_alg».proof.Proof.KPayNorm
import proofs.«113076_j55267639165123_2_alg».proof.Proof.Spec

set_option maxRecDepth 16384

noncomputable section

namespace Cert.KernelIdeal.KVal

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The printed index maps over the grid: the row-blocked windows move one block of rows per point, the others stay. -/
theorem idx_facts4 : ∀ t : Fin cfg4.N, win4_0.index t (0 : Fin 2) = t.val
    ∧ win4_0.index t (1 : Fin 2) = 0
    ∧ win4_1.index t (0 : Fin 1) = 0
    ∧ win4_2.index t (0 : Fin 1) = 0
    ∧ win4_3.index t (0 : Fin 1) = 0
    ∧ win4_4.index t (0 : Fin 1) = 0
    ∧ win4_5.index t (0 : Fin 2) = t.val
    ∧ win4_5.index t (1 : Fin 2) = 0 :=
  (by decide +kernel : ∀ t : Fin grid4.N, _)

/-- The region's output as one function of the arrays it finds. -/
abbrev G4 (c : Dev nD) : S100000x128.Idx → EReal := fun i =>
  Cert.Spec.unitAt (V c (Pipeline.arrRef spec4 0)) (V c (Pipeline.arrRef spec4 1)) (V c (Pipeline.arrRef spec4 2)) (V c (Pipeline.arrRef spec4 3)) (V c (Pipeline.arrRef spec4 4)) (i 0) (i 1)

/-- Window 0's block at point t is rows 4000 t … 4000 t + 3999 of its array. -/
theorem iblk4_0_apply (c : Dev nD) (t : Fin cfg4.N) (a : Fin 4000) (b : Fin 128) (r : Fin 100000) (hr : r.val = t.val * 4000 + a.val) :
    (iblk4 V c 0 t : S4000x128.Idx → EReal) (ix2 a b) = (V c (Pipeline.arrRef spec4 0) : S100000x128.Idx → EReal) (ix2 r b) := by
  obtain ⟨e0_0, e0_1, -, -, -, -, -, -⟩ := idx_facts4 t
  unfold iblk4
  rw [View.read_apply]
  refine congrArg (V c (Pipeline.arrRef spec4 0) : S100000x128.Idx → EReal) ?_
  funext x
  apply Fin.ext
  match x with
  | ⟨0, _⟩ => show win4_0.index t 0 * 4000 + 1 * a.val = r.val; rw [e0_0, hr]; omega
  | ⟨1, _⟩ => show win4_0.index t 1 * 128 + 1 * b.val = b.val; rw [e0_1]; omega

/-- Window 1's block at every point is its whole array. -/
theorem iblk4_1_apply (c : Dev nD) (t : Fin cfg4.N) (a : Fin 128) :
    (iblk4 V c 1 t : S128.Idx → EReal) (ix1 a) = (V c (Pipeline.arrRef spec4 1) : S128.Idx → EReal) (ix1 a) := by
  obtain ⟨-, -, e1_0, -, -, -, -, -⟩ := idx_facts4 t
  unfold iblk4
  rw [View.read_apply]
  refine congrArg (V c (Pipeline.arrRef spec4 1) : S128.Idx → EReal) ?_
  funext x
  apply Fin.ext
  match x with
  | ⟨0, _⟩ => show win4_1.index t 0 * 128 + 1 * a.val = a.val; rw [e1_0]; omega

/-- Window 2's block at every point is its whole array. -/
theorem iblk4_2_apply (c : Dev nD) (t : Fin cfg4.N) (a : Fin 128) :
    (iblk4 V c 2 t : S128.Idx → EReal) (ix1 a) = (V c (Pipeline.arrRef spec4 2) : S128.Idx → EReal) (ix1 a) := by
  obtain ⟨-, -, -, e2_0, -, -, -, -⟩ := idx_facts4 t
  unfold iblk4
  rw [View.read_apply]
  refine congrArg (V c (Pipeline.arrRef spec4 2) : S128.Idx → EReal) ?_
  funext x
  apply Fin.ext
  match x with
  | ⟨0, _⟩ => show win4_2.index t 0 * 128 + 1 * a.val = a.val; rw [e2_0]; omega

/-- Window 3's block at every point is its whole array. -/
theorem iblk4_3_apply (c : Dev nD) (t : Fin cfg4.N) (a : Fin 128) :
    (iblk4 V c 3 t : S128.Idx → EReal) (ix1 a) = (V c (Pipeline.arrRef spec4 3) : S128.Idx → EReal) (ix1 a) := by
  obtain ⟨-, -, -, -, e3_0, -, -, -⟩ := idx_facts4 t
  unfold iblk4
  rw [View.read_apply]
  refine congrArg (V c (Pipeline.arrRef spec4 3) : S128.Idx → EReal) ?_
  funext x
  apply Fin.ext
  match x with
  | ⟨0, _⟩ => show win4_3.index t 0 * 128 + 1 * a.val = a.val; rw [e3_0]; omega

/-- Window 4's block at every point is its whole array. -/
theorem iblk4_4_apply (c : Dev nD) (t : Fin cfg4.N) (a : Fin 128) :
    (iblk4 V c 4 t : S128.Idx → EReal) (ix1 a) = (V c (Pipeline.arrRef spec4 4) : S128.Idx → EReal) (ix1 a) := by
  obtain ⟨-, -, -, -, -, e4_0, -, -⟩ := idx_facts4 t
  unfold iblk4
  rw [View.read_apply]
  refine congrArg (V c (Pipeline.arrRef spec4 4) : S128.Idx → EReal) ?_
  funext x
  apply Fin.ext
  match x with
  | ⟨0, _⟩ => show win4_4.index t 0 * 128 + 1 * a.val = a.val; rw [e4_0]; omega

/-- What point t writes back is block t of the region's function. -/
theorem flushed4_eq (c : Dev nD) (t : Fin cfg4.N) :
    (dat4 V c).flushed 5 t = ((cfg4.win 5).blk t).view.read (Elt Ideal) (G4 V c) := by
  show (cfg4.win 5).cut (grid4.coords t) ((dat4 V c).after 5 t) = _
  rw [after4_5]
  unfold out4_5
  rw [View.canon_unit_zero hz2]
  simp only [View.ld_unit_zero (S := S4000x128) hz2, View.ld_unit_zero (S := S128) hz1]
  obtain ⟨-, -, -, -, -, -, e5_0, e5_1⟩ := idx_facts4 t
  have hN : cfg4.N = 25 := N_4
  have ht : t.val < 25 := hN ▸ t.isLt
  funext j
  have hp : (j 0).val < 4000 := (j 0).isLt
  have hq : (j 1).val < 128 := (j 1).isLt
  have hj : (j : S4000x128.Idx) = ix2 (⟨(j 0).val, hp⟩ : Fin 4000) (⟨(j 1).val, hq⟩ : Fin 128) :=
    funext fun a => by match a with | ⟨0, _⟩ => rfl | ⟨1, _⟩ => rfl
  have hemb : (((cfg4.win 5).blk t).view.emb j : S100000x128.Idx)
      = ix2 (⟨t.val * 4000 + (j 0).val, by omega⟩ : Fin 100000) (⟨(j 1).val, hq⟩ : Fin 128) :=
    funext fun a => Fin.ext (by
      match a with
      | ⟨0, _⟩ => show win4_5.index t 0 * 4000 + 1 * (j 0).val = t.val * 4000 + (j 0).val; rw [e5_0]; omega
      | ⟨1, _⟩ => show win4_5.index t 1 * 128 + 1 * (j 1).val = (j 1).val; rw [e5_1]; omega)
  show k4_pay1 (F := Ideal) (iblk4 V c 0 t) (iblk4 V c 1 t) (iblk4 V c 2 t) (iblk4 V c 3 t) (iblk4 V c 4 t) j = G4 V c (((cfg4.win 5).blk t).view.emb j)
  refine ((congrArg (k4_pay1 (F := Ideal) (iblk4 V c 0 t) (iblk4 V c 1 t) (iblk4 V c 2 t) (iblk4 V c 3 t) (iblk4 V c 4 t)) hj).trans (pay4_apply _ _ _ _ _ _ _)).trans
    (Eq.trans ?_ (congrArg (G4 V c) hemb).symm)
  show _ = Cert.Spec.unitAt _ _ _ _ _ _ _
  have haff : ∀ k : Fin 128, affB (iblk4 V c 0 t) (iblk4 V c 1 t) (iblk4 V c 2 t) (iblk4 V c 3 t) (iblk4 V c 4 t) ⟨(j 0).val, hp⟩ k
      = Cert.Spec.affAt (V c (Pipeline.arrRef spec4 0)) (V c (Pipeline.arrRef spec4 1)) (V c (Pipeline.arrRef spec4 2)) (V c (Pipeline.arrRef spec4 3)) (V c (Pipeline.arrRef spec4 4))
          (⟨t.val * 4000 + (j 0).val, by omega⟩ : Fin 100000) k := fun k => by
    unfold affB Cert.Spec.affAt
    exact congrArg₂ (· + ·) (congrArg₂ (· * ·) (congrArg₂ (· * ·) (congrArg₂ (· - ·) (iblk4_0_apply V c t ⟨(j 0).val, hp⟩ k _ rfl) (iblk4_1_apply V c t k))
      (congrArg Ideal.rsqrt (congrArg (· + Cert.Spec.eps5) (iblk4_2_apply V c t k)))) (iblk4_3_apply V c t k)) (iblk4_4_apply V c t k)
  unfold Cert.Spec.unitAt
  exact congrArg₂ Ideal.div (haff _) (congrArg₂ max (congrArg Ideal.sqrt (Finset.sum_congr rfl fun k _ => congrArg₂ (· * ·) (haff k) (haff k))) rfl)

/-- An index of the output is in point t's block iff each coordinate is in the block's range on its axis. -/
theorem mem_blk4 (t : Fin cfg4.N) (i : S100000x128.Idx) :
    i ∈ ((cfg4.win 5).blk t).view.set ↔ ∀ a : Fin 2, win4_5.index t a * S4000x128.size a ≤ (i a).val ∧ (i a).val < win4_5.index t a * S4000x128.size a + S4000x128.size a := by
  show i ∈ ((View.whole main_v55).slice (win4_5.rect t)).set ↔ _
  rw [View.set_slice_whole, Rect.mem_set_unit]
  exact Iff.rfl

/-- Row r of the output lies in the block of point r / 4000. -/
theorem cover4 (i : S100000x128.Idx) : ∃ t : Fin cfg4.N, (cfg4.win 5).flush t = true ∧ i ∈ ((cfg4.win 5).blk t).view.set := by
  have hi0 : (i 0).val < 100000 := (i 0).isLt
  have hi1 : (i 1).val < 128 := (i 1).isLt
  have hN : cfg4.N = 25 := N_4
  obtain ⟨t, ht⟩ : ∃ t : Fin cfg4.N, t.val = (i 0).val / 4000 := ⟨⟨(i 0).val / 4000, by rw [hN]; omega⟩, rfl⟩
  obtain ⟨-, -, -, -, -, -, e5_0, e5_1⟩ := idx_facts4 t
  refine ⟨t, flush4_5 t, ?_⟩
  rw [mem_blk4]
  intro a
  match a with
  | ⟨0, _⟩ => show win4_5.index t 0 * 4000 ≤ (i 0).val ∧ (i 0).val < win4_5.index t 0 * 4000 + 4000; omega
  | ⟨1, _⟩ => show win4_5.index t 1 * 128 ≤ (i 1).val ∧ (i 1).val < win4_5.index t 1 * 128 + 128; omega

/-- After the region's twenty-five points every entry of the output is the normalised value there. -/
theorem final4 (c : Dev nD) (r : Fin 100000) (q : Fin 128) :
    ((dat4 (F := Ideal) V c).arrAt 5 cfg4.N : S100000x128.Idx → EReal) (ix2 r q)
      = Cert.Spec.unitAt (V c (Pipeline.arrRef spec4 0)) (V c (Pipeline.arrRef spec4 1)) (V c (Pipeline.arrRef spec4 2)) (V c (Pipeline.arrRef spec4 3)) (V c (Pipeline.arrRef spec4 4)) r q :=
  congrFun ((dat4 V c).arrAt_eq_of_cover 5 (G4 V c) (fun t _ => flushed4_eq V c t) cover4) (ix2 r q)

end Cert.KernelIdeal.KVal

end
-- ==== Proof.KRegion5.lean ====
/-
  A node-update region: after its twenty-five points the output array is the node update of the arrays the region found.

  Point t reads rows 4000 t … 4000 t + 3999 of the aggregated neighbour features, of the aggregated edge features, of the node
  features and of the degree column (and the whole of the three weight matrices) and writes back the same rows of the
  output; row r of the output is written by point r / 4000.  So entry (r, q) of the output ends at the node update of row r.
-/
import proofs.«113076_j55267639165123_2_alg».proof.Proof.Gen.KernelIdeal.Frame
import proofs.«113076_j55267639165123_2_alg».proof.Proof.KPayNode
import proofs.«113076_j55267639165123_2_alg».proof.Proof.Spec

set_option maxRecDepth 16384

noncomputable section

namespace Cert.KernelIdeal.KVal

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The printed index maps over the grid: the row-blocked windows move one block of rows per point, the others stay. -/
theorem idx_facts5 : ∀ t : Fin cfg5.N, win5_0.index t (0 : Fin 2) = t.val
    ∧ win5_0.index t (1 : Fin 2) = 0
    ∧ win5_1.index t (0 : Fin 2) = t.val
    ∧ win5_1.index t (1 : Fin 2) = 0
    ∧ win5_2.index t (0 : Fin 2) = t.val
    ∧ win5_2.index t (1 : Fin 2) = 0
    ∧ win5_3.index t (0 : Fin 2) = 0
    ∧ win5_3.index t (1 : Fin 2) = 0
    ∧ win5_4.index t (0 : Fin 2) = 0
    ∧ win5_4.index t (1 : Fin 2) = 0
    ∧ win5_5.index t (0 : Fin 2) = 0
    ∧ win5_5.index t (1 : Fin 2) = 0
    ∧ win5_6.index t (0 : Fin 2) = t.val
    ∧ win5_6.index t (1 : Fin 2) = 0
    ∧ win5_7.index t (0 : Fin 2) = t.val
    ∧ win5_7.index t (1 : Fin 2) = 0 :=
  (by decide +kernel : ∀ t : Fin grid5.N, _)

/-- The region's output as one function of the arrays it finds. -/
abbrev G5 (c : Dev nD) : S100000x128.Idx → EReal := fun i =>
  Cert.Spec.nodeAt (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6)) (i 0) (i 1)

/-- Window 0's block at point t is rows 4000 t … 4000 t + 3999 of its array. -/
theorem iblk5_0_apply (c : Dev nD) (t : Fin cfg5.N) (a : Fin 4000) (b : Fin 128) (r : Fin 100000) (hr : r.val = t.val * 4000 + a.val) :
    (iblk5 V c 0 t : S4000x128.Idx → EReal) (ix2 a b) = (V c (Pipeline.arrRef spec5 0) : S100000x128.Idx → EReal) (ix2 r b) := by
  obtain ⟨e0_0, e0_1, -, -, -, -, -, -, -, -, -, -, -, -, -, -⟩ := idx_facts5 t
  unfold iblk5
  rw [View.read_apply]
  refine congrArg (V c (Pipeline.arrRef spec5 0) : S100000x128.Idx → EReal) ?_
  funext x
  apply Fin.ext
  match x with
  | ⟨0, _⟩ => show win5_0.index t 0 * 4000 + 1 * a.val = r.val; rw [e0_0, hr]; omega
  | ⟨1, _⟩ => show win5_0.index t 1 * 128 + 1 * b.val = b.val; rw [e0_1]; omega

/-- Window 1's block at point t is rows 4000 t … 4000 t + 3999 of its array. -/
theorem iblk5_1_apply (c : Dev nD) (t : Fin cfg5.N) (a : Fin 4000) (b : Fin 2) (r : Fin 100000) (hr : r.val = t.val * 4000 + a.val) :
    (iblk5 V c 1 t : S4000x2.Idx → EReal) (ix2 a b) = (V c (Pipeline.arrRef spec5 1) : S100000x2.Idx → EReal) (ix2 r b) := by
  obtain ⟨-, -, e1_0, e1_1, -, -, -, -, -, -, -, -, -, -, -, -⟩ := idx_facts5 t
  unfold iblk5
  rw [View.read_apply]
  refine congrArg (V c (Pipeline.arrRef spec5 1) : S100000x2.Idx → EReal) ?_
  funext x
  apply Fin.ext
  match x with
  | ⟨0, _⟩ => show win5_1.index t 0 * 4000 + 1 * a.val = r.val; rw [e1_0, hr]; omega
  | ⟨1, _⟩ => show win5_1.index t 1 * 2 + 1 * b.val = b.val; rw [e1_1]; omega

/-- Window 2's block at point t is rows 4000 t … 4000 t + 3999 of its array. -/
theorem iblk5_2_apply (c : Dev nD) (t : Fin cfg5.N) (a : Fin 4000) (b : Fin 128) (r : Fin 100000) (hr : r.val = t.val * 4000 + a.val) :
    (iblk5 V c 2 t : S4000x128.Idx → EReal) (ix2 a b) = (V c (Pipeline.arrRef spec5 2) : S100000x128.Idx → EReal) (ix2 r b) := by
  obtain ⟨-, -, -, -, e2_0, e2_1, -, -, -, -, -, -, -, -, -, -⟩ := idx_facts5 t
  unfold iblk5
  rw [View.read_apply]
  refine congrArg (V c (Pipeline.arrRef spec5 2) : S100000x128.Idx → EReal) ?_
  funext x
  apply Fin.ext
  match x with
  | ⟨0, _⟩ => show win5_2.index t 0 * 4000 + 1 * a.val = r.val; rw [e2_0, hr]; omega
  | ⟨1, _⟩ => show win5_2.index t 1 * 128 + 1 * b.val = b.val; rw [e2_1]; omega

/-- Window 3's block at every point is its whole array. -/
theorem iblk5_3_apply (c : Dev nD) (t : Fin cfg5.N) (a : Fin 128) (b : Fin 128) :
    (iblk5 V c 3 t : S128x128.Idx → EReal) (ix2 a b) = (V c (Pipeline.arrRef spec5 3) : S128x128.Idx → EReal) (ix2 a b) := by
  obtain ⟨-, -, -, -, -, -, e3_0, e3_1, -, -, -, -, -, -, -, -⟩ := idx_facts5 t
  unfold iblk5
  rw [View.read_apply]
  refine congrArg (V c (Pipeline.arrRef spec5 3) : S128x128.Idx → EReal) ?_
  funext x
  apply Fin.ext
  match x with
  | ⟨0, _⟩ => show win5_3.index t 0 * 128 + 1 * a.val = a.val; rw [e3_0]; omega
  | ⟨1, _⟩ => show win5_3.index t 1 * 128 + 1 * b.val = b.val; rw [e3_1]; omega

/-- Window 4's block at every point is its whole array. -/
theorem iblk5_4_apply (c : Dev nD) (t : Fin cfg5.N) (a : Fin 2) (b : Fin 128) :
    (iblk5 V c 4 t : S2x128.Idx → EReal) (ix2 a b) = (V c (Pipeline.arrRef spec5 4) : S2x128.Idx → EReal) (ix2 a b) := by
  obtain ⟨-, -, -, -, -, -, -, -, e4_0, e4_1, -, -, -, -, -, -⟩ := idx_facts5 t
  unfold iblk5
  rw [View.read_apply]
  refine congrArg (V c (Pipeline.arrRef spec5 4) : S2x128.Idx → EReal) ?_
  funext x
  apply Fin.ext
  match x with
  | ⟨0, _⟩ => show win5_4.index t 0 * 2 + 1 * a.val = a.val; rw [e4_0]; omega
  | ⟨1, _⟩ => show win5_4.index t 1 * 128 + 1 * b.val = b.val; rw [e4_1]; omega

/-- Window 5's block at every point is its whole array. -/
theorem iblk5_5_apply (c : Dev nD) (t : Fin cfg5.N) (a : Fin 128) (b : Fin 128) :
    (iblk5 V c 5 t : S128x128.Idx → EReal) (ix2 a b) = (V c (Pipeline.arrRef spec5 5) : S128x128.Idx → EReal) (ix2 a b) := by
  obtain ⟨-, -, -, -, -, -, -, -, -, -, e5_0, e5_1, -, -, -, -⟩ := idx_facts5 t
  unfold iblk5
  rw [View.read_apply]
  refine congrArg (V c (Pipeline.arrRef spec5 5) : S128x128.Idx → EReal) ?_
  funext x
  apply Fin.ext
  match x with
  | ⟨0, _⟩ => show win5_5.index t 0 * 128 + 1 * a.val = a.val; rw [e5_0]; omega
  | ⟨1, _⟩ => show win5_5.index t 1 * 128 + 1 * b.val = b.val; rw [e5_1]; omega

/-- Window 6's block at point t is rows 4000 t … 4000 t + 3999 of its array. -/
theorem iblk5_6_apply (c : Dev nD) (t : Fin cfg5.N) (a : Fin 4000) (b : Fin 1) (r : Fin 100000) (hr : r.val = t.val * 4000 + a.val) :
    (iblk5 V c 6 t : S4000x1.Idx → EReal) (ix2 a b) = (V c (Pipeline.arrRef spec5 6) : S100000x1.Idx → EReal) (ix2 r b) := by
  obtain ⟨-, -, -, -, -, -, -, -, -, -, -, -, e6_0, e6_1, -, -⟩ := idx_facts5 t
  unfold iblk5
  rw [View.read_apply]
  refine congrArg (V c (Pipeline.arrRef spec5 6) : S100000x1.Idx → EReal) ?_
  funext x
  apply Fin.ext
  match x with
  | ⟨0, _⟩ => show win5_6.index t 0 * 4000 + 1 * a.val = r.val; rw [e6_0, hr]; omega
  | ⟨1, _⟩ => show win5_6.index t 1 * 1 + 1 * b.val = b.val; rw [e6_1]; omega

/-- What point t writes back is block t of the region's function. -/
theorem flushed5_eq (c : Dev nD) (t : Fin cfg5.N) :
    (dat5 V c).flushed 7 t = ((cfg5.win 7).blk t).view.read (Elt Ideal) (G5 V c) := by
  show (cfg5.win 7).cut (grid5.coords t) ((dat5 V c).after 7 t) = _
  rw [after5_7]
  unfold out5_7
  rw [View.canon_unit_zero hz2]
  simp only [View.ld_unit_zero (S := S4000x128) hz2, View.ld_unit_zero (S := S4000x2) hz2, View.ld_unit_zero (S := S128x128) hz2, View.ld_unit_zero (S := S2x128) hz2, View.ld_unit_zero (S := S4000x1) hz2]
  obtain ⟨-, -, -, -, -, -, -, -, -, -, -, -, -, -, e7_0, e7_1⟩ := idx_facts5 t
  have hN : cfg5.N = 25 := N_5
  have ht : t.val < 25 := hN ▸ t.isLt
  funext j
  have hp : (j 0).val < 4000 := (j 0).isLt
  have hq : (j 1).val < 128 := (j 1).isLt
  have hj : (j : S4000x128.Idx) = ix2 (⟨(j 0).val, hp⟩ : Fin 4000) (⟨(j 1).val, hq⟩ : Fin 128) :=
    funext fun a => by match a with | ⟨0, _⟩ => rfl | ⟨1, _⟩ => rfl
  have hemb : (((cfg5.win 7).blk t).view.emb j : S100000x128.Idx)
      = ix2 (⟨t.val * 4000 + (j 0).val, by omega⟩ : Fin 100000) (⟨(j 1).val, hq⟩ : Fin 128) :=
    funext fun a => Fin.ext (by
      match a with
      | ⟨0, _⟩ => show win5_7.index t 0 * 4000 + 1 * (j 0).val = t.val * 4000 + (j 0).val; rw [e7_0]; omega
      | ⟨1, _⟩ => show win5_7.index t 1 * 128 + 1 * (j 1).val = (j 1).val; rw [e7_1]; omega)
  show k5_pay1 (F := Ideal) (iblk5 V c 0 t) (iblk5 V c 1 t) (iblk5 V c 2 t) (iblk5 V c 3 t) (iblk5 V c 4 t) (iblk5 V c 5 t) (iblk5 V c 6 t) j = G5 V c (((cfg5.win 7).blk t).view.emb j)
  refine ((congrArg (k5_pay1 (F := Ideal) (iblk5 V c 0 t) (iblk5 V c 1 t) (iblk5 V c 2 t) (iblk5 V c 3 t) (iblk5 V c 4 t) (iblk5 V c 5 t) (iblk5 V c 6 t)) hj).trans (pay5_apply _ _ _ _ _ _ _ _ _)).trans
    (Eq.trans ?_ (congrArg (G5 V c) hemb).symm)
  show _ = Cert.Spec.nodeAt _ _ _ _ _ _ _ _ _
  unfold Cert.Spec.nodeAt
  refine congrArg₂ max (congrArg₂ (· + ·) (congrArg₂ Ideal.div (congrArg₂ (· + ·) ?_ ?_) ?_) ?_) rfl
  · exact Finset.sum_congr rfl fun k _ => congrArg₂ (· * ·) (iblk5_0_apply V c t ⟨(j 0).val, hp⟩ k _ rfl) (iblk5_3_apply V c t k ⟨(j 1).val, hq⟩)
  · exact Finset.sum_congr rfl fun k _ => congrArg₂ (· * ·) (iblk5_1_apply V c t ⟨(j 0).val, hp⟩ k _ rfl) (iblk5_4_apply V c t k ⟨(j 1).val, hq⟩)
  · exact iblk5_6_apply V c t ⟨(j 0).val, hp⟩ 0 _ rfl
  · exact Finset.sum_congr rfl fun k _ => congrArg₂ (· * ·) (iblk5_2_apply V c t ⟨(j 0).val, hp⟩ k _ rfl) (iblk5_5_apply V c t k ⟨(j 1).val, hq⟩)

/-- An index of the output is in point t's block iff each coordinate is in the block's range on its axis. -/
theorem mem_blk5 (t : Fin cfg5.N) (i : S100000x128.Idx) :
    i ∈ ((cfg5.win 7).blk t).view.set ↔ ∀ a : Fin 2, win5_7.index t a * S4000x128.size a ≤ (i a).val ∧ (i a).val < win5_7.index t a * S4000x128.size a + S4000x128.size a := by
  show i ∈ ((View.whole main_v68).slice (win5_7.rect t)).set ↔ _
  rw [View.set_slice_whole, Rect.mem_set_unit]
  exact Iff.rfl

/-- Row r of the output lies in the block of point r / 4000. -/
theorem cover5 (i : S100000x128.Idx) : ∃ t : Fin cfg5.N, (cfg5.win 7).flush t = true ∧ i ∈ ((cfg5.win 7).blk t).view.set := by
  have hi0 : (i 0).val < 100000 := (i 0).isLt
  have hi1 : (i 1).val < 128 := (i 1).isLt
  have hN : cfg5.N = 25 := N_5
  obtain ⟨t, ht⟩ : ∃ t : Fin cfg5.N, t.val = (i 0).val / 4000 := ⟨⟨(i 0).val / 4000, by rw [hN]; omega⟩, rfl⟩
  obtain ⟨-, -, -, -, -, -, -, -, -, -, -, -, -, -, e7_0, e7_1⟩ := idx_facts5 t
  refine ⟨t, flush5_7 t, ?_⟩
  rw [mem_blk5]
  intro a
  match a with
  | ⟨0, _⟩ => show win5_7.index t 0 * 4000 ≤ (i 0).val ∧ (i 0).val < win5_7.index t 0 * 4000 + 4000; omega
  | ⟨1, _⟩ => show win5_7.index t 1 * 128 ≤ (i 1).val ∧ (i 1).val < win5_7.index t 1 * 128 + 128; omega

/-- After the region's twenty-five points every entry of the output is the node update's value there. -/
theorem final5 (c : Dev nD) (r : Fin 100000) (q : Fin 128) :
    ((dat5 (F := Ideal) V c).arrAt 7 cfg5.N : S100000x128.Idx → EReal) (ix2 r q)
      = Cert.Spec.nodeAt (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6)) r q :=
  congrFun ((dat5 V c).arrAt_eq_of_cover 7 (G5 V c) (fun t _ => flushed5_eq V c t) cover5) (ix2 r q)

end Cert.KernelIdeal.KVal

end
-- ==== Proof.KRegion6.lean ====
/-
  A normalisation region: after its twenty-five points the output array is the normalisation of the arrays the region found.

  Point t reads rows 4000 t … 4000 t + 3999 of the pre-normalised features (and the whole of the column mean, the column
  variance, γ and β) and writes back the same rows of the output; row r of the output is written by point r / 4000.  So
  entry (r, q) of the output ends at the affine value of (r, q) over the larger of row r's Euclidean length and ε₁₂.
-/
import proofs.«113076_j55267639165123_2_alg».proof.Proof.Gen.KernelIdeal.Frame
import proofs.«113076_j55267639165123_2_alg».proof.Proof.KPayNorm
import proofs.«113076_j55267639165123_2_alg».proof.Proof.Spec

set_option maxRecDepth 16384

noncomputable section

namespace Cert.KernelIdeal.KVal

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The printed index maps over the grid: the row-blocked windows move one block of rows per point, the others stay. -/
theorem idx_facts6 : ∀ t : Fin cfg6.N, win6_0.index t (0 : Fin 2) = t.val
    ∧ win6_0.index t (1 : Fin 2) = 0
    ∧ win6_1.index t (0 : Fin 1) = 0
    ∧ win6_2.index t (0 : Fin 1) = 0
    ∧ win6_3.index t (0 : Fin 1) = 0
    ∧ win6_4.index t (0 : Fin 1) = 0
    ∧ win6_5.index t (0 : Fin 2) = t.val
    ∧ win6_5.index t (1 : Fin 2) = 0 :=
  (by decide +kernel : ∀ t : Fin grid6.N, _)

/-- The region's output as one function of the arrays it finds. -/
abbrev G6 (c : Dev nD) : S100000x128.Idx → EReal := fun i =>
  Cert.Spec.unitAt (V c (Pipeline.arrRef spec6 0)) (V c (Pipeline.arrRef spec6 1)) (V c (Pipeline.arrRef spec6 2)) (V c (Pipeline.arrRef spec6 3)) (V c (Pipeline.arrRef spec6 4)) (i 0) (i 1)

/-- Window 0's block at point t is rows 4000 t … 4000 t + 3999 of its array. -/
theorem iblk6_0_apply (c : Dev nD) (t : Fin cfg6.N) (a : Fin 4000) (b : Fin 128) (r : Fin 100000) (hr : r.val = t.val * 4000 + a.val) :
    (iblk6 V c 0 t : S4000x128.Idx → EReal) (ix2 a b) = (V c (Pipeline.arrRef spec6 0) : S100000x128.Idx → EReal) (ix2 r b) := by
  obtain ⟨e0_0, e0_1, -, -, -, -, -, -⟩ := idx_facts6 t
  unfold iblk6
  rw [View.read_apply]
  refine congrArg (V c (Pipeline.arrRef spec6 0) : S100000x128.Idx → EReal) ?_
  funext x
  apply Fin.ext
  match x with
  | ⟨0, _⟩ => show win6_0.index t 0 * 4000 + 1 * a.val = r.val; rw [e0_0, hr]; omega
  | ⟨1, _⟩ => show win6_0.index t 1 * 128 + 1 * b.val = b.val; rw [e0_1]; omega

/-- Window 1's block at every point is its whole array. -/
theorem iblk6_1_apply (c : Dev nD) (t : Fin cfg6.N) (a : Fin 128) :
    (iblk6 V c 1 t : S128.Idx → EReal) (ix1 a) = (V c (Pipeline.arrRef spec6 1) : S128.Idx → EReal) (ix1 a) := by
  obtain ⟨-, -, e1_0, -, -, -, -, -⟩ := idx_facts6 t
  unfold iblk6
  rw [View.read_apply]
  refine congrArg (V c (Pipeline.arrRef spec6 1) : S128.Idx → EReal) ?_
  funext x
  apply Fin.ext
  match x with
  | ⟨0, _⟩ => show win6_1.index t 0 * 128 + 1 * a.val = a.val; rw [e1_0]; omega

/-- Window 2's block at every point is its whole array. -/
theorem iblk6_2_apply (c : Dev nD) (t : Fin cfg6.N) (a : Fin 128) :
    (iblk6 V c 2 t : S128.Idx → EReal) (ix1 a) = (V c (Pipeline.arrRef spec6 2) : S128.Idx → EReal) (ix1 a) := by
  obtain ⟨-, -, -, e2_0, -, -, -, -⟩ := idx_facts6 t
  unfold iblk6
  rw [View.read_apply]
  refine congrArg (V c (Pipeline.arrRef spec6 2) : S128.Idx → EReal) ?_
  funext x
  apply Fin.ext
  match x with
  | ⟨0, _⟩ => show win6_2.index t 0 * 128 + 1 * a.val = a.val; rw [e2_0]; omega

/-- Window 3's block at every point is its whole array. -/
theorem iblk6_3_apply (c : Dev nD) (t : Fin cfg6.N) (a : Fin 128) :
    (iblk6 V c 3 t : S128.Idx → EReal) (ix1 a) = (V c (Pipeline.arrRef spec6 3) : S128.Idx → EReal) (ix1 a) := by
  obtain ⟨-, -, -, -, e3_0, -, -, -⟩ := idx_facts6 t
  unfold iblk6
  rw [View.read_apply]
  refine congrArg (V c (Pipeline.arrRef spec6 3) : S128.Idx → EReal) ?_
  funext x
  apply Fin.ext
  match x with
  | ⟨0, _⟩ => show win6_3.index t 0 * 128 + 1 * a.val = a.val; rw [e3_0]; omega

/-- Window 4's block at every point is its whole array. -/
theorem iblk6_4_apply (c : Dev nD) (t : Fin cfg6.N) (a : Fin 128) :
    (iblk6 V c 4 t : S128.Idx → EReal) (ix1 a) = (V c (Pipeline.arrRef spec6 4) : S128.Idx → EReal) (ix1 a) := by
  obtain ⟨-, -, -, -, -, e4_0, -, -⟩ := idx_facts6 t
  unfold iblk6
  rw [View.read_apply]
  refine congrArg (V c (Pipeline.arrRef spec6 4) : S128.Idx → EReal) ?_
  funext x
  apply Fin.ext
  match x with
  | ⟨0, _⟩ => show win6_4.index t 0 * 128 + 1 * a.val = a.val; rw [e4_0]; omega

/-- What point t writes back is block t of the region's function. -/
theorem flushed6_eq (c : Dev nD) (t : Fin cfg6.N) :
    (dat6 V c).flushed 5 t = ((cfg6.win 5).blk t).view.read (Elt Ideal) (G6 V c) := by
  show (cfg6.win 5).cut (grid6.coords t) ((dat6 V c).after 5 t) = _
  rw [after6_5]
  unfold out6_5
  rw [View.canon_unit_zero hz2]
  simp only [View.ld_unit_zero (S := S4000x128) hz2, View.ld_unit_zero (S := S128) hz1]
  obtain ⟨-, -, -, -, -, -, e5_0, e5_1⟩ := idx_facts6 t
  have hN : cfg6.N = 25 := N_6
  have ht : t.val < 25 := hN ▸ t.isLt
  funext j
  have hp : (j 0).val < 4000 := (j 0).isLt
  have hq : (j 1).val < 128 := (j 1).isLt
  have hj : (j : S4000x128.Idx) = ix2 (⟨(j 0).val, hp⟩ : Fin 4000) (⟨(j 1).val, hq⟩ : Fin 128) :=
    funext fun a => by match a with | ⟨0, _⟩ => rfl | ⟨1, _⟩ => rfl
  have hemb : (((cfg6.win 5).blk t).view.emb j : S100000x128.Idx)
      = ix2 (⟨t.val * 4000 + (j 0).val, by omega⟩ : Fin 100000) (⟨(j 1).val, hq⟩ : Fin 128) :=
    funext fun a => Fin.ext (by
      match a with
      | ⟨0, _⟩ => show win6_5.index t 0 * 4000 + 1 * (j 0).val = t.val * 4000 + (j 0).val; rw [e5_0]; omega
      | ⟨1, _⟩ => show win6_5.index t 1 * 128 + 1 * (j 1).val = (j 1).val; rw [e5_1]; omega)
  show k6_pay1 (F := Ideal) (iblk6 V c 0 t) (iblk6 V c 1 t) (iblk6 V c 2 t) (iblk6 V c 3 t) (iblk6 V c 4 t) j = G6 V c (((cfg6.win 5).blk t).view.emb j)
  refine ((congrArg (k6_pay1 (F := Ideal) (iblk6 V c 0 t) (iblk6 V c 1 t) (iblk6 V c 2 t) (iblk6 V c 3 t) (iblk6 V c 4 t)) hj).trans (pay6_apply _ _ _ _ _ _ _)).trans
    (Eq.trans ?_ (congrArg (G6 V c) hemb).symm)
  show _ = Cert.Spec.unitAt _ _ _ _ _ _ _
  have haff : ∀ k : Fin 128, affB (iblk6 V c 0 t) (iblk6 V c 1 t) (iblk6 V c 2 t) (iblk6 V c 3 t) (iblk6 V c 4 t) ⟨(j 0).val, hp⟩ k
      = Cert.Spec.affAt (V c (Pipeline.arrRef spec6 0)) (V c (Pipeline.arrRef spec6 1)) (V c (Pipeline.arrRef spec6 2)) (V c (Pipeline.arrRef spec6 3)) (V c (Pipeline.arrRef spec6 4))
          (⟨t.val * 4000 + (j 0).val, by omega⟩ : Fin 100000) k := fun k => by
    unfold affB Cert.Spec.affAt
    exact congrArg₂ (· + ·) (congrArg₂ (· * ·) (congrArg₂ (· * ·) (congrArg₂ (· - ·) (iblk6_0_apply V c t ⟨(j 0).val, hp⟩ k _ rfl) (iblk6_1_apply V c t k))
      (congrArg Ideal.rsqrt (congrArg (· + Cert.Spec.eps5) (iblk6_2_apply V c t k)))) (iblk6_3_apply V c t k)) (iblk6_4_apply V c t k)
  unfold Cert.Spec.unitAt
  exact congrArg₂ Ideal.div (haff _) (congrArg₂ max (congrArg Ideal.sqrt (Finset.sum_congr rfl fun k _ => congrArg₂ (· * ·) (haff k) (haff k))) rfl)

/-- An index of the output is in point t's block iff each coordinate is in the block's range on its axis. -/
theorem mem_blk6 (t : Fin cfg6.N) (i : S100000x128.Idx) :
    i ∈ ((cfg6.win 5).blk t).view.set ↔ ∀ a : Fin 2, win6_5.index t a * S4000x128.size a ≤ (i a).val ∧ (i a).val < win6_5.index t a * S4000x128.size a + S4000x128.size a := by
  show i ∈ ((View.whole main_v73).slice (win6_5.rect t)).set ↔ _
  rw [View.set_slice_whole, Rect.mem_set_unit]
  exact Iff.rfl

/-- Row r of the output lies in the block of point r / 4000. -/
theorem cover6 (i : S100000x128.Idx) : ∃ t : Fin cfg6.N, (cfg6.win 5).flush t = true ∧ i ∈ ((cfg6.win 5).blk t).view.set := by
  have hi0 : (i 0).val < 100000 := (i 0).isLt
  have hi1 : (i 1).val < 128 := (i 1).isLt
  have hN : cfg6.N = 25 := N_6
  obtain ⟨t, ht⟩ : ∃ t : Fin cfg6.N, t.val = (i 0).val / 4000 := ⟨⟨(i 0).val / 4000, by rw [hN]; omega⟩, rfl⟩
  obtain ⟨-, -, -, -, -, -, e5_0, e5_1⟩ := idx_facts6 t
  refine ⟨t, flush6_5 t, ?_⟩
  rw [mem_blk6]
  intro a
  match a with
  | ⟨0, _⟩ => show win6_5.index t 0 * 4000 ≤ (i 0).val ∧ (i 0).val < win6_5.index t 0 * 4000 + 4000; omega
  | ⟨1, _⟩ => show win6_5.index t 1 * 128 ≤ (i 1).val ∧ (i 1).val < win6_5.index t 1 * 128 + 128; omega

/-- After the region's twenty-five points every entry of the output is the normalised value there. -/
theorem final6 (c : Dev nD) (r : Fin 100000) (q : Fin 128) :
    ((dat6 (F := Ideal) V c).arrAt 5 cfg6.N : S100000x128.Idx → EReal) (ix2 r q)
      = Cert.Spec.unitAt (V c (Pipeline.arrRef spec6 0)) (V c (Pipeline.arrRef spec6 1)) (V c (Pipeline.arrRef spec6 2)) (V c (Pipeline.arrRef spec6 3)) (V c (Pipeline.arrRef spec6 4)) r q :=
  congrFun ((dat6 V c).arrAt_eq_of_cover 5 (G6 V c) (fun t _ => flushed6_eq V c t) cover6) (ix2 r q)

end Cert.KernelIdeal.KVal

end
-- ==== Proof.KPayHead.lean ====
/-
  The scoring head's block, entry by entry.

  From 4000 rows of the three layer outputs and the whole of the three jump matrices, the jump bias, W₁, b₁, W₂ and b₂, the
  block first takes the jump layer — the three row-by-column products added in order, plus the bias, clipped below at
  zero —, then the scorer's hidden layer — the jump row against a column of W₁, plus b₁, clipped below at zero —, then the
  score — the hidden row against the one column of W₂, plus b₂.  Narrowing to a shorter format is the identity on extended
  reals and every product runs into a zero accumulator.
-/
import proofs.«113076_j55267639165123_2_alg».proof.Proof.KLib

noncomputable section

namespace Cert.KernelIdeal.KVal

open Idealize.ShloMosaic Idealize.ShloMosaic.ValueIdx
open Cert.KernelIdeal Cert.KernelIdeal.Gen

/-- Entry (p, k) of a block's jump layer. -/
def jumpB (x0 x1 x2 : Vec Ideal S4000x128 .f32) (x3 x4 x5 : Vec Ideal S128x128 .f32) (x6 : Vec Ideal S128 .f32)
    (p : Fin 4000) (k : Fin 128) : EReal :=
  max ((((∑ i : Fin 128, x0 (ix2 p i) * x3 (ix2 i k)) + (∑ i : Fin 128, x1 (ix2 p i) * x4 (ix2 i k)))
        + (∑ i : Fin 128, x2 (ix2 p i) * x5 (ix2 i k))) + x6 (ix1 k)) 0

/-- Entry (p, s) of a block's hidden layer. -/
def hidB (x0 x1 x2 : Vec Ideal S4000x128 .f32) (x3 x4 x5 : Vec Ideal S128x128 .f32) (x6 : Vec Ideal S128 .f32)
    (x7 : Vec Ideal S128x64 .f32) (x8 : Vec Ideal S64 .f32) (p : Fin 4000) (s : Fin 64) : EReal :=
  max ((∑ k : Fin 128, jumpB x0 x1 x2 x3 x4 x5 x6 p k * x7 (ix2 k s)) + x8 (ix1 s)) 0

/-- Entry (p, s) of the hidden layer before its clipping: the jump row against column s of W₁, plus b₁ at s. -/
theorem pay7_2_apply (x0 x1 x2 : Vec Ideal S4000x128 .f32) (x3 x4 x5 : Vec Ideal S128x128 .f32) (x6 : Vec Ideal S128 .f32)
    (x7 : Vec Ideal S128x64 .f32) (x8 : Vec Ideal S64 .f32) (p : Fin 4000) (s : Fin 64) :
    k7_pay2 (F := Ideal) x0 x1 x2 x3 x4 x5 x6 x7 x8 (ix2 p s)
      = (∑ k : Fin 128, jumpB x0 x1 x2 x3 x4 x5 x6 p k * x7 (ix2 k s)) + x8 (ix1 s) := by
  unfold k7_pay2
  simp only [shapeCast_self]
  rw [addf_apply, mm_4000x128_128x64, row_apply]
  simp only [truncf_apply, maximumf_apply, addf_apply, mm_4000x128_128x128, row_apply, broadcast_apply]
  show (∑ k : Fin 128, max _ (Ideal.ofBits .f32 0x00000000#32) * _) + _ = _
  simp only [Ideal.ofBits_zero_f32]
  rfl

/-- The score at row p of the block: the hidden row against the one column of W₂, plus b₂. -/
theorem pay7_apply (x0 x1 x2 : Vec Ideal S4000x128 .f32) (x3 x4 x5 : Vec Ideal S128x128 .f32) (x6 : Vec Ideal S128 .f32)
    (x7 : Vec Ideal S128x64 .f32) (x8 : Vec Ideal S64 .f32) (x9 : Vec Ideal S64x1 .f32) (x10 : Vec Ideal S1 .f32) (p : Fin 4000) :
    k7_pay1 (F := Ideal) (k7_pay2 x0 x1 x2 x3 x4 x5 x6 x7 x8) (Scalar.ofBits .f32 0x00000000#32) x9 x10 (ix2 p 0)
      = (∑ s : Fin 64, hidB x0 x1 x2 x3 x4 x5 x6 x7 x8 p s * x9 (ix2 s 0)) + x10 (ix1 0) := by
  unfold k7_pay1
  rw [addf_apply, mm_4000x64_64x1, row_apply]
  simp only [truncf_apply, maximumf_apply, broadcast_apply, pay7_2_apply]
  show (∑ s : Fin 64, max _ (Ideal.ofBits .f32 0x00000000#32) * _) + _ = _
  simp only [Ideal.ofBits_zero_f32]
  rfl

end Cert.KernelIdeal.KVal

end
-- ==== Proof.KRegion7.lean ====
/-
  The scoring head's region: after its twenty-five points the output column holds every node's score.

  Point t reads rows 4000 t … 4000 t + 3999 of the three layer outputs (and the whole of the jump matrices and bias and of
  the scorer's two layers) and writes back the same rows of the output column; row r is written by point r / 4000.  So
  entry (r, 0) of the output ends at the score of node r.
-/
import proofs.«113076_j55267639165123_2_alg».proof.Proof.Gen.KernelIdeal.Frame
import proofs.«113076_j55267639165123_2_alg».proof.Proof.KPayHead
import proofs.«113076_j55267639165123_2_alg».proof.Proof.Spec

set_option maxRecDepth 16384

noncomputable section

namespace Cert.KernelIdeal.KVal

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The printed index maps over the grid: the row-blocked windows move one block of rows per point, the others stay. -/
theorem idx_facts7 : ∀ t : Fin cfg7.N, win7_0.index t (0 : Fin 2) = t.val
    ∧ win7_0.index t (1 : Fin 2) = 0
    ∧ win7_1.index t (0 : Fin 2) = t.val
    ∧ win7_1.index t (1 : Fin 2) = 0
    ∧ win7_2.index t (0 : Fin 2) = t.val
    ∧ win7_2.index t (1 : Fin 2) = 0
    ∧ win7_3.index t (0 : Fin 2) = 0
    ∧ win7_3.index t (1 : Fin 2) = 0
    ∧ win7_4.index t (0 : Fin 2) = 0
    ∧ win7_4.index t (1 : Fin 2) = 0
    ∧ win7_5.index t (0 : Fin 2) = 0
    ∧ win7_5.index t (1 : Fin 2) = 0
    ∧ win7_6.index t (0 : Fin 1) = 0
    ∧ win7_7.index t (0 : Fin 2) = 0
    ∧ win7_7.index t (1 : Fin 2) = 0
    ∧ win7_8.index t (0 : Fin 1) = 0
    ∧ win7_9.index t (0 : Fin 2) = 0
    ∧ win7_9.index t (1 : Fin 2) = 0
    ∧ win7_10.index t (0 : Fin 1) = 0
    ∧ win7_11.index t (0 : Fin 2) = t.val
    ∧ win7_11.index t (1 : Fin 2) = 0 :=
  (by decide +kernel : ∀ t : Fin grid7.N, _)

/-- The region's output as one function of the arrays it finds. -/
abbrev G7 (c : Dev nD) : S100000x1.Idx → EReal := fun i =>
  Cert.Spec.scoreAt (V c (Pipeline.arrRef spec7 0)) (V c (Pipeline.arrRef spec7 1)) (V c (Pipeline.arrRef spec7 2)) (V c (Pipeline.arrRef spec7 3)) (V c (Pipeline.arrRef spec7 4)) (V c (Pipeline.arrRef spec7 5)) (V c (Pipeline.arrRef spec7 6)) (V c (Pipeline.arrRef spec7 7)) (V c (Pipeline.arrRef spec7 8)) (V c (Pipeline.arrRef spec7 9)) (V c (Pipeline.arrRef spec7 10)) (i 0)

/-- Window 0's block at point t is rows 4000 t … 4000 t + 3999 of its array. -/
theorem iblk7_0_apply (c : Dev nD) (t : Fin cfg7.N) (a : Fin 4000) (b : Fin 128) (r : Fin 100000) (hr : r.val = t.val * 4000 + a.val) :
    (iblk7 V c 0 t : S4000x128.Idx → EReal) (ix2 a b) = (V c (Pipeline.arrRef spec7 0) : S100000x128.Idx → EReal) (ix2 r b) := by
  obtain ⟨e0_0, e0_1, -, -, -, -, -, -, -, -, -, -, -, -, -, -, -, -, -, -, -⟩ := idx_facts7 t
  unfold iblk7
  rw [View.read_apply]
  refine congrArg (V c (Pipeline.arrRef spec7 0) : S100000x128.Idx → EReal) ?_
  funext x
  apply Fin.ext
  match x with
  | ⟨0, _⟩ => show win7_0.index t 0 * 4000 + 1 * a.val = r.val; rw [e0_0, hr]; omega
  | ⟨1, _⟩ => show win7_0.index t 1 * 128 + 1 * b.val = b.val; rw [e0_1]; omega

/-- Window 1's block at point t is rows 4000 t … 4000 t + 3999 of its array. -/
theorem iblk7_1_apply (c : Dev nD) (t : Fin cfg7.N) (a : Fin 4000) (b : Fin 128) (r : Fin 100000) (hr : r.val = t.val * 4000 + a.val) :
    (iblk7 V c 1 t : S4000x128.Idx → EReal) (ix2 a b) = (V c (Pipeline.arrRef spec7 1) : S100000x128.Idx → EReal) (ix2 r b) := by
  obtain ⟨-, -, e1_0, e1_1, -, -, -, -, -, -, -, -, -, -, -, -, -, -, -, -, -⟩ := idx_facts7 t
  unfold iblk7
  rw [View.read_apply]
  refine congrArg (V c (Pipeline.arrRef spec7 1) : S100000x128.Idx → EReal) ?_
  funext x
  apply Fin.ext
  match x with
  | ⟨0, _⟩ => show win7_1.index t 0 * 4000 + 1 * a.val = r.val; rw [e1_0, hr]; omega
  | ⟨1, _⟩ => show win7_1.index t 1 * 128 + 1 * b.val = b.val; rw [e1_1]; omega

/-- Window 2's block at point t is rows 4000 t … 4000 t + 3999 of its array. -/
theorem iblk7_2_apply (c : Dev nD) (t : Fin cfg7.N) (a : Fin 4000) (b : Fin 128) (r : Fin 100000) (hr : r.val = t.val * 4000 + a.val) :
    (iblk7 V c 2 t : S4000x128.Idx → EReal) (ix2 a b) = (V c (Pipeline.arrRef spec7 2) : S100000x128.Idx → EReal) (ix2 r b) := by
  obtain ⟨-, -, -, -, e2_0, e2_1, -, -, -, -, -, -, -, -, -, -, -, -, -, -, -⟩ := idx_facts7 t
  unfold iblk7
  rw [View.read_apply]
  refine congrArg (V c (Pipeline.arrRef spec7 2) : S100000x128.Idx → EReal) ?_
  funext x
  apply Fin.ext
  match x with
  | ⟨0, _⟩ => show win7_2.index t 0 * 4000 + 1 * a.val = r.val; rw [e2_0, hr]; omega
  | ⟨1, _⟩ => show win7_2.index t 1 * 128 + 1 * b.val = b.val; rw [e2_1]; omega

/-- Window 3's block at every point is its whole array. -/
theorem iblk7_3_apply (c : Dev nD) (t : Fin cfg7.N) (a : Fin 128) (b : Fin 128) :
    (iblk7 V c 3 t : S128x128.Idx → EReal) (ix2 a b) = (V c (Pipeline.arrRef spec7 3) : S128x128.Idx → EReal) (ix2 a b) := by
  obtain ⟨-, -, -, -, -, -, e3_0, e3_1, -, -, -, -, -, -, -, -, -, -, -, -, -⟩ := idx_facts7 t
  unfold iblk7
  rw [View.read_apply]
  refine congrArg (V c (Pipeline.arrRef spec7 3) : S128x128.Idx → EReal) ?_
  funext x
  apply Fin.ext
  match x with
  | ⟨0, _⟩ => show win7_3.index t 0 * 128 + 1 * a.val = a.val; rw [e3_0]; omega
  | ⟨1, _⟩ => show win7_3.index t 1 * 128 + 1 * b.val = b.val; rw [e3_1]; omega

/-- Window 4's block at every point is its whole array. -/
theorem iblk7_4_apply (c : Dev nD) (t : Fin cfg7.N) (a : Fin 128) (b : Fin 128) :
    (iblk7 V c 4 t : S128x128.Idx → EReal) (ix2 a b) = (V c (Pipeline.arrRef spec7 4) : S128x128.Idx → EReal) (ix2 a b) := by
  obtain ⟨-, -, -, -, -, -, -, -, e4_0, e4_1, -, -, -, -, -, -, -, -, -, -, -⟩ := idx_facts7 t
  unfold iblk7
  rw [View.read_apply]
  refine congrArg (V c (Pipeline.arrRef spec7 4) : S128x128.Idx → EReal) ?_
  funext x
  apply Fin.ext
  match x with
  | ⟨0, _⟩ => show win7_4.index t 0 * 128 + 1 * a.val = a.val; rw [e4_0]; omega
  | ⟨1, _⟩ => show win7_4.index t 1 * 128 + 1 * b.val = b.val; rw [e4_1]; omega

/-- Window 5's block at every point is its whole array. -/
theorem iblk7_5_apply (c : Dev nD) (t : Fin cfg7.N) (a : Fin 128) (b : Fin 128) :
    (iblk7 V c 5 t : S128x128.Idx → EReal) (ix2 a b) = (V c (Pipeline.arrRef spec7 5) : S128x128.Idx → EReal) (ix2 a b) := by
  obtain ⟨-, -, -, -, -, -, -, -, -, -, e5_0, e5_1, -, -, -, -, -, -, -, -, -⟩ := idx_facts7 t
  unfold iblk7
  rw [View.read_apply]
  refine congrArg (V c (Pipeline.arrRef spec7 5) : S128x128.Idx → EReal) ?_
  funext x
  apply Fin.ext
  match x with
  | ⟨0, _⟩ => show win7_5.index t 0 * 128 + 1 * a.val = a.val; rw [e5_0]; omega
  | ⟨1, _⟩ => show win7_5.index t 1 * 128 + 1 * b.val = b.val; rw [e5_1]; omega

/-- Window 6's block at every point is its whole array. -/
theorem iblk7_6_apply (c : Dev nD) (t : Fin cfg7.N) (a : Fin 128) :
    (iblk7 V c 6 t : S128.Idx → EReal) (ix1 a) = (V c (Pipeline.arrRef spec7 6) : S128.Idx → EReal) (ix1 a) := by
  obtain ⟨-, -, -, -, -, -, -, -, -, -, -, -, e6_0, -, -, -, -, -, -, -, -⟩ := idx_facts7 t
  unfold iblk7
  rw [View.read_apply]
  refine congrArg (V c (Pipeline.arrRef spec7 6) : S128.Idx → EReal) ?_
  funext x
  apply Fin.ext
  match x with
  | ⟨0, _⟩ => show win7_6.index t 0 * 128 + 1 * a.val = a.val; rw [e6_0]; omega

/-- Window 7's block at every point is its whole array. -/
theorem iblk7_7_apply (c : Dev nD) (t : Fin cfg7.N) (a : Fin 128) (b : Fin 64) :
    (iblk7 V c 7 t : S128x64.Idx → EReal) (ix2 a b) = (V c (Pipeline.arrRef spec7 7) : S128x64.Idx → EReal) (ix2 a b) := by
  obtain ⟨-, -, -, -, -, -, -, -, -, -, -, -, -, e7_0, e7_1, -, -, -, -, -, -⟩ := idx_facts7 t
  unfold iblk7
  rw [View.read_apply]
  refine congrArg (V c (Pipeline.arrRef spec7 7) : S128x64.Idx → EReal) ?_
  funext x
  apply Fin.ext
  match x with
  | ⟨0, _⟩ => show win7_7.index t 0 * 128 + 1 * a.val = a.val; rw [e7_0]; omega
  | ⟨1, _⟩ => show win7_7.index t 1 * 64 + 1 * b.val = b.val; rw [e7_1]; omega

/-- Window 8's block at every point is its whole array. -/
theorem iblk7_8_apply (c : Dev nD) (t : Fin cfg7.N) (a : Fin 64) :
    (iblk7 V c 8 t : S64.Idx → EReal) (ix1 a) = (V c (Pipeline.arrRef spec7 8) : S64.Idx → EReal) (ix1 a) := by
  obtain ⟨-, -, -, -, -, -, -, -, -, -, -, -, -, -, -, e8_0, -, -, -, -, -⟩ := idx_facts7 t
  unfold iblk7
  rw [View.read_apply]
  refine congrArg (V c (Pipeline.arrRef spec7 8) : S64.Idx → EReal) ?_
  funext x
  apply Fin.ext
  match x with
  | ⟨0, _⟩ => show win7_8.index t 0 * 64 + 1 * a.val = a.val; rw [e8_0]; omega

/-- Window 9's block at every point is its whole array. -/
theorem iblk7_9_apply (c : Dev nD) (t : Fin cfg7.N) (a : Fin 64) (b : Fin 1) :
    (iblk7 V c 9 t : S64x1.Idx → EReal) (ix2 a b) = (V c (Pipeline.arrRef spec7 9) : S64x1.Idx → EReal) (ix2 a b) := by
  obtain ⟨-, -, -, -, -, -, -, -, -, -, -, -, -, -, -, -, e9_0, e9_1, -, -, -⟩ := idx_facts7 t
  unfold iblk7
  rw [View.read_apply]
  refine congrArg (V c (Pipeline.arrRef spec7 9) : S64x1.Idx → EReal) ?_
  funext x
  apply Fin.ext
  match x with
  | ⟨0, _⟩ => show win7_9.index t 0 * 64 + 1 * a.val = a.val; rw [e9_0]; omega
  | ⟨1, _⟩ => show win7_9.index t 1 * 1 + 1 * b.val = b.val; rw [e9_1]; omega

/-- Window 10's block at every point is its whole array. -/
theorem iblk7_10_apply (c : Dev nD) (t : Fin cfg7.N) (a : Fin 1) :
    (iblk7 V c 10 t : S1.Idx → EReal) (ix1 a) = (V c (Pipeline.arrRef spec7 10) : S1.Idx → EReal) (ix1 a) := by
  obtain ⟨-, -, -, -, -, -, -, -, -, -, -, -, -, -, -, -, -, -, e10_0, -, -⟩ := idx_facts7 t
  unfold iblk7
  rw [View.read_apply]
  refine congrArg (V c (Pipeline.arrRef spec7 10) : S1.Idx → EReal) ?_
  funext x
  apply Fin.ext
  match x with
  | ⟨0, _⟩ => show win7_10.index t 0 * 1 + 1 * a.val = a.val; rw [e10_0]; omega

/-- What point t writes back is block t of the region's function. -/
theorem flushed7_eq (c : Dev nD) (t : Fin cfg7.N) :
    (dat7 V c).flushed 11 t = ((cfg7.win 11).blk t).view.read (Elt Ideal) (G7 V c) := by
  show (cfg7.win 11).cut (grid7.coords t) ((dat7 V c).after 11 t) = _
  rw [after7_11]
  unfold out7_11
  rw [View.canon_unit_zero hz2]
  simp only [View.ld_unit_zero (S := S4000x128) hz2, View.ld_unit_zero (S := S128x128) hz2, View.ld_unit_zero (S := S128) hz1, View.ld_unit_zero (S := S128x64) hz2, View.ld_unit_zero (S := S64) hz1, View.ld_unit_zero (S := S64x1) hz2, View.ld_unit_zero (S := S1) hz1]
  obtain ⟨-, -, -, -, -, -, -, -, -, -, -, -, -, -, -, -, -, -, -, e11_0, e11_1⟩ := idx_facts7 t
  have hN : cfg7.N = 25 := N_7
  have ht : t.val < 25 := hN ▸ t.isLt
  funext j
  have hp : (j 0).val < 4000 := (j 0).isLt
  have hq : (j 1).val < 1 := (j 1).isLt
  have hj : (j : S4000x1.Idx) = ix2 (⟨(j 0).val, hp⟩ : Fin 4000) (0 : Fin 1) :=
    funext fun a => by match a with | ⟨0, _⟩ => rfl | ⟨1, _⟩ => exact Fin.ext (by show (j 1).val = 0; omega)
  have hemb : (((cfg7.win 11).blk t).view.emb j : S100000x1.Idx)
      = ix2 (⟨t.val * 4000 + (j 0).val, by omega⟩ : Fin 100000) (0 : Fin 1) :=
    funext fun a => Fin.ext (by
      match a with
      | ⟨0, _⟩ => show win7_11.index t 0 * 4000 + 1 * (j 0).val = t.val * 4000 + (j 0).val; rw [e11_0]; omega
      | ⟨1, _⟩ => show win7_11.index t 1 * 1 + 1 * (j 1).val = 0; rw [e11_1]; omega)
  show k7_pay1 (F := Ideal) (k7_pay2 (iblk7 V c 0 t) (iblk7 V c 1 t) (iblk7 V c 2 t) (iblk7 V c 3 t) (iblk7 V c 4 t) (iblk7 V c 5 t) (iblk7 V c 6 t) (iblk7 V c 7 t) (iblk7 V c 8 t)) (Scalar.ofBits .f32 0x00000000#32) (iblk7 V c 9 t) (iblk7 V c 10 t) j = G7 V c (((cfg7.win 11).blk t).view.emb j)
  refine ((congrArg (k7_pay1 (F := Ideal) (k7_pay2 (iblk7 V c 0 t) (iblk7 V c 1 t) (iblk7 V c 2 t) (iblk7 V c 3 t) (iblk7 V c 4 t) (iblk7 V c 5 t) (iblk7 V c 6 t) (iblk7 V c 7 t) (iblk7 V c 8 t)) (Scalar.ofBits .f32 0x00000000#32) (iblk7 V c 9 t) (iblk7 V c 10 t)) hj).trans (pay7_apply _ _ _ _ _ _ _ _ _ _ _ _)).trans
    (Eq.trans ?_ (congrArg (G7 V c) hemb).symm)
  show _ = Cert.Spec.scoreAt _ _ _ _ _ _ _ _ _ _ _ _
  have hjump : ∀ k : Fin 128, jumpB (iblk7 V c 0 t) (iblk7 V c 1 t) (iblk7 V c 2 t) (iblk7 V c 3 t) (iblk7 V c 4 t) (iblk7 V c 5 t) (iblk7 V c 6 t) ⟨(j 0).val, hp⟩ k
      = Cert.Spec.jumpAt (V c (Pipeline.arrRef spec7 0)) (V c (Pipeline.arrRef spec7 1)) (V c (Pipeline.arrRef spec7 2)) (V c (Pipeline.arrRef spec7 3)) (V c (Pipeline.arrRef spec7 4)) (V c (Pipeline.arrRef spec7 5)) (V c (Pipeline.arrRef spec7 6))
          (⟨t.val * 4000 + (j 0).val, by omega⟩ : Fin 100000) k := fun k => by
    unfold jumpB Cert.Spec.jumpAt
    exact congrArg₂ max (congrArg₂ (· + ·) (congrArg₂ (· + ·) (congrArg₂ (· + ·)
      (Finset.sum_congr rfl fun i _ => congrArg₂ (· * ·) (iblk7_0_apply V c t ⟨(j 0).val, hp⟩ i _ rfl) (iblk7_3_apply V c t i k))
      (Finset.sum_congr rfl fun i _ => congrArg₂ (· * ·) (iblk7_1_apply V c t ⟨(j 0).val, hp⟩ i _ rfl) (iblk7_4_apply V c t i k)))
      (Finset.sum_congr rfl fun i _ => congrArg₂ (· * ·) (iblk7_2_apply V c t ⟨(j 0).val, hp⟩ i _ rfl) (iblk7_5_apply V c t i k)))
      (iblk7_6_apply V c t k)) rfl
  have hhid : ∀ s : Fin 64, hidB (iblk7 V c 0 t) (iblk7 V c 1 t) (iblk7 V c 2 t) (iblk7 V c 3 t) (iblk7 V c 4 t) (iblk7 V c 5 t) (iblk7 V c 6 t) (iblk7 V c 7 t) (iblk7 V c 8 t) ⟨(j 0).val, hp⟩ s
      = Cert.Spec.hidAt (V c (Pipeline.arrRef spec7 0)) (V c (Pipeline.arrRef spec7 1)) (V c (Pipeline.arrRef spec7 2)) (V c (Pipeline.arrRef spec7 3)) (V c (Pipeline.arrRef spec7 4)) (V c (Pipeline.arrRef spec7 5)) (V c (Pipeline.arrRef spec7 6)) (V c (Pipeline.arrRef spec7 7)) (V c (Pipeline.arrRef spec7 8))
          (⟨t.val * 4000 + (j 0).val, by omega⟩ : Fin 100000) s := fun s => by
    unfold hidB Cert.Spec.hidAt
    exact congrArg₂ max (congrArg₂ (· + ·) (Finset.sum_congr rfl fun k _ => congrArg₂ (· * ·) (hjump k) (iblk7_7_apply V c t k s)) (iblk7_8_apply V c t s)) rfl
  unfold Cert.Spec.scoreAt
  exact congrArg₂ (· + ·) (Finset.sum_congr rfl fun s _ => congrArg₂ (· * ·) (hhid s) (iblk7_9_apply V c t s 0)) (iblk7_10_apply V c t 0)

/-- An index of the output is in point t's block iff each coordinate is in the block's range on its axis. -/
theorem mem_blk7 (t : Fin cfg7.N) (i : S100000x1.Idx) :
    i ∈ ((cfg7.win 11).blk t).view.set ↔ ∀ a : Fin 2, win7_11.index t a * S4000x1.size a ≤ (i a).val ∧ (i a).val < win7_11.index t a * S4000x1.size a + S4000x1.size a := by
  show i ∈ ((View.whole main_v77).slice (win7_11.rect t)).set ↔ _
  rw [View.set_slice_whole, Rect.mem_set_unit]
  exact Iff.rfl

/-- Row r of the output lies in the block of point r / 4000. -/
theorem cover7 (i : S100000x1.Idx) : ∃ t : Fin cfg7.N, (cfg7.win 11).flush t = true ∧ i ∈ ((cfg7.win 11).blk t).view.set := by
  have hi0 : (i 0).val < 100000 := (i 0).isLt
  have hi1 : (i 1).val < 1 := (i 1).isLt
  have hN : cfg7.N = 25 := N_7
  obtain ⟨t, ht⟩ : ∃ t : Fin cfg7.N, t.val = (i 0).val / 4000 := ⟨⟨(i 0).val / 4000, by rw [hN]; omega⟩, rfl⟩
  obtain ⟨-, -, -, -, -, -, -, -, -, -, -, -, -, -, -, -, -, -, -, e11_0, e11_1⟩ := idx_facts7 t
  refine ⟨t, flush7_11 t, ?_⟩
  rw [mem_blk7]
  intro a
  match a with
  | ⟨0, _⟩ => show win7_11.index t 0 * 4000 ≤ (i 0).val ∧ (i 0).val < win7_11.index t 0 * 4000 + 4000; omega
  | ⟨1, _⟩ => show win7_11.index t 1 * 1 ≤ (i 1).val ∧ (i 1).val < win7_11.index t 1 * 1 + 1; omega

/-- After the region's twenty-five points every entry of the output column is the score of its node. -/
theorem final7 (c : Dev nD) (r : Fin 100000) :
    ((dat7 (F := Ideal) V c).arrAt 11 cfg7.N : S100000x1.Idx → EReal) (ix2 r 0)
      = Cert.Spec.scoreAt (V c (Pipeline.arrRef spec7 0)) (V c (Pipeline.arrRef spec7 1)) (V c (Pipeline.arrRef spec7 2)) (V c (Pipeline.arrRef spec7 3)) (V c (Pipeline.arrRef spec7 4)) (V c (Pipeline.arrRef spec7 5)) (V c (Pipeline.arrRef spec7 6)) (V c (Pipeline.arrRef spec7 7)) (V c (Pipeline.arrRef spec7 8)) (V c (Pipeline.arrRef spec7 9)) (V c (Pipeline.arrRef spec7 10)) r :=
  congrFun ((dat7 V c).arrAt_eq_of_cover 11 (G7 V c) (fun t _ => flushed7_eq V c t) cover7) (ix2 r 0)

end Cert.KernelIdeal.KVal

end
-- ==== Proof.KOut.lean ====
/-
  The regions' outputs, where the run keeps them.

  After each region the fold holds, at the region's output buffer, what the region's twenty-five write-backs leave; by the
  regions' closed forms that is the node update, the normalisation or the score of the buffers' contents at the region's
  entry.
-/
import proofs.«113076_j55267639165123_2_alg».proof.Proof.KRegion1
import proofs.«113076_j55267639165123_2_alg».proof.Proof.KRegion2
import proofs.«113076_j55267639165123_2_alg».proof.Proof.KRegion3
import proofs.«113076_j55267639165123_2_alg».proof.Proof.KRegion4
import proofs.«113076_j55267639165123_2_alg».proof.Proof.KRegion5
import proofs.«113076_j55267639165123_2_alg».proof.Proof.KRegion6
import proofs.«113076_j55267639165123_2_alg».proof.Proof.KRegion7

set_option maxRecDepth 16384

noncomputable section

namespace Cert.KernelIdeal.KVal

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (ρ : Dev nD → PrngReg) (c : Dev nD)

/-- The first layer's update, at its buffer after its region. -/
theorem node0_at4 (r : Fin 100000) (q : Fin 128) :
    (W4 (F := Ideal) m ρ c (Proc.devRef .tc main_v32) : S100000x128.Idx → EReal) (ix2 r q)
      = Cert.Spec.nodeAt (W3 (F := Ideal) m ρ c (Proc.devRef .tc main_v29))
          (W3 (F := Ideal) m ρ c (Proc.devRef .tc main_v18))
          (W3 (F := Ideal) m ρ c (Proc.devRef .tc main_v19))
          (W3 (F := Ideal) m ρ c (Proc.devRef .tc main_v30))
          (W3 (F := Ideal) m ρ c (Proc.devRef .tc main_v31))
          (W3 (F := Ideal) m ρ c (Proc.devRef .tc main_arg6))
          (W3 (F := Ideal) m ρ c (Proc.devRef .tc main_v15)) r q := by
  have e : W4 (F := Ideal) m ρ c (Proc.devRef .tc main_v32) = (dat1 (V3 m ρ) c).arrAt 7 cfg1.N := W4_arr m ρ c 7
  exact (congrFun e (ix2 r q)).trans (final1 (V3 m ρ) c r q)

/-- The first layer's normalised output, at its buffer after its region. -/
theorem unit0_at7 (r : Fin 100000) (q : Fin 128) :
    (W7 (F := Ideal) m ρ c (Proc.devRef .tc main_v37) : S100000x128.Idx → EReal) (ix2 r q)
      = Cert.Spec.unitAt (W6 (F := Ideal) m ρ c (Proc.devRef .tc main_v32))
          (W6 (F := Ideal) m ρ c (Proc.devRef .tc main_v35))
          (W6 (F := Ideal) m ρ c (Proc.devRef .tc main_v36))
          (W6 (F := Ideal) m ρ c (Proc.devRef .tc main_arg7))
          (W6 (F := Ideal) m ρ c (Proc.devRef .tc main_arg8)) r q := by
  have e : W7 (F := Ideal) m ρ c (Proc.devRef .tc main_v37) = (dat2 (V6 m ρ) c).arrAt 5 cfg2.N := W7_arr m ρ c 5
  exact (congrFun e (ix2 r q)).trans (final2 (V6 m ρ) c r q)

/-- The second layer's update, at its buffer after its region. -/
theorem node1_at9 (r : Fin 100000) (q : Fin 128) :
    (W9 (F := Ideal) m ρ c (Proc.devRef .tc main_v50) : S100000x128.Idx → EReal) (ix2 r q)
      = Cert.Spec.nodeAt (W8 (F := Ideal) m ρ c (Proc.devRef .tc main_v47))
          (W8 (F := Ideal) m ρ c (Proc.devRef .tc main_v18))
          (W8 (F := Ideal) m ρ c (Proc.devRef .tc main_v37))
          (W8 (F := Ideal) m ρ c (Proc.devRef .tc main_v48))
          (W8 (F := Ideal) m ρ c (Proc.devRef .tc main_v49))
          (W8 (F := Ideal) m ρ c (Proc.devRef .tc main_arg10))
          (W8 (F := Ideal) m ρ c (Proc.devRef .tc main_v15)) r q := by
  have e : W9 (F := Ideal) m ρ c (Proc.devRef .tc main_v50) = (dat3 (V8 m ρ) c).arrAt 7 cfg3.N := W9_arr m ρ c 7
  exact (congrFun e (ix2 r q)).trans (final3 (V8 m ρ) c r q)

/-- The second layer's normalised output, at its buffer after its region. -/
theorem unit1_at12 (r : Fin 100000) (q : Fin 128) :
    (W12 (F := Ideal) m ρ c (Proc.devRef .tc main_v55) : S100000x128.Idx → EReal) (ix2 r q)
      = Cert.Spec.unitAt (W11 (F := Ideal) m ρ c (Proc.devRef .tc main_v50))
          (W11 (F := Ideal) m ρ c (Proc.devRef .tc main_v53))
          (W11 (F := Ideal) m ρ c (Proc.devRef .tc main_v54))
          (W11 (F := Ideal) m ρ c (Proc.devRef .tc main_arg11))
          (W11 (F := Ideal) m ρ c (Proc.devRef .tc main_arg12)) r q := by
  have e : W12 (F := Ideal) m ρ c (Proc.devRef .tc main_v55) = (dat4 (V11 m ρ) c).arrAt 5 cfg4.N := W12_arr m ρ c 5
  exact (congrFun e (ix2 r q)).trans (final4 (V11 m ρ) c r q)

/-- The third layer's update, at its buffer after its region. -/
theorem node2_at14 (r : Fin 100000) (q : Fin 128) :
    (W14 (F := Ideal) m ρ c (Proc.devRef .tc main_v68) : S100000x128.Idx → EReal) (ix2 r q)
      = Cert.Spec.nodeAt (W13 (F := Ideal) m ρ c (Proc.devRef .tc main_v65))
          (W13 (F := Ideal) m ρ c (Proc.devRef .tc main_v18))
          (W13 (F := Ideal) m ρ c (Proc.devRef .tc main_v55))
          (W13 (F := Ideal) m ρ c (Proc.devRef .tc main_v66))
          (W13 (F := Ideal) m ρ c (Proc.devRef .tc main_v67))
          (W13 (F := Ideal) m ρ c (Proc.devRef .tc main_arg14))
          (W13 (F := Ideal) m ρ c (Proc.devRef .tc main_v15)) r q := by
  have e : W14 (F := Ideal) m ρ c (Proc.devRef .tc main_v68) = (dat5 (V13 m ρ) c).arrAt 7 cfg5.N := W14_arr m ρ c 7
  exact (congrFun e (ix2 r q)).trans (final5 (V13 m ρ) c r q)

/-- The third layer's normalised output, at its buffer after its region. -/
theorem unit2_at17 (r : Fin 100000) (q : Fin 128) :
    (W17 (F := Ideal) m ρ c (Proc.devRef .tc main_v73) : S100000x128.Idx → EReal) (ix2 r q)
      = Cert.Spec.unitAt (W16 (F := Ideal) m ρ c (Proc.devRef .tc main_v68))
          (W16 (F := Ideal) m ρ c (Proc.devRef .tc main_v71))
          (W16 (F := Ideal) m ρ c (Proc.devRef .tc main_v72))
          (W16 (F := Ideal) m ρ c (Proc.devRef .tc main_arg15))
          (W16 (F := Ideal) m ρ c (Proc.devRef .tc main_arg16)) r q := by
  have e : W17 (F := Ideal) m ρ c (Proc.devRef .tc main_v73) = (dat6 (V16 m ρ) c).arrAt 5 cfg6.N := W17_arr m ρ c 5
  exact (congrFun e (ix2 r q)).trans (final6 (V16 m ρ) c r q)

/-- The scores, at the head's output column after its region. -/
theorem score_at19 (r : Fin 100000) :
    (W19 (F := Ideal) m ρ c (Proc.devRef .tc main_v77) : S100000x1.Idx → EReal) (ix2 r 0)
      = Cert.Spec.scoreAt (W18 (F := Ideal) m ρ c (Proc.devRef .tc main_v37))
          (W18 (F := Ideal) m ρ c (Proc.devRef .tc main_v55))
          (W18 (F := Ideal) m ρ c (Proc.devRef .tc main_v73))
          (W18 (F := Ideal) m ρ c (Proc.devRef .tc main_v74))
          (W18 (F := Ideal) m ρ c (Proc.devRef .tc main_v75))
          (W18 (F := Ideal) m ρ c (Proc.devRef .tc main_v76))
          (W18 (F := Ideal) m ρ c (Proc.devRef .tc main_arg18))
          (W18 (F := Ideal) m ρ c (Proc.devRef .tc main_arg19))
          (W18 (F := Ideal) m ρ c (Proc.devRef .tc main_arg20))
          (W18 (F := Ideal) m ρ c (Proc.devRef .tc main_arg21))
          (W18 (F := Ideal) m ρ c (Proc.devRef .tc main_arg22)) r := by
  have e : W19 (F := Ideal) m ρ c (Proc.devRef .tc main_v77) = (dat7 (V18 m ρ) c).arrAt 11 cfg7.N := W19_arr m ρ c 11
  exact (congrFun e (ix2 r 0)).trans (final7 (V18 m ρ) c r)

end Cert.KernelIdeal.KVal

end
-- ==== Proof.RReadShared.lean ====
/-
  The stretches of the reference that do not depend on the layer's matrices, named.

  The edge list with one self-loop per node appended (sources, destinations), the edge features with a zero row per
  self-loop appended, the gather and scatter indices laid as one-column arrays (a negative source wraps around by the number
  of nodes), the clipped degree of each node (the number of edges arriving at it, at least one), and the column mean and the
  column variance of a 100000 × 128 array (the variance is the mean of the squared deviations from the column mean, over
  100000 less the given correction, and is not-a-number where that count is not positive).  Each name below stands for
  exactly the composition of operations described.  The appended edge features are real numbers wherever
  the given edge features are.
-/
import proofs.«113076_j55267639165123_2_alg».proof.ReferenceIdeal
import Idealize.ShloMosaic.PureOps.Ideal.Laws
import Idealize.ShloMosaic.Lib.ValueIdx
import Idealize.ShloMosaic.Lib.IdealHost
import Idealize.ShloMosaic.Lib.Pipeline.Value

noncomputable section

namespace Cert.ReferenceIdeal.RRead

open Idealize.ShloMosaic Idealize.ShloMosaic.ValueIdx
open Cert.ReferenceIdeal Cert.ReferenceIdeal.Facts₀

variable [Facts₀]

/-- The sources of the edges, then one self-loop per node. -/
abbrev srcT (a1 : IVec S2x1600000 32) : IVec S1700000 32 :=
  concatenate S1700000 0
    [⟨S1600000, shapeCast S1600000 (extractStridedSlice S1x1600000 ![0, 0] a1 slices_S2x1600000_S1x1600000_0_0)
        shapeCasts_S1x1600000_S1600000⟩,
     ⟨S100000, iotaInDim S100000 32 0⟩]
    concatenates_S1600000_S100000_S1700000_d0

/-- The destinations of the edges, then one self-loop per node. -/
abbrev dstT (a1 : IVec S2x1600000 32) : IVec S1700000 32 :=
  concatenate S1700000 0
    [⟨S1600000, shapeCast S1600000 (extractStridedSlice S1x1600000 ![1, 0] a1 slices_S2x1600000_S1x1600000_1_0)
        shapeCasts_S1x1600000_S1600000⟩,
     ⟨S100000, iotaInDim S100000 32 0⟩]
    concatenates_S1600000_S100000_S1700000_d0

/-- The edge features, then a zero row per self-loop. -/
abbrev eaT (a2 : FVec Ideal S1600000x2 .f32) : FVec Ideal S1700000x2 .f32 :=
  concatenate S1700000x2 0
    [⟨S1600000x2, a2⟩,
     ⟨S100000x2, broadcastInDim S100000x2 ![] bcast_S_S100000x2 (constant (F := Ideal) S_ .f32 0x00000000#32)⟩]
    concatenates_S1600000x2_S100000x2_S1700000x2_d0

/-- The gather indices: a negative source wraps around by the number of nodes; laid as one column. -/
abbrev idxT (src : IVec S1700000 32) : IVec S1700000x1 32 :=
  broadcastInDim S1700000x1 ![0] bcast_S1700000_S1700000x1_0
    (select (cmpi .slt src (broadcastInDim S1700000 ![] bcast_S_S1700000 (constantI S_ 32 0#32)))
      (addi src (broadcastInDim S1700000 ![] bcast_S_S1700000 (constantI S_ 32 100000#32))) src)

/-- The scatter indices: the destinations laid as one column. -/
abbrev sidxT (dst : IVec S1700000 32) : IVec S1700000x1 32 :=
  broadcastInDim S1700000x1 ![0] bcast_S1700000_S1700000x1_0 dst

/-- The clipped degree: a one per edge added onto its destination from zero, then the larger of that count and one. -/
abbrev degT (dst : IVec S1700000 32) : FVec Ideal S100000 .f32 :=
  maximumf
    (Host.scatterAdd scatter_S100000_S1700000x1_S1700000_n_0_0_1
      (broadcastInDim S100000 ![] bcast_S_S100000 (constant (F := Ideal) S_ .f32 0x00000000#32))
      (broadcastInDim S1700000x1 ![0] bcast_S1700000_S1700000x1_0 dst)
      (broadcastInDim S1700000 ![] bcast_S_S1700000 (constant (F := Ideal) S_ .f32 0x3F800000#32)))
    (broadcastInDim S100000 ![] bcast_S_S100000 (constant (F := Ideal) S_ .f32 0x3F800000#32))

/-- The column mean: the column sums over 100000. -/
abbrev meanT (pre : FVec Ideal S100000x128 .f32) : FVec Ideal S128 .f32 :=
  Host.divf (Host.reduceAdd pre (constant (F := Ideal) S_ .f32 0x00000000#32) reducesTo_S100000x128_S128_d0 h_S_)
    (broadcastInDim S128 ![] bcast_S_S128 (constant (F := Ideal) S_ .f32 0x47C35000#32))

/-- The deviations from the column mean, inside the variance. -/
abbrev devT (pre : FVec Ideal S100000x128 .f32) : FVec Ideal S100000x128 .f32 :=
  subf pre
    (broadcastInDim S100000x128 ![0, 1] bcast_S1x128_S100000x128_0_1
      (Host.divf
        (broadcastInDim S1x128 ![1] bcast_S128_S1x128_1
          (Host.reduceAdd pre (constant (F := Ideal) S_ .f32 0x00000000#32) reducesTo_S100000x128_S128_d0 h_S_))
        (broadcastInDim S1x128 ![] bcast_S_S1x128 (constant (F := Ideal) S_ .f32 0x47C35000#32))))

/-- The count the variance divides by: 100000 less the correction. -/
abbrev cntT (c0 : IVec S_ 32) : FVec Ideal S_ .f32 :=
  subf (constant (F := Ideal) S_ .f32 0x47C35000#32) (sitofp .f32 c0)

/-- The column variance: the column sums of the squared deviations over the count, where the count is positive. -/
abbrev varT (pre : FVec Ideal S100000x128 .f32) (c0 : IVec S_ 32) : FVec Ideal S128 .f32 :=
  select
    (broadcastInDim S128 ![] bcast_S_S128 (cmpf .ogt (cntT c0) (constant (F := Ideal) S_ .f32 0x00000000#32)))
    (Host.divf
      (Host.reduceAdd (mulf (devT pre) (devT pre)) (constant (F := Ideal) S_ .f32 0x00000000#32)
        reducesTo_S100000x128_S128_d0 h_S_)
      (broadcastInDim S128 ![] bcast_S_S128 (cntT c0)))
    (broadcastInDim S128 ![] bcast_S_S128 (id (constant (F := Ideal) S_ .f32 0x7FC00000#32)))

/-- The appended edge features are real numbers wherever the given edge features are. -/
theorem eaT_real (a2 : FVec Ideal S1600000x2 .f32) (h : ∀ i, ∃ x : ℝ, a2 i = (x : EReal)) (j : S1700000x2.Idx) :
    ∃ x : ℝ, eaT a2 j = (x : EReal) := by
  obtain ⟨e, c, rfl⟩ : ∃ (e : Fin 1700000) (c : Fin 2), j = ix2 e c := ⟨j 0, j 1, eq_ix2 j⟩
  by_cases he : e.val < 1600000
  · obtain ⟨x, hx⟩ := h (ix2 (⟨e.val, he⟩ : Fin 1600000) c)
    refine ⟨x, ?_⟩
    rw [← hx]
    exact concatenate_pair_apply_left (0 : Fin S1700000x2.rank) a2 _ concatenates_S1600000x2_S100000x2_S1700000x2_d0
      (ix2 e c) rfl (ix2 (⟨e.val, he⟩ : Fin 1600000) c) (fun b => by
        match b with
        | ⟨0, _⟩ => rfl
        | ⟨1, _⟩ => rfl)
  · obtain ⟨m, hm⟩ : ∃ m : ℕ, e.val = 1600000 + m := Nat.exists_eq_add_of_le (Nat.le_of_not_lt he)
    have hlt : m < 100000 := by have := e.isLt; omega
    refine ⟨0, ?_⟩
    refine (concatenate_pair_apply_right (0 : Fin S1700000x2.rank) a2 _ concatenates_S1600000x2_S100000x2_S1700000x2_d0
      (ix2 e c) rfl rfl (ix2 (⟨m, hlt⟩ : Fin 100000) c) (fun b hb => by
        match b with
        | ⟨0, _⟩ => exact absurd rfl hb
        | ⟨1, _⟩ => rfl)
      (by show m + 1600000 = e.val; omega)).trans ?_
    rw [broadcastInDim_scalar_apply, constant_apply, Ideal.ofBits_zero_f32]
    rfl

end Cert.ReferenceIdeal.RRead

end
-- ==== Proof.KShared.lean ====
/-
  The stages both programs share, as the kernel side's run computes them: the source and destination node numbers (the
  edge list's two rows, each followed by every node's own number), the padded edge attributes, the clipped degree as a
  column, and each round's column mean and variance of the pre-activations.  Each is the same expression of its inputs
  as the reference's; here each is read off the run and named by that common expression.
-/
import proofs.«113076_j55267639165123_2_alg».proof.Proof.KFoldTac
import proofs.«113076_j55267639165123_2_alg».proof.Proof.KHost1
import proofs.«113076_j55267639165123_2_alg».proof.Proof.RReadShared
import proofs.«113076_j55267639165123_2_alg».proof.Proof.Gen.ReferenceIdeal

set_option maxRecDepth 16384

noncomputable section

namespace Cert.KernelIdeal.KVal

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (ρ : Dev nD → PrngReg) (c : Dev nD)

theorem srcK_eq : (W1 (F := Ideal) m ρ c (Proc.devRef .tc main_v3) : S1700000.Idx → BitVec 32)
    = Cert.ReferenceIdeal.RRead.srcT (m ((c : Thread nD τ).loc main_arg1)) := by
  show StableHlo.after hostOps0 (W0 m ρ c) (Proc.devRef .tc main_v3) = _
  after_results
  rfl

theorem dstK_eq : (W1 (F := Ideal) m ρ c (Proc.devRef .tc main_v6) : S1700000.Idx → BitVec 32)
    = Cert.ReferenceIdeal.RRead.dstT (m ((c : Thread nD τ).loc main_arg1)) := by
  show StableHlo.after hostOps0 (W0 m ρ c) (Proc.devRef .tc main_v6) = _
  after_results
  rfl

theorem eaK_eq : (W1 (F := Ideal) m ρ c (Proc.devRef .tc main_v8) : S1700000x2.Idx → EReal)
    = Cert.ReferenceIdeal.RRead.eaT (m ((c : Thread nD τ).loc main_arg2)) := by
  show StableHlo.after hostOps0 (W0 m ρ c) (Proc.devRef .tc main_v8) = _
  after_results

set_option maxHeartbeats 4000000 in
/-- The clipped degree, kept as a one-column array. -/
theorem denK_eq : (W1 (F := Ideal) m ρ c (Proc.devRef .tc main_v15) : S100000x1.Idx → EReal)
    = broadcastInDim S100000x1 ![0] bcast_S100000_S100000x1_0
        (Cert.ReferenceIdeal.RRead.degT (Cert.ReferenceIdeal.RRead.dstT (m ((c : Thread nD τ).loc main_arg1)))) := by
  show StableHlo.after hostOps0 (W0 m ρ c) (Proc.devRef .tc main_v15) = _
  after_results
  rfl

set_option maxHeartbeats 4000000 in
/-- The aggregated edge attributes: the row scatter-add, onto zeros and by the destination indices, of the padded
    attributes. -/
theorem SeK_eq : (W1 (F := Ideal) m ρ c (Proc.devRef .tc main_v18) : S100000x2.Idx → EReal)
    = Host.scatterAdd scatter_S100000x2_S1700000x1_S1700000x2_1_0_0_1
        (broadcastInDim S100000x2 ![] bcast_S_S100000x2 (constant (F := Ideal) S_ .f32 0x00000000#32))
        (sidx (Cert.ReferenceIdeal.RRead.dstT (m ((c : Thread nD τ).loc main_arg1))))
        (Cert.ReferenceIdeal.RRead.eaT (m ((c : Thread nD τ).loc main_arg2))) := by
  unfold sidx
  show StableHlo.after hostOps0 (W0 m ρ c) (Proc.devRef .tc main_v18) = _
  after_results
  all_goals rfl

/-- The gather's and the scatter's index columns are the same expressions of the node numbers on both sides. -/
theorem gidx_eq (src : IVec S1700000 32) : gidx src = Cert.ReferenceIdeal.RRead.idxT src := rfl
theorem sidx_eq (dst : IVec S1700000 32) : sidx dst = Cert.ReferenceIdeal.RRead.sidxT dst := rfl

end Cert.KernelIdeal.KVal

end
-- ==== Proof.KLayer0.lean ====
/-
  The kernel side's first pre-activation is the abstract arrangement "add over the landing edges, then multiply" of the
  run's own shared data: the landing sets of its destination indices, its gather by its source indices, its padded edge
  attributes, its clipped degree.
-/
import proofs.«113076_j55267639165123_2_alg».proof.Proof.KAggRead
import proofs.«113076_j55267639165123_2_alg».proof.Proof.KOut
import proofs.«113076_j55267639165123_2_alg».proof.Proof.KShared
import Idealize.ShloMosaic.Lib.ValueLayout

set_option maxRecDepth 16384

noncomputable section

namespace Cert.KernelIdeal.KVal

open Idealize.ShloMosaic Idealize.ShloMosaic.TcCoe Idealize.ShloMosaic.ValueIdx Idealize.SL.Sem Cert.KernelIdeal Cert.KernelIdeal.Gen
open Finset

variable (m : (ℓ : Loc nD τ sig) → Buf (Elt Ideal) ℓ) (ρ : Dev nD → PrngReg) (c : Dev nD)

/-- What the two arrangements share, as this run computes it before its first region. -/
def sharedK : Cert.Network.Shared 1700000 :=
  Cert.Network.mkShared (sidx (W1 (F := Ideal) m ρ c (Proc.devRef .tc main_v6)))
    (fun h => Host.gather gather_S100000x128_S1700000x1_S1700000x128_1_0_n_n_0_1_1128 h
      (gidx (W1 (F := Ideal) m ρ c (Proc.devRef .tc main_v3))))
    (W1 (F := Ideal) m ρ c (Proc.devRef .tc main_v8) : S1700000x2.Idx → EReal)
    (W1 (F := Ideal) m ρ c (Proc.devRef .tc main_v15) : S100000x1.Idx → EReal)

/-- The aggregated edge attributes are the scatter-add of the padded attributes by the destination indices. -/
theorem Se_def_at1 : (W1 (F := Ideal) m ρ c (Proc.devRef .tc main_v18) : S100000x2.Idx → EReal)
    = aggE (W1 (F := Ideal) m ρ c (Proc.devRef .tc main_v8)) (W1 (F := Ideal) m ρ c (Proc.devRef .tc main_v6)) := by
  rw [SeK_eq, eaK_eq, dstK_eq]
  rfl

/-- The first update region's output, in the abstract arrangement. -/
theorem pre0K (r : Fin 100000) (q : Fin 128) :
    (W4 (F := Ideal) m ρ c (Proc.devRef .tc main_v32) : S100000x128.Idx → EReal) (ix2 r q)
      = Cert.Network.preK (sharedK m ρ c) (W2 (F := Ideal) m ρ c (Proc.devRef .tc main_v19))
          (m ((c : Thread nD τ).loc main_arg5)) (m ((c : Thread nD τ).loc main_arg6)) r q := by
  rw [node0_at4, G0_at3, Se_at3, h0_at3, Wn1_0_at3, Wn2_0_at3, arg6_at3, den_at3, src_at2, dst_at2, arg5_at2, Se_def_at1]
  unfold Cert.Spec.nodeAt Cert.Network.preK Cert.Network.aggOf sharedK Cert.Network.mkShared
  have hW1 : ∀ k : Fin 128, extractStridedSlice S128x128 ![0, 0] (m ((c : Thread nD τ).loc main_arg5) : S130x128.Idx → EReal)
      slices_S130x128_S128x128_0_0 (ix2 k q) = (m ((c : Thread nD τ).loc main_arg5) : S130x128.Idx → EReal) (ix2 (Fin.castAdd 2 k) q) :=
    fun k => slice2_axis0_apply 0 _ _ k q (Fin.castAdd 2 k) (by simp)
  have hW2 : ∀ k : Fin 2, extractStridedSlice S2x128 ![128, 0] (m ((c : Thread nD τ).loc main_arg5) : S130x128.Idx → EReal)
      slices_S130x128_S2x128_128_0 (ix2 k q) = (m ((c : Thread nD τ).loc main_arg5) : S130x128.Idx → EReal) (ix2 (Fin.natAdd 128 k) q) :=
    fun k => slice2_axis0_apply 128 _ _ k q (Fin.natAdd 128 k) (by simp)
  simp only [aggK_apply, aggE_apply, hW1, hW2]

end Cert.KernelIdeal.KVal

end
-- ==== Proof.LibFiniteAll.lean ====
/-
  An array of extended reals whose every entry has absolute value below +∞, as a `jnp.all` of the comparison says,
  consists of real numbers.
-/
import Idealize.ShloMosaic.PureOps.Ideal.Laws
import Idealize.ShloMosaic.Lib.ReduceAll
import Idealize.ShloMosaic.Lib.ValueIdx

namespace Idealize.ShloMosaic.Ideal

open Idealize.ShloMosaic Idealize.ShloMosaic.ValueIdx

instance : Subsingleton (⟨0, ![]⟩ : Shape).Idx := ⟨fun a b => funext fun d => d.elim0⟩

/-- An extended real whose absolute value is below +∞ is a real number. -/
theorem real_of_abs_lt_top (x : EReal) (h : max x (-x) < ⊤) : ∃ r : ℝ, x = r := by
  induction x using EReal.rec with
  | bot => simp at h
  | coe r => exact ⟨r, rfl⟩
  | top => simp at h

/-- If the reduction by `and` of "|x| < +∞" over a whole array is 1, every entry of `x` is a real number. -/
theorem real_of_all_finite {s : Shape} {axes : List (Fin s.rank)} (x : FVec Ideal s .f32)
    (hb : (⟨0, ![]⟩ : Shape).BroadcastsInDim s ![]) (red : s.ReducesTo axes ⟨0, ![]⟩) (hu : 0 < (⟨0, ![]⟩ : Shape).numel)
    (h : Host.reduce IntOp.andi (cmpf .olt (Host.absf x) (broadcastInDim s ![] hb (constant ⟨0, ![]⟩ .f32 0x7F800000#32)))
      (constantI ⟨0, ![]⟩ 1 1#1) red hu ix0 = 1#1) (i : s.Idx) : ∃ r : ℝ, (x i : EReal) = r := by
  have hi := Host.reduce_andi_all _ _ red hu ix0 h i
  have hlt : max (x i : EReal) (-(x i)) < ⊤ := by
    have e : cmpf .olt (Host.absf x) (broadcastInDim s ![] hb (constant ⟨0, ![]⟩ .f32 0x7F800000#32)) i
        = Ideal.cmp .olt (max (x i : EReal) (-(x i))) (Ideal.ofBits .f32 0x7F800000#32) := rfl
    rw [e, show Ideal.ofBits .f32 0x7F800000#32 = (⊤ : EReal) from by simp [Ideal.ofBits, Ideal.ieee]] at hi
    unfold Ideal.cmp at hi
    by_contra hc
    simp [hc] at hi
  exact real_of_abs_lt_top _ hlt

end Idealize.ShloMosaic.Ideal
-- ==== Proof.PreReal.lean ====
/-
  What the precondition gives: it is the conjunction, over the float argument arrays, of "every entry has absolute value
  below +∞".  Taking the conjunction apart from the outside in, each array named below consists of real numbers.  Only
  seven arrays are needed later: the node features and the input projection's weight and bias (so that the projected
  features are real), the edge attributes, and the three neighbour weights (the entries that meet the aggregated sums).
-/
import proofs.«113076_j55267639165123_2_alg».proof.Pre_finite_inputs
import proofs.«113076_j55267639165123_2_alg».proof.Proof.LibFiniteAll
import Idealize.ShloMosaic.Lib.Affine

set_option maxRecDepth 16384

noncomputable section

namespace Cert.PreReal

open Idealize.ShloMosaic Idealize.ShloMosaic.ValueIdx Cert.Pre_finite_inputs

/-- Every entry of an array is a real number. -/
def AllReal {s : Shape} (x : s.Idx → EReal) : Prop := ∀ i, ∃ r : ℝ, x i = (r : EReal)

/-- The conjunction is nested to the left, one conjunct per float array in argument order (the integer edge list has
    none): peeling it from the right passes the arrays 22, 21, …, 3 and ends at the pair (array 0, array 2). -/
theorem fn_real [Facts] (a0 : FVec Ideal S100000x4 .f32) (a1 : IVec S2x1600000 32) (a2 : FVec Ideal S1600000x2 .f32)
    (a3 : FVec Ideal S4x128 .f32) (a4 : FVec Ideal S128 .f32) (a5 : FVec Ideal S130x128 .f32) (a6 : FVec Ideal S128x128 .f32)
    (a7 : FVec Ideal S128 .f32) (a8 : FVec Ideal S128 .f32) (a9 : FVec Ideal S130x128 .f32) (a10 : FVec Ideal S128x128 .f32)
    (a11 : FVec Ideal S128 .f32) (a12 : FVec Ideal S128 .f32) (a13 : FVec Ideal S130x128 .f32) (a14 : FVec Ideal S128x128 .f32)
    (a15 : FVec Ideal S128 .f32) (a16 : FVec Ideal S128 .f32) (a17 : FVec Ideal S384x128 .f32) (a18 : FVec Ideal S128 .f32)
    (a19 : FVec Ideal S128x64 .f32) (a20 : FVec Ideal S64 .f32) (a21 : FVec Ideal S64x1 .f32) (a22 : FVec Ideal S1 .f32)
    (h : fn (F := Ideal) a0 a1 a2 a3 a4 a5 a6 a7 a8 a9 a10 a11 a12 a13 a14 a15 a16 a17 a18 a19 a20 a21 a22 ix0 = 1#1) :
    AllReal a0 ∧ AllReal a2 ∧ AllReal a3 ∧ AllReal a4 ∧ AllReal a5 ∧ AllReal a9 ∧ AllReal a13 := by
  unfold fn fn_part1 fn_part2 fn_part3 fn_part4 fn_part5 fn_part6 at h
  dsimp only at h
  have q22 := IntOp.andi_eq_one.1 h
  have q21 := IntOp.andi_eq_one.1 q22.1
  have q20 := IntOp.andi_eq_one.1 q21.1
  have q19 := IntOp.andi_eq_one.1 q20.1
  have q18 := IntOp.andi_eq_one.1 q19.1
  have q17 := IntOp.andi_eq_one.1 q18.1
  have q16 := IntOp.andi_eq_one.1 q17.1
  have q15 := IntOp.andi_eq_one.1 q16.1
  have q14 := IntOp.andi_eq_one.1 q15.1
  have q13 := IntOp.andi_eq_one.1 q14.1
  have q12 := IntOp.andi_eq_one.1 q13.1
  have q11 := IntOp.andi_eq_one.1 q12.1
  have q10 := IntOp.andi_eq_one.1 q11.1
  have q9 := IntOp.andi_eq_one.1 q10.1
  have q8 := IntOp.andi_eq_one.1 q9.1
  have q7 := IntOp.andi_eq_one.1 q8.1
  have q6 := IntOp.andi_eq_one.1 q7.1
  have q5 := IntOp.andi_eq_one.1 q6.1
  have q4 := IntOp.andi_eq_one.1 q5.1
  have q3 := IntOp.andi_eq_one.1 q4.1
  have q2 := IntOp.andi_eq_one.1 q3.1
  exact ⟨fun i => Ideal.real_of_all_finite a0 _ _ _ q2.1 i,
    fun i => Ideal.real_of_all_finite a2 _ _ _ q2.2 i,
    fun i => Ideal.real_of_all_finite a3 _ _ _ q3.2 i,
    fun i => Ideal.real_of_all_finite a4 _ _ _ q4.2 i,
    fun i => Ideal.real_of_all_finite a5 _ _ _ q5.2 i,
    fun i => Ideal.real_of_all_finite a9 _ _ _ q9.2 i,
    fun i => Ideal.real_of_all_finite a13 _ _ _ q13.2 i⟩

end Cert.PreReal

end
-- ==== Proof.KPay0.lean ====
/-
  The input projection's block, entry by entry.

  The block computed from 4000 rows of x, the whole of W and the whole of b holds, at (p, q), row p of the x block against
  column q of W, plus b at q: the narrowing of the factors to a shorter format is the identity on extended reals, the
  product runs into a zero accumulator, and b is laid as a row and repeated down the rows.
-/
import proofs.«113076_j55267639165123_2_alg».proof.Proof.KLib

noncomputable section

namespace Cert.KernelIdeal.KVal

open Idealize.ShloMosaic Idealize.ShloMosaic.ValueIdx
open Cert.KernelIdeal Cert.KernelIdeal.Gen

/-- Entry (p, q) of the projection's block. -/
theorem pay0_apply (x0 : Vec Ideal S4000x4 .f32) (x1 : Vec Ideal S4x128 .f32) (x2 : Vec Ideal S128 .f32)
    (p : Fin 4000) (q : Fin 128) :
    k0_pay1 (F := Ideal) x0 x1 x2 (ix2 p q) = (∑ k : Fin 4, x0 (ix2 p k) * x1 (ix2 k q)) + x2 (ix1 q) := by
  unfold k0_pay1
  rw [addf_apply, mm_4000x4_4x128, row_apply]
  rfl

end Cert.KernelIdeal.KVal

end
-- ==== Proof.KRegion0.lean ====
/-
  The input projection's region: after its twenty-five points the output array is the projection of the arrays the
  region found.

  Point t reads rows 4000 t … 4000 t + 3999 of x (and the whole of W and of b) and writes back the same rows of the
  output; row r of the output is written by point r / 4000.  So every entry (r, q) of the output ends at row r of x
  against column q of W, plus b at q.
-/
import proofs.«113076_j55267639165123_2_alg».proof.Proof.Gen.KernelIdeal.Frame
import proofs.«113076_j55267639165123_2_alg».proof.Proof.KPay0
import proofs.«113076_j55267639165123_2_alg».proof.Proof.Spec

set_option maxRecDepth 16384

noncomputable section

namespace Cert.KernelIdeal.KVal

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The printed index maps over the grid: x and the output move one block of rows per point; W and b stay. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The region's output as one function of the arrays it finds. -/
abbrev G0 (c : Dev nD) : S100000x128.Idx → EReal := fun i =>
  Cert.Spec.projAt (V c (Pipeline.arrRef spec0 0)) (V c (Pipeline.arrRef spec0 1)) (V c (Pipeline.arrRef spec0 2)) (i 0) (i 1)

/-- The x block at point t is rows 4000 t … of x. -/
theorem iblk0_0_apply (c : Dev nD) (t : Fin cfg0.N) (p : Fin 4000) (k : Fin 4) (r : Fin 100000) (hr : r.val = t.val * 4000 + p.val) :
    (iblk0 V c 0 t : S4000x4.Idx → EReal) (ix2 p k) = (V c (Pipeline.arrRef spec0 0) : S100000x4.Idx → EReal) (ix2 r k) := by
  obtain ⟨e00, e01, -⟩ := idx_facts0 t
  unfold iblk0
  rw [View.read_apply]
  refine congrArg (V c (Pipeline.arrRef spec0 0) : S100000x4.Idx → EReal) ?_
  funext a
  apply Fin.ext
  match a with
  | ⟨0, _⟩ => show win0_0.index t 0 * 4000 + 1 * p.val = r.val; rw [e00, hr]; omega
  | ⟨1, _⟩ => show win0_0.index t 1 * 4 + 1 * k.val = k.val; rw [e01]; omega

/-- The W block at every point is W. -/
theorem iblk0_1_apply (c : Dev nD) (t : Fin cfg0.N) (k : Fin 4) (q q' : Fin 128) (hq : q'.val = q.val) :
    (iblk0 V c 1 t : S4x128.Idx → EReal) (ix2 k q) = (V c (Pipeline.arrRef spec0 1) : S4x128.Idx → EReal) (ix2 k q') := by
  obtain ⟨-, -, e10, e11, -⟩ := idx_facts0 t
  unfold iblk0
  rw [View.read_apply]
  refine congrArg (V c (Pipeline.arrRef spec0 1) : S4x128.Idx → EReal) ?_
  funext a
  apply Fin.ext
  match a with
  | ⟨0, _⟩ => show win0_1.index t 0 * 4 + 1 * k.val = k.val; rw [e10]; omega
  | ⟨1, _⟩ => show win0_1.index t 1 * 128 + 1 * q.val = q'.val; rw [e11, hq]; omega

/-- The b block at every point is b. -/
theorem iblk0_2_apply (c : Dev nD) (t : Fin cfg0.N) (q q' : Fin 128) (hq : q'.val = q.val) :
    (iblk0 V c 2 t : S128.Idx → EReal) (ix1 q) = (V c (Pipeline.arrRef spec0 2) : S128.Idx → EReal) (ix1 q') := by
  obtain ⟨-, -, -, -, e20, -⟩ := idx_facts0 t
  unfold iblk0
  rw [View.read_apply]
  refine congrArg (V c (Pipeline.arrRef spec0 2) : S128.Idx → EReal) ?_
  funext a
  apply Fin.ext
  match a with
  | ⟨0, _⟩ => show win0_2.index t 0 * 128 + 1 * q.val = q'.val; rw [e20, hq]; omega

/-- What point t writes back is block t of the projection. -/
theorem flushed0_eq (c : Dev nD) (t : Fin cfg0.N) :
    (dat0 V c).flushed 3 t = ((cfg0.win 3).blk t).view.read (Elt Ideal) (G0 V c) := by
  show (cfg0.win 3).cut (grid0.coords t) ((dat0 V c).after 3 t) = _
  rw [after0_3]
  unfold out0_3
  rw [View.canon_unit_zero hz2]
  simp only [View.ld_unit_zero (S := S4000x4) hz2, View.ld_unit_zero (S := S4x128) hz2, View.ld_unit_zero (S := S128) hz1]
  obtain ⟨-, -, -, -, -, e30, e31⟩ := idx_facts0 t
  funext j
  show k0_pay1 (F := Ideal) (iblk0 V c 0 t) (iblk0 V c 1 t) (iblk0 V c 2 t) j = G0 V c (((cfg0.win 3).blk t).view.emb j)
  have hp : (j 0).val < 4000 := (j 0).isLt
  have hq : (j 1).val < 128 := (j 1).isLt
  have hj : (j : S4000x128.Idx) = ix2 (⟨(j 0).val, hp⟩ : Fin 4000) (⟨(j 1).val, hq⟩ : Fin 128) :=
    funext fun a => by match a with | ⟨0, _⟩ => rfl | ⟨1, _⟩ => rfl
  have hr : ((((cfg0.win 3).blk t).view.emb j) 0).val = t.val * 4000 + (j 0).val := by
    show win0_3.index t 0 * 4000 + 1 * (j 0).val = _; rw [e30]; omega
  have hc : ((((cfg0.win 3).blk t).view.emb j) 1).val = (j 1).val := by
    show win0_3.index t 1 * 128 + 1 * (j 1).val = _; rw [e31]; omega
  refine ((congrArg (k0_pay1 (F := Ideal) (iblk0 V c 0 t) (iblk0 V c 1 t) (iblk0 V c 2 t)) hj).trans (pay0_apply _ _ _ _ _)).trans ?_
  show _ = Cert.Spec.projAt _ _ _ _ _
  unfold Cert.Spec.projAt
  congr 1
  · refine Finset.sum_congr rfl fun k _ => ?_
    exact congrArg₂ (· * ·) (iblk0_0_apply V c t ⟨(j 0).val, hp⟩ k _ hr) (iblk0_1_apply V c t k ⟨(j 1).val, hq⟩ _ hc)
  · exact iblk0_2_apply V c t ⟨(j 1).val, hq⟩ _ hc

/-- An index of the output is in point t's block iff each coordinate is in the block's range on its axis. -/
theorem mem_blk0 (t : Fin cfg0.N) (i : S100000x128.Idx) :
    i ∈ ((cfg0.win 3).blk t).view.set ↔ ∀ a : Fin 2, win0_3.index t a * S4000x128.size a ≤ (i a).val ∧ (i a).val < win0_3.index t a * S4000x128.size a + S4000x128.size a := by
  show i ∈ ((View.whole main_v19).slice (win0_3.rect t)).set ↔ _
  rw [View.set_slice_whole, Rect.mem_set_unit]
  exact Iff.rfl

/-- Row r of the output lies in the block of point r / 4000. -/
theorem cover0 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 25 := N_0
  obtain ⟨t, ht⟩ : ∃ t : Fin cfg0.N, t.val = (i 0).val / 4000 := ⟨⟨(i 0).val / 4000, by rw [hN]; omega⟩, rfl⟩
  obtain ⟨-, -, -, -, -, e30, e31⟩ := idx_facts0 t
  refine ⟨t, flush0_3 t, ?_⟩
  rw [mem_blk0]
  intro a
  match a with
  | ⟨0, _⟩ => show win0_3.index t 0 * 4000 ≤ (i 0).val ∧ (i 0).val < win0_3.index t 0 * 4000 + 4000; omega
  | ⟨1, _⟩ => show win0_3.index t 1 * 128 ≤ (i 1).val ∧ (i 1).val < win0_3.index t 1 * 128 + 128; omega

/-- After the region's twenty-five points every entry of the output is the projection's value there. -/
theorem final0 (c : Dev nD) (r : Fin 100000) (q : Fin 128) :
    ((dat0 (F := Ideal) V c).arrAt 3 cfg0.N : S100000x128.Idx → EReal) (ix2 r q)
      = Cert.Spec.projAt (V c (Pipeline.arrRef spec0 0)) (V c (Pipeline.arrRef spec0 1)) (V c (Pipeline.arrRef spec0 2)) r q :=
  congrFun ((dat0 V c).arrAt_eq_of_cover 3 (G0 V c) (fun t _ => flushed0_eq V c t) cover0) (ix2 r q)

end Cert.KernelIdeal.KVal

end
-- ==== Proof.KStep0.lean ====
/-
  The projected features, where the run keeps them: the first region's output array, after the region, holds at entry
  (r, q) the row r of the node features against column q of the projection weight plus the bias, the three arrays being
  the launch memory's own (no host operation before the region writes them).
-/
import proofs.«113076_j55267639165123_2_alg».proof.Proof.KFoldTac
import proofs.«113076_j55267639165123_2_alg».proof.Proof.KRegion0

set_option maxRecDepth 16384

noncomputable section

namespace Cert.KernelIdeal.KVal

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (ρ : Dev nD → PrngReg) (c : Dev nD)

theorem arg0_at1 : W1 (F := Ideal) m ρ c (Proc.devRef .tc main_arg0) = m ((c : Thread nD τ).loc main_arg0) := by host_skip
theorem arg3_at1 : W1 (F := Ideal) m ρ c (Proc.devRef .tc main_arg3) = m ((c : Thread nD τ).loc main_arg3) := by host_skip
theorem arg4_at1 : W1 (F := Ideal) m ρ c (Proc.devRef .tc main_arg4) = m ((c : Thread nD τ).loc main_arg4) := by host_skip

theorem h0_at2 (r : Fin 100000) (q : Fin 128) :
    (W2 (F := Ideal) m ρ c (Proc.devRef .tc main_v19) : S100000x128.Idx → EReal) (ix2 r q)
      = Cert.Spec.projAt (m ((c : Thread nD τ).loc main_arg0)) (m ((c : Thread nD τ).loc main_arg3))
          (m ((c : Thread nD τ).loc main_arg4)) r q := by
  have e : W2 (F := Ideal) m ρ c (Proc.devRef .tc main_v19) = (dat0 (V1 m ρ) c).arrAt 3 cfg0.N := W2_arr m ρ c 3
  refine (congrFun e (ix2 r q)).trans ((final0 (V1 m ρ) c r q).trans ?_)
  show Cert.Spec.projAt (W1 (F := Ideal) m ρ c (Proc.devRef .tc main_arg0)) (W1 (F := Ideal) m ρ c (Proc.devRef .tc main_arg3))
      (W1 (F := Ideal) m ρ c (Proc.devRef .tc main_arg4)) r q = _
  rw [arg0_at1, arg3_at1, arg4_at1]

end Cert.KernelIdeal.KVal

end
-- ==== Proof.KReal.lean ====
/-
  Real entries on the kernel side: the seven argument arrays the precondition is needed for, the projected features, and
  the padded edge attributes.
-/
import proofs.«113076_j55267639165123_2_alg».proof.Defs
import proofs.«113076_j55267639165123_2_alg».proof.Proof.Gen.Pre_finite_inputs
import proofs.«113076_j55267639165123_2_alg».proof.Proof.PreReal
import proofs.«113076_j55267639165123_2_alg».proof.Proof.Realness
import proofs.«113076_j55267639165123_2_alg».proof.Proof.KStep0
import proofs.«113076_j55267639165123_2_alg».proof.Proof.KShared

set_option maxRecDepth 16384

noncomputable section

namespace Cert.KernelIdeal.KVal

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (ρ : Dev nD → PrngReg) (c : Dev nD)

/-- Under the precondition the node features, the edge attributes, the projection's weight and bias and the three
    neighbour weights have real entries. -/
theorem inputs_real (hpre : Cert.Pre_KernelIdeal m) :
    (∀ i, ∃ x : ℝ, (m ((c : Thread nD τ).loc main_arg0) : S100000x4.Idx → EReal) i = (x : EReal))
    ∧ (∀ i, ∃ x : ℝ, (m ((c : Thread nD τ).loc main_arg2) : S1600000x2.Idx → EReal) i = (x : EReal))
    ∧ (∀ i, ∃ x : ℝ, (m ((c : Thread nD τ).loc main_arg3) : S4x128.Idx → EReal) i = (x : EReal))
    ∧ (∀ i, ∃ x : ℝ, (m ((c : Thread nD τ).loc main_arg4) : S128.Idx → EReal) i = (x : EReal))
    ∧ (∀ i, ∃ x : ℝ, (m ((c : Thread nD τ).loc main_arg5) : S130x128.Idx → EReal) i = (x : EReal))
    ∧ (∀ i, ∃ x : ℝ, (m ((c : Thread nD τ).loc main_arg9) : S130x128.Idx → EReal) i = (x : EReal))
    ∧ (∀ i, ∃ x : ℝ, (m ((c : Thread nD τ).loc main_arg13) : S130x128.Idx → EReal) i = (x : EReal)) :=
  Cert.PreReal.fn_real _ _ _ _ _ _ _ _ _ _ _ _ _ _ _ _ _ _ _ _ _ _ _ (congrFun (hpre c) ix0)

/-- The projected features are real. -/
theorem h0K_real (hpre : Cert.Pre_KernelIdeal m) (i : S100000x128.Idx) :
    ∃ x : ℝ, (W2 (F := Ideal) m ρ c (Proc.devRef .tc main_v19) : S100000x128.Idx → EReal) i = (x : EReal) := by
  obtain ⟨h0, -, h3, h4, -, -, -⟩ := inputs_real m c hpre
  obtain ⟨r, q, rfl⟩ : ∃ (r : Fin 100000) (q : Fin 128), i = ix2 r q := ⟨i 0, i 1, eq_ix2 i⟩
  obtain ⟨x, hx⟩ := Cert.Realness.projAt_real _ _ _ h0 h3 h4 r q
  exact ⟨x, (h0_at2 m ρ c r q).trans hx⟩

/-- The padded edge attributes are real. -/
theorem eaK_real (hpre : Cert.Pre_KernelIdeal m) (i : S1700000x2.Idx) :
    ∃ x : ℝ, (W1 (F := Ideal) m ρ c (Proc.devRef .tc main_v8) : S1700000x2.Idx → EReal) i = (x : EReal) := by
  obtain ⟨-, h2, -, -, -, -, -⟩ := inputs_real m c hpre
  rw [eaK_eq]
  exact Cert.ReferenceIdeal.RRead.eaT_real _ h2 i

end Cert.KernelIdeal.KVal

end
-- ==== Proof.KStats.lean ====
/-
  Each round's column statistics on the kernel side: the mean is the column sum over the constant 100000; the variance
  is the column sum of squared deviations from that mean over (100000 minus an integer zero turned into a float), kept
  when that denominator is positive.  Both are the same expressions of the pre-activations as the reference's.
-/
import proofs.«113076_j55267639165123_2_alg».proof.Proof.KFoldTac
import proofs.«113076_j55267639165123_2_alg».proof.Proof.RReadShared
import proofs.«113076_j55267639165123_2_alg».proof.Proof.Gen.ReferenceIdeal

set_option maxRecDepth 16384

noncomputable section

namespace Cert.KernelIdeal.KVal

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (ρ : Dev nD → PrngReg) (c : Dev nD)

/-! Round 0. -/
theorem mean0K_eq : (W5 (F := Ideal) m ρ c (Proc.devRef .tc main_v35) : S128.Idx → EReal)
    = Cert.ReferenceIdeal.RRead.meanT (W4 (F := Ideal) m ρ c (Proc.devRef .tc main_v32)) := by
  show StableHlo.after hostOps2 (W4 m ρ c) (Proc.devRef .tc main_v35) = _
  after_results
  all_goals rfl
theorem zero0K_eq : (W5 (F := Ideal) m ρ c (Proc.devRef .tc main_c_8) : S_.Idx → BitVec 32) = constantI S_ 32 0#32 := by
  show StableHlo.after hostOps2 (W4 m ρ c) (Proc.devRef .tc main_c_8) = _
  after_results
  all_goals rfl
set_option maxHeartbeats 4000000 in
theorem var0K_eq : (W6 (F := Ideal) m ρ c (Proc.devRef .tc main_v36) : S128.Idx → EReal)
    = Cert.ReferenceIdeal.RRead.varT (W5 (F := Ideal) m ρ c (Proc.devRef .tc main_v32))
        (W5 (F := Ideal) m ρ c (Proc.devRef .tc main_c_8)) := by
  show StableHlo.after hostOps2_1 (W5 m ρ c) (Proc.devRef .tc main_v36) = _
  after_results
  all_goals rfl

/-! Round 1. -/
theorem mean1K_eq : (W10 (F := Ideal) m ρ c (Proc.devRef .tc main_v53) : S128.Idx → EReal)
    = Cert.ReferenceIdeal.RRead.meanT (W9 (F := Ideal) m ρ c (Proc.devRef .tc main_v50)) := by
  show StableHlo.after hostOps4 (W9 m ρ c) (Proc.devRef .tc main_v53) = _
  after_results
  all_goals rfl
theorem zero1K_eq : (W10 (F := Ideal) m ρ c (Proc.devRef .tc main_c_14) : S_.Idx → BitVec 32) = constantI S_ 32 0#32 := by
  show StableHlo.after hostOps4 (W9 m ρ c) (Proc.devRef .tc main_c_14) = _
  after_results
  all_goals rfl
set_option maxHeartbeats 4000000 in
theorem var1K_eq : (W11 (F := Ideal) m ρ c (Proc.devRef .tc main_v54) : S128.Idx → EReal)
    = Cert.ReferenceIdeal.RRead.varT (W10 (F := Ideal) m ρ c (Proc.devRef .tc main_v50))
        (W10 (F := Ideal) m ρ c (Proc.devRef .tc main_c_14)) := by
  show StableHlo.after hostOps4_1 (W10 m ρ c) (Proc.devRef .tc main_v54) = _
  after_results
  all_goals rfl

/-! Round 2. -/
theorem mean2K_eq : (W15 (F := Ideal) m ρ c (Proc.devRef .tc main_v71) : S128.Idx → EReal)
    = Cert.ReferenceIdeal.RRead.meanT (W14 (F := Ideal) m ρ c (Proc.devRef .tc main_v68)) := by
  show StableHlo.after hostOps6 (W14 m ρ c) (Proc.devRef .tc main_v71) = _
  after_results
  all_goals rfl
theorem zero2K_eq : (W15 (F := Ideal) m ρ c (Proc.devRef .tc main_c_20) : S_.Idx → BitVec 32) = constantI S_ 32 0#32 := by
  show StableHlo.after hostOps6 (W14 m ρ c) (Proc.devRef .tc main_c_20) = _
  after_results
  all_goals rfl
set_option maxHeartbeats 4000000 in
theorem var2K_eq : (W16 (F := Ideal) m ρ c (Proc.devRef .tc main_v72) : S128.Idx → EReal)
    = Cert.ReferenceIdeal.RRead.varT (W15 (F := Ideal) m ρ c (Proc.devRef .tc main_v68))
        (W15 (F := Ideal) m ρ c (Proc.devRef .tc main_c_20)) := by
  show StableHlo.after hostOps6_1 (W15 m ρ c) (Proc.devRef .tc main_v72) = _
  after_results
  all_goals rfl

end Cert.KernelIdeal.KVal

end
-- ==== Proof.KWalk.lean ====
/-
  Values carried across the run on the kernel side.

  Each normalisation region reads the update region's output, the column mean the stretch before it computed, and its own
  γ and β from the launch memory; the scoring head reads the three normalised layer outputs, each where its region left
  it, the three 128-row pieces of the jump weight cut just before it, and the rest of its operands from the launch memory;
  the program's result is the head's output column read as a vector.  Every value is the same at its use as where it was
  produced: one step per segment in between.
-/
import proofs.«113076_j55267639165123_2_alg».proof.Proof.KFoldTac
import Idealize.ShloMosaic.Lib.Pipeline.Value

set_option maxRecDepth 16384

noncomputable section

namespace Cert.KernelIdeal.KVal

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (ρ : Dev nD → PrngReg) (c : Dev nD)

/-! ## The normalisation regions' operands -/

theorem pre_at5 : W5 (F := Ideal) m ρ c (Proc.devRef .tc main_v32) = W4 m ρ c (Proc.devRef .tc main_v32) := by
  hb; rfl
theorem pre_at6 : W6 (F := Ideal) m ρ c (Proc.devRef .tc main_v32) = W4 m ρ c (Proc.devRef .tc main_v32) := by
  hb; hb; rfl
theorem mean_at6 : W6 (F := Ideal) m ρ c (Proc.devRef .tc main_v35) = W5 m ρ c (Proc.devRef .tc main_v35) := by
  hb; rfl
theorem arg7_at6 : W6 (F := Ideal) m ρ c (Proc.devRef .tc main_arg7) = m ((c : Thread nD τ).loc main_arg7) := by
  hb; hb; rb4; hb; rb2; hb; rfl
theorem arg8_at6 : W6 (F := Ideal) m ρ c (Proc.devRef .tc main_arg8) = m ((c : Thread nD τ).loc main_arg8) := by
  hb; hb; rb4; hb; rb2; hb; rfl

theorem pre_at10 : W10 (F := Ideal) m ρ c (Proc.devRef .tc main_v50) = W9 m ρ c (Proc.devRef .tc main_v50) := by
  hb; rfl
theorem pre_at11 : W11 (F := Ideal) m ρ c (Proc.devRef .tc main_v50) = W9 m ρ c (Proc.devRef .tc main_v50) := by
  hb; hb; rfl
theorem mean_at11 : W11 (F := Ideal) m ρ c (Proc.devRef .tc main_v53) = W10 m ρ c (Proc.devRef .tc main_v53) := by
  hb; rfl
theorem arg11_at11 : W11 (F := Ideal) m ρ c (Proc.devRef .tc main_arg11) = m ((c : Thread nD τ).loc main_arg11) := by
  hb; hb; rb9; hb; rb7; hb; hb; rb4; hb; rb2; hb; rfl
theorem arg12_at11 : W11 (F := Ideal) m ρ c (Proc.devRef .tc main_arg12) = m ((c : Thread nD τ).loc main_arg12) := by
  hb; hb; rb9; hb; rb7; hb; hb; rb4; hb; rb2; hb; rfl

theorem pre_at15 : W15 (F := Ideal) m ρ c (Proc.devRef .tc main_v68) = W14 m ρ c (Proc.devRef .tc main_v68) := by
  hb; rfl
theorem pre_at16 : W16 (F := Ideal) m ρ c (Proc.devRef .tc main_v68) = W14 m ρ c (Proc.devRef .tc main_v68) := by
  hb; hb; rfl
theorem mean_at16 : W16 (F := Ideal) m ρ c (Proc.devRef .tc main_v71) = W15 m ρ c (Proc.devRef .tc main_v71) := by
  hb; rfl
theorem arg15_at16 : W16 (F := Ideal) m ρ c (Proc.devRef .tc main_arg15) = m ((c : Thread nD τ).loc main_arg15) := by
  hb; hb; rb14; hb; rb12; hb; hb; rb9; hb; rb7; hb; hb; rb4; hb; rb2; hb; rfl
theorem arg16_at16 : W16 (F := Ideal) m ρ c (Proc.devRef .tc main_arg16) = m ((c : Thread nD τ).loc main_arg16) := by
  hb; hb; rb14; hb; rb12; hb; hb; rb9; hb; rb7; hb; hb; rb4; hb; rb2; hb; rfl

/-! ## The scoring head's operands -/

theorem l0_at18 : W18 (F := Ideal) m ρ c (Proc.devRef .tc main_v37) = W7 m ρ c (Proc.devRef .tc main_v37) := by
  hb; rb17; hb; hb; rb14; hb; rb12; hb; hb; refine Eq.trans (W9_in m ρ c 2 rfl) ?_; hb; rfl
theorem l1_at18 : W18 (F := Ideal) m ρ c (Proc.devRef .tc main_v55) = W12 m ρ c (Proc.devRef .tc main_v55) := by
  hb; rb17; hb; hb; refine Eq.trans (W14_in m ρ c 2 rfl) ?_; hb; rfl
theorem l2_at18 : W18 (F := Ideal) m ρ c (Proc.devRef .tc main_v73) = W17 m ρ c (Proc.devRef .tc main_v73) := by
  hb; rfl
theorem arg17_at17 : W17 (F := Ideal) m ρ c (Proc.devRef .tc main_arg17) = m ((c : Thread nD τ).loc main_arg17) := by
  rb17; hb; hb; rb14; hb; rb12; hb; hb; rb9; hb; rb7; hb; hb; rb4; hb; rb2; hb; rfl
theorem arg18_at18 : W18 (F := Ideal) m ρ c (Proc.devRef .tc main_arg18) = m ((c : Thread nD τ).loc main_arg18) := by
  hb; rb17; hb; hb; rb14; hb; rb12; hb; hb; rb9; hb; rb7; hb; hb; rb4; hb; rb2; hb; rfl
theorem arg19_at18 : W18 (F := Ideal) m ρ c (Proc.devRef .tc main_arg19) = m ((c : Thread nD τ).loc main_arg19) := by
  hb; rb17; hb; hb; rb14; hb; rb12; hb; hb; rb9; hb; rb7; hb; hb; rb4; hb; rb2; hb; rfl
theorem arg20_at18 : W18 (F := Ideal) m ρ c (Proc.devRef .tc main_arg20) = m ((c : Thread nD τ).loc main_arg20) := by
  hb; rb17; hb; hb; rb14; hb; rb12; hb; hb; rb9; hb; rb7; hb; hb; rb4; hb; rb2; hb; rfl
theorem arg21_at18 : W18 (F := Ideal) m ρ c (Proc.devRef .tc main_arg21) = m ((c : Thread nD τ).loc main_arg21) := by
  hb; rb17; hb; hb; rb14; hb; rb12; hb; hb; rb9; hb; rb7; hb; hb; rb4; hb; rb2; hb; rfl
theorem arg22_at18 : W18 (F := Ideal) m ρ c (Proc.devRef .tc main_arg22) = m ((c : Thread nD τ).loc main_arg22) := by
  hb; rb17; hb; hb; rb14; hb; rb12; hb; hb; rb9; hb; rb7; hb; hb; rb4; hb; rb2; hb; rfl

theorem J0_at18 : (W18 (F := Ideal) m ρ c (Proc.devRef .tc main_v74) : S128x128.Idx → EReal)
    = extractStridedSlice S128x128 ![0, 0] (W17 (F := Ideal) m ρ c (Proc.devRef .tc main_arg17) : S384x128.Idx → EReal)
        slices_S384x128_S128x128_0_0 := by
  show StableHlo.after hostOps7 (W17 m ρ c) (Proc.devRef .tc main_v74) = _
  after_results

theorem J1_at18 : (W18 (F := Ideal) m ρ c (Proc.devRef .tc main_v75) : S128x128.Idx → EReal)
    = extractStridedSlice S128x128 ![128, 0] (W17 (F := Ideal) m ρ c (Proc.devRef .tc main_arg17) : S384x128.Idx → EReal)
        slices_S384x128_S128x128_128_0 := by
  show StableHlo.after hostOps7 (W17 m ρ c) (Proc.devRef .tc main_v75) = _
  after_results

theorem J2_at18 : (W18 (F := Ideal) m ρ c (Proc.devRef .tc main_v76) : S128x128.Idx → EReal)
    = extractStridedSlice S128x128 ![256, 0] (W17 (F := Ideal) m ρ c (Proc.devRef .tc main_arg17) : S384x128.Idx → EReal)
        slices_S384x128_S128x128_256_0 := by
  show StableHlo.after hostOps7 (W17 m ρ c) (Proc.devRef .tc main_v76) = _
  after_results

/-! ## The result -/

/-- The program's result is the head's output column read as a vector: entry r is the column's entry (r, 0). -/
theorem out_at20 (r : Fin 100000) :
    (W20 (F := Ideal) m ρ c (Proc.devRef .tc main_v78) : S100000.Idx → EReal) (ix1 r)
      = (W19 (F := Ideal) m ρ c (Proc.devRef .tc main_v77) : S100000x1.Idx → EReal) (ix2 r 0) := by
  have e : (W20 (F := Ideal) m ρ c (Proc.devRef .tc main_v78) : S100000.Idx → EReal)
      = shapeCast S100000 (W19 (F := Ideal) m ρ c (Proc.devRef .tc main_v77) : S100000x1.Idx → EReal) shapeCasts_S100000x1_S100000 := by
    show StableHlo.after hostOps8 (W19 m ρ c) (Proc.devRef .tc main_v78) = _
    after_results
    rfl
  rw [e]
  exact shapeCast_apply _ _ _ _ (by
    show (S100000x1.rowMajor (ix2 r 0)).val = (S100000.rowMajor (ix1 r)).val
    rw [Shape.rowMajor_val_two, Shape.rowMajor_val_one]
    show r.val * 1 + 0 = r.val
    omega)

end Cert.KernelIdeal.KVal

end
-- ==== Proof.RefStage0.lean ====
/-
  The reference's stages, window 0 of @main (operations 1 … 83 of 292): one equation per operation.

  Each equation says that the final contents of the reference the operation writes are the operation's function of the
  final contents of its operands. It holds because the line is in single-assignment form: the operands are written before
  the operation's place and never again, and the result is written at that place only (RefRun.lean proves this once, for
  each arity). The rows are a table of the printed program — the written reference, the operation, its place in the line —
  and each is the general stage lemma of its arity at that place. Together with the three sibling modules they let a
  value be walked from the result buffer back to the arguments one operation at a time.
-/
import proofs.«113076_j55267639165123_2_alg».proof.Proof.RefRun

set_option maxHeartbeats 1000000

noncomputable section

namespace Cert.ReferenceIdeal.RefVal

open Cert.ReferenceIdeal Cert.ReferenceIdeal.Gen Idealize.ShloMosaic Idealize.ShloMosaic.TcCoe Idealize.SL.Sem Idealize.ShloMosaic.StableHlo

variable {F : FTy → Type} [FloatOps F]

-- BEGIN TABLE
theorem st_main_v0 (V : Valuation τ sig (Elt F)) :
    after ops V (Proc.devRef .tc main_v0) = iotaInDim S100000 32 0 := by
  stage0 0 V
theorem st_main_v1 (V : Valuation τ sig (Elt F)) :
    after ops V (Proc.devRef .tc main_v1) = extractStridedSlice S1x1600000 ![0, 0] (after ops V (Proc.devRef .tc main_arg1)) slices_S2x1600000_S1x1600000_0_0 := by
  stage1 1 V
theorem st_main_v2 (V : Valuation τ sig (Elt F)) :
    after ops V (Proc.devRef .tc main_v2) = shapeCast _ (after ops V (Proc.devRef .tc main_v1)) shapeCasts_S1x1600000_S1600000 := by
  stageR 2 V
theorem st_main_v3 (V : Valuation τ sig (Elt F)) :
    after ops V (Proc.devRef .tc main_v3) = concatenate S1700000 0 [⟨S1600000, (after ops V (Proc.devRef .tc main_v2))⟩, ⟨S100000, (after ops V (Proc.devRef .tc main_v0))⟩] concatenates_S1600000_S100000_S1700000_d0 := by
  stage2 3 V
theorem st_main_v4 (V : Valuation τ sig (Elt F)) :
    after ops V (Proc.devRef .tc main_v4) = extractStridedSlice S1x1600000 ![1, 0] (after ops V (Proc.devRef .tc main_arg1)) slices_S2x1600000_S1x1600000_1_0 := by
  stage1 4 V
theorem st_main_v5 (V : Valuation τ sig (Elt F)) :
    after ops V (Proc.devRef .tc main_v5) = shapeCast _ (after ops V (Proc.devRef .tc main_v4)) shapeCasts_S1x1600000_S1600000 := by
  stageR 5 V
theorem st_main_v6 (V : Valuation τ sig (Elt F)) :
    after ops V (Proc.devRef .tc main_v6) = concatenate S1700000 0 [⟨S1600000, (after ops V (Proc.devRef .tc main_v5))⟩, ⟨S100000, (after ops V (Proc.devRef .tc main_v0))⟩] concatenates_S1600000_S100000_S1700000_d0 := by
  stage2 6 V
theorem st_main_cst (V : Valuation τ sig (Elt F)) :
    after ops V (Proc.devRef .tc main_cst) = constant S_ .f32 0x00000000#32 := by
  stage0 7 V
theorem st_main_v7 (V : Valuation τ sig (Elt F)) :
    after ops V (Proc.devRef .tc main_v7) = (broadcastInDim S100000x2 ![] bcast_S_S100000x2 : (⟨S_, .f32⟩ : BufTy).Contents (Elt F) → (⟨S100000x2, .f32⟩ : BufTy).Contents (Elt F)) (after ops V (Proc.devRef .tc main_cst)) := by
  stage1 8 V
theorem st_main_v8 (V : Valuation τ sig (Elt F)) :
    after ops V (Proc.devRef .tc main_v8) = concatenate S1700000x2 0 [⟨S1600000x2, (after ops V (Proc.devRef .tc main_arg2))⟩, ⟨S100000x2, (after ops V (Proc.devRef .tc main_v7))⟩] concatenates_S1600000x2_S100000x2_S1700000x2_d0 := by
  stage2 9 V
theorem st_main_v9 (V : Valuation τ sig (Elt F)) :
    after ops V (Proc.devRef .tc main_v9) = Host.dotGeneral dot_S100000x4_S4x128_S100000x128_1_0_0_1_n_n none (after ops V (Proc.devRef .tc main_arg0)) (after ops V (Proc.devRef .tc main_arg3)) := by
  stage2 10 V
theorem st_main_v10 (V : Valuation τ sig (Elt F)) :
    after ops V (Proc.devRef .tc main_v10) = (broadcastInDim S1x128 ![1] bcast_S128_S1x128_1 : (⟨S128, .f32⟩ : BufTy).Contents (Elt F) → (⟨S1x128, .f32⟩ : BufTy).Contents (Elt F)) (after ops V (Proc.devRef .tc main_arg4)) := by
  stage1 11 V
theorem st_main_v11 (V : Valuation τ sig (Elt F)) :
    after ops V (Proc.devRef .tc main_v11) = (broadcastInDim S100000x128 ![0, 1] bcast_S1x128_S100000x128_0_1 : (⟨S1x128, .f32⟩ : BufTy).Contents (Elt F) → (⟨S100000x128, .f32⟩ : BufTy).Contents (Elt F)) (after ops V (Proc.devRef .tc main_v10)) := by
  stage1 12 V
theorem st_main_v12 (V : Valuation τ sig (Elt F)) :
    after ops V (Proc.devRef .tc main_v12) = (addf : (⟨S100000x128, .f32⟩ : BufTy).Contents (Elt F) → (⟨S100000x128, .f32⟩ : BufTy).Contents (Elt F) → (⟨S100000x128, .f32⟩ : BufTy).Contents (Elt F)) (after ops V (Proc.devRef .tc main_v9)) (after ops V (Proc.devRef .tc main_v11)) := by
  stage2 13 V
theorem st_main_c (V : Valuation τ sig (Elt F)) :
    after ops V (Proc.devRef .tc main_c) = constantI S_ 32 0#32 := by
  stage0 14 V
theorem st_main_v13 (V : Valuation τ sig (Elt F)) :
    after ops V (Proc.devRef .tc main_v13) = (broadcastInDim S1700000 ![] bcast_S_S1700000 : (⟨S_, .i32⟩ : BufTy).Contents (Elt F) → (⟨S1700000, .i32⟩ : BufTy).Contents (Elt F)) (after ops V (Proc.devRef .tc main_c)) := by
  stage1 15 V
theorem st_main_v14 (V : Valuation τ sig (Elt F)) :
    after ops V (Proc.devRef .tc main_v14) = (cmpi .slt : (⟨S1700000, .i32⟩ : BufTy).Contents (Elt F) → (⟨S1700000, .i32⟩ : BufTy).Contents (Elt F) → (⟨S1700000, .i1⟩ : BufTy).Contents (Elt F)) (after ops V (Proc.devRef .tc main_v3)) (after ops V (Proc.devRef .tc main_v13)) := by
  stage2 16 V
theorem st_main_c_0 (V : Valuation τ sig (Elt F)) :
    after ops V (Proc.devRef .tc main_c_0) = constantI S_ 32 100000#32 := by
  stage0 17 V
theorem st_main_v15 (V : Valuation τ sig (Elt F)) :
    after ops V (Proc.devRef .tc main_v15) = (broadcastInDim S1700000 ![] bcast_S_S1700000 : (⟨S_, .i32⟩ : BufTy).Contents (Elt F) → (⟨S1700000, .i32⟩ : BufTy).Contents (Elt F)) (after ops V (Proc.devRef .tc main_c_0)) := by
  stage1 18 V
theorem st_main_v16 (V : Valuation τ sig (Elt F)) :
    after ops V (Proc.devRef .tc main_v16) = (addi : (⟨S1700000, .i32⟩ : BufTy).Contents (Elt F) → (⟨S1700000, .i32⟩ : BufTy).Contents (Elt F) → (⟨S1700000, .i32⟩ : BufTy).Contents (Elt F)) (after ops V (Proc.devRef .tc main_v3)) (after ops V (Proc.devRef .tc main_v15)) := by
  stage2 19 V
theorem st_main_v17 (V : Valuation τ sig (Elt F)) :
    after ops V (Proc.devRef .tc main_v17) = (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) (after ops V (Proc.devRef .tc main_v14)) (after ops V (Proc.devRef .tc main_v16)) (after ops V (Proc.devRef .tc main_v3)) := by
  stage3 20 V
theorem st_main_v18 (V : Valuation τ sig (Elt F)) :
    after ops V (Proc.devRef .tc main_v18) = (broadcastInDim S1700000x1 ![0] bcast_S1700000_S1700000x1_0 : (⟨S1700000, .i32⟩ : BufTy).Contents (Elt F) → (⟨S1700000x1, .i32⟩ : BufTy).Contents (Elt F)) (after ops V (Proc.devRef .tc main_v17)) := by
  stage1 21 V
theorem st_main_v19 (V : Valuation τ sig (Elt F)) :
    after ops V (Proc.devRef .tc main_v19) = Host.gather gather_S100000x128_S1700000x1_S1700000x128_1_0_n_n_0_1_1128 (after ops V (Proc.devRef .tc main_v12)) (after ops V (Proc.devRef .tc main_v18)) := by
  stage2 22 V
theorem st_main_v20 (V : Valuation τ sig (Elt F)) :
    after ops V (Proc.devRef .tc main_v20) = concatenate S1700000x130 1 [⟨S1700000x128, (after ops V (Proc.devRef .tc main_v19))⟩, ⟨S1700000x2, (after ops V (Proc.devRef .tc main_v8))⟩] concatenates_S1700000x128_S1700000x2_S1700000x130_d1 := by
  stage2 23 V
theorem st_main_v21 (V : Valuation τ sig (Elt F)) :
    after ops V (Proc.devRef .tc main_v21) = Host.dotGeneral dot_S1700000x130_S130x128_S1700000x128_1_0_0_1_n_n none (after ops V (Proc.devRef .tc main_v20)) (after ops V (Proc.devRef .tc main_arg5)) := by
  stage2 24 V
theorem st_main_cst_1 (V : Valuation τ sig (Elt F)) :
    after ops V (Proc.devRef .tc main_cst_1) = constant S_ .f32 0x00000000#32 := by
  stage0 25 V
theorem st_main_v22 (V : Valuation τ sig (Elt F)) :
    after ops V (Proc.devRef .tc main_v22) = (broadcastInDim S100000x128 ![] bcast_S_S100000x128 : (⟨S_, .f32⟩ : BufTy).Contents (Elt F) → (⟨S100000x128, .f32⟩ : BufTy).Contents (Elt F)) (after ops V (Proc.devRef .tc main_cst_1)) := by
  stage1 26 V
theorem st_main_v23 (V : Valuation τ sig (Elt F)) :
    after ops V (Proc.devRef .tc main_v23) = (broadcastInDim S1700000x1 ![0] bcast_S1700000_S1700000x1_0 : (⟨S1700000, .i32⟩ : BufTy).Contents (Elt F) → (⟨S1700000x1, .i32⟩ : BufTy).Contents (Elt F)) (after ops V (Proc.devRef .tc main_v6)) := by
  stage1 27 V
theorem st_main_v24 (V : Valuation τ sig (Elt F)) :
    after ops V (Proc.devRef .tc main_v24) = Host.scatterAdd scatter_S100000x128_S1700000x1_S1700000x128_1_0_0_1 (after ops V (Proc.devRef .tc main_v22)) (after ops V (Proc.devRef .tc main_v23)) (after ops V (Proc.devRef .tc main_v21)) := by
  stage3 28 V
theorem st_main_cst_2 (V : Valuation τ sig (Elt F)) :
    after ops V (Proc.devRef .tc main_cst_2) = constant S_ .f32 0x3F800000#32 := by
  stage0 29 V
theorem st_main_v25 (V : Valuation τ sig (Elt F)) :
    after ops V (Proc.devRef .tc main_v25) = (broadcastInDim S1700000 ![] bcast_S_S1700000 : (⟨S_, .f32⟩ : BufTy).Contents (Elt F) → (⟨S1700000, .f32⟩ : BufTy).Contents (Elt F)) (after ops V (Proc.devRef .tc main_cst_2)) := by
  stage1 30 V
theorem st_main_cst_3 (V : Valuation τ sig (Elt F)) :
    after ops V (Proc.devRef .tc main_cst_3) = constant S_ .f32 0x00000000#32 := by
  stage0 31 V
theorem st_main_v26 (V : Valuation τ sig (Elt F)) :
    after ops V (Proc.devRef .tc main_v26) = (broadcastInDim S100000 ![] bcast_S_S100000 : (⟨S_, .f32⟩ : BufTy).Contents (Elt F) → (⟨S100000, .f32⟩ : BufTy).Contents (Elt F)) (after ops V (Proc.devRef .tc main_cst_3)) := by
  stage1 32 V
theorem st_main_v27 (V : Valuation τ sig (Elt F)) :
    after ops V (Proc.devRef .tc main_v27) = (broadcastInDim S1700000x1 ![0] bcast_S1700000_S1700000x1_0 : (⟨S1700000, .i32⟩ : BufTy).Contents (Elt F) → (⟨S1700000x1, .i32⟩ : BufTy).Contents (Elt F)) (after ops V (Proc.devRef .tc main_v6)) := by
  stage1 33 V
theorem st_main_v28 (V : Valuation τ sig (Elt F)) :
    after ops V (Proc.devRef .tc main_v28) = Host.scatterAdd scatter_S100000_S1700000x1_S1700000_n_0_0_1 (after ops V (Proc.devRef .tc main_v26)) (after ops V (Proc.devRef .tc main_v27)) (after ops V (Proc.devRef .tc main_v25)) := by
  stage3 34 V
theorem st_main_cst_4 (V : Valuation τ sig (Elt F)) :
    after ops V (Proc.devRef .tc main_cst_4) = constant S_ .f32 0x3F800000#32 := by
  stage0 35 V
theorem st_main_v29 (V : Valuation τ sig (Elt F)) :
    after ops V (Proc.devRef .tc main_v29) = (broadcastInDim S100000 ![] bcast_S_S100000 : (⟨S_, .f32⟩ : BufTy).Contents (Elt F) → (⟨S100000, .f32⟩ : BufTy).Contents (Elt F)) (after ops V (Proc.devRef .tc main_cst_4)) := by
  stage1 36 V
theorem st_main_v30 (V : Valuation τ sig (Elt F)) :
    after ops V (Proc.devRef .tc main_v30) = (maximumf : (⟨S100000, .f32⟩ : BufTy).Contents (Elt F) → (⟨S100000, .f32⟩ : BufTy).Contents (Elt F) → (⟨S100000, .f32⟩ : BufTy).Contents (Elt F)) (after ops V (Proc.devRef .tc main_v28)) (after ops V (Proc.devRef .tc main_v29)) := by
  stage2 37 V
theorem st_main_v31 (V : Valuation τ sig (Elt F)) :
    after ops V (Proc.devRef .tc main_v31) = (broadcastInDim S100000x1 ![0] bcast_S100000_S100000x1_0 : (⟨S100000, .f32⟩ : BufTy).Contents (Elt F) → (⟨S100000x1, .f32⟩ : BufTy).Contents (Elt F)) (after ops V (Proc.devRef .tc main_v30)) := by
  stage1 38 V
theorem st_main_v32 (V : Valuation τ sig (Elt F)) :
    after ops V (Proc.devRef .tc main_v32) = (broadcastInDim S100000x128 ![0, 1] bcast_S100000x1_S100000x128_0_1 : (⟨S100000x1, .f32⟩ : BufTy).Contents (Elt F) → (⟨S100000x128, .f32⟩ : BufTy).Contents (Elt F)) (after ops V (Proc.devRef .tc main_v31)) := by
  stage1 39 V
theorem st_main_v33 (V : Valuation τ sig (Elt F)) :
    after ops V (Proc.devRef .tc main_v33) = (Host.divf : (⟨S100000x128, .f32⟩ : BufTy).Contents (Elt F) → (⟨S100000x128, .f32⟩ : BufTy).Contents (Elt F) → (⟨S100000x128, .f32⟩ : BufTy).Contents (Elt F)) (after ops V (Proc.devRef .tc main_v24)) (after ops V (Proc.devRef .tc main_v32)) := by
  stage2 40 V
theorem st_main_v34 (V : Valuation τ sig (Elt F)) :
    after ops V (Proc.devRef .tc main_v34) = Host.dotGeneral dot_S100000x128_S128x128_S100000x128_1_0_0_1_n_n none (after ops V (Proc.devRef .tc main_v12)) (after ops V (Proc.devRef .tc main_arg6)) := by
  stage2 41 V
theorem st_main_v35 (V : Valuation τ sig (Elt F)) :
    after ops V (Proc.devRef .tc main_v35) = (addf : (⟨S100000x128, .f32⟩ : BufTy).Contents (Elt F) → (⟨S100000x128, .f32⟩ : BufTy).Contents (Elt F) → (⟨S100000x128, .f32⟩ : BufTy).Contents (Elt F)) (after ops V (Proc.devRef .tc main_v33)) (after ops V (Proc.devRef .tc main_v34)) := by
  stage2 42 V
theorem st_main_call0_cst (V : Valuation τ sig (Elt F)) :
    after ops V (Proc.devRef .tc main_call0_cst) = constant S_ .f32 0x00000000#32 := by
  stage0 43 V
theorem st_main_call0_v0 (V : Valuation τ sig (Elt F)) :
    after ops V (Proc.devRef .tc main_call0_v0) = broadcastInDim S100000x128 ![] bcast_S_S100000x128 (after ops V (Proc.devRef .tc main_call0_cst)) := by
  stage1 44 V
theorem st_main_v36 (V : Valuation τ sig (Elt F)) :
    after ops V (Proc.devRef .tc main_v36) = maximumf (after ops V (Proc.devRef .tc main_v35)) (after ops V (Proc.devRef .tc main_call0_v0)) := by
  stage2 45 V
theorem st_main_cst_5 (V : Valuation τ sig (Elt F)) :
    after ops V (Proc.devRef .tc main_cst_5) = constant S_ .f32 0x00000000#32 := by
  stage0 46 V
theorem st_main_v37 (V : Valuation τ sig (Elt F)) :
    after ops V (Proc.devRef .tc main_v37) = Host.reduceAdd (after ops V (Proc.devRef .tc main_v36)) (after ops V (Proc.devRef .tc main_cst_5)) reducesTo_S100000x128_S128_d0 h_S_ := by
  stage2 47 V
theorem st_main_cst_6 (V : Valuation τ sig (Elt F)) :
    after ops V (Proc.devRef .tc main_cst_6) = constant S_ .f32 0x47C35000#32 := by
  stage0 48 V
theorem st_main_v38 (V : Valuation τ sig (Elt F)) :
    after ops V (Proc.devRef .tc main_v38) = (broadcastInDim S128 ![] bcast_S_S128 : (⟨S_, .f32⟩ : BufTy).Contents (Elt F) → (⟨S128, .f32⟩ : BufTy).Contents (Elt F)) (after ops V (Proc.devRef .tc main_cst_6)) := by
  stage1 49 V
theorem st_main_v39 (V : Valuation τ sig (Elt F)) :
    after ops V (Proc.devRef .tc main_v39) = (Host.divf : (⟨S128, .f32⟩ : BufTy).Contents (Elt F) → (⟨S128, .f32⟩ : BufTy).Contents (Elt F) → (⟨S128, .f32⟩ : BufTy).Contents (Elt F)) (after ops V (Proc.devRef .tc main_v37)) (after ops V (Proc.devRef .tc main_v38)) := by
  stage2 50 V
theorem st_main_c_7 (V : Valuation τ sig (Elt F)) :
    after ops V (Proc.devRef .tc main_c_7) = constantI S_ 32 0#32 := by
  stage0 51 V
theorem st_main_call1_cst (V : Valuation τ sig (Elt F)) :
    after ops V (Proc.devRef .tc main_call1_cst) = constant S_ .f32 0x00000000#32 := by
  stage0 52 V
theorem st_main_call1_v0 (V : Valuation τ sig (Elt F)) :
    after ops V (Proc.devRef .tc main_call1_v0) = Host.reduceAdd (after ops V (Proc.devRef .tc main_v36)) (after ops V (Proc.devRef .tc main_call1_cst)) reducesTo_S100000x128_S128_d0 h_S_ := by
  stage2 53 V
theorem st_main_call1_v1 (V : Valuation τ sig (Elt F)) :
    after ops V (Proc.devRef .tc main_call1_v1) = broadcastInDim S1x128 ![1] bcast_S128_S1x128_1 (after ops V (Proc.devRef .tc main_call1_v0)) := by
  stage1 54 V
theorem st_main_call1_cst_0 (V : Valuation τ sig (Elt F)) :
    after ops V (Proc.devRef .tc main_call1_cst_0) = constant S_ .f32 0x47C35000#32 := by
  stage0 55 V
theorem st_main_call1_v2 (V : Valuation τ sig (Elt F)) :
    after ops V (Proc.devRef .tc main_call1_v2) = broadcastInDim S1x128 ![] bcast_S_S1x128 (after ops V (Proc.devRef .tc main_call1_cst_0)) := by
  stage1 56 V
theorem st_main_call1_v3 (V : Valuation τ sig (Elt F)) :
    after ops V (Proc.devRef .tc main_call1_v3) = Host.divf (after ops V (Proc.devRef .tc main_call1_v1)) (after ops V (Proc.devRef .tc main_call1_v2)) := by
  stage2 57 V
theorem st_main_call1_v4 (V : Valuation τ sig (Elt F)) :
    after ops V (Proc.devRef .tc main_call1_v4) = broadcastInDim S100000x128 ![0, 1] bcast_S1x128_S100000x128_0_1 (after ops V (Proc.devRef .tc main_call1_v3)) := by
  stage1 58 V
theorem st_main_call1_v5 (V : Valuation τ sig (Elt F)) :
    after ops V (Proc.devRef .tc main_call1_v5) = subf (after ops V (Proc.devRef .tc main_v36)) (after ops V (Proc.devRef .tc main_call1_v4)) := by
  stage2 59 V
theorem st_main_call1_v6 (V : Valuation τ sig (Elt F)) :
    after ops V (Proc.devRef .tc main_call1_v6) = mulf (after ops V (Proc.devRef .tc main_call1_v5)) (after ops V (Proc.devRef .tc main_call1_v5)) := by
  stage2 60 V
theorem st_main_call1_v7 (V : Valuation τ sig (Elt F)) :
    after ops V (Proc.devRef .tc main_call1_v7) = sitofp .f32 (after ops V (Proc.devRef .tc main_c_7)) := by
  stage1 61 V
theorem st_main_call1_cst_1 (V : Valuation τ sig (Elt F)) :
    after ops V (Proc.devRef .tc main_call1_cst_1) = constant S_ .f32 0x47C35000#32 := by
  stage0 62 V
theorem st_main_call1_v8 (V : Valuation τ sig (Elt F)) :
    after ops V (Proc.devRef .tc main_call1_v8) = subf (after ops V (Proc.devRef .tc main_call1_cst_1)) (after ops V (Proc.devRef .tc main_call1_v7)) := by
  stage2 63 V
theorem st_main_call1_cst_2 (V : Valuation τ sig (Elt F)) :
    after ops V (Proc.devRef .tc main_call1_cst_2) = constant S_ .f32 0x00000000#32 := by
  stage0 64 V
theorem st_main_call1_v9 (V : Valuation τ sig (Elt F)) :
    after ops V (Proc.devRef .tc main_call1_v9) = Host.reduceAdd (after ops V (Proc.devRef .tc main_call1_v6)) (after ops V (Proc.devRef .tc main_call1_cst_2)) reducesTo_S100000x128_S128_d0 h_S_ := by
  stage2 65 V
theorem st_main_call1_v10 (V : Valuation τ sig (Elt F)) :
    after ops V (Proc.devRef .tc main_call1_v10) = broadcastInDim S128 ![] bcast_S_S128 (after ops V (Proc.devRef .tc main_call1_v8)) := by
  stage1 66 V
theorem st_main_call1_v11 (V : Valuation τ sig (Elt F)) :
    after ops V (Proc.devRef .tc main_call1_v11) = Host.divf (after ops V (Proc.devRef .tc main_call1_v9)) (after ops V (Proc.devRef .tc main_call1_v10)) := by
  stage2 67 V
theorem st_main_call1_cst_3 (V : Valuation τ sig (Elt F)) :
    after ops V (Proc.devRef .tc main_call1_cst_3) = constant S_ .f32 0x00000000#32 := by
  stage0 68 V
theorem st_main_call1_v12 (V : Valuation τ sig (Elt F)) :
    after ops V (Proc.devRef .tc main_call1_v12) = cmpf .ogt (after ops V (Proc.devRef .tc main_call1_v8)) (after ops V (Proc.devRef .tc main_call1_cst_3)) := by
  stage2 69 V
theorem st_main_call1_cst_4 (V : Valuation τ sig (Elt F)) :
    after ops V (Proc.devRef .tc main_call1_cst_4) = constant S_ .f32 0x7FC00000#32 := by
  stage0 70 V
theorem st_main_call1_call0_v0 (V : Valuation τ sig (Elt F)) :
    after ops V (Proc.devRef .tc main_call1_call0_v0) = id (after ops V (Proc.devRef .tc main_call1_cst_4)) := by
  stage1 71 V
theorem st_main_call1_call0_v1 (V : Valuation τ sig (Elt F)) :
    after ops V (Proc.devRef .tc main_call1_call0_v1) = broadcastInDim S128 ![] bcast_S_S128 (after ops V (Proc.devRef .tc main_call1_call0_v0)) := by
  stage1 72 V
theorem st_main_v40 (V : Valuation τ sig (Elt F)) :
    after ops V (Proc.devRef .tc main_v40) = select (broadcastInDim S128 ![] bcast_S_S128 (after ops V (Proc.devRef .tc main_call1_v12))) (after ops V (Proc.devRef .tc main_call1_v11)) (after ops V (Proc.devRef .tc main_call1_call0_v1)) := by
  stage3 73 V
theorem st_main_v41 (V : Valuation τ sig (Elt F)) :
    after ops V (Proc.devRef .tc main_v41) = (broadcastInDim S1x128 ![1] bcast_S128_S1x128_1 : (⟨S128, .f32⟩ : BufTy).Contents (Elt F) → (⟨S1x128, .f32⟩ : BufTy).Contents (Elt F)) (after ops V (Proc.devRef .tc main_v39)) := by
  stage1 74 V
theorem st_main_v42 (V : Valuation τ sig (Elt F)) :
    after ops V (Proc.devRef .tc main_v42) = (broadcastInDim S100000x128 ![0, 1] bcast_S1x128_S100000x128_0_1 : (⟨S1x128, .f32⟩ : BufTy).Contents (Elt F) → (⟨S100000x128, .f32⟩ : BufTy).Contents (Elt F)) (after ops V (Proc.devRef .tc main_v41)) := by
  stage1 75 V
theorem st_main_v43 (V : Valuation τ sig (Elt F)) :
    after ops V (Proc.devRef .tc main_v43) = (subf : (⟨S100000x128, .f32⟩ : BufTy).Contents (Elt F) → (⟨S100000x128, .f32⟩ : BufTy).Contents (Elt F) → (⟨S100000x128, .f32⟩ : BufTy).Contents (Elt F)) (after ops V (Proc.devRef .tc main_v36)) (after ops V (Proc.devRef .tc main_v42)) := by
  stage2 76 V
theorem st_main_cst_8 (V : Valuation τ sig (Elt F)) :
    after ops V (Proc.devRef .tc main_cst_8) = constant S_ .f32 0x3727C5AC#32 := by
  stage0 77 V
theorem st_main_v44 (V : Valuation τ sig (Elt F)) :
    after ops V (Proc.devRef .tc main_v44) = (broadcastInDim S128 ![] bcast_S_S128 : (⟨S_, .f32⟩ : BufTy).Contents (Elt F) → (⟨S128, .f32⟩ : BufTy).Contents (Elt F)) (after ops V (Proc.devRef .tc main_cst_8)) := by
  stage1 78 V
theorem st_main_v45 (V : Valuation τ sig (Elt F)) :
    after ops V (Proc.devRef .tc main_v45) = (addf : (⟨S128, .f32⟩ : BufTy).Contents (Elt F) → (⟨S128, .f32⟩ : BufTy).Contents (Elt F) → (⟨S128, .f32⟩ : BufTy).Contents (Elt F)) (after ops V (Proc.devRef .tc main_v40)) (after ops V (Proc.devRef .tc main_v44)) := by
  stage2 79 V
theorem st_main_v46 (V : Valuation τ sig (Elt F)) :
    after ops V (Proc.devRef .tc main_v46) = (Host.rsqrt : (⟨S128, .f32⟩ : BufTy).Contents (Elt F) → (⟨S128, .f32⟩ : BufTy).Contents (Elt F)) (after ops V (Proc.devRef .tc main_v45)) := by
  stage1 80 V
theorem st_main_v47 (V : Valuation τ sig (Elt F)) :
    after ops V (Proc.devRef .tc main_v47) = (broadcastInDim S1x128 ![1] bcast_S128_S1x128_1 : (⟨S128, .f32⟩ : BufTy).Contents (Elt F) → (⟨S1x128, .f32⟩ : BufTy).Contents (Elt F)) (after ops V (Proc.devRef .tc main_v46)) := by
  stage1 81 V
theorem st_main_v48 (V : Valuation τ sig (Elt F)) :
    after ops V (Proc.devRef .tc main_v48) = (broadcastInDim S100000x128 ![0, 1] bcast_S1x128_S100000x128_0_1 : (⟨S1x128, .f32⟩ : BufTy).Contents (Elt F) → (⟨S100000x128, .f32⟩ : BufTy).Contents (Elt F)) (after ops V (Proc.devRef .tc main_v47)) := by
  stage1 82 V
-- END TABLE

end Cert.ReferenceIdeal.RefVal

end
-- ==== Proof.RReadDot.lean ====
/-
  The host's matrix products, read entry by entry on the extended reals.

  A host product of an m × k array with a k × n matrix holds, at entry (p, q), the sum over the contracted axis of row p of
  the left factor against column q of the right factor: no accumulator and no order of summation is left in it.
-/
import proofs.«113076_j55267639165123_2_alg».proof.ReferenceIdeal
import Idealize.ShloMosaic.PureOps.Ideal.Laws
import Idealize.ShloMosaic.Lib.ValueIdx

noncomputable section

namespace Cert.ReferenceIdeal.RRead

open Idealize.ShloMosaic Idealize.ShloMosaic.ValueIdx
open Cert.ReferenceIdeal

variable [Facts₀]

/-! ### The contraction of a 100000 × 4 array with a 4 × 128 matrix -/

theorem lhs0_100000x4_4x128 (i : S100000x128.Idx) (c : dot_S100000x4_S4x128_S100000x128_1_0_0_1_n_n.contr.Idx) : (dot_S100000x4_S4x128_S100000x128_1_0_0_1_n_n.lhsIdx i c 0).val = (i 0).val := by
  unfold DotDims.lhsIdx
  rw [dif_neg (show ¬(0 : Fin S100000x4.rank) ∈ dot_S100000x4_S4x128_S100000x128_1_0_0_1_n_n.lhsBatch from List.not_mem_nil), dif_pos (show (0 : Fin S100000x4.rank) ∈ dot_S100000x4_S4x128_S100000x128_1_0_0_1_n_n.lhsNonContracting from List.mem_singleton.mpr rfl)]
  rfl
theorem lhs1_100000x4_4x128 (i : S100000x128.Idx) (c : dot_S100000x4_S4x128_S100000x128_1_0_0_1_n_n.contr.Idx) : (dot_S100000x4_S4x128_S100000x128_1_0_0_1_n_n.lhsIdx i c 1).val = (c ⟨0, Nat.one_pos⟩).val :=
  dot_S100000x4_S4x128_S100000x128_1_0_0_1_n_n.lhsIdx_val_of_single rfl i c
theorem rhs0_100000x4_4x128 (i : S100000x128.Idx) (c : dot_S100000x4_S4x128_S100000x128_1_0_0_1_n_n.contr.Idx) : (dot_S100000x4_S4x128_S100000x128_1_0_0_1_n_n.rhsIdx i c 0).val = (c ⟨0, Nat.one_pos⟩).val :=
  dot_S100000x4_S4x128_S100000x128_1_0_0_1_n_n.rhsIdx_val_of_single rfl i c
theorem rhs1_100000x4_4x128 (i : S100000x128.Idx) (c : dot_S100000x4_S4x128_S100000x128_1_0_0_1_n_n.contr.Idx) : (dot_S100000x4_S4x128_S100000x128_1_0_0_1_n_n.rhsIdx i c 1).val = (i 1).val := by
  unfold DotDims.rhsIdx
  rw [dif_neg (show ¬(1 : Fin S4x128.rank) ∈ dot_S100000x4_S4x128_S100000x128_1_0_0_1_n_n.rhsBatch from List.not_mem_nil), dif_pos (show (1 : Fin S4x128.rank) ∈ dot_S100000x4_S4x128_S100000x128_1_0_0_1_n_n.rhsNonContracting from List.mem_singleton.mpr rfl)]
  rfl

/-- Entry (p, q) of the host's product: row p of the left factor against column q of the right. -/
theorem dot_100000x4_4x128 (prec : Option ContractPrecision) (lhs : FVec Ideal S100000x4 .f32) (rhs : FVec Ideal S4x128 .f32)
    (p : Fin 100000) (q : Fin 128) :
    Host.dotGeneral dot_S100000x4_S4x128_S100000x128_1_0_0_1_n_n prec lhs rhs (ix2 p q) = ∑ k : Fin 4, lhs (ix2 p k) * rhs (ix2 k q) := by
  refine (Ideal.dotGeneral_apply dot_S100000x4_S4x128_S100000x128_1_0_0_1_n_n prec .single lhs rhs (ix2 p q)).trans ?_
  rw [← Equiv.sum_comp (contrEquiv1 dot_S100000x4_S4x128_S100000x128_1_0_0_1_n_n 4 rfl rfl).symm]
  refine Finset.sum_congr rfl fun k _ => ?_
  have hk := contrEquiv1_symm_val dot_S100000x4_S4x128_S100000x128_1_0_0_1_n_n 4 rfl rfl k
  have el : dot_S100000x4_S4x128_S100000x128_1_0_0_1_n_n.lhsIdx (ix2 p q) ((contrEquiv1 dot_S100000x4_S4x128_S100000x128_1_0_0_1_n_n 4 rfl rfl).symm k) = ix2 p k := funext fun a => Fin.ext (by
    match a with
    | ⟨0, _⟩ => exact lhs0_100000x4_4x128 _ _
    | ⟨1, _⟩ => exact (lhs1_100000x4_4x128 _ _).trans hk)
  have er : dot_S100000x4_S4x128_S100000x128_1_0_0_1_n_n.rhsIdx (ix2 p q) ((contrEquiv1 dot_S100000x4_S4x128_S100000x128_1_0_0_1_n_n 4 rfl rfl).symm k) = ix2 k q := funext fun a => Fin.ext (by
    match a with
    | ⟨0, _⟩ => exact (rhs0_100000x4_4x128 _ _).trans hk
    | ⟨1, _⟩ => exact rhs1_100000x4_4x128 _ _)
  rw [el, er]

/-! ### The contraction of a 1700000 × 130 array with a 130 × 128 matrix -/

theorem lhs0_1700000x130_130x128 (i : S1700000x128.Idx) (c : dot_S1700000x130_S130x128_S1700000x128_1_0_0_1_n_n.contr.Idx) : (dot_S1700000x130_S130x128_S1700000x128_1_0_0_1_n_n.lhsIdx i c 0).val = (i 0).val := by
  unfold DotDims.lhsIdx
  rw [dif_neg (show ¬(0 : Fin S1700000x130.rank) ∈ dot_S1700000x130_S130x128_S1700000x128_1_0_0_1_n_n.lhsBatch from List.not_mem_nil), dif_pos (show (0 : Fin S1700000x130.rank) ∈ dot_S1700000x130_S130x128_S1700000x128_1_0_0_1_n_n.lhsNonContracting from List.mem_singleton.mpr rfl)]
  rfl
theorem lhs1_1700000x130_130x128 (i : S1700000x128.Idx) (c : dot_S1700000x130_S130x128_S1700000x128_1_0_0_1_n_n.contr.Idx) : (dot_S1700000x130_S130x128_S1700000x128_1_0_0_1_n_n.lhsIdx i c 1).val = (c ⟨0, Nat.one_pos⟩).val :=
  dot_S1700000x130_S130x128_S1700000x128_1_0_0_1_n_n.lhsIdx_val_of_single rfl i c
theorem rhs0_1700000x130_130x128 (i : S1700000x128.Idx) (c : dot_S1700000x130_S130x128_S1700000x128_1_0_0_1_n_n.contr.Idx) : (dot_S1700000x130_S130x128_S1700000x128_1_0_0_1_n_n.rhsIdx i c 0).val = (c ⟨0, Nat.one_pos⟩).val :=
  dot_S1700000x130_S130x128_S1700000x128_1_0_0_1_n_n.rhsIdx_val_of_single rfl i c
theorem rhs1_1700000x130_130x128 (i : S1700000x128.Idx) (c : dot_S1700000x130_S130x128_S1700000x128_1_0_0_1_n_n.contr.Idx) : (dot_S1700000x130_S130x128_S1700000x128_1_0_0_1_n_n.rhsIdx i c 1).val = (i 1).val := by
  unfold DotDims.rhsIdx
  rw [dif_neg (show ¬(1 : Fin S130x128.rank) ∈ dot_S1700000x130_S130x128_S1700000x128_1_0_0_1_n_n.rhsBatch from List.not_mem_nil), dif_pos (show (1 : Fin S130x128.rank) ∈ dot_S1700000x130_S130x128_S1700000x128_1_0_0_1_n_n.rhsNonContracting from List.mem_singleton.mpr rfl)]
  rfl

/-- Entry (p, q) of the host's product: row p of the left factor against column q of the right. -/
theorem dot_1700000x130_130x128 (prec : Option ContractPrecision) (lhs : FVec Ideal S1700000x130 .f32) (rhs : FVec Ideal S130x128 .f32)
    (p : Fin 1700000) (q : Fin 128) :
    Host.dotGeneral dot_S1700000x130_S130x128_S1700000x128_1_0_0_1_n_n prec lhs rhs (ix2 p q) = ∑ k : Fin 130, lhs (ix2 p k) * rhs (ix2 k q) := by
  refine (Ideal.dotGeneral_apply dot_S1700000x130_S130x128_S1700000x128_1_0_0_1_n_n prec .single lhs rhs (ix2 p q)).trans ?_
  rw [← Equiv.sum_comp (contrEquiv1 dot_S1700000x130_S130x128_S1700000x128_1_0_0_1_n_n 130 rfl rfl).symm]
  refine Finset.sum_congr rfl fun k _ => ?_
  have hk := contrEquiv1_symm_val dot_S1700000x130_S130x128_S1700000x128_1_0_0_1_n_n 130 rfl rfl k
  have el : dot_S1700000x130_S130x128_S1700000x128_1_0_0_1_n_n.lhsIdx (ix2 p q) ((contrEquiv1 dot_S1700000x130_S130x128_S1700000x128_1_0_0_1_n_n 130 rfl rfl).symm k) = ix2 p k := funext fun a => Fin.ext (by
    match a with
    | ⟨0, _⟩ => exact lhs0_1700000x130_130x128 _ _
    | ⟨1, _⟩ => exact (lhs1_1700000x130_130x128 _ _).trans hk)
  have er : dot_S1700000x130_S130x128_S1700000x128_1_0_0_1_n_n.rhsIdx (ix2 p q) ((contrEquiv1 dot_S1700000x130_S130x128_S1700000x128_1_0_0_1_n_n 130 rfl rfl).symm k) = ix2 k q := funext fun a => Fin.ext (by
    match a with
    | ⟨0, _⟩ => exact (rhs0_1700000x130_130x128 _ _).trans hk
    | ⟨1, _⟩ => exact rhs1_1700000x130_130x128 _ _)
  rw [el, er]

/-! ### The contraction of a 100000 × 128 array with a 128 × 128 matrix -/

theorem lhs0_100000x128_128x128 (i : S100000x128.Idx) (c : dot_S100000x128_S128x128_S100000x128_1_0_0_1_n_n.contr.Idx) : (dot_S100000x128_S128x128_S100000x128_1_0_0_1_n_n.lhsIdx i c 0).val = (i 0).val := by
  unfold DotDims.lhsIdx
  rw [dif_neg (show ¬(0 : Fin S100000x128.rank) ∈ dot_S100000x128_S128x128_S100000x128_1_0_0_1_n_n.lhsBatch from List.not_mem_nil), dif_pos (show (0 : Fin S100000x128.rank) ∈ dot_S100000x128_S128x128_S100000x128_1_0_0_1_n_n.lhsNonContracting from List.mem_singleton.mpr rfl)]
  rfl
theorem lhs1_100000x128_128x128 (i : S100000x128.Idx) (c : dot_S100000x128_S128x128_S100000x128_1_0_0_1_n_n.contr.Idx) : (dot_S100000x128_S128x128_S100000x128_1_0_0_1_n_n.lhsIdx i c 1).val = (c ⟨0, Nat.one_pos⟩).val :=
  dot_S100000x128_S128x128_S100000x128_1_0_0_1_n_n.lhsIdx_val_of_single rfl i c
theorem rhs0_100000x128_128x128 (i : S100000x128.Idx) (c : dot_S100000x128_S128x128_S100000x128_1_0_0_1_n_n.contr.Idx) : (dot_S100000x128_S128x128_S100000x128_1_0_0_1_n_n.rhsIdx i c 0).val = (c ⟨0, Nat.one_pos⟩).val :=
  dot_S100000x128_S128x128_S100000x128_1_0_0_1_n_n.rhsIdx_val_of_single rfl i c
theorem rhs1_100000x128_128x128 (i : S100000x128.Idx) (c : dot_S100000x128_S128x128_S100000x128_1_0_0_1_n_n.contr.Idx) : (dot_S100000x128_S128x128_S100000x128_1_0_0_1_n_n.rhsIdx i c 1).val = (i 1).val := by
  unfold DotDims.rhsIdx
  rw [dif_neg (show ¬(1 : Fin S128x128.rank) ∈ dot_S100000x128_S128x128_S100000x128_1_0_0_1_n_n.rhsBatch from List.not_mem_nil), dif_pos (show (1 : Fin S128x128.rank) ∈ dot_S100000x128_S128x128_S100000x128_1_0_0_1_n_n.rhsNonContracting from List.mem_singleton.mpr rfl)]
  rfl

/-- Entry (p, q) of the host's product: row p of the left factor against column q of the right. -/
theorem dot_100000x128_128x128 (prec : Option ContractPrecision) (lhs : FVec Ideal S100000x128 .f32) (rhs : FVec Ideal S128x128 .f32)
    (p : Fin 100000) (q : Fin 128) :
    Host.dotGeneral dot_S100000x128_S128x128_S100000x128_1_0_0_1_n_n prec lhs rhs (ix2 p q) = ∑ k : Fin 128, lhs (ix2 p k) * rhs (ix2 k q) := by
  refine (Ideal.dotGeneral_apply dot_S100000x128_S128x128_S100000x128_1_0_0_1_n_n prec .single lhs rhs (ix2 p q)).trans ?_
  rw [← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx (ix2 p q) ((contrEquiv1 dot_S100000x128_S128x128_S100000x128_1_0_0_1_n_n 128 rfl rfl).symm k) = ix2 p k := funext fun a => Fin.ext (by
    match a with
    | ⟨0, _⟩ => exact lhs0_100000x128_128x128 _ _
    | ⟨1, _⟩ => exact (lhs1_100000x128_128x128 _ _).trans hk)
  have er : dot_S100000x128_S128x128_S100000x128_1_0_0_1_n_n.rhsIdx (ix2 p q) ((contrEquiv1 dot_S100000x128_S128x128_S100000x128_1_0_0_1_n_n 128 rfl rfl).symm k) = ix2 k q := funext fun a => Fin.ext (by
    match a with
    | ⟨0, _⟩ => exact (rhs0_100000x128_128x128 _ _).trans hk
    | ⟨1, _⟩ => exact rhs1_100000x128_128x128 _ _)
  rw [el, er]

/-! ### The contraction of a 100000 × 384 array with a 384 × 128 matrix -/

theorem lhs0_100000x384_384x128 (i : S100000x128.Idx) (c : dot_S100000x384_S384x128_S100000x128_1_0_0_1_n_n.contr.Idx) : (dot_S100000x384_S384x128_S100000x128_1_0_0_1_n_n.lhsIdx i c 0).val = (i 0).val := by
  unfold DotDims.lhsIdx
  rw [dif_neg (show ¬(0 : Fin S100000x384.rank) ∈ dot_S100000x384_S384x128_S100000x128_1_0_0_1_n_n.lhsBatch from List.not_mem_nil), dif_pos (show (0 : Fin S100000x384.rank) ∈ dot_S100000x384_S384x128_S100000x128_1_0_0_1_n_n.lhsNonContracting from List.mem_singleton.mpr rfl)]
  rfl
theorem lhs1_100000x384_384x128 (i : S100000x128.Idx) (c : dot_S100000x384_S384x128_S100000x128_1_0_0_1_n_n.contr.Idx) : (dot_S100000x384_S384x128_S100000x128_1_0_0_1_n_n.lhsIdx i c 1).val = (c ⟨0, Nat.one_pos⟩).val :=
  dot_S100000x384_S384x128_S100000x128_1_0_0_1_n_n.lhsIdx_val_of_single rfl i c
theorem rhs0_100000x384_384x128 (i : S100000x128.Idx) (c : dot_S100000x384_S384x128_S100000x128_1_0_0_1_n_n.contr.Idx) : (dot_S100000x384_S384x128_S100000x128_1_0_0_1_n_n.rhsIdx i c 0).val = (c ⟨0, Nat.one_pos⟩).val :=
  dot_S100000x384_S384x128_S100000x128_1_0_0_1_n_n.rhsIdx_val_of_single rfl i c
theorem rhs1_100000x384_384x128 (i : S100000x128.Idx) (c : dot_S100000x384_S384x128_S100000x128_1_0_0_1_n_n.contr.Idx) : (dot_S100000x384_S384x128_S100000x128_1_0_0_1_n_n.rhsIdx i c 1).val = (i 1).val := by
  unfold DotDims.rhsIdx
  rw [dif_neg (show ¬(1 : Fin S384x128.rank) ∈ dot_S100000x384_S384x128_S100000x128_1_0_0_1_n_n.rhsBatch from List.not_mem_nil), dif_pos (show (1 : Fin S384x128.rank) ∈ dot_S100000x384_S384x128_S100000x128_1_0_0_1_n_n.rhsNonContracting from List.mem_singleton.mpr rfl)]
  rfl

/-- Entry (p, q) of the host's product: row p of the left factor against column q of the right. -/
theorem dot_100000x384_384x128 (prec : Option ContractPrecision) (lhs : FVec Ideal S100000x384 .f32) (rhs : FVec Ideal S384x128 .f32)
    (p : Fin 100000) (q : Fin 128) :
    Host.dotGeneral dot_S100000x384_S384x128_S100000x128_1_0_0_1_n_n prec lhs rhs (ix2 p q) = ∑ k : Fin 384, lhs (ix2 p k) * rhs (ix2 k q) := by
  refine (Ideal.dotGeneral_apply dot_S100000x384_S384x128_S100000x128_1_0_0_1_n_n prec .single lhs rhs (ix2 p q)).trans ?_
  rw [← Equiv.sum_comp (contrEquiv1 dot_S100000x384_S384x128_S100000x128_1_0_0_1_n_n 384 rfl rfl).symm]
  refine Finset.sum_congr rfl fun k _ => ?_
  have hk := contrEquiv1_symm_val dot_S100000x384_S384x128_S100000x128_1_0_0_1_n_n 384 rfl rfl k
  have el : dot_S100000x384_S384x128_S100000x128_1_0_0_1_n_n.lhsIdx (ix2 p q) ((contrEquiv1 dot_S100000x384_S384x128_S100000x128_1_0_0_1_n_n 384 rfl rfl).symm k) = ix2 p k := funext fun a => Fin.ext (by
    match a with
    | ⟨0, _⟩ => exact lhs0_100000x384_384x128 _ _
    | ⟨1, _⟩ => exact (lhs1_100000x384_384x128 _ _).trans hk)
  have er : dot_S100000x384_S384x128_S100000x128_1_0_0_1_n_n.rhsIdx (ix2 p q) ((contrEquiv1 dot_S100000x384_S384x128_S100000x128_1_0_0_1_n_n 384 rfl rfl).symm k) = ix2 k q := funext fun a => Fin.ext (by
    match a with
    | ⟨0, _⟩ => exact (rhs0_100000x384_384x128 _ _).trans hk
    | ⟨1, _⟩ => exact rhs1_100000x384_384x128 _ _)
  rw [el, er]

/-! ### The contraction of a 100000 × 128 array with a 128 × 64 matrix -/

theorem lhs0_100000x128_128x64 (i : S100000x64.Idx) (c : dot_S100000x128_S128x64_S100000x64_1_0_0_1_n_n.contr.Idx) : (dot_S100000x128_S128x64_S100000x64_1_0_0_1_n_n.lhsIdx i c 0).val = (i 0).val := by
  unfold DotDims.lhsIdx
  rw [dif_neg (show ¬(0 : Fin S100000x128.rank) ∈ dot_S100000x128_S128x64_S100000x64_1_0_0_1_n_n.lhsBatch from List.not_mem_nil), dif_pos (show (0 : Fin S100000x128.rank) ∈ dot_S100000x128_S128x64_S100000x64_1_0_0_1_n_n.lhsNonContracting from List.mem_singleton.mpr rfl)]
  rfl
theorem lhs1_100000x128_128x64 (i : S100000x64.Idx) (c : dot_S100000x128_S128x64_S100000x64_1_0_0_1_n_n.contr.Idx) : (dot_S100000x128_S128x64_S100000x64_1_0_0_1_n_n.lhsIdx i c 1).val = (c ⟨0, Nat.one_pos⟩).val :=
  dot_S100000x128_S128x64_S100000x64_1_0_0_1_n_n.lhsIdx_val_of_single rfl i c
theorem rhs0_100000x128_128x64 (i : S100000x64.Idx) (c : dot_S100000x128_S128x64_S100000x64_1_0_0_1_n_n.contr.Idx) : (dot_S100000x128_S128x64_S100000x64_1_0_0_1_n_n.rhsIdx i c 0).val = (c ⟨0, Nat.one_pos⟩).val :=
  dot_S100000x128_S128x64_S100000x64_1_0_0_1_n_n.rhsIdx_val_of_single rfl i c
theorem rhs1_100000x128_128x64 (i : S100000x64.Idx) (c : dot_S100000x128_S128x64_S100000x64_1_0_0_1_n_n.contr.Idx) : (dot_S100000x128_S128x64_S100000x64_1_0_0_1_n_n.rhsIdx i c 1).val = (i 1).val := by
  unfold DotDims.rhsIdx
  rw [dif_neg (show ¬(1 : Fin S128x64.rank) ∈ dot_S100000x128_S128x64_S100000x64_1_0_0_1_n_n.rhsBatch from List.not_mem_nil), dif_pos (show (1 : Fin S128x64.rank) ∈ dot_S100000x128_S128x64_S100000x64_1_0_0_1_n_n.rhsNonContracting from List.mem_singleton.mpr rfl)]
  rfl

/-- Entry (p, q) of the host's product: row p of the left factor against column q of the right. -/
theorem dot_100000x128_128x64 (prec : Option ContractPrecision) (lhs : FVec Ideal S100000x128 .f32) (rhs : FVec Ideal S128x64 .f32)
    (p : Fin 100000) (q : Fin 64) :
    Host.dotGeneral dot_S100000x128_S128x64_S100000x64_1_0_0_1_n_n prec lhs rhs (ix2 p q) = ∑ k : Fin 128, lhs (ix2 p k) * rhs (ix2 k q) := by
  refine (Ideal.dotGeneral_apply dot_S100000x128_S128x64_S100000x64_1_0_0_1_n_n prec .single lhs rhs (ix2 p q)).trans ?_
  rw [← Equiv.sum_comp (contrEquiv1 dot_S100000x128_S128x64_S100000x64_1_0_0_1_n_n 128 rfl rfl).symm]
  refine Finset.sum_congr rfl fun k _ => ?_
  have hk := contrEquiv1_symm_val dot_S100000x128_S128x64_S100000x64_1_0_0_1_n_n 128 rfl rfl k
  have el : dot_S100000x128_S128x64_S100000x64_1_0_0_1_n_n.lhsIdx (ix2 p q) ((contrEquiv1 dot_S100000x128_S128x64_S100000x64_1_0_0_1_n_n 128 rfl rfl).symm k) = ix2 p k := funext fun a => Fin.ext (by
    match a with
    | ⟨0, _⟩ => exact lhs0_100000x128_128x64 _ _
    | ⟨1, _⟩ => exact (lhs1_100000x128_128x64 _ _).trans hk)
  have er : dot_S100000x128_S128x64_S100000x64_1_0_0_1_n_n.rhsIdx (ix2 p q) ((contrEquiv1 dot_S100000x128_S128x64_S100000x64_1_0_0_1_n_n 128 rfl rfl).symm k) = ix2 k q := funext fun a => Fin.ext (by
    match a with
    | ⟨0, _⟩ => exact (rhs0_100000x128_128x64 _ _).trans hk
    | ⟨1, _⟩ => exact rhs1_100000x128_128x64 _ _)
  rw [el, er]

/-! ### The contraction of a 100000 × 64 array with a 64 × 1 matrix -/

theorem lhs0_100000x64_64x1 (i : S100000x1.Idx) (c : dot_S100000x64_S64x1_S100000x1_1_0_0_1_n_n.contr.Idx) : (dot_S100000x64_S64x1_S100000x1_1_0_0_1_n_n.lhsIdx i c 0).val = (i 0).val := by
  unfold DotDims.lhsIdx
  rw [dif_neg (show ¬(0 : Fin S100000x64.rank) ∈ dot_S100000x64_S64x1_S100000x1_1_0_0_1_n_n.lhsBatch from List.not_mem_nil), dif_pos (show (0 : Fin S100000x64.rank) ∈ dot_S100000x64_S64x1_S100000x1_1_0_0_1_n_n.lhsNonContracting from List.mem_singleton.mpr rfl)]
  rfl
theorem lhs1_100000x64_64x1 (i : S100000x1.Idx) (c : dot_S100000x64_S64x1_S100000x1_1_0_0_1_n_n.contr.Idx) : (dot_S100000x64_S64x1_S100000x1_1_0_0_1_n_n.lhsIdx i c 1).val = (c ⟨0, Nat.one_pos⟩).val :=
  dot_S100000x64_S64x1_S100000x1_1_0_0_1_n_n.lhsIdx_val_of_single rfl i c
theorem rhs0_100000x64_64x1 (i : S100000x1.Idx) (c : dot_S100000x64_S64x1_S100000x1_1_0_0_1_n_n.contr.Idx) : (dot_S100000x64_S64x1_S100000x1_1_0_0_1_n_n.rhsIdx i c 0).val = (c ⟨0, Nat.one_pos⟩).val :=
  dot_S100000x64_S64x1_S100000x1_1_0_0_1_n_n.rhsIdx_val_of_single rfl i c
theorem rhs1_100000x64_64x1 (i : S100000x1.Idx) (c : dot_S100000x64_S64x1_S100000x1_1_0_0_1_n_n.contr.Idx) : (dot_S100000x64_S64x1_S100000x1_1_0_0_1_n_n.rhsIdx i c 1).val = (i 1).val := by
  unfold DotDims.rhsIdx
  rw [dif_neg (show ¬(1 : Fin S64x1.rank) ∈ dot_S100000x64_S64x1_S100000x1_1_0_0_1_n_n.rhsBatch from List.not_mem_nil), dif_pos (show (1 : Fin S64x1.rank) ∈ dot_S100000x64_S64x1_S100000x1_1_0_0_1_n_n.rhsNonContracting from List.mem_singleton.mpr rfl)]
  rfl

/-- Entry (p, q) of the host's product: row p of the left factor against column q of the right. -/
theorem dot_100000x64_64x1 (prec : Option ContractPrecision) (lhs : FVec Ideal S100000x64 .f32) (rhs : FVec Ideal S64x1 .f32)
    (p : Fin 100000) (q : Fin 1) :
    Host.dotGeneral dot_S100000x64_S64x1_S100000x1_1_0_0_1_n_n prec lhs rhs (ix2 p q) = ∑ k : Fin 64, lhs (ix2 p k) * rhs (ix2 k q) := by
  refine (Ideal.dotGeneral_apply dot_S100000x64_S64x1_S100000x1_1_0_0_1_n_n prec .single lhs rhs (ix2 p q)).trans ?_
  rw [← Equiv.sum_comp (contrEquiv1 dot_S100000x64_S64x1_S100000x1_1_0_0_1_n_n 64 rfl rfl).symm]
  refine Finset.sum_congr rfl fun k _ => ?_
  have hk := contrEquiv1_symm_val dot_S100000x64_S64x1_S100000x1_1_0_0_1_n_n 64 rfl rfl k
  have el : dot_S100000x64_S64x1_S100000x1_1_0_0_1_n_n.lhsIdx (ix2 p q) ((contrEquiv1 dot_S100000x64_S64x1_S100000x1_1_0_0_1_n_n 64 rfl rfl).symm k) = ix2 p k := funext fun a => Fin.ext (by
    match a with
    | ⟨0, _⟩ => exact lhs0_100000x64_64x1 _ _
    | ⟨1, _⟩ => exact (lhs1_100000x64_64x1 _ _).trans hk)
  have er : dot_S100000x64_S64x1_S100000x1_1_0_0_1_n_n.rhsIdx (ix2 p q) ((contrEquiv1 dot_S100000x64_S64x1_S100000x1_1_0_0_1_n_n 64 rfl rfl).symm k) = ix2 k q := funext fun a => Fin.ext (by
    match a with
    | ⟨0, _⟩ => exact (rhs0_100000x64_64x1 _ _).trans hk
    | ⟨1, _⟩ => exact rhs1_100000x64_64x1 _ _)
  rw [el, er]

end Cert.ReferenceIdeal.RRead

end
-- ==== Proof.RReadProj.lean ====
/-
  The input projection, read entry by entry.

  Entry (r, q) of x · W + b, with b laid as a row and repeated down the rows, is row r of x against column q of W, plus b at q.
-/
import proofs.«113076_j55267639165123_2_alg».proof.Proof.RReadDot
import proofs.«113076_j55267639165123_2_alg».proof.Proof.RReadLay
import proofs.«113076_j55267639165123_2_alg».proof.Proof.Spec

noncomputable section

namespace Cert.ReferenceIdeal.RRead

open Idealize.ShloMosaic Idealize.ShloMosaic.ValueIdx
open Cert.ReferenceIdeal Cert.ReferenceIdeal.Facts₀

variable [Facts₀]

/-- Entry (r, q) of the input projection. -/
theorem proj_read (x : FVec Ideal S100000x4 .f32) (W : FVec Ideal S4x128 .f32) (b : FVec Ideal S128 .f32)
    (r : Fin 100000) (q : Fin 128) :
    addf (Host.dotGeneral dot_S100000x4_S4x128_S100000x128_1_0_0_1_n_n none x W)
        (broadcastInDim S100000x128 ![0, 1] bcast_S1x128_S100000x128_0_1 (broadcastInDim S1x128 ![1] bcast_S128_S1x128_1 b))
        (ix2 r q)
      = Cert.Spec.projAt x W b r q := by
  rw [addf_apply, dot_100000x4_4x128, rowOf_apply]
  rfl

end Cert.ReferenceIdeal.RRead

end
-- ==== Proof.RComp0.lean ====
/-
  The reference's input projection, as the specification states it.

  The buffer of the projected features is, by the stage equations, the sum of the contraction of the node inputs with the
  input weight and of the bias laid as a row and repeated down the rows; read at an entry (r, q) that is the
  specification's  sum over k of x(r, k) * W(k, q), plus b(q).
-/
import proofs.«113076_j55267639165123_2_alg».proof.Proof.RefStage0
import proofs.«113076_j55267639165123_2_alg».proof.Proof.RReadProj

noncomputable section

namespace Cert.ReferenceIdeal.RefVal

open Cert.ReferenceIdeal Cert.ReferenceIdeal.Gen Idealize.ShloMosaic Idealize.ShloMosaic.TcCoe Idealize.SL.Sem Idealize.ShloMosaic.StableHlo
open Idealize.ShloMosaic.ValueIdx

variable (V : Valuation τ sig (Elt Ideal))

/-- What the reference's run leaves at a buffer, from contents V. -/
local notation:max "A " b:max => after ops V (Proc.devRef Proc.tc b)

/-- Entry (r, q) of the projected features. -/
theorem proj_at (r : Fin 100000) (q : Fin 128) :
    (A main_v12) (ix2 r q) = Cert.Spec.projAt (A main_arg0) (A main_arg3) (A main_arg4) r q := by
  rw [st_main_v12, st_main_v9, st_main_v11, st_main_v10]
  exact Cert.ReferenceIdeal.RRead.proj_read _ _ _ r q

end Cert.ReferenceIdeal.RefVal

end
-- ==== Proof.RefStage1.lean ====
/-
  The reference's stages, window 1 of @main (operations 84 … 170 of 292): one equation per operation.

  Each equation says that the final contents of the reference the operation writes are the operation's function of the
  final contents of its operands. It holds because the line is in single-assignment form: the operands are written before
  the operation's place and never again, and the result is written at that place only (RefRun.lean proves this once, for
  each arity). The rows are a table of the printed program — the written reference, the operation, its place in the line —
  and each is the general stage lemma of its arity at that place. Together with the three sibling modules they let a
  value be walked from the result buffer back to the arguments one operation at a time.
-/
import proofs.«113076_j55267639165123_2_alg».proof.Proof.RefRun

set_option maxHeartbeats 1000000

noncomputable section

namespace Cert.ReferenceIdeal.RefVal

open Cert.ReferenceIdeal Cert.ReferenceIdeal.Gen Idealize.ShloMosaic Idealize.ShloMosaic.TcCoe Idealize.SL.Sem Idealize.ShloMosaic.StableHlo

variable {F : FTy → Type} [FloatOps F]

-- BEGIN TABLE
theorem st_main_v49 (V : Valuation τ sig (Elt F)) :
    after ops V (Proc.devRef .tc main_v49) = (mulf : (⟨S100000x128, .f32⟩ : BufTy).Contents (Elt F) → (⟨S100000x128, .f32⟩ : BufTy).Contents (Elt F) → (⟨S100000x128, .f32⟩ : BufTy).Contents (Elt F)) (after ops V (Proc.devRef .tc main_v43)) (after ops V (Proc.devRef .tc main_v48)) := by
  stage2 83 V
theorem st_main_v50 (V : Valuation τ sig (Elt F)) :
    after ops V (Proc.devRef .tc main_v50) = (broadcastInDim S1x128 ![1] bcast_S128_S1x128_1 : (⟨S128, .f32⟩ : BufTy).Contents (Elt F) → (⟨S1x128, .f32⟩ : BufTy).Contents (Elt F)) (after ops V (Proc.devRef .tc main_arg7)) := by
  stage1 84 V
theorem st_main_v51 (V : Valuation τ sig (Elt F)) :
    after ops V (Proc.devRef .tc main_v51) = (broadcastInDim S100000x128 ![0, 1] bcast_S1x128_S100000x128_0_1 : (⟨S1x128, .f32⟩ : BufTy).Contents (Elt F) → (⟨S100000x128, .f32⟩ : BufTy).Contents (Elt F)) (after ops V (Proc.devRef .tc main_v50)) := by
  stage1 85 V
theorem st_main_v52 (V : Valuation τ sig (Elt F)) :
    after ops V (Proc.devRef .tc main_v52) = (mulf : (⟨S100000x128, .f32⟩ : BufTy).Contents (Elt F) → (⟨S100000x128, .f32⟩ : BufTy).Contents (Elt F) → (⟨S100000x128, .f32⟩ : BufTy).Contents (Elt F)) (after ops V (Proc.devRef .tc main_v49)) (after ops V (Proc.devRef .tc main_v51)) := by
  stage2 86 V
theorem st_main_v53 (V : Valuation τ sig (Elt F)) :
    after ops V (Proc.devRef .tc main_v53) = (broadcastInDim S1x128 ![1] bcast_S128_S1x128_1 : (⟨S128, .f32⟩ : BufTy).Contents (Elt F) → (⟨S1x128, .f32⟩ : BufTy).Contents (Elt F)) (after ops V (Proc.devRef .tc main_arg8)) := by
  stage1 87 V
theorem st_main_v54 (V : Valuation τ sig (Elt F)) :
    after ops V (Proc.devRef .tc main_v54) = (broadcastInDim S100000x128 ![0, 1] bcast_S1x128_S100000x128_0_1 : (⟨S1x128, .f32⟩ : BufTy).Contents (Elt F) → (⟨S100000x128, .f32⟩ : BufTy).Contents (Elt F)) (after ops V (Proc.devRef .tc main_v53)) := by
  stage1 88 V
theorem st_main_v55 (V : Valuation τ sig (Elt F)) :
    after ops V (Proc.devRef .tc main_v55) = (addf : (⟨S100000x128, .f32⟩ : BufTy).Contents (Elt F) → (⟨S100000x128, .f32⟩ : BufTy).Contents (Elt F) → (⟨S100000x128, .f32⟩ : BufTy).Contents (Elt F)) (after ops V (Proc.devRef .tc main_v52)) (after ops V (Proc.devRef .tc main_v54)) := by
  stage2 89 V
theorem st_main_call2_v0 (V : Valuation τ sig (Elt F)) :
    after ops V (Proc.devRef .tc main_call2_v0) = mulf (after ops V (Proc.devRef .tc main_v55)) (after ops V (Proc.devRef .tc main_v55)) := by
  stage2 90 V
theorem st_main_call2_cst (V : Valuation τ sig (Elt F)) :
    after ops V (Proc.devRef .tc main_call2_cst) = constant S_ .f32 0x00000000#32 := by
  stage0 91 V
theorem st_main_call2_v1 (V : Valuation τ sig (Elt F)) :
    after ops V (Proc.devRef .tc main_call2_v1) = Host.reduceAdd (after ops V (Proc.devRef .tc main_call2_v0)) (after ops V (Proc.devRef .tc main_call2_cst)) reducesTo_S100000x128_S100000_d1 h_S_ := by
  stage2 92 V
theorem st_main_call2_v2 (V : Valuation τ sig (Elt F)) :
    after ops V (Proc.devRef .tc main_call2_v2) = broadcastInDim S100000x1 ![0] bcast_S100000_S100000x1_0 (after ops V (Proc.devRef .tc main_call2_v1)) := by
  stage1 93 V
theorem st_main_v56 (V : Valuation τ sig (Elt F)) :
    after ops V (Proc.devRef .tc main_v56) = Host.sqrt (after ops V (Proc.devRef .tc main_call2_v2)) := by
  stage1 94 V
theorem st_main_cst_9 (V : Valuation τ sig (Elt F)) :
    after ops V (Proc.devRef .tc main_cst_9) = constant S_ .f32 0x2B8CBCCC#32 := by
  stage0 95 V
theorem st_main_v57 (V : Valuation τ sig (Elt F)) :
    after ops V (Proc.devRef .tc main_v57) = (broadcastInDim S100000x1 ![] bcast_S_S100000x1 : (⟨S_, .f32⟩ : BufTy).Contents (Elt F) → (⟨S100000x1, .f32⟩ : BufTy).Contents (Elt F)) (after ops V (Proc.devRef .tc main_cst_9)) := by
  stage1 96 V
theorem st_main_v58 (V : Valuation τ sig (Elt F)) :
    after ops V (Proc.devRef .tc main_v58) = (maximumf : (⟨S100000x1, .f32⟩ : BufTy).Contents (Elt F) → (⟨S100000x1, .f32⟩ : BufTy).Contents (Elt F) → (⟨S100000x1, .f32⟩ : BufTy).Contents (Elt F)) (after ops V (Proc.devRef .tc main_v56)) (after ops V (Proc.devRef .tc main_v57)) := by
  stage2 97 V
theorem st_main_v59 (V : Valuation τ sig (Elt F)) :
    after ops V (Proc.devRef .tc main_v59) = (broadcastInDim S100000x128 ![0, 1] bcast_S100000x1_S100000x128_0_1 : (⟨S100000x1, .f32⟩ : BufTy).Contents (Elt F) → (⟨S100000x128, .f32⟩ : BufTy).Contents (Elt F)) (after ops V (Proc.devRef .tc main_v58)) := by
  stage1 98 V
theorem st_main_v60 (V : Valuation τ sig (Elt F)) :
    after ops V (Proc.devRef .tc main_v60) = (Host.divf : (⟨S100000x128, .f32⟩ : BufTy).Contents (Elt F) → (⟨S100000x128, .f32⟩ : BufTy).Contents (Elt F) → (⟨S100000x128, .f32⟩ : BufTy).Contents (Elt F)) (after ops V (Proc.devRef .tc main_v55)) (after ops V (Proc.devRef .tc main_v59)) := by
  stage2 99 V
theorem st_main_c_10 (V : Valuation τ sig (Elt F)) :
    after ops V (Proc.devRef .tc main_c_10) = constantI S_ 32 0#32 := by
  stage0 100 V
theorem st_main_v61 (V : Valuation τ sig (Elt F)) :
    after ops V (Proc.devRef .tc main_v61) = (broadcastInDim S1700000 ![] bcast_S_S1700000 : (⟨S_, .i32⟩ : BufTy).Contents (Elt F) → (⟨S1700000, .i32⟩ : BufTy).Contents (Elt F)) (after ops V (Proc.devRef .tc main_c_10)) := by
  stage1 101 V
theorem st_main_v62 (V : Valuation τ sig (Elt F)) :
    after ops V (Proc.devRef .tc main_v62) = (cmpi .slt : (⟨S1700000, .i32⟩ : BufTy).Contents (Elt F) → (⟨S1700000, .i32⟩ : BufTy).Contents (Elt F) → (⟨S1700000, .i1⟩ : BufTy).Contents (Elt F)) (after ops V (Proc.devRef .tc main_v3)) (after ops V (Proc.devRef .tc main_v61)) := by
  stage2 102 V
theorem st_main_c_11 (V : Valuation τ sig (Elt F)) :
    after ops V (Proc.devRef .tc main_c_11) = constantI S_ 32 100000#32 := by
  stage0 103 V
theorem st_main_v63 (V : Valuation τ sig (Elt F)) :
    after ops V (Proc.devRef .tc main_v63) = (broadcastInDim S1700000 ![] bcast_S_S1700000 : (⟨S_, .i32⟩ : BufTy).Contents (Elt F) → (⟨S1700000, .i32⟩ : BufTy).Contents (Elt F)) (after ops V (Proc.devRef .tc main_c_11)) := by
  stage1 104 V
theorem st_main_v64 (V : Valuation τ sig (Elt F)) :
    after ops V (Proc.devRef .tc main_v64) = (addi : (⟨S1700000, .i32⟩ : BufTy).Contents (Elt F) → (⟨S1700000, .i32⟩ : BufTy).Contents (Elt F) → (⟨S1700000, .i32⟩ : BufTy).Contents (Elt F)) (after ops V (Proc.devRef .tc main_v3)) (after ops V (Proc.devRef .tc main_v63)) := by
  stage2 105 V
theorem st_main_v65 (V : Valuation τ sig (Elt F)) :
    after ops V (Proc.devRef .tc main_v65) = (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) (after ops V (Proc.devRef .tc main_v62)) (after ops V (Proc.devRef .tc main_v64)) (after ops V (Proc.devRef .tc main_v3)) := by
  stage3 106 V
theorem st_main_v66 (V : Valuation τ sig (Elt F)) :
    after ops V (Proc.devRef .tc main_v66) = (broadcastInDim S1700000x1 ![0] bcast_S1700000_S1700000x1_0 : (⟨S1700000, .i32⟩ : BufTy).Contents (Elt F) → (⟨S1700000x1, .i32⟩ : BufTy).Contents (Elt F)) (after ops V (Proc.devRef .tc main_v65)) := by
  stage1 107 V
theorem st_main_v67 (V : Valuation τ sig (Elt F)) :
    after ops V (Proc.devRef .tc main_v67) = Host.gather gather_S100000x128_S1700000x1_S1700000x128_1_0_n_n_0_1_1128 (after ops V (Proc.devRef .tc main_v60)) (after ops V (Proc.devRef .tc main_v66)) := by
  stage2 108 V
theorem st_main_v68 (V : Valuation τ sig (Elt F)) :
    after ops V (Proc.devRef .tc main_v68) = concatenate S1700000x130 1 [⟨S1700000x128, (after ops V (Proc.devRef .tc main_v67))⟩, ⟨S1700000x2, (after ops V (Proc.devRef .tc main_v8))⟩] concatenates_S1700000x128_S1700000x2_S1700000x130_d1 := by
  stage2 109 V
theorem st_main_v69 (V : Valuation τ sig (Elt F)) :
    after ops V (Proc.devRef .tc main_v69) = Host.dotGeneral dot_S1700000x130_S130x128_S1700000x128_1_0_0_1_n_n none (after ops V (Proc.devRef .tc main_v68)) (after ops V (Proc.devRef .tc main_arg9)) := by
  stage2 110 V
theorem st_main_cst_12 (V : Valuation τ sig (Elt F)) :
    after ops V (Proc.devRef .tc main_cst_12) = constant S_ .f32 0x00000000#32 := by
  stage0 111 V
theorem st_main_v70 (V : Valuation τ sig (Elt F)) :
    after ops V (Proc.devRef .tc main_v70) = (broadcastInDim S100000x128 ![] bcast_S_S100000x128 : (⟨S_, .f32⟩ : BufTy).Contents (Elt F) → (⟨S100000x128, .f32⟩ : BufTy).Contents (Elt F)) (after ops V (Proc.devRef .tc main_cst_12)) := by
  stage1 112 V
theorem st_main_v71 (V : Valuation τ sig (Elt F)) :
    after ops V (Proc.devRef .tc main_v71) = (broadcastInDim S1700000x1 ![0] bcast_S1700000_S1700000x1_0 : (⟨S1700000, .i32⟩ : BufTy).Contents (Elt F) → (⟨S1700000x1, .i32⟩ : BufTy).Contents (Elt F)) (after ops V (Proc.devRef .tc main_v6)) := by
  stage1 113 V
theorem st_main_v72 (V : Valuation τ sig (Elt F)) :
    after ops V (Proc.devRef .tc main_v72) = Host.scatterAdd scatter_S100000x128_S1700000x1_S1700000x128_1_0_0_1 (after ops V (Proc.devRef .tc main_v70)) (after ops V (Proc.devRef .tc main_v71)) (after ops V (Proc.devRef .tc main_v69)) := by
  stage3 114 V
theorem st_main_cst_13 (V : Valuation τ sig (Elt F)) :
    after ops V (Proc.devRef .tc main_cst_13) = constant S_ .f32 0x3F800000#32 := by
  stage0 115 V
theorem st_main_v73 (V : Valuation τ sig (Elt F)) :
    after ops V (Proc.devRef .tc main_v73) = (broadcastInDim S1700000 ![] bcast_S_S1700000 : (⟨S_, .f32⟩ : BufTy).Contents (Elt F) → (⟨S1700000, .f32⟩ : BufTy).Contents (Elt F)) (after ops V (Proc.devRef .tc main_cst_13)) := by
  stage1 116 V
theorem st_main_cst_14 (V : Valuation τ sig (Elt F)) :
    after ops V (Proc.devRef .tc main_cst_14) = constant S_ .f32 0x00000000#32 := by
  stage0 117 V
theorem st_main_v74 (V : Valuation τ sig (Elt F)) :
    after ops V (Proc.devRef .tc main_v74) = (broadcastInDim S100000 ![] bcast_S_S100000 : (⟨S_, .f32⟩ : BufTy).Contents (Elt F) → (⟨S100000, .f32⟩ : BufTy).Contents (Elt F)) (after ops V (Proc.devRef .tc main_cst_14)) := by
  stage1 118 V
theorem st_main_v75 (V : Valuation τ sig (Elt F)) :
    after ops V (Proc.devRef .tc main_v75) = (broadcastInDim S1700000x1 ![0] bcast_S1700000_S1700000x1_0 : (⟨S1700000, .i32⟩ : BufTy).Contents (Elt F) → (⟨S1700000x1, .i32⟩ : BufTy).Contents (Elt F)) (after ops V (Proc.devRef .tc main_v6)) := by
  stage1 119 V
theorem st_main_v76 (V : Valuation τ sig (Elt F)) :
    after ops V (Proc.devRef .tc main_v76) = Host.scatterAdd scatter_S100000_S1700000x1_S1700000_n_0_0_1 (after ops V (Proc.devRef .tc main_v74)) (after ops V (Proc.devRef .tc main_v75)) (after ops V (Proc.devRef .tc main_v73)) := by
  stage3 120 V
theorem st_main_cst_15 (V : Valuation τ sig (Elt F)) :
    after ops V (Proc.devRef .tc main_cst_15) = constant S_ .f32 0x3F800000#32 := by
  stage0 121 V
theorem st_main_v77 (V : Valuation τ sig (Elt F)) :
    after ops V (Proc.devRef .tc main_v77) = (broadcastInDim S100000 ![] bcast_S_S100000 : (⟨S_, .f32⟩ : BufTy).Contents (Elt F) → (⟨S100000, .f32⟩ : BufTy).Contents (Elt F)) (after ops V (Proc.devRef .tc main_cst_15)) := by
  stage1 122 V
theorem st_main_v78 (V : Valuation τ sig (Elt F)) :
    after ops V (Proc.devRef .tc main_v78) = (maximumf : (⟨S100000, .f32⟩ : BufTy).Contents (Elt F) → (⟨S100000, .f32⟩ : BufTy).Contents (Elt F) → (⟨S100000, .f32⟩ : BufTy).Contents (Elt F)) (after ops V (Proc.devRef .tc main_v76)) (after ops V (Proc.devRef .tc main_v77)) := by
  stage2 123 V
theorem st_main_v79 (V : Valuation τ sig (Elt F)) :
    after ops V (Proc.devRef .tc main_v79) = (broadcastInDim S100000x1 ![0] bcast_S100000_S100000x1_0 : (⟨S100000, .f32⟩ : BufTy).Contents (Elt F) → (⟨S100000x1, .f32⟩ : BufTy).Contents (Elt F)) (after ops V (Proc.devRef .tc main_v78)) := by
  stage1 124 V
theorem st_main_v80 (V : Valuation τ sig (Elt F)) :
    after ops V (Proc.devRef .tc main_v80) = (broadcastInDim S100000x128 ![0, 1] bcast_S100000x1_S100000x128_0_1 : (⟨S100000x1, .f32⟩ : BufTy).Contents (Elt F) → (⟨S100000x128, .f32⟩ : BufTy).Contents (Elt F)) (after ops V (Proc.devRef .tc main_v79)) := by
  stage1 125 V
theorem st_main_v81 (V : Valuation τ sig (Elt F)) :
    after ops V (Proc.devRef .tc main_v81) = (Host.divf : (⟨S100000x128, .f32⟩ : BufTy).Contents (Elt F) → (⟨S100000x128, .f32⟩ : BufTy).Contents (Elt F) → (⟨S100000x128, .f32⟩ : BufTy).Contents (Elt F)) (after ops V (Proc.devRef .tc main_v72)) (after ops V (Proc.devRef .tc main_v80)) := by
  stage2 126 V
theorem st_main_v82 (V : Valuation τ sig (Elt F)) :
    after ops V (Proc.devRef .tc main_v82) = Host.dotGeneral dot_S100000x128_S128x128_S100000x128_1_0_0_1_n_n none (after ops V (Proc.devRef .tc main_v60)) (after ops V (Proc.devRef .tc main_arg10)) := by
  stage2 127 V
theorem st_main_v83 (V : Valuation τ sig (Elt F)) :
    after ops V (Proc.devRef .tc main_v83) = (addf : (⟨S100000x128, .f32⟩ : BufTy).Contents (Elt F) → (⟨S100000x128, .f32⟩ : BufTy).Contents (Elt F) → (⟨S100000x128, .f32⟩ : BufTy).Contents (Elt F)) (after ops V (Proc.devRef .tc main_v81)) (after ops V (Proc.devRef .tc main_v82)) := by
  stage2 128 V
theorem st_main_call3_cst (V : Valuation τ sig (Elt F)) :
    after ops V (Proc.devRef .tc main_call3_cst) = constant S_ .f32 0x00000000#32 := by
  stage0 129 V
theorem st_main_call3_v0 (V : Valuation τ sig (Elt F)) :
    after ops V (Proc.devRef .tc main_call3_v0) = broadcastInDim S100000x128 ![] bcast_S_S100000x128 (after ops V (Proc.devRef .tc main_call3_cst)) := by
  stage1 130 V
theorem st_main_v84 (V : Valuation τ sig (Elt F)) :
    after ops V (Proc.devRef .tc main_v84) = maximumf (after ops V (Proc.devRef .tc main_v83)) (after ops V (Proc.devRef .tc main_call3_v0)) := by
  stage2 131 V
theorem st_main_cst_16 (V : Valuation τ sig (Elt F)) :
    after ops V (Proc.devRef .tc main_cst_16) = constant S_ .f32 0x00000000#32 := by
  stage0 132 V
theorem st_main_v85 (V : Valuation τ sig (Elt F)) :
    after ops V (Proc.devRef .tc main_v85) = Host.reduceAdd (after ops V (Proc.devRef .tc main_v84)) (after ops V (Proc.devRef .tc main_cst_16)) reducesTo_S100000x128_S128_d0 h_S_ := by
  stage2 133 V
theorem st_main_cst_17 (V : Valuation τ sig (Elt F)) :
    after ops V (Proc.devRef .tc main_cst_17) = constant S_ .f32 0x47C35000#32 := by
  stage0 134 V
theorem st_main_v86 (V : Valuation τ sig (Elt F)) :
    after ops V (Proc.devRef .tc main_v86) = (broadcastInDim S128 ![] bcast_S_S128 : (⟨S_, .f32⟩ : BufTy).Contents (Elt F) → (⟨S128, .f32⟩ : BufTy).Contents (Elt F)) (after ops V (Proc.devRef .tc main_cst_17)) := by
  stage1 135 V
theorem st_main_v87 (V : Valuation τ sig (Elt F)) :
    after ops V (Proc.devRef .tc main_v87) = (Host.divf : (⟨S128, .f32⟩ : BufTy).Contents (Elt F) → (⟨S128, .f32⟩ : BufTy).Contents (Elt F) → (⟨S128, .f32⟩ : BufTy).Contents (Elt F)) (after ops V (Proc.devRef .tc main_v85)) (after ops V (Proc.devRef .tc main_v86)) := by
  stage2 136 V
theorem st_main_c_18 (V : Valuation τ sig (Elt F)) :
    after ops V (Proc.devRef .tc main_c_18) = constantI S_ 32 0#32 := by
  stage0 137 V
theorem st_main_call4_cst (V : Valuation τ sig (Elt F)) :
    after ops V (Proc.devRef .tc main_call4_cst) = constant S_ .f32 0x00000000#32 := by
  stage0 138 V
theorem st_main_call4_v0 (V : Valuation τ sig (Elt F)) :
    after ops V (Proc.devRef .tc main_call4_v0) = Host.reduceAdd (after ops V (Proc.devRef .tc main_v84)) (after ops V (Proc.devRef .tc main_call4_cst)) reducesTo_S100000x128_S128_d0 h_S_ := by
  stage2 139 V
theorem st_main_call4_v1 (V : Valuation τ sig (Elt F)) :
    after ops V (Proc.devRef .tc main_call4_v1) = broadcastInDim S1x128 ![1] bcast_S128_S1x128_1 (after ops V (Proc.devRef .tc main_call4_v0)) := by
  stage1 140 V
theorem st_main_call4_cst_0 (V : Valuation τ sig (Elt F)) :
    after ops V (Proc.devRef .tc main_call4_cst_0) = constant S_ .f32 0x47C35000#32 := by
  stage0 141 V
theorem st_main_call4_v2 (V : Valuation τ sig (Elt F)) :
    after ops V (Proc.devRef .tc main_call4_v2) = broadcastInDim S1x128 ![] bcast_S_S1x128 (after ops V (Proc.devRef .tc main_call4_cst_0)) := by
  stage1 142 V
theorem st_main_call4_v3 (V : Valuation τ sig (Elt F)) :
    after ops V (Proc.devRef .tc main_call4_v3) = Host.divf (after ops V (Proc.devRef .tc main_call4_v1)) (after ops V (Proc.devRef .tc main_call4_v2)) := by
  stage2 143 V
theorem st_main_call4_v4 (V : Valuation τ sig (Elt F)) :
    after ops V (Proc.devRef .tc main_call4_v4) = broadcastInDim S100000x128 ![0, 1] bcast_S1x128_S100000x128_0_1 (after ops V (Proc.devRef .tc main_call4_v3)) := by
  stage1 144 V
theorem st_main_call4_v5 (V : Valuation τ sig (Elt F)) :
    after ops V (Proc.devRef .tc main_call4_v5) = subf (after ops V (Proc.devRef .tc main_v84)) (after ops V (Proc.devRef .tc main_call4_v4)) := by
  stage2 145 V
theorem st_main_call4_v6 (V : Valuation τ sig (Elt F)) :
    after ops V (Proc.devRef .tc main_call4_v6) = mulf (after ops V (Proc.devRef .tc main_call4_v5)) (after ops V (Proc.devRef .tc main_call4_v5)) := by
  stage2 146 V
theorem st_main_call4_v7 (V : Valuation τ sig (Elt F)) :
    after ops V (Proc.devRef .tc main_call4_v7) = sitofp .f32 (after ops V (Proc.devRef .tc main_c_18)) := by
  stage1 147 V
theorem st_main_call4_cst_1 (V : Valuation τ sig (Elt F)) :
    after ops V (Proc.devRef .tc main_call4_cst_1) = constant S_ .f32 0x47C35000#32 := by
  stage0 148 V
theorem st_main_call4_v8 (V : Valuation τ sig (Elt F)) :
    after ops V (Proc.devRef .tc main_call4_v8) = subf (after ops V (Proc.devRef .tc main_call4_cst_1)) (after ops V (Proc.devRef .tc main_call4_v7)) := by
  stage2 149 V
theorem st_main_call4_cst_2 (V : Valuation τ sig (Elt F)) :
    after ops V (Proc.devRef .tc main_call4_cst_2) = constant S_ .f32 0x00000000#32 := by
  stage0 150 V
theorem st_main_call4_v9 (V : Valuation τ sig (Elt F)) :
    after ops V (Proc.devRef .tc main_call4_v9) = Host.reduceAdd (after ops V (Proc.devRef .tc main_call4_v6)) (after ops V (Proc.devRef .tc main_call4_cst_2)) reducesTo_S100000x128_S128_d0 h_S_ := by
  stage2 151 V
theorem st_main_call4_v10 (V : Valuation τ sig (Elt F)) :
    after ops V (Proc.devRef .tc main_call4_v10) = broadcastInDim S128 ![] bcast_S_S128 (after ops V (Proc.devRef .tc main_call4_v8)) := by
  stage1 152 V
theorem st_main_call4_v11 (V : Valuation τ sig (Elt F)) :
    after ops V (Proc.devRef .tc main_call4_v11) = Host.divf (after ops V (Proc.devRef .tc main_call4_v9)) (after ops V (Proc.devRef .tc main_call4_v10)) := by
  stage2 153 V
theorem st_main_call4_cst_3 (V : Valuation τ sig (Elt F)) :
    after ops V (Proc.devRef .tc main_call4_cst_3) = constant S_ .f32 0x00000000#32 := by
  stage0 154 V
theorem st_main_call4_v12 (V : Valuation τ sig (Elt F)) :
    after ops V (Proc.devRef .tc main_call4_v12) = cmpf .ogt (after ops V (Proc.devRef .tc main_call4_v8)) (after ops V (Proc.devRef .tc main_call4_cst_3)) := by
  stage2 155 V
theorem st_main_call4_cst_4 (V : Valuation τ sig (Elt F)) :
    after ops V (Proc.devRef .tc main_call4_cst_4) = constant S_ .f32 0x7FC00000#32 := by
  stage0 156 V
theorem st_main_call4_call0_v0 (V : Valuation τ sig (Elt F)) :
    after ops V (Proc.devRef .tc main_call4_call0_v0) = id (after ops V (Proc.devRef .tc main_call4_cst_4)) := by
  stage1 157 V
theorem st_main_call4_call0_v1 (V : Valuation τ sig (Elt F)) :
    after ops V (Proc.devRef .tc main_call4_call0_v1) = broadcastInDim S128 ![] bcast_S_S128 (after ops V (Proc.devRef .tc main_call4_call0_v0)) := by
  stage1 158 V
theorem st_main_v88 (V : Valuation τ sig (Elt F)) :
    after ops V (Proc.devRef .tc main_v88) = select (broadcastInDim S128 ![] bcast_S_S128 (after ops V (Proc.devRef .tc main_call4_v12))) (after ops V (Proc.devRef .tc main_call4_v11)) (after ops V (Proc.devRef .tc main_call4_call0_v1)) := by
  stage3 159 V
theorem st_main_v89 (V : Valuation τ sig (Elt F)) :
    after ops V (Proc.devRef .tc main_v89) = (broadcastInDim S1x128 ![1] bcast_S128_S1x128_1 : (⟨S128, .f32⟩ : BufTy).Contents (Elt F) → (⟨S1x128, .f32⟩ : BufTy).Contents (Elt F)) (after ops V (Proc.devRef .tc main_v87)) := by
  stage1 160 V
theorem st_main_v90 (V : Valuation τ sig (Elt F)) :
    after ops V (Proc.devRef .tc main_v90) = (broadcastInDim S100000x128 ![0, 1] bcast_S1x128_S100000x128_0_1 : (⟨S1x128, .f32⟩ : BufTy).Contents (Elt F) → (⟨S100000x128, .f32⟩ : BufTy).Contents (Elt F)) (after ops V (Proc.devRef .tc main_v89)) := by
  stage1 161 V
theorem st_main_v91 (V : Valuation τ sig (Elt F)) :
    after ops V (Proc.devRef .tc main_v91) = (subf : (⟨S100000x128, .f32⟩ : BufTy).Contents (Elt F) → (⟨S100000x128, .f32⟩ : BufTy).Contents (Elt F) → (⟨S100000x128, .f32⟩ : BufTy).Contents (Elt F)) (after ops V (Proc.devRef .tc main_v84)) (after ops V (Proc.devRef .tc main_v90)) := by
  stage2 162 V
theorem st_main_cst_19 (V : Valuation τ sig (Elt F)) :
    after ops V (Proc.devRef .tc main_cst_19) = constant S_ .f32 0x3727C5AC#32 := by
  stage0 163 V
theorem st_main_v92 (V : Valuation τ sig (Elt F)) :
    after ops V (Proc.devRef .tc main_v92) = (broadcastInDim S128 ![] bcast_S_S128 : (⟨S_, .f32⟩ : BufTy).Contents (Elt F) → (⟨S128, .f32⟩ : BufTy).Contents (Elt F)) (after ops V (Proc.devRef .tc main_cst_19)) := by
  stage1 164 V
theorem st_main_v93 (V : Valuation τ sig (Elt F)) :
    after ops V (Proc.devRef .tc main_v93) = (addf : (⟨S128, .f32⟩ : BufTy).Contents (Elt F) → (⟨S128, .f32⟩ : BufTy).Contents (Elt F) → (⟨S128, .f32⟩ : BufTy).Contents (Elt F)) (after ops V (Proc.devRef .tc main_v88)) (after ops V (Proc.devRef .tc main_v92)) := by
  stage2 165 V
theorem st_main_v94 (V : Valuation τ sig (Elt F)) :
    after ops V (Proc.devRef .tc main_v94) = (Host.rsqrt : (⟨S128, .f32⟩ : BufTy).Contents (Elt F) → (⟨S128, .f32⟩ : BufTy).Contents (Elt F)) (after ops V (Proc.devRef .tc main_v93)) := by
  stage1 166 V
theorem st_main_v95 (V : Valuation τ sig (Elt F)) :
    after ops V (Proc.devRef .tc main_v95) = (broadcastInDim S1x128 ![1] bcast_S128_S1x128_1 : (⟨S128, .f32⟩ : BufTy).Contents (Elt F) → (⟨S1x128, .f32⟩ : BufTy).Contents (Elt F)) (after ops V (Proc.devRef .tc main_v94)) := by
  stage1 167 V
theorem st_main_v96 (V : Valuation τ sig (Elt F)) :
    after ops V (Proc.devRef .tc main_v96) = (broadcastInDim S100000x128 ![0, 1] bcast_S1x128_S100000x128_0_1 : (⟨S1x128, .f32⟩ : BufTy).Contents (Elt F) → (⟨S100000x128, .f32⟩ : BufTy).Contents (Elt F)) (after ops V (Proc.devRef .tc main_v95)) := by
  stage1 168 V
theorem st_main_v97 (V : Valuation τ sig (Elt F)) :
    after ops V (Proc.devRef .tc main_v97) = (mulf : (⟨S100000x128, .f32⟩ : BufTy).Contents (Elt F) → (⟨S100000x128, .f32⟩ : BufTy).Contents (Elt F) → (⟨S100000x128, .f32⟩ : BufTy).Contents (Elt F)) (after ops V (Proc.devRef .tc main_v91)) (after ops V (Proc.devRef .tc main_v96)) := by
  stage2 169 V
-- END TABLE

end Cert.ReferenceIdeal.RefVal

end
-- ==== Proof.RReadNode.lean ====
/-
  The node update, read entry by entry.

  The aggregated messages are divided by the node's degree (a vector laid as a column and repeated across the columns),
  the node's own row goes through a 128 × 128 matrix, the two are added and clipped below at zero.
-/
import proofs.«113076_j55267639165123_2_alg».proof.Proof.RReadDot
import proofs.«113076_j55267639165123_2_alg».proof.Proof.RReadLay

noncomputable section

namespace Cert.ReferenceIdeal.RRead

open Idealize.ShloMosaic Idealize.ShloMosaic.ValueIdx
open Cert.ReferenceIdeal Cert.ReferenceIdeal.Facts₀

variable [Facts₀]

/-- Entry (r, q) of the node update before the column statistics. -/
theorem node_read (agg h : FVec Ideal S100000x128 .f32) (d : FVec Ideal S100000 .f32) (Ws : FVec Ideal S128x128 .f32)
    (r : Fin 100000) (q : Fin 128) :
    maximumf
        (addf
          (Host.divf agg (broadcastInDim S100000x128 ![0, 1] bcast_S100000x1_S100000x128_0_1
            (broadcastInDim S100000x1 ![0] bcast_S100000_S100000x1_0 d)))
          (Host.dotGeneral dot_S100000x128_S128x128_S100000x128_1_0_0_1_n_n none h Ws))
        (broadcastInDim S100000x128 ![] bcast_S_S100000x128 (constant (F := Ideal) S_ .f32 0x00000000#32))
        (ix2 r q)
      = max (Ideal.div (agg (ix2 r q)) (d (ix1 r)) + ∑ k : Fin 128, h (ix2 r k) * Ws (ix2 k q)) 0 := by
  rw [maximumf_apply, addf_apply, hostDivf_apply, acrossCols_apply, asCol_apply, dot_100000x128_128x128, splat_apply,
    Ideal.ofBits_zero_f32]

end Cert.ReferenceIdeal.RRead

end
-- ==== Proof.RReadMsg.lean ====
/-
  The edge messages, read entry by entry.

  The gathered neighbour rows (128 columns) and the edge features (2 columns) are laid side by side into 130 columns and
  multiplied by a 130 × 128 matrix.  Entry (e, q) of the product is the sum over the 130 columns; a column below 128 reads
  the gathered row, a column from 128 on reads the edge features; so the sum splits into the neighbour part against the
  first 128 rows of the matrix and the edge part against its last 2 rows.
-/
import proofs.«113076_j55267639165123_2_alg».proof.Proof.RReadDot
import Idealize.ShloMosaic.Lib.Pipeline.Value

noncomputable section

namespace Cert.ReferenceIdeal.RRead

open Idealize.ShloMosaic Idealize.ShloMosaic.ValueIdx
open Cert.ReferenceIdeal Cert.ReferenceIdeal.Facts₀

variable [Facts₀]

/-- Entry (e, q) of the message product: the 130 columns of the joined row against column q of the matrix. -/
theorem msg_read (gath : FVec Ideal S1700000x128 .f32) (ea : FVec Ideal S1700000x2 .f32) (Wn : FVec Ideal S130x128 .f32)
    (e : Fin 1700000) (q : Fin 128) :
    Host.dotGeneral dot_S1700000x130_S130x128_S1700000x128_1_0_0_1_n_n none
        (concatenate S1700000x130 1 [⟨S1700000x128, gath⟩, ⟨S1700000x2, ea⟩] concatenates_S1700000x128_S1700000x2_S1700000x130_d1) Wn (ix2 e q)
      = ∑ k : Fin 130, concatenate S1700000x130 1 [⟨S1700000x128, gath⟩, ⟨S1700000x2, ea⟩]
            concatenates_S1700000x128_S1700000x2_S1700000x130_d1 (ix2 e k) * Wn (ix2 k q) :=
  dot_1700000x130_130x128 none _ Wn e q

/-- A column below 128 of the joined row reads the gathered neighbour row. -/
theorem cat_left (gath : FVec Ideal S1700000x128 .f32) (ea : FVec Ideal S1700000x2 .f32) (e : Fin 1700000) (k : Fin 128) :
    concatenate S1700000x130 1 [⟨S1700000x128, gath⟩, ⟨S1700000x2, ea⟩] concatenates_S1700000x128_S1700000x2_S1700000x130_d1
        (ix2 e (Fin.castAdd 2 k))
      = gath (ix2 e k) :=
  concatenate_pair_apply_left (1 : Fin S1700000x130.rank) gath ea concatenates_S1700000x128_S1700000x2_S1700000x130_d1
    (ix2 e (Fin.castAdd 2 k)) rfl (ix2 e k) (fun b => by
      match b with
      | ⟨0, _⟩ => rfl
      | ⟨1, _⟩ => rfl)

/-- A column from 128 on of the joined row reads the edge features. -/
theorem cat_right (gath : FVec Ideal S1700000x128 .f32) (ea : FVec Ideal S1700000x2 .f32) (e : Fin 1700000) (k : Fin 2) :
    concatenate S1700000x130 1 [⟨S1700000x128, gath⟩, ⟨S1700000x2, ea⟩] concatenates_S1700000x128_S1700000x2_S1700000x130_d1
        (ix2 e (Fin.natAdd 128 k))
      = ea (ix2 e k) :=
  concatenate_pair_apply_right (1 : Fin S1700000x130.rank) gath ea concatenates_S1700000x128_S1700000x2_S1700000x130_d1
    (ix2 e (Fin.natAdd 128 k)) rfl rfl (ix2 e k) (fun b hb => by
      match b with
      | ⟨0, _⟩ => rfl
      | ⟨1, _⟩ => exact absurd rfl hb)
    (by show k.val + 128 = 128 + k.val; omega)

/-- Entry (e, q) of the message product, split: the neighbour row against the first 128 rows of the matrix plus the edge
    features against its last 2 rows. -/
theorem msg_split (gath : FVec Ideal S1700000x128 .f32) (ea : FVec Ideal S1700000x2 .f32) (Wn : FVec Ideal S130x128 .f32)
    (Wn1 : FVec Ideal S128x128 .f32) (Wn2 : (⟨2, ![2, 128]⟩ : Shape).Idx → EReal)
    (hW1 : ∀ (k : Fin 128) (q : Fin 128), Wn1 (ix2 k q) = Wn (ix2 (Fin.castAdd 2 k) q))
    (hW2 : ∀ (k : Fin 2) (q : Fin 128), Wn2 (ix2 k q) = Wn (ix2 (Fin.natAdd 128 k) q))
    (e : Fin 1700000) (q : Fin 128) :
    Host.dotGeneral dot_S1700000x130_S130x128_S1700000x128_1_0_0_1_n_n none
        (concatenate S1700000x130 1 [⟨S1700000x128, gath⟩, ⟨S1700000x2, ea⟩] concatenates_S1700000x128_S1700000x2_S1700000x130_d1) Wn (ix2 e q)
      = (∑ k : Fin 128, gath (ix2 e k) * Wn1 (ix2 k q)) + ∑ k : Fin 2, ea (ix2 e k) * Wn2 (ix2 k q) := by
  rw [msg_read]
  refine (Fin.sum_univ_add (fun k : Fin (128 + 2) =>
    concatenate S1700000x130 1 [⟨S1700000x128, gath⟩, ⟨S1700000x2, ea⟩] concatenates_S1700000x128_S1700000x2_S1700000x130_d1 (ix2 e k)
      * Wn (ix2 k q))).trans ?_
  refine congrArg₂ (· + ·) (Finset.sum_congr rfl fun k _ => ?_) (Finset.sum_congr rfl fun k _ => ?_)
  · show _ * _ = _
    rw [cat_left, hW1]
  · show _ * _ = _
    rw [cat_right, hW2]

end Cert.ReferenceIdeal.RRead

end
-- ==== Proof.RReadScatter.lean ====
/-
  The scatter-add of the message rows, read at an entry.

  Entry (n, q) of the result is the operand's entry plus the sum, over the edges e whose destination index, read as a
  signed integer, is n, of the message's entry (e, q).
-/
import proofs.«113076_j55267639165123_2_alg».proof.ReferenceIdeal
import proofs.«113076_j55267639165123_2_alg».proof.Proof.LibRowScatter

noncomputable section

namespace Cert.ReferenceIdeal.RRead

open Idealize.ShloMosaic Idealize.ShloMosaic.ValueIdx
open Cert.ReferenceIdeal Cert.ReferenceIdeal.Facts₀

variable [Facts₀]

/-- The reference's dimension numbers are those of a scatter of whole rows. -/
theorem scatter_rec_eq :
    scatter_S100000x128_S1700000x1_S1700000x128_1_0_0_1
      = Cert.LibRowScatter.rowDims (N := 100000) (E := 1700000) (C := 128) scatter_S100000x128_S1700000x1_S1700000x128_1_0_0_1_wf :=
  rfl

/-- Entry (n, q) of the scatter-add. -/
theorem scatter_read (x : FVec Ideal S100000x128 .f32) (idx : IVec S1700000x1 32) (upd : FVec Ideal S1700000x128 .f32)
    (n : Fin 100000) (q : Fin 128) :
    Host.scatterAdd scatter_S100000x128_S1700000x1_S1700000x128_1_0_0_1 x idx upd (ix2 n q)
      = x (ix2 n q)
        + ∑ e ∈ Finset.univ.filter (fun e : Fin 1700000 => (idx (ix2 e 0)).toInt = (n.val : ℤ)), upd (ix2 e q) := by
  unfold Host.scatterAdd
  rw [Ideal.hostScatterAdd_def, scatter_rec_eq]
  exact Cert.LibRowScatter.scatterAdd_row_apply scatter_S100000x128_S1700000x1_S1700000x128_1_0_0_1_wf x idx upd n q

end Cert.ReferenceIdeal.RRead

end
-- ==== Proof.RReadUnit.lean ====
/-
  Normalisation, read entry by entry.

  From the clipped update pre and the column statistics mean and var (taken here as given vectors): the affine value
  ((pre − mean) · rsqrt(var + ε₅)) · γ + β with each vector laid as a row and repeated down the rows; then the row's
  Euclidean length, the square root of the sum of the squares of the row's affine values, laid as a column; the larger of
  it and ε₁₂, repeated across the columns; and the affine value divided by that.
-/
import proofs.«113076_j55267639165123_2_alg».proof.Proof.RReadLay
import proofs.«113076_j55267639165123_2_alg».proof.ReferenceIdeal
import proofs.«113076_j55267639165123_2_alg».proof.Proof.Spec

noncomputable section

namespace Cert.ReferenceIdeal.RRead

open Idealize.ShloMosaic Idealize.ShloMosaic.ValueIdx
open Cert.ReferenceIdeal Cert.ReferenceIdeal.Facts₀

variable [Facts₀]

/-- A vector of 128 entries laid as a row and repeated down the 100000 rows. -/
abbrev rowB (v : FVec Ideal S128 .f32) : FVec Ideal S100000x128 .f32 :=
  broadcastInDim S100000x128 ![0, 1] bcast_S1x128_S100000x128_0_1 (broadcastInDim S1x128 ![1] bcast_S128_S1x128_1 v)

/-- The affine normalisation of the whole array, as the operations spell it. -/
abbrev affT (pre : FVec Ideal S100000x128 .f32) (mean var gamma beta : FVec Ideal S128 .f32) : FVec Ideal S100000x128 .f32 :=
  addf
    (mulf
      (mulf (subf pre (rowB mean))
        (rowB (Host.rsqrt (addf var (broadcastInDim S128 ![] bcast_S_S128 (constant (F := Ideal) S_ .f32 0x3727C5AC#32))))))
      (rowB gamma))
    (rowB beta)

/-- The row-normalised array, as the operations spell it. -/
abbrev unitT (pre : FVec Ideal S100000x128 .f32) (mean var gamma beta : FVec Ideal S128 .f32) : FVec Ideal S100000x128 .f32 :=
  Host.divf (affT pre mean var gamma beta)
    (broadcastInDim S100000x128 ![0, 1] bcast_S100000x1_S100000x128_0_1
      (maximumf
        (Host.sqrt (broadcastInDim S100000x1 ![0] bcast_S100000_S100000x1_0
          (Host.reduceAdd (mulf (affT pre mean var gamma beta) (affT pre mean var gamma beta))
            (constant (F := Ideal) S_ .f32 0x00000000#32) reducesTo_S100000x128_S100000_d1 h_S_)))
        (broadcastInDim S100000x1 ![] bcast_S_S100000x1 (constant (F := Ideal) S_ .f32 0x2B8CBCCC#32))))

/-- The host's square root and reciprocal square root act entry by entry. -/
theorem hostSqrt_apply {s : Shape} (v : FVec Ideal s .f32) (i : s.Idx) : Host.sqrt v i = Ideal.sqrt (v i) := rfl
theorem hostRsqrt_apply {s : Shape} (v : FVec Ideal s .f32) (i : s.Idx) : Host.rsqrt v i = Ideal.rsqrt (v i) := rfl

/-- Entry (r, k) of the affine normalisation. -/
theorem aff_read (pre : FVec Ideal S100000x128 .f32) (mean var gamma beta : FVec Ideal S128 .f32) (r : Fin 100000) (k : Fin 128) :
    affT pre mean var gamma beta (ix2 r k) = Cert.Spec.affAt pre mean var gamma beta r k := by
  unfold affT rowB
  rw [addf_apply, mulf_apply, mulf_apply, subf_apply, rowOf_apply, rowOf_apply, rowOf_apply, rowOf_apply, hostRsqrt_apply,
    addf_apply, splat_apply]
  rfl

/-- Entry (r, q) of the row-normalised array. -/
theorem unit_read (pre : FVec Ideal S100000x128 .f32) (mean var gamma beta : FVec Ideal S128 .f32) (r : Fin 100000) (q : Fin 128) :
    unitT pre mean var gamma beta (ix2 r q) = Cert.Spec.unitAt pre mean var gamma beta r q := by
  unfold unitT
  rw [hostDivf_apply, acrossCols_apply, maximumf_apply, splat_apply, hostSqrt_apply, asCol_apply,
    rowSum_apply _ _ reducesTo_S100000x128_S100000_d1 (by decide) h_S_ r, constant_apply, Ideal.ofBits_zero_f32, zero_add]
  simp only [mulf_apply, aff_read]
  rfl

end Cert.ReferenceIdeal.RRead

end
-- ==== Proof.RCompL0.lean ====
/-
  The reference's first round, as the specification states it.

  The clipped node update. By the stage equations the update's buffer is  max(agg / deg + h · Ws, 0)  with deg the clipped
  degree laid as a column and repeated across the columns; read at an entry (r, q) the aggregate is the scatter-add's
  entry: zero plus the sum, over the edge rows whose destination index is r, of the message's entry (e, q); and the
  message's entry is the 130 columns of the joined row (128 gathered features, then 2 edge attributes) against column q
  of the neighbour weight. That is the specification's  multiply first, add over the landing edges after  arrangement
  over the data the round shares: the destination indices, the gather at the source indices, the padded edge attributes
  and the clipped degree.

  The normalised output. By the stage equations the round's output buffer is the affine normalisation of the update by
  the column mean and variance, divided row by row by the larger of the row's length and the small constant; read at an
  entry that is the specification's normalised value.
-/
import proofs.«113076_j55267639165123_2_alg».proof.Proof.RefStage0
import proofs.«113076_j55267639165123_2_alg».proof.Proof.RefStage1
import proofs.«113076_j55267639165123_2_alg».proof.Proof.Network
import proofs.«113076_j55267639165123_2_alg».proof.Proof.RReadNode
import proofs.«113076_j55267639165123_2_alg».proof.Proof.RReadMsg
import proofs.«113076_j55267639165123_2_alg».proof.Proof.RReadScatter
import proofs.«113076_j55267639165123_2_alg».proof.Proof.RReadUnit

set_option maxHeartbeats 4000000

noncomputable section

namespace Cert.ReferenceIdeal.RefVal

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.RRead

variable (V : Valuation τ sig (Elt Ideal))

/-- What the reference's run leaves at a buffer, from contents V. -/
local notation:max "A " b:max => after ops V (Proc.devRef Proc.tc b)

/-- What the first round shares: the destination indices as a column, the gather at the source indices, the padded edge
    attributes, and the clipped degree as a one-column array. -/
def sharedR0 : Cert.Network.Shared 1700000 :=
  Cert.Network.mkShared (A main_v23)
    (fun h => Host.gather gather_S100000x128_S1700000x1_S1700000x128_1_0_n_n_0_1_1128 h (A main_v18)) (A main_v8)
    (fun i => A main_v30 (ix1 (i 0)))

/-- Entry (r, q) of the first round's clipped update. -/
theorem pre0_at (r : Fin 100000) (q : Fin 128) :
    (A main_v36) (ix2 r q) = Cert.Network.preR (sharedR0 V) (A main_v12) (A main_arg5) (A main_arg6) r q := by
  rw [st_main_v36, st_main_call0_v0, st_main_call0_cst, st_main_v35, st_main_v34, st_main_v33, st_main_v32, st_main_v31,
    node_read, st_main_v24, scatter_read, st_main_v22, st_main_cst_1, splat_apply, Ideal.ofBits_zero_f32, zero_add,
    st_main_v21, st_main_v20, st_main_v19]
  unfold Cert.Network.preR
  refine congrArg₂ (max : EReal → EReal → EReal) (congrArg₂ ((· + ·) : EReal → EReal → EReal) (congrArg₂ Ideal.div ?_ rfl) rfl) rfl
  refine Finset.sum_congr rfl fun e _ => ?_
  rw [msg_read]
  refine Finset.sum_congr rfl fun k _ => ?_
  refine congrArg (· * _) ?_
  refine Fin.addCases (m := 128) (n := 2) (fun i => ?_) (fun i => ?_) k
  · rw [Fin.addCases_left]; exact cat_left _ _ e i
  · rw [Fin.addCases_right]; exact cat_right _ _ e i

/-- Entry (r, q) of the first round's output. -/
theorem unit0_at (r : Fin 100000) (q : Fin 128) :
    (A main_v60) (ix2 r q)
      = Cert.Spec.unitAt (A main_v36) (A main_v39) (A main_v40) (A main_arg7) (A main_arg8) r q := by
  rw [st_main_v60, st_main_v59, st_main_v58, st_main_v57, st_main_cst_9, st_main_v56, st_main_call2_v2, st_main_call2_v1,
    st_main_call2_cst, st_main_call2_v0, st_main_v55, st_main_v54, st_main_v53, st_main_v52, st_main_v51, st_main_v50,
    st_main_v49, st_main_v48, st_main_v47, st_main_v46, st_main_v45, st_main_v44, st_main_cst_8, st_main_v43, st_main_v42,
    st_main_v41]
  exact unit_read _ _ _ _ _ r q

end Cert.ReferenceIdeal.RefVal

end
-- ==== Proof.RefStage2.lean ====
/-
  The reference's stages, window 2 of @main (operations 171 … 257 of 292): one equation per operation.

  Each equation says that the final contents of the reference the operation writes are the operation's function of the
  final contents of its operands. It holds because the line is in single-assignment form: the operands are written before
  the operation's place and never again, and the result is written at that place only (RefRun.lean proves this once, for
  each arity). The rows are a table of the printed program — the written reference, the operation, its place in the line —
  and each is the general stage lemma of its arity at that place. Together with the three sibling modules they let a
  value be walked from the result buffer back to the arguments one operation at a time.
-/
import proofs.«113076_j55267639165123_2_alg».proof.Proof.RefRun

set_option maxHeartbeats 1000000

noncomputable section

namespace Cert.ReferenceIdeal.RefVal

open Cert.ReferenceIdeal Cert.ReferenceIdeal.Gen Idealize.ShloMosaic Idealize.ShloMosaic.TcCoe Idealize.SL.Sem Idealize.ShloMosaic.StableHlo

variable {F : FTy → Type} [FloatOps F]

-- BEGIN TABLE
theorem st_main_v98 (V : Valuation τ sig (Elt F)) :
    after ops V (Proc.devRef .tc main_v98) = (broadcastInDim S1x128 ![1] bcast_S128_S1x128_1 : (⟨S128, .f32⟩ : BufTy).Contents (Elt F) → (⟨S1x128, .f32⟩ : BufTy).Contents (Elt F)) (after ops V (Proc.devRef .tc main_arg11)) := by
  stage1 170 V
theorem st_main_v99 (V : Valuation τ sig (Elt F)) :
    after ops V (Proc.devRef .tc main_v99) = (broadcastInDim S100000x128 ![0, 1] bcast_S1x128_S100000x128_0_1 : (⟨S1x128, .f32⟩ : BufTy).Contents (Elt F) → (⟨S100000x128, .f32⟩ : BufTy).Contents (Elt F)) (after ops V (Proc.devRef .tc main_v98)) := by
  stage1 171 V
theorem st_main_v100 (V : Valuation τ sig (Elt F)) :
    after ops V (Proc.devRef .tc main_v100) = (mulf : (⟨S100000x128, .f32⟩ : BufTy).Contents (Elt F) → (⟨S100000x128, .f32⟩ : BufTy).Contents (Elt F) → (⟨S100000x128, .f32⟩ : BufTy).Contents (Elt F)) (after ops V (Proc.devRef .tc main_v97)) (after ops V (Proc.devRef .tc main_v99)) := by
  stage2 172 V
theorem st_main_v101 (V : Valuation τ sig (Elt F)) :
    after ops V (Proc.devRef .tc main_v101) = (broadcastInDim S1x128 ![1] bcast_S128_S1x128_1 : (⟨S128, .f32⟩ : BufTy).Contents (Elt F) → (⟨S1x128, .f32⟩ : BufTy).Contents (Elt F)) (after ops V (Proc.devRef .tc main_arg12)) := by
  stage1 173 V
theorem st_main_v102 (V : Valuation τ sig (Elt F)) :
    after ops V (Proc.devRef .tc main_v102) = (broadcastInDim S100000x128 ![0, 1] bcast_S1x128_S100000x128_0_1 : (⟨S1x128, .f32⟩ : BufTy).Contents (Elt F) → (⟨S100000x128, .f32⟩ : BufTy).Contents (Elt F)) (after ops V (Proc.devRef .tc main_v101)) := by
  stage1 174 V
theorem st_main_v103 (V : Valuation τ sig (Elt F)) :
    after ops V (Proc.devRef .tc main_v103) = (addf : (⟨S100000x128, .f32⟩ : BufTy).Contents (Elt F) → (⟨S100000x128, .f32⟩ : BufTy).Contents (Elt F) → (⟨S100000x128, .f32⟩ : BufTy).Contents (Elt F)) (after ops V (Proc.devRef .tc main_v100)) (after ops V (Proc.devRef .tc main_v102)) := by
  stage2 175 V
theorem st_main_call5_v0 (V : Valuation τ sig (Elt F)) :
    after ops V (Proc.devRef .tc main_call5_v0) = mulf (after ops V (Proc.devRef .tc main_v103)) (after ops V (Proc.devRef .tc main_v103)) := by
  stage2 176 V
theorem st_main_call5_cst (V : Valuation τ sig (Elt F)) :
    after ops V (Proc.devRef .tc main_call5_cst) = constant S_ .f32 0x00000000#32 := by
  stage0 177 V
theorem st_main_call5_v1 (V : Valuation τ sig (Elt F)) :
    after ops V (Proc.devRef .tc main_call5_v1) = Host.reduceAdd (after ops V (Proc.devRef .tc main_call5_v0)) (after ops V (Proc.devRef .tc main_call5_cst)) reducesTo_S100000x128_S100000_d1 h_S_ := by
  stage2 178 V
theorem st_main_call5_v2 (V : Valuation τ sig (Elt F)) :
    after ops V (Proc.devRef .tc main_call5_v2) = broadcastInDim S100000x1 ![0] bcast_S100000_S100000x1_0 (after ops V (Proc.devRef .tc main_call5_v1)) := by
  stage1 179 V
theorem st_main_v104 (V : Valuation τ sig (Elt F)) :
    after ops V (Proc.devRef .tc main_v104) = Host.sqrt (after ops V (Proc.devRef .tc main_call5_v2)) := by
  stage1 180 V
theorem st_main_cst_20 (V : Valuation τ sig (Elt F)) :
    after ops V (Proc.devRef .tc main_cst_20) = constant S_ .f32 0x2B8CBCCC#32 := by
  stage0 181 V
theorem st_main_v105 (V : Valuation τ sig (Elt F)) :
    after ops V (Proc.devRef .tc main_v105) = (broadcastInDim S100000x1 ![] bcast_S_S100000x1 : (⟨S_, .f32⟩ : BufTy).Contents (Elt F) → (⟨S100000x1, .f32⟩ : BufTy).Contents (Elt F)) (after ops V (Proc.devRef .tc main_cst_20)) := by
  stage1 182 V
theorem st_main_v106 (V : Valuation τ sig (Elt F)) :
    after ops V (Proc.devRef .tc main_v106) = (maximumf : (⟨S100000x1, .f32⟩ : BufTy).Contents (Elt F) → (⟨S100000x1, .f32⟩ : BufTy).Contents (Elt F) → (⟨S100000x1, .f32⟩ : BufTy).Contents (Elt F)) (after ops V (Proc.devRef .tc main_v104)) (after ops V (Proc.devRef .tc main_v105)) := by
  stage2 183 V
theorem st_main_v107 (V : Valuation τ sig (Elt F)) :
    after ops V (Proc.devRef .tc main_v107) = (broadcastInDim S100000x128 ![0, 1] bcast_S100000x1_S100000x128_0_1 : (⟨S100000x1, .f32⟩ : BufTy).Contents (Elt F) → (⟨S100000x128, .f32⟩ : BufTy).Contents (Elt F)) (after ops V (Proc.devRef .tc main_v106)) := by
  stage1 184 V
theorem st_main_v108 (V : Valuation τ sig (Elt F)) :
    after ops V (Proc.devRef .tc main_v108) = (Host.divf : (⟨S100000x128, .f32⟩ : BufTy).Contents (Elt F) → (⟨S100000x128, .f32⟩ : BufTy).Contents (Elt F) → (⟨S100000x128, .f32⟩ : BufTy).Contents (Elt F)) (after ops V (Proc.devRef .tc main_v103)) (after ops V (Proc.devRef .tc main_v107)) := by
  stage2 185 V
theorem st_main_c_21 (V : Valuation τ sig (Elt F)) :
    after ops V (Proc.devRef .tc main_c_21) = constantI S_ 32 0#32 := by
  stage0 186 V
theorem st_main_v109 (V : Valuation τ sig (Elt F)) :
    after ops V (Proc.devRef .tc main_v109) = (broadcastInDim S1700000 ![] bcast_S_S1700000 : (⟨S_, .i32⟩ : BufTy).Contents (Elt F) → (⟨S1700000, .i32⟩ : BufTy).Contents (Elt F)) (after ops V (Proc.devRef .tc main_c_21)) := by
  stage1 187 V
theorem st_main_v110 (V : Valuation τ sig (Elt F)) :
    after ops V (Proc.devRef .tc main_v110) = (cmpi .slt : (⟨S1700000, .i32⟩ : BufTy).Contents (Elt F) → (⟨S1700000, .i32⟩ : BufTy).Contents (Elt F) → (⟨S1700000, .i1⟩ : BufTy).Contents (Elt F)) (after ops V (Proc.devRef .tc main_v3)) (after ops V (Proc.devRef .tc main_v109)) := by
  stage2 188 V
theorem st_main_c_22 (V : Valuation τ sig (Elt F)) :
    after ops V (Proc.devRef .tc main_c_22) = constantI S_ 32 100000#32 := by
  stage0 189 V
theorem st_main_v111 (V : Valuation τ sig (Elt F)) :
    after ops V (Proc.devRef .tc main_v111) = (broadcastInDim S1700000 ![] bcast_S_S1700000 : (⟨S_, .i32⟩ : BufTy).Contents (Elt F) → (⟨S1700000, .i32⟩ : BufTy).Contents (Elt F)) (after ops V (Proc.devRef .tc main_c_22)) := by
  stage1 190 V
theorem st_main_v112 (V : Valuation τ sig (Elt F)) :
    after ops V (Proc.devRef .tc main_v112) = (addi : (⟨S1700000, .i32⟩ : BufTy).Contents (Elt F) → (⟨S1700000, .i32⟩ : BufTy).Contents (Elt F) → (⟨S1700000, .i32⟩ : BufTy).Contents (Elt F)) (after ops V (Proc.devRef .tc main_v3)) (after ops V (Proc.devRef .tc main_v111)) := by
  stage2 191 V
theorem st_main_v113 (V : Valuation τ sig (Elt F)) :
    after ops V (Proc.devRef .tc main_v113) = (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) (after ops V (Proc.devRef .tc main_v110)) (after ops V (Proc.devRef .tc main_v112)) (after ops V (Proc.devRef .tc main_v3)) := by
  stage3 192 V
theorem st_main_v114 (V : Valuation τ sig (Elt F)) :
    after ops V (Proc.devRef .tc main_v114) = (broadcastInDim S1700000x1 ![0] bcast_S1700000_S1700000x1_0 : (⟨S1700000, .i32⟩ : BufTy).Contents (Elt F) → (⟨S1700000x1, .i32⟩ : BufTy).Contents (Elt F)) (after ops V (Proc.devRef .tc main_v113)) := by
  stage1 193 V
theorem st_main_v115 (V : Valuation τ sig (Elt F)) :
    after ops V (Proc.devRef .tc main_v115) = Host.gather gather_S100000x128_S1700000x1_S1700000x128_1_0_n_n_0_1_1128 (after ops V (Proc.devRef .tc main_v108)) (after ops V (Proc.devRef .tc main_v114)) := by
  stage2 194 V
theorem st_main_v116 (V : Valuation τ sig (Elt F)) :
    after ops V (Proc.devRef .tc main_v116) = concatenate S1700000x130 1 [⟨S1700000x128, (after ops V (Proc.devRef .tc main_v115))⟩, ⟨S1700000x2, (after ops V (Proc.devRef .tc main_v8))⟩] concatenates_S1700000x128_S1700000x2_S1700000x130_d1 := by
  stage2 195 V
theorem st_main_v117 (V : Valuation τ sig (Elt F)) :
    after ops V (Proc.devRef .tc main_v117) = Host.dotGeneral dot_S1700000x130_S130x128_S1700000x128_1_0_0_1_n_n none (after ops V (Proc.devRef .tc main_v116)) (after ops V (Proc.devRef .tc main_arg13)) := by
  stage2 196 V
theorem st_main_cst_23 (V : Valuation τ sig (Elt F)) :
    after ops V (Proc.devRef .tc main_cst_23) = constant S_ .f32 0x00000000#32 := by
  stage0 197 V
theorem st_main_v118 (V : Valuation τ sig (Elt F)) :
    after ops V (Proc.devRef .tc main_v118) = (broadcastInDim S100000x128 ![] bcast_S_S100000x128 : (⟨S_, .f32⟩ : BufTy).Contents (Elt F) → (⟨S100000x128, .f32⟩ : BufTy).Contents (Elt F)) (after ops V (Proc.devRef .tc main_cst_23)) := by
  stage1 198 V
theorem st_main_v119 (V : Valuation τ sig (Elt F)) :
    after ops V (Proc.devRef .tc main_v119) = (broadcastInDim S1700000x1 ![0] bcast_S1700000_S1700000x1_0 : (⟨S1700000, .i32⟩ : BufTy).Contents (Elt F) → (⟨S1700000x1, .i32⟩ : BufTy).Contents (Elt F)) (after ops V (Proc.devRef .tc main_v6)) := by
  stage1 199 V
theorem st_main_v120 (V : Valuation τ sig (Elt F)) :
    after ops V (Proc.devRef .tc main_v120) = Host.scatterAdd scatter_S100000x128_S1700000x1_S1700000x128_1_0_0_1 (after ops V (Proc.devRef .tc main_v118)) (after ops V (Proc.devRef .tc main_v119)) (after ops V (Proc.devRef .tc main_v117)) := by
  stage3 200 V
theorem st_main_cst_24 (V : Valuation τ sig (Elt F)) :
    after ops V (Proc.devRef .tc main_cst_24) = constant S_ .f32 0x3F800000#32 := by
  stage0 201 V
theorem st_main_v121 (V : Valuation τ sig (Elt F)) :
    after ops V (Proc.devRef .tc main_v121) = (broadcastInDim S1700000 ![] bcast_S_S1700000 : (⟨S_, .f32⟩ : BufTy).Contents (Elt F) → (⟨S1700000, .f32⟩ : BufTy).Contents (Elt F)) (after ops V (Proc.devRef .tc main_cst_24)) := by
  stage1 202 V
theorem st_main_cst_25 (V : Valuation τ sig (Elt F)) :
    after ops V (Proc.devRef .tc main_cst_25) = constant S_ .f32 0x00000000#32 := by
  stage0 203 V
theorem st_main_v122 (V : Valuation τ sig (Elt F)) :
    after ops V (Proc.devRef .tc main_v122) = (broadcastInDim S100000 ![] bcast_S_S100000 : (⟨S_, .f32⟩ : BufTy).Contents (Elt F) → (⟨S100000, .f32⟩ : BufTy).Contents (Elt F)) (after ops V (Proc.devRef .tc main_cst_25)) := by
  stage1 204 V
theorem st_main_v123 (V : Valuation τ sig (Elt F)) :
    after ops V (Proc.devRef .tc main_v123) = (broadcastInDim S1700000x1 ![0] bcast_S1700000_S1700000x1_0 : (⟨S1700000, .i32⟩ : BufTy).Contents (Elt F) → (⟨S1700000x1, .i32⟩ : BufTy).Contents (Elt F)) (after ops V (Proc.devRef .tc main_v6)) := by
  stage1 205 V
theorem st_main_v124 (V : Valuation τ sig (Elt F)) :
    after ops V (Proc.devRef .tc main_v124) = Host.scatterAdd scatter_S100000_S1700000x1_S1700000_n_0_0_1 (after ops V (Proc.devRef .tc main_v122)) (after ops V (Proc.devRef .tc main_v123)) (after ops V (Proc.devRef .tc main_v121)) := by
  stage3 206 V
theorem st_main_cst_26 (V : Valuation τ sig (Elt F)) :
    after ops V (Proc.devRef .tc main_cst_26) = constant S_ .f32 0x3F800000#32 := by
  stage0 207 V
theorem st_main_v125 (V : Valuation τ sig (Elt F)) :
    after ops V (Proc.devRef .tc main_v125) = (broadcastInDim S100000 ![] bcast_S_S100000 : (⟨S_, .f32⟩ : BufTy).Contents (Elt F) → (⟨S100000, .f32⟩ : BufTy).Contents (Elt F)) (after ops V (Proc.devRef .tc main_cst_26)) := by
  stage1 208 V
theorem st_main_v126 (V : Valuation τ sig (Elt F)) :
    after ops V (Proc.devRef .tc main_v126) = (maximumf : (⟨S100000, .f32⟩ : BufTy).Contents (Elt F) → (⟨S100000, .f32⟩ : BufTy).Contents (Elt F) → (⟨S100000, .f32⟩ : BufTy).Contents (Elt F)) (after ops V (Proc.devRef .tc main_v124)) (after ops V (Proc.devRef .tc main_v125)) := by
  stage2 209 V
theorem st_main_v127 (V : Valuation τ sig (Elt F)) :
    after ops V (Proc.devRef .tc main_v127) = (broadcastInDim S100000x1 ![0] bcast_S100000_S100000x1_0 : (⟨S100000, .f32⟩ : BufTy).Contents (Elt F) → (⟨S100000x1, .f32⟩ : BufTy).Contents (Elt F)) (after ops V (Proc.devRef .tc main_v126)) := by
  stage1 210 V
theorem st_main_v128 (V : Valuation τ sig (Elt F)) :
    after ops V (Proc.devRef .tc main_v128) = (broadcastInDim S100000x128 ![0, 1] bcast_S100000x1_S100000x128_0_1 : (⟨S100000x1, .f32⟩ : BufTy).Contents (Elt F) → (⟨S100000x128, .f32⟩ : BufTy).Contents (Elt F)) (after ops V (Proc.devRef .tc main_v127)) := by
  stage1 211 V
theorem st_main_v129 (V : Valuation τ sig (Elt F)) :
    after ops V (Proc.devRef .tc main_v129) = (Host.divf : (⟨S100000x128, .f32⟩ : BufTy).Contents (Elt F) → (⟨S100000x128, .f32⟩ : BufTy).Contents (Elt F) → (⟨S100000x128, .f32⟩ : BufTy).Contents (Elt F)) (after ops V (Proc.devRef .tc main_v120)) (after ops V (Proc.devRef .tc main_v128)) := by
  stage2 212 V
theorem st_main_v130 (V : Valuation τ sig (Elt F)) :
    after ops V (Proc.devRef .tc main_v130) = Host.dotGeneral dot_S100000x128_S128x128_S100000x128_1_0_0_1_n_n none (after ops V (Proc.devRef .tc main_v108)) (after ops V (Proc.devRef .tc main_arg14)) := by
  stage2 213 V
theorem st_main_v131 (V : Valuation τ sig (Elt F)) :
    after ops V (Proc.devRef .tc main_v131) = (addf : (⟨S100000x128, .f32⟩ : BufTy).Contents (Elt F) → (⟨S100000x128, .f32⟩ : BufTy).Contents (Elt F) → (⟨S100000x128, .f32⟩ : BufTy).Contents (Elt F)) (after ops V (Proc.devRef .tc main_v129)) (after ops V (Proc.devRef .tc main_v130)) := by
  stage2 214 V
theorem st_main_call6_cst (V : Valuation τ sig (Elt F)) :
    after ops V (Proc.devRef .tc main_call6_cst) = constant S_ .f32 0x00000000#32 := by
  stage0 215 V
theorem st_main_call6_v0 (V : Valuation τ sig (Elt F)) :
    after ops V (Proc.devRef .tc main_call6_v0) = broadcastInDim S100000x128 ![] bcast_S_S100000x128 (after ops V (Proc.devRef .tc main_call6_cst)) := by
  stage1 216 V
theorem st_main_v132 (V : Valuation τ sig (Elt F)) :
    after ops V (Proc.devRef .tc main_v132) = maximumf (after ops V (Proc.devRef .tc main_v131)) (after ops V (Proc.devRef .tc main_call6_v0)) := by
  stage2 217 V
theorem st_main_cst_27 (V : Valuation τ sig (Elt F)) :
    after ops V (Proc.devRef .tc main_cst_27) = constant S_ .f32 0x00000000#32 := by
  stage0 218 V
theorem st_main_v133 (V : Valuation τ sig (Elt F)) :
    after ops V (Proc.devRef .tc main_v133) = Host.reduceAdd (after ops V (Proc.devRef .tc main_v132)) (after ops V (Proc.devRef .tc main_cst_27)) reducesTo_S100000x128_S128_d0 h_S_ := by
  stage2 219 V
theorem st_main_cst_28 (V : Valuation τ sig (Elt F)) :
    after ops V (Proc.devRef .tc main_cst_28) = constant S_ .f32 0x47C35000#32 := by
  stage0 220 V
theorem st_main_v134 (V : Valuation τ sig (Elt F)) :
    after ops V (Proc.devRef .tc main_v134) = (broadcastInDim S128 ![] bcast_S_S128 : (⟨S_, .f32⟩ : BufTy).Contents (Elt F) → (⟨S128, .f32⟩ : BufTy).Contents (Elt F)) (after ops V (Proc.devRef .tc main_cst_28)) := by
  stage1 221 V
theorem st_main_v135 (V : Valuation τ sig (Elt F)) :
    after ops V (Proc.devRef .tc main_v135) = (Host.divf : (⟨S128, .f32⟩ : BufTy).Contents (Elt F) → (⟨S128, .f32⟩ : BufTy).Contents (Elt F) → (⟨S128, .f32⟩ : BufTy).Contents (Elt F)) (after ops V (Proc.devRef .tc main_v133)) (after ops V (Proc.devRef .tc main_v134)) := by
  stage2 222 V
theorem st_main_c_29 (V : Valuation τ sig (Elt F)) :
    after ops V (Proc.devRef .tc main_c_29) = constantI S_ 32 0#32 := by
  stage0 223 V
theorem st_main_call7_cst (V : Valuation τ sig (Elt F)) :
    after ops V (Proc.devRef .tc main_call7_cst) = constant S_ .f32 0x00000000#32 := by
  stage0 224 V
theorem st_main_call7_v0 (V : Valuation τ sig (Elt F)) :
    after ops V (Proc.devRef .tc main_call7_v0) = Host.reduceAdd (after ops V (Proc.devRef .tc main_v132)) (after ops V (Proc.devRef .tc main_call7_cst)) reducesTo_S100000x128_S128_d0 h_S_ := by
  stage2 225 V
theorem st_main_call7_v1 (V : Valuation τ sig (Elt F)) :
    after ops V (Proc.devRef .tc main_call7_v1) = broadcastInDim S1x128 ![1] bcast_S128_S1x128_1 (after ops V (Proc.devRef .tc main_call7_v0)) := by
  stage1 226 V
theorem st_main_call7_cst_0 (V : Valuation τ sig (Elt F)) :
    after ops V (Proc.devRef .tc main_call7_cst_0) = constant S_ .f32 0x47C35000#32 := by
  stage0 227 V
theorem st_main_call7_v2 (V : Valuation τ sig (Elt F)) :
    after ops V (Proc.devRef .tc main_call7_v2) = broadcastInDim S1x128 ![] bcast_S_S1x128 (after ops V (Proc.devRef .tc main_call7_cst_0)) := by
  stage1 228 V
theorem st_main_call7_v3 (V : Valuation τ sig (Elt F)) :
    after ops V (Proc.devRef .tc main_call7_v3) = Host.divf (after ops V (Proc.devRef .tc main_call7_v1)) (after ops V (Proc.devRef .tc main_call7_v2)) := by
  stage2 229 V
theorem st_main_call7_v4 (V : Valuation τ sig (Elt F)) :
    after ops V (Proc.devRef .tc main_call7_v4) = broadcastInDim S100000x128 ![0, 1] bcast_S1x128_S100000x128_0_1 (after ops V (Proc.devRef .tc main_call7_v3)) := by
  stage1 230 V
theorem st_main_call7_v5 (V : Valuation τ sig (Elt F)) :
    after ops V (Proc.devRef .tc main_call7_v5) = subf (after ops V (Proc.devRef .tc main_v132)) (after ops V (Proc.devRef .tc main_call7_v4)) := by
  stage2 231 V
theorem st_main_call7_v6 (V : Valuation τ sig (Elt F)) :
    after ops V (Proc.devRef .tc main_call7_v6) = mulf (after ops V (Proc.devRef .tc main_call7_v5)) (after ops V (Proc.devRef .tc main_call7_v5)) := by
  stage2 232 V
theorem st_main_call7_v7 (V : Valuation τ sig (Elt F)) :
    after ops V (Proc.devRef .tc main_call7_v7) = sitofp .f32 (after ops V (Proc.devRef .tc main_c_29)) := by
  stage1 233 V
theorem st_main_call7_cst_1 (V : Valuation τ sig (Elt F)) :
    after ops V (Proc.devRef .tc main_call7_cst_1) = constant S_ .f32 0x47C35000#32 := by
  stage0 234 V
theorem st_main_call7_v8 (V : Valuation τ sig (Elt F)) :
    after ops V (Proc.devRef .tc main_call7_v8) = subf (after ops V (Proc.devRef .tc main_call7_cst_1)) (after ops V (Proc.devRef .tc main_call7_v7)) := by
  stage2 235 V
theorem st_main_call7_cst_2 (V : Valuation τ sig (Elt F)) :
    after ops V (Proc.devRef .tc main_call7_cst_2) = constant S_ .f32 0x00000000#32 := by
  stage0 236 V
theorem st_main_call7_v9 (V : Valuation τ sig (Elt F)) :
    after ops V (Proc.devRef .tc main_call7_v9) = Host.reduceAdd (after ops V (Proc.devRef .tc main_call7_v6)) (after ops V (Proc.devRef .tc main_call7_cst_2)) reducesTo_S100000x128_S128_d0 h_S_ := by
  stage2 237 V
theorem st_main_call7_v10 (V : Valuation τ sig (Elt F)) :
    after ops V (Proc.devRef .tc main_call7_v10) = broadcastInDim S128 ![] bcast_S_S128 (after ops V (Proc.devRef .tc main_call7_v8)) := by
  stage1 238 V
theorem st_main_call7_v11 (V : Valuation τ sig (Elt F)) :
    after ops V (Proc.devRef .tc main_call7_v11) = Host.divf (after ops V (Proc.devRef .tc main_call7_v9)) (after ops V (Proc.devRef .tc main_call7_v10)) := by
  stage2 239 V
theorem st_main_call7_cst_3 (V : Valuation τ sig (Elt F)) :
    after ops V (Proc.devRef .tc main_call7_cst_3) = constant S_ .f32 0x00000000#32 := by
  stage0 240 V
theorem st_main_call7_v12 (V : Valuation τ sig (Elt F)) :
    after ops V (Proc.devRef .tc main_call7_v12) = cmpf .ogt (after ops V (Proc.devRef .tc main_call7_v8)) (after ops V (Proc.devRef .tc main_call7_cst_3)) := by
  stage2 241 V
theorem st_main_call7_cst_4 (V : Valuation τ sig (Elt F)) :
    after ops V (Proc.devRef .tc main_call7_cst_4) = constant S_ .f32 0x7FC00000#32 := by
  stage0 242 V
theorem st_main_call7_call0_v0 (V : Valuation τ sig (Elt F)) :
    after ops V (Proc.devRef .tc main_call7_call0_v0) = id (after ops V (Proc.devRef .tc main_call7_cst_4)) := by
  stage1 243 V
theorem st_main_call7_call0_v1 (V : Valuation τ sig (Elt F)) :
    after ops V (Proc.devRef .tc main_call7_call0_v1) = broadcastInDim S128 ![] bcast_S_S128 (after ops V (Proc.devRef .tc main_call7_call0_v0)) := by
  stage1 244 V
theorem st_main_v136 (V : Valuation τ sig (Elt F)) :
    after ops V (Proc.devRef .tc main_v136) = select (broadcastInDim S128 ![] bcast_S_S128 (after ops V (Proc.devRef .tc main_call7_v12))) (after ops V (Proc.devRef .tc main_call7_v11)) (after ops V (Proc.devRef .tc main_call7_call0_v1)) := by
  stage3 245 V
theorem st_main_v137 (V : Valuation τ sig (Elt F)) :
    after ops V (Proc.devRef .tc main_v137) = (broadcastInDim S1x128 ![1] bcast_S128_S1x128_1 : (⟨S128, .f32⟩ : BufTy).Contents (Elt F) → (⟨S1x128, .f32⟩ : BufTy).Contents (Elt F)) (after ops V (Proc.devRef .tc main_v135)) := by
  stage1 246 V
theorem st_main_v138 (V : Valuation τ sig (Elt F)) :
    after ops V (Proc.devRef .tc main_v138) = (broadcastInDim S100000x128 ![0, 1] bcast_S1x128_S100000x128_0_1 : (⟨S1x128, .f32⟩ : BufTy).Contents (Elt F) → (⟨S100000x128, .f32⟩ : BufTy).Contents (Elt F)) (after ops V (Proc.devRef .tc main_v137)) := by
  stage1 247 V
theorem st_main_v139 (V : Valuation τ sig (Elt F)) :
    after ops V (Proc.devRef .tc main_v139) = (subf : (⟨S100000x128, .f32⟩ : BufTy).Contents (Elt F) → (⟨S100000x128, .f32⟩ : BufTy).Contents (Elt F) → (⟨S100000x128, .f32⟩ : BufTy).Contents (Elt F)) (after ops V (Proc.devRef .tc main_v132)) (after ops V (Proc.devRef .tc main_v138)) := by
  stage2 248 V
theorem st_main_cst_30 (V : Valuation τ sig (Elt F)) :
    after ops V (Proc.devRef .tc main_cst_30) = constant S_ .f32 0x3727C5AC#32 := by
  stage0 249 V
theorem st_main_v140 (V : Valuation τ sig (Elt F)) :
    after ops V (Proc.devRef .tc main_v140) = (broadcastInDim S128 ![] bcast_S_S128 : (⟨S_, .f32⟩ : BufTy).Contents (Elt F) → (⟨S128, .f32⟩ : BufTy).Contents (Elt F)) (after ops V (Proc.devRef .tc main_cst_30)) := by
  stage1 250 V
theorem st_main_v141 (V : Valuation τ sig (Elt F)) :
    after ops V (Proc.devRef .tc main_v141) = (addf : (⟨S128, .f32⟩ : BufTy).Contents (Elt F) → (⟨S128, .f32⟩ : BufTy).Contents (Elt F) → (⟨S128, .f32⟩ : BufTy).Contents (Elt F)) (after ops V (Proc.devRef .tc main_v136)) (after ops V (Proc.devRef .tc main_v140)) := by
  stage2 251 V
theorem st_main_v142 (V : Valuation τ sig (Elt F)) :
    after ops V (Proc.devRef .tc main_v142) = (Host.rsqrt : (⟨S128, .f32⟩ : BufTy).Contents (Elt F) → (⟨S128, .f32⟩ : BufTy).Contents (Elt F)) (after ops V (Proc.devRef .tc main_v141)) := by
  stage1 252 V
theorem st_main_v143 (V : Valuation τ sig (Elt F)) :
    after ops V (Proc.devRef .tc main_v143) = (broadcastInDim S1x128 ![1] bcast_S128_S1x128_1 : (⟨S128, .f32⟩ : BufTy).Contents (Elt F) → (⟨S1x128, .f32⟩ : BufTy).Contents (Elt F)) (after ops V (Proc.devRef .tc main_v142)) := by
  stage1 253 V
theorem st_main_v144 (V : Valuation τ sig (Elt F)) :
    after ops V (Proc.devRef .tc main_v144) = (broadcastInDim S100000x128 ![0, 1] bcast_S1x128_S100000x128_0_1 : (⟨S1x128, .f32⟩ : BufTy).Contents (Elt F) → (⟨S100000x128, .f32⟩ : BufTy).Contents (Elt F)) (after ops V (Proc.devRef .tc main_v143)) := by
  stage1 254 V
theorem st_main_v145 (V : Valuation τ sig (Elt F)) :
    after ops V (Proc.devRef .tc main_v145) = (mulf : (⟨S100000x128, .f32⟩ : BufTy).Contents (Elt F) → (⟨S100000x128, .f32⟩ : BufTy).Contents (Elt F) → (⟨S100000x128, .f32⟩ : BufTy).Contents (Elt F)) (after ops V (Proc.devRef .tc main_v139)) (after ops V (Proc.devRef .tc main_v144)) := by
  stage2 255 V
theorem st_main_v146 (V : Valuation τ sig (Elt F)) :
    after ops V (Proc.devRef .tc main_v146) = (broadcastInDim S1x128 ![1] bcast_S128_S1x128_1 : (⟨S128, .f32⟩ : BufTy).Contents (Elt F) → (⟨S1x128, .f32⟩ : BufTy).Contents (Elt F)) (after ops V (Proc.devRef .tc main_arg15)) := by
  stage1 256 V
-- END TABLE

end Cert.ReferenceIdeal.RefVal

end
-- ==== Proof.RefStage3.lean ====
/-
  The reference's stages, window 3 of @main (operations 258 … 292 of 292): one equation per operation.

  Each equation says that the final contents of the reference the operation writes are the operation's function of the
  final contents of its operands. It holds because the line is in single-assignment form: the operands are written before
  the operation's place and never again, and the result is written at that place only (RefRun.lean proves this once, for
  each arity). The rows are a table of the printed program — the written reference, the operation, its place in the line —
  and each is the general stage lemma of its arity at that place. Together with the three sibling modules they let a
  value be walked from the result buffer back to the arguments one operation at a time.
-/
import proofs.«113076_j55267639165123_2_alg».proof.Proof.RefRun

set_option maxHeartbeats 1000000

noncomputable section

namespace Cert.ReferenceIdeal.RefVal

open Cert.ReferenceIdeal Cert.ReferenceIdeal.Gen Idealize.ShloMosaic Idealize.ShloMosaic.TcCoe Idealize.SL.Sem Idealize.ShloMosaic.StableHlo

variable {F : FTy → Type} [FloatOps F]

-- BEGIN TABLE
theorem st_main_v147 (V : Valuation τ sig (Elt F)) :
    after ops V (Proc.devRef .tc main_v147) = (broadcastInDim S100000x128 ![0, 1] bcast_S1x128_S100000x128_0_1 : (⟨S1x128, .f32⟩ : BufTy).Contents (Elt F) → (⟨S100000x128, .f32⟩ : BufTy).Contents (Elt F)) (after ops V (Proc.devRef .tc main_v146)) := by
  stage1 257 V
theorem st_main_v148 (V : Valuation τ sig (Elt F)) :
    after ops V (Proc.devRef .tc main_v148) = (mulf : (⟨S100000x128, .f32⟩ : BufTy).Contents (Elt F) → (⟨S100000x128, .f32⟩ : BufTy).Contents (Elt F) → (⟨S100000x128, .f32⟩ : BufTy).Contents (Elt F)) (after ops V (Proc.devRef .tc main_v145)) (after ops V (Proc.devRef .tc main_v147)) := by
  stage2 258 V
theorem st_main_v149 (V : Valuation τ sig (Elt F)) :
    after ops V (Proc.devRef .tc main_v149) = (broadcastInDim S1x128 ![1] bcast_S128_S1x128_1 : (⟨S128, .f32⟩ : BufTy).Contents (Elt F) → (⟨S1x128, .f32⟩ : BufTy).Contents (Elt F)) (after ops V (Proc.devRef .tc main_arg16)) := by
  stage1 259 V
theorem st_main_v150 (V : Valuation τ sig (Elt F)) :
    after ops V (Proc.devRef .tc main_v150) = (broadcastInDim S100000x128 ![0, 1] bcast_S1x128_S100000x128_0_1 : (⟨S1x128, .f32⟩ : BufTy).Contents (Elt F) → (⟨S100000x128, .f32⟩ : BufTy).Contents (Elt F)) (after ops V (Proc.devRef .tc main_v149)) := by
  stage1 260 V
theorem st_main_v151 (V : Valuation τ sig (Elt F)) :
    after ops V (Proc.devRef .tc main_v151) = (addf : (⟨S100000x128, .f32⟩ : BufTy).Contents (Elt F) → (⟨S100000x128, .f32⟩ : BufTy).Contents (Elt F) → (⟨S100000x128, .f32⟩ : BufTy).Contents (Elt F)) (after ops V (Proc.devRef .tc main_v148)) (after ops V (Proc.devRef .tc main_v150)) := by
  stage2 261 V
theorem st_main_call8_v0 (V : Valuation τ sig (Elt F)) :
    after ops V (Proc.devRef .tc main_call8_v0) = mulf (after ops V (Proc.devRef .tc main_v151)) (after ops V (Proc.devRef .tc main_v151)) := by
  stage2 262 V
theorem st_main_call8_cst (V : Valuation τ sig (Elt F)) :
    after ops V (Proc.devRef .tc main_call8_cst) = constant S_ .f32 0x00000000#32 := by
  stage0 263 V
theorem st_main_call8_v1 (V : Valuation τ sig (Elt F)) :
    after ops V (Proc.devRef .tc main_call8_v1) = Host.reduceAdd (after ops V (Proc.devRef .tc main_call8_v0)) (after ops V (Proc.devRef .tc main_call8_cst)) reducesTo_S100000x128_S100000_d1 h_S_ := by
  stage2 264 V
theorem st_main_call8_v2 (V : Valuation τ sig (Elt F)) :
    after ops V (Proc.devRef .tc main_call8_v2) = broadcastInDim S100000x1 ![0] bcast_S100000_S100000x1_0 (after ops V (Proc.devRef .tc main_call8_v1)) := by
  stage1 265 V
theorem st_main_v152 (V : Valuation τ sig (Elt F)) :
    after ops V (Proc.devRef .tc main_v152) = Host.sqrt (after ops V (Proc.devRef .tc main_call8_v2)) := by
  stage1 266 V
theorem st_main_cst_31 (V : Valuation τ sig (Elt F)) :
    after ops V (Proc.devRef .tc main_cst_31) = constant S_ .f32 0x2B8CBCCC#32 := by
  stage0 267 V
theorem st_main_v153 (V : Valuation τ sig (Elt F)) :
    after ops V (Proc.devRef .tc main_v153) = (broadcastInDim S100000x1 ![] bcast_S_S100000x1 : (⟨S_, .f32⟩ : BufTy).Contents (Elt F) → (⟨S100000x1, .f32⟩ : BufTy).Contents (Elt F)) (after ops V (Proc.devRef .tc main_cst_31)) := by
  stage1 268 V
theorem st_main_v154 (V : Valuation τ sig (Elt F)) :
    after ops V (Proc.devRef .tc main_v154) = (maximumf : (⟨S100000x1, .f32⟩ : BufTy).Contents (Elt F) → (⟨S100000x1, .f32⟩ : BufTy).Contents (Elt F) → (⟨S100000x1, .f32⟩ : BufTy).Contents (Elt F)) (after ops V (Proc.devRef .tc main_v152)) (after ops V (Proc.devRef .tc main_v153)) := by
  stage2 269 V
theorem st_main_v155 (V : Valuation τ sig (Elt F)) :
    after ops V (Proc.devRef .tc main_v155) = (broadcastInDim S100000x128 ![0, 1] bcast_S100000x1_S100000x128_0_1 : (⟨S100000x1, .f32⟩ : BufTy).Contents (Elt F) → (⟨S100000x128, .f32⟩ : BufTy).Contents (Elt F)) (after ops V (Proc.devRef .tc main_v154)) := by
  stage1 270 V
theorem st_main_v156 (V : Valuation τ sig (Elt F)) :
    after ops V (Proc.devRef .tc main_v156) = (Host.divf : (⟨S100000x128, .f32⟩ : BufTy).Contents (Elt F) → (⟨S100000x128, .f32⟩ : BufTy).Contents (Elt F) → (⟨S100000x128, .f32⟩ : BufTy).Contents (Elt F)) (after ops V (Proc.devRef .tc main_v151)) (after ops V (Proc.devRef .tc main_v155)) := by
  stage2 271 V
theorem st_main_v157 (V : Valuation τ sig (Elt F)) :
    after ops V (Proc.devRef .tc main_v157) = concatenate S100000x384 1 [⟨S100000x128, (after ops V (Proc.devRef .tc main_v60))⟩, ⟨S100000x128, (after ops V (Proc.devRef .tc main_v108))⟩, ⟨S100000x128, (after ops V (Proc.devRef .tc main_v156))⟩] concatenates_S100000x128_S100000x128_S100000x128_S100000x384_d1 := by
  stageN 272 V
theorem st_main_v158 (V : Valuation τ sig (Elt F)) :
    after ops V (Proc.devRef .tc main_v158) = Host.dotGeneral dot_S100000x384_S384x128_S100000x128_1_0_0_1_n_n none (after ops V (Proc.devRef .tc main_v157)) (after ops V (Proc.devRef .tc main_arg17)) := by
  stage2 273 V
theorem st_main_v159 (V : Valuation τ sig (Elt F)) :
    after ops V (Proc.devRef .tc main_v159) = (broadcastInDim S1x128 ![1] bcast_S128_S1x128_1 : (⟨S128, .f32⟩ : BufTy).Contents (Elt F) → (⟨S1x128, .f32⟩ : BufTy).Contents (Elt F)) (after ops V (Proc.devRef .tc main_arg18)) := by
  stage1 274 V
theorem st_main_v160 (V : Valuation τ sig (Elt F)) :
    after ops V (Proc.devRef .tc main_v160) = (broadcastInDim S100000x128 ![0, 1] bcast_S1x128_S100000x128_0_1 : (⟨S1x128, .f32⟩ : BufTy).Contents (Elt F) → (⟨S100000x128, .f32⟩ : BufTy).Contents (Elt F)) (after ops V (Proc.devRef .tc main_v159)) := by
  stage1 275 V
theorem st_main_v161 (V : Valuation τ sig (Elt F)) :
    after ops V (Proc.devRef .tc main_v161) = (addf : (⟨S100000x128, .f32⟩ : BufTy).Contents (Elt F) → (⟨S100000x128, .f32⟩ : BufTy).Contents (Elt F) → (⟨S100000x128, .f32⟩ : BufTy).Contents (Elt F)) (after ops V (Proc.devRef .tc main_v158)) (after ops V (Proc.devRef .tc main_v160)) := by
  stage2 276 V
theorem st_main_call9_cst (V : Valuation τ sig (Elt F)) :
    after ops V (Proc.devRef .tc main_call9_cst) = constant S_ .f32 0x00000000#32 := by
  stage0 277 V
theorem st_main_call9_v0 (V : Valuation τ sig (Elt F)) :
    after ops V (Proc.devRef .tc main_call9_v0) = broadcastInDim S100000x128 ![] bcast_S_S100000x128 (after ops V (Proc.devRef .tc main_call9_cst)) := by
  stage1 278 V
theorem st_main_v162 (V : Valuation τ sig (Elt F)) :
    after ops V (Proc.devRef .tc main_v162) = maximumf (after ops V (Proc.devRef .tc main_v161)) (after ops V (Proc.devRef .tc main_call9_v0)) := by
  stage2 279 V
theorem st_main_v163 (V : Valuation τ sig (Elt F)) :
    after ops V (Proc.devRef .tc main_v163) = Host.dotGeneral dot_S100000x128_S128x64_S100000x64_1_0_0_1_n_n none (after ops V (Proc.devRef .tc main_v162)) (after ops V (Proc.devRef .tc main_arg19)) := by
  stage2 280 V
theorem st_main_v164 (V : Valuation τ sig (Elt F)) :
    after ops V (Proc.devRef .tc main_v164) = (broadcastInDim S1x64 ![1] bcast_S64_S1x64_1 : (⟨S64, .f32⟩ : BufTy).Contents (Elt F) → (⟨S1x64, .f32⟩ : BufTy).Contents (Elt F)) (after ops V (Proc.devRef .tc main_arg20)) := by
  stage1 281 V
theorem st_main_v165 (V : Valuation τ sig (Elt F)) :
    after ops V (Proc.devRef .tc main_v165) = (broadcastInDim S100000x64 ![0, 1] bcast_S1x64_S100000x64_0_1 : (⟨S1x64, .f32⟩ : BufTy).Contents (Elt F) → (⟨S100000x64, .f32⟩ : BufTy).Contents (Elt F)) (after ops V (Proc.devRef .tc main_v164)) := by
  stage1 282 V
theorem st_main_v166 (V : Valuation τ sig (Elt F)) :
    after ops V (Proc.devRef .tc main_v166) = (addf : (⟨S100000x64, .f32⟩ : BufTy).Contents (Elt F) → (⟨S100000x64, .f32⟩ : BufTy).Contents (Elt F) → (⟨S100000x64, .f32⟩ : BufTy).Contents (Elt F)) (after ops V (Proc.devRef .tc main_v163)) (after ops V (Proc.devRef .tc main_v165)) := by
  stage2 283 V
theorem st_main_call10_cst (V : Valuation τ sig (Elt F)) :
    after ops V (Proc.devRef .tc main_call10_cst) = constant S_ .f32 0x00000000#32 := by
  stage0 284 V
theorem st_main_call10_v0 (V : Valuation τ sig (Elt F)) :
    after ops V (Proc.devRef .tc main_call10_v0) = broadcastInDim S100000x64 ![] bcast_S_S100000x64 (after ops V (Proc.devRef .tc main_call10_cst)) := by
  stage1 285 V
theorem st_main_v167 (V : Valuation τ sig (Elt F)) :
    after ops V (Proc.devRef .tc main_v167) = maximumf (after ops V (Proc.devRef .tc main_v166)) (after ops V (Proc.devRef .tc main_call10_v0)) := by
  stage2 286 V
theorem st_main_v168 (V : Valuation τ sig (Elt F)) :
    after ops V (Proc.devRef .tc main_v168) = Host.dotGeneral dot_S100000x64_S64x1_S100000x1_1_0_0_1_n_n none (after ops V (Proc.devRef .tc main_v167)) (after ops V (Proc.devRef .tc main_arg21)) := by
  stage2 287 V
theorem st_main_v169 (V : Valuation τ sig (Elt F)) :
    after ops V (Proc.devRef .tc main_v169) = (broadcastInDim S1x1 ![1] bcast_S1_S1x1_1 : (⟨S1, .f32⟩ : BufTy).Contents (Elt F) → (⟨S1x1, .f32⟩ : BufTy).Contents (Elt F)) (after ops V (Proc.devRef .tc main_arg22)) := by
  stage1 288 V
theorem st_main_v170 (V : Valuation τ sig (Elt F)) :
    after ops V (Proc.devRef .tc main_v170) = (broadcastInDim S100000x1 ![0, 1] bcast_S1x1_S100000x1_0_1 : (⟨S1x1, .f32⟩ : BufTy).Contents (Elt F) → (⟨S100000x1, .f32⟩ : BufTy).Contents (Elt F)) (after ops V (Proc.devRef .tc main_v169)) := by
  stage1 289 V
theorem st_main_v171 (V : Valuation τ sig (Elt F)) :
    after ops V (Proc.devRef .tc main_v171) = (addf : (⟨S100000x1, .f32⟩ : BufTy).Contents (Elt F) → (⟨S100000x1, .f32⟩ : BufTy).Contents (Elt F) → (⟨S100000x1, .f32⟩ : BufTy).Contents (Elt F)) (after ops V (Proc.devRef .tc main_v168)) (after ops V (Proc.devRef .tc main_v170)) := by
  stage2 290 V
theorem st_main_v172 (V : Valuation τ sig (Elt F)) :
    after ops V (Proc.devRef .tc main_v172) = shapeCast _ (after ops V (Proc.devRef .tc main_v171)) shapeCasts_S100000x1_S100000 := by
  stageR 291 V
-- END TABLE

end Cert.ReferenceIdeal.RefVal

end
-- ==== Proof.RCompShared.lean ====
/-
  The chains the two programs share, named.

  Some stretches of the reference's line are spelt exactly as the other program spells them: the source and destination
  index vectors (a row of the edge list followed by the node numbers), the padded edge attributes, the wrap-around of the
  gather index, the index columns, the clipped degree, and each round's column mean and variance. By the stage
  equations the buffer at the end of each stretch is the stretch's operations composed over the buffer (or argument) it
  starts from, which is the shared term by definition.
-/
import proofs.«113076_j55267639165123_2_alg».proof.Proof.RefStage0
import proofs.«113076_j55267639165123_2_alg».proof.Proof.RefStage1
import proofs.«113076_j55267639165123_2_alg».proof.Proof.RefStage2
import proofs.«113076_j55267639165123_2_alg».proof.Proof.RefStage3
import proofs.«113076_j55267639165123_2_alg».proof.Proof.RReadShared

set_option maxHeartbeats 4000000

noncomputable section

namespace Cert.ReferenceIdeal.RefVal

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.RRead

variable (V : Valuation τ sig (Elt Ideal))

/-- What the reference's run leaves at a buffer, from contents V. -/
local notation:max "A " b:max => after ops V (Proc.devRef Proc.tc b)

/-! ## Indices and edge attributes -/

theorem src_eq : A main_v3 = srcT (A main_arg1) := by
  rw [st_main_v3, st_main_v2, st_main_v1, st_main_v0] <;> rfl

theorem dst_eq : A main_v6 = dstT (A main_arg1) := by
  rw [st_main_v6, st_main_v5, st_main_v4, st_main_v0] <;> rfl

theorem ea_eq : A main_v8 = eaT (A main_arg2) := by
  rw [st_main_v8, st_main_v7, st_main_cst] <;> rfl

theorem gidx0_eq : A main_v18 = idxT (A main_v3) := by
  rw [st_main_v18, st_main_v17, st_main_v16, st_main_v15, st_main_c_0, st_main_v14, st_main_v13, st_main_c] <;> rfl

theorem gidx1_eq : A main_v66 = idxT (A main_v3) := by
  rw [st_main_v66, st_main_v65, st_main_v64, st_main_v63, st_main_c_11, st_main_v62, st_main_v61, st_main_c_10] <;> rfl

theorem gidx2_eq : A main_v114 = idxT (A main_v3) := by
  rw [st_main_v114, st_main_v113, st_main_v112, st_main_v111, st_main_c_22, st_main_v110, st_main_v109, st_main_c_21] <;> rfl

theorem sidx0_eq : A main_v23 = sidxT (A main_v6) := by
  rw [st_main_v23] <;> rfl

theorem sidx1_eq : A main_v71 = sidxT (A main_v6) := by
  rw [st_main_v71] <;> rfl

theorem sidx2_eq : A main_v119 = sidxT (A main_v6) := by
  rw [st_main_v119] <;> rfl

/-! ## The clipped degree -/

theorem deg0_eq : A main_v30 = degT (A main_v6) := by
  rw [st_main_v30, st_main_v29, st_main_cst_4, st_main_v28, st_main_v27, st_main_v26, st_main_cst_3, st_main_v25,
    st_main_cst_2] <;> rfl

theorem deg1_eq : A main_v78 = degT (A main_v6) := by
  rw [st_main_v78, st_main_v77, st_main_cst_15, st_main_v76, st_main_v75, st_main_v74, st_main_cst_14, st_main_v73,
    st_main_cst_13] <;> rfl

theorem deg2_eq : A main_v126 = degT (A main_v6) := by
  rw [st_main_v126, st_main_v125, st_main_cst_26, st_main_v124, st_main_v123, st_main_v122, st_main_cst_25, st_main_v121,
    st_main_cst_24] <;> rfl

/-! ## The column mean and variance of each round -/

theorem mean0_eq : A main_v39 = meanT (A main_v36) := by
  rw [st_main_v39, st_main_v38, st_main_cst_6, st_main_v37, st_main_cst_5] <;> rfl

theorem mean1_eq : A main_v87 = meanT (A main_v84) := by
  rw [st_main_v87, st_main_v86, st_main_cst_17, st_main_v85, st_main_cst_16] <;> rfl

theorem mean2_eq : A main_v135 = meanT (A main_v132) := by
  rw [st_main_v135, st_main_v134, st_main_cst_28, st_main_v133, st_main_cst_27] <;> rfl

theorem var0_eq : A main_v40 = varT (A main_v36) (A main_c_7) := by
  rw [st_main_v40, st_main_call1_call0_v1, st_main_call1_call0_v0, st_main_call1_cst_4, st_main_call1_v12, st_main_call1_cst_3,
    st_main_call1_v11, st_main_call1_v10, st_main_call1_v8, st_main_call1_cst_1, st_main_call1_v7, st_main_call1_v9,
    st_main_call1_cst_2, st_main_call1_v6, st_main_call1_v5, st_main_call1_v4, st_main_call1_v3, st_main_call1_v2,
    st_main_call1_cst_0, st_main_call1_v1, st_main_call1_v0, st_main_call1_cst] <;> rfl

theorem var1_eq : A main_v88 = varT (A main_v84) (A main_c_18) := by
  rw [st_main_v88, st_main_call4_call0_v1, st_main_call4_call0_v0, st_main_call4_cst_4, st_main_call4_v12, st_main_call4_cst_3,
    st_main_call4_v11, st_main_call4_v10, st_main_call4_v8, st_main_call4_cst_1, st_main_call4_v7, st_main_call4_v9,
    st_main_call4_cst_2, st_main_call4_v6, st_main_call4_v5, st_main_call4_v4, st_main_call4_v3, st_main_call4_v2,
    st_main_call4_cst_0, st_main_call4_v1, st_main_call4_v0, st_main_call4_cst] <;> rfl

theorem var2_eq : A main_v136 = varT (A main_v132) (A main_c_29) := by
  rw [st_main_v136, st_main_call7_call0_v1, st_main_call7_call0_v0, st_main_call7_cst_4, st_main_call7_v12, st_main_call7_cst_3,
    st_main_call7_v11, st_main_call7_v10, st_main_call7_v8, st_main_call7_cst_1, st_main_call7_v7, st_main_call7_v9,
    st_main_call7_cst_2, st_main_call7_v6, st_main_call7_v5, st_main_call7_v4, st_main_call7_v3, st_main_call7_v2,
    st_main_call7_cst_0, st_main_call7_v1, st_main_call7_v0, st_main_call7_cst] <;> rfl

/-- The zero the variance's count is taken from, in each round. -/
theorem c7_eq : A main_c_7 = constantI S_ 32 0#32 := st_main_c_7 V
theorem c18_eq : A main_c_18 = constantI S_ 32 0#32 := st_main_c_18 V
theorem c29_eq : A main_c_29 = constantI S_ 32 0#32 := st_main_c_29 V

end Cert.ReferenceIdeal.RefVal

end
-- ==== Proof.Bridge0.lean ====
/-
  Round 0, the two programs side by side.

  From launch memories that agree on the arguments: the shared data (landing sets, gather, padded attributes, degree) are
  the same on both sides, being the same expressions of the same arguments; the projected features are the same (both
  are the row-by-column sums plus the bias); the pre-activations are the same by the aggregation law, whose realness
  conditions hold (projected features of real inputs, padded real attributes, a real weight); the column statistics are
  the same expressions of equal pre-activations; and so the round's normalised output is the same.
-/
import proofs.«113076_j55267639165123_2_alg».proof.Proof.KLayer0
import proofs.«113076_j55267639165123_2_alg».proof.Proof.KReal
import proofs.«113076_j55267639165123_2_alg».proof.Proof.KStats
import proofs.«113076_j55267639165123_2_alg».proof.Proof.KWalk
import proofs.«113076_j55267639165123_2_alg».proof.Proof.RComp0
import proofs.«113076_j55267639165123_2_alg».proof.Proof.RCompL0
import proofs.«113076_j55267639165123_2_alg».proof.Proof.RCompShared

set_option maxRecDepth 16384
set_option maxHeartbeats 4000000

noncomputable section

namespace Cert.KernelIdeal.KVal

open Idealize.ShloMosaic Idealize.ShloMosaic.TcCoe Idealize.ShloMosaic.ValueIdx Idealize.SL.Sem Cert.KernelIdeal Cert.KernelIdeal.Gen
open Cert.Spec (Arr1 Arr2)

variable (m : (ℓ : Loc nD τ sig) → Buf (Elt Ideal) ℓ) (ρ : Dev nD → PrngReg) (c : Dev nD)
variable (V' : Valuation Cert.ReferenceIdeal.τ Cert.ReferenceIdeal.sig (Elt Ideal))

local notation "𝔄 " b:max => StableHlo.after Cert.ReferenceIdeal.RefVal.ops V' (Proc.devRef Proc.tc b)

/-- The reference's fold at each argument buffer is the kernel side's launch array (the two memories agree on the
    arguments, and no operation writes one). -/
structure Agree : Prop where
  a0 : (𝔄 Cert.ReferenceIdeal.main_arg0 : Arr2 100000 4) = m ((c : Thread nD τ).loc main_arg0)
  a1 : (𝔄 Cert.ReferenceIdeal.main_arg1 : (⟨2, ![2, 1600000]⟩ : Shape).Idx → BitVec 32) = m ((c : Thread nD τ).loc main_arg1)
  a2 : (𝔄 Cert.ReferenceIdeal.main_arg2 : Arr2 1600000 2) = m ((c : Thread nD τ).loc main_arg2)
  a3 : (𝔄 Cert.ReferenceIdeal.main_arg3 : Arr2 4 128) = m ((c : Thread nD τ).loc main_arg3)
  a4 : (𝔄 Cert.ReferenceIdeal.main_arg4 : Arr1 128) = m ((c : Thread nD τ).loc main_arg4)
  a5 : (𝔄 Cert.ReferenceIdeal.main_arg5 : Arr2 130 128) = m ((c : Thread nD τ).loc main_arg5)
  a6 : (𝔄 Cert.ReferenceIdeal.main_arg6 : Arr2 128 128) = m ((c : Thread nD τ).loc main_arg6)
  a7 : (𝔄 Cert.ReferenceIdeal.main_arg7 : Arr1 128) = m ((c : Thread nD τ).loc main_arg7)
  a8 : (𝔄 Cert.ReferenceIdeal.main_arg8 : Arr1 128) = m ((c : Thread nD τ).loc main_arg8)
  a9 : (𝔄 Cert.ReferenceIdeal.main_arg9 : Arr2 130 128) = m ((c : Thread nD τ).loc main_arg9)
  a10 : (𝔄 Cert.ReferenceIdeal.main_arg10 : Arr2 128 128) = m ((c : Thread nD τ).loc main_arg10)
  a11 : (𝔄 Cert.ReferenceIdeal.main_arg11 : Arr1 128) = m ((c : Thread nD τ).loc main_arg11)
  a12 : (𝔄 Cert.ReferenceIdeal.main_arg12 : Arr1 128) = m ((c : Thread nD τ).loc main_arg12)
  a13 : (𝔄 Cert.ReferenceIdeal.main_arg13 : Arr2 130 128) = m ((c : Thread nD τ).loc main_arg13)
  a14 : (𝔄 Cert.ReferenceIdeal.main_arg14 : Arr2 128 128) = m ((c : Thread nD τ).loc main_arg14)
  a15 : (𝔄 Cert.ReferenceIdeal.main_arg15 : Arr1 128) = m ((c : Thread nD τ).loc main_arg15)
  a16 : (𝔄 Cert.ReferenceIdeal.main_arg16 : Arr1 128) = m ((c : Thread nD τ).loc main_arg16)
  a17 : (𝔄 Cert.ReferenceIdeal.main_arg17 : Arr2 384 128) = m ((c : Thread nD τ).loc main_arg17)
  a18 : (𝔄 Cert.ReferenceIdeal.main_arg18 : Arr1 128) = m ((c : Thread nD τ).loc main_arg18)
  a19 : (𝔄 Cert.ReferenceIdeal.main_arg19 : Arr2 128 64) = m ((c : Thread nD τ).loc main_arg19)
  a20 : (𝔄 Cert.ReferenceIdeal.main_arg20 : Arr1 64) = m ((c : Thread nD τ).loc main_arg20)
  a21 : (𝔄 Cert.ReferenceIdeal.main_arg21 : Arr2 64 1) = m ((c : Thread nD τ).loc main_arg21)
  a22 : (𝔄 Cert.ReferenceIdeal.main_arg22 : Arr1 1) = m ((c : Thread nD τ).loc main_arg22)

variable {m c V'} (hA : Agree m c V')
include hA

/-! The node numbers, the padded attributes and the degree. -/

theorem src_same : (𝔄 Cert.ReferenceIdeal.main_v3 : (⟨1, ![1700000]⟩ : Shape).Idx → BitVec 32)
    = W1 (F := Ideal) m ρ c (Proc.devRef .tc main_v3) := by
  rw [Cert.ReferenceIdeal.RefVal.src_eq, hA.a1, srcK_eq]

theorem dst_same : (𝔄 Cert.ReferenceIdeal.main_v6 : (⟨1, ![1700000]⟩ : Shape).Idx → BitVec 32)
    = W1 (F := Ideal) m ρ c (Proc.devRef .tc main_v6) := by
  rw [Cert.ReferenceIdeal.RefVal.dst_eq, hA.a1, dstK_eq]

theorem ea_same : (𝔄 Cert.ReferenceIdeal.main_v8 : Arr2 1700000 2) = W1 (F := Ideal) m ρ c (Proc.devRef .tc main_v8) := by
  rw [Cert.ReferenceIdeal.RefVal.ea_eq, hA.a2, eaK_eq]

/-- The shared data of round 0 are the same on both sides. -/
theorem shared0_same : Cert.ReferenceIdeal.RefVal.sharedR0 V' = sharedK m ρ c := by
  unfold Cert.ReferenceIdeal.RefVal.sharedR0 sharedK
  have h1 : (𝔄 Cert.ReferenceIdeal.main_v23 : (⟨2, ![1700000, 1]⟩ : Shape).Idx → BitVec 32)
      = sidx (W1 (F := Ideal) m ρ c (Proc.devRef .tc main_v6)) := by
    rw [Cert.ReferenceIdeal.RefVal.sidx0_eq, dst_same ρ hA, sidx_eq]
  have h2 : (𝔄 Cert.ReferenceIdeal.main_v18 : (⟨2, ![1700000, 1]⟩ : Shape).Idx → BitVec 32)
      = gidx (W1 (F := Ideal) m ρ c (Proc.devRef .tc main_v3)) := by
    rw [Cert.ReferenceIdeal.RefVal.gidx0_eq, src_same ρ hA, gidx_eq]
  have h4 : (fun i : (⟨2, ![100000, 1]⟩ : Shape).Idx => (𝔄 Cert.ReferenceIdeal.main_v30 : Arr1 100000) (ix1 (i 0)))
      = (W1 (F := Ideal) m ρ c (Proc.devRef .tc main_v15) : Arr2 100000 1) := by
    funext i
    rw [denK_eq, Cert.ReferenceIdeal.RefVal.deg0_eq, dst_same ρ hA, dstK_eq, eq_ix2 i]
    exact (Cert.ReferenceIdeal.RRead.asCol_apply _ _ _ _).symm
  rw [h1, h2, ea_same ρ hA, h4]
  rfl

/-! The projected features, the pre-activation, the statistics and the output of round 0. -/

theorem h0_same : (𝔄 Cert.ReferenceIdeal.main_v12 : Arr2 100000 128) = W2 (F := Ideal) m ρ c (Proc.devRef .tc main_v19) := by
  funext i
  obtain ⟨r, q, rfl⟩ : ∃ (r : Fin 100000) (q : Fin 128), i = ix2 r q := ⟨i 0, i 1, eq_ix2 i⟩
  refine (Cert.ReferenceIdeal.RefVal.proj_at V' r q).trans ?_
  rw [hA.a0, hA.a3, hA.a4]
  exact (h0_at2 m ρ c r q).symm

theorem pre0_same (hpre : Cert.Pre_KernelIdeal m) :
    (𝔄 Cert.ReferenceIdeal.main_v36 : Arr2 100000 128) = W4 (F := Ideal) m ρ c (Proc.devRef .tc main_v32) := by
  funext i
  obtain ⟨r, q, rfl⟩ : ∃ (r : Fin 100000) (q : Fin 128), i = ix2 r q := ⟨i 0, i 1, eq_ix2 i⟩
  refine (Cert.ReferenceIdeal.RefVal.pre0_at V' r q).trans ?_
  rw [shared0_same ρ hA, h0_same ρ hA, hA.a5, hA.a6]
  refine Eq.trans ?_ (pre0K m ρ c r q).symm
  have hW := (inputs_real m c hpre).2.2.2.2.1
  exact (Cert.Network.preK_eq_preR (sharedK m ρ c) _ _ _ (fun j => h0K_real m ρ c hpre _)
    (fun j => eaK_real m ρ c hpre j) hW r q).symm

theorem mean0_same (hpre : Cert.Pre_KernelIdeal m) :
    (𝔄 Cert.ReferenceIdeal.main_v39 : Arr1 128) = W5 (F := Ideal) m ρ c (Proc.devRef .tc main_v35) := by
  rw [Cert.ReferenceIdeal.RefVal.mean0_eq, pre0_same ρ hA hpre, mean0K_eq]

theorem var0_same (hpre : Cert.Pre_KernelIdeal m) :
    (𝔄 Cert.ReferenceIdeal.main_v40 : Arr1 128) = W6 (F := Ideal) m ρ c (Proc.devRef .tc main_v36) := by
  rw [Cert.ReferenceIdeal.RefVal.var0_eq, pre0_same ρ hA hpre, Cert.ReferenceIdeal.RefVal.c7_eq, var0K_eq, pre_at5,
    zero0K_eq]

theorem h1_same (hpre : Cert.Pre_KernelIdeal m) :
    (𝔄 Cert.ReferenceIdeal.main_v60 : Arr2 100000 128) = W7 (F := Ideal) m ρ c (Proc.devRef .tc main_v37) := by
  funext i
  obtain ⟨r, q, rfl⟩ : ∃ (r : Fin 100000) (q : Fin 128), i = ix2 r q := ⟨i 0, i 1, eq_ix2 i⟩
  refine (Cert.ReferenceIdeal.RefVal.unit0_at V' r q).trans ?_
  rw [pre0_same ρ hA hpre, mean0_same ρ hA hpre, var0_same ρ hA hpre, hA.a7, hA.a8]
  refine Eq.trans ?_ (unit0_at7 m ρ c r q).symm
  rw [pre_at6, mean_at6, arg7_at6, arg8_at6]

end Cert.KernelIdeal.KVal

end
-- ==== Proof.KHost3.lean ====
/-
  The second layer's aggregation stretch on the kernel side, read off the run: the aggregated neighbour features of the
  first layer's output, and the two pieces of the second neighbour weight; and the values this stretch and the region after
  it use that were produced earlier in the run, each the same value where it was produced.
-/
import proofs.«113076_j55267639165123_2_alg».proof.Proof.KHost1

set_option maxRecDepth 16384

noncomputable section

namespace Cert.KernelIdeal.KVal

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (ρ : Dev nD → PrngReg) (c : Dev nD)

set_option maxHeartbeats 4000000 in
theorem G1_at8 : (W8 (F := Ideal) m ρ c (Proc.devRef .tc main_v47) : S100000x128.Idx → EReal)
    = aggK (W7 (F := Ideal) m ρ c (Proc.devRef .tc main_v37)) (W7 (F := Ideal) m ρ c (Proc.devRef .tc main_v3))
        (W7 (F := Ideal) m ρ c (Proc.devRef .tc main_v6)) := by
  unfold aggK gidx sidx zeros128
  show StableHlo.after hostOps3 (W7 m ρ c) (Proc.devRef .tc main_v47) = _
  after_results

theorem Wn1_1_at8 : (W8 (F := Ideal) m ρ c (Proc.devRef .tc main_v48) : S128x128.Idx → EReal)
    = extractStridedSlice S128x128 ![0, 0] (W7 (F := Ideal) m ρ c (Proc.devRef .tc main_arg9) : S130x128.Idx → EReal)
        slices_S130x128_S128x128_0_0 := by
  show StableHlo.after hostOps3 (W7 m ρ c) (Proc.devRef .tc main_v48) = _
  after_results

theorem Wn2_1_at8 : (W8 (F := Ideal) m ρ c (Proc.devRef .tc main_v49) : S2x128.Idx → EReal)
    = extractStridedSlice S2x128 ![128, 0] (W7 (F := Ideal) m ρ c (Proc.devRef .tc main_arg9) : S130x128.Idx → EReal)
        slices_S130x128_S2x128_128_0 := by
  show StableHlo.after hostOps3 (W7 m ρ c) (Proc.devRef .tc main_v49) = _
  after_results

/-! The values computed before the first region, at this stretch's entry. -/
theorem src_at7 : W7 (F := Ideal) m ρ c (Proc.devRef .tc main_v3) = W1 m ρ c (Proc.devRef .tc main_v3) := by
  rb7; hb; hb; rb4; hb; rb2; rfl
theorem dst_at7 : W7 (F := Ideal) m ρ c (Proc.devRef .tc main_v6) = W1 m ρ c (Proc.devRef .tc main_v6) := by
  rb7; hb; hb; rb4; hb; rb2; rfl
theorem arg9_at7 : W7 (F := Ideal) m ρ c (Proc.devRef .tc main_arg9) = m ((c : Thread nD τ).loc main_arg9) := by
  rb7; hb; hb; rb4; hb; rb2; hb; rfl
/-! … and at the update region's entry. -/
theorem Se_at8 : W8 (F := Ideal) m ρ c (Proc.devRef .tc main_v18) = W1 m ρ c (Proc.devRef .tc main_v18) := by
  hb; rb7; hb; hb; refine Eq.trans (W4_in m ρ c 1 rfl) ?_; hb; rb2; rfl
theorem den_at8 : W8 (F := Ideal) m ρ c (Proc.devRef .tc main_v15) = W1 m ρ c (Proc.devRef .tc main_v15) := by
  hb; rb7; hb; hb; refine Eq.trans (W4_in m ρ c 6 rfl) ?_; hb; rb2; rfl
theorem h1_at8 : W8 (F := Ideal) m ρ c (Proc.devRef .tc main_v37) = W7 m ρ c (Proc.devRef .tc main_v37) := by
  hb; rfl
theorem arg10_at8 : W8 (F := Ideal) m ρ c (Proc.devRef .tc main_arg10) = m ((c : Thread nD τ).loc main_arg10) := by
  hb; rb7; hb; hb; rb4; hb; rb2; hb; rfl

end Cert.KernelIdeal.KVal

end
-- ==== Proof.KLayer1.lean ====
/-
  The kernel side's second pre-activation is the abstract arrangement "add over the landing edges, then multiply" of the
  run's own shared data — the landing sets of its destination indices, its gather by its source indices, its padded edge
  attributes, its clipped degree — applied to the first layer's normalised output.
-/
import proofs.«113076_j55267639165123_2_alg».proof.Proof.KLayer0
import proofs.«113076_j55267639165123_2_alg».proof.Proof.KHost3

set_option maxRecDepth 16384

noncomputable section

namespace Cert.KernelIdeal.KVal

open Idealize.ShloMosaic Idealize.ShloMosaic.TcCoe Idealize.ShloMosaic.ValueIdx Idealize.SL.Sem Cert.KernelIdeal Cert.KernelIdeal.Gen
open Finset

variable (m : (ℓ : Loc nD τ sig) → Buf (Elt Ideal) ℓ) (ρ : Dev nD → PrngReg) (c : Dev nD)

/-- The second update region's output, in the abstract arrangement. -/
theorem pre1K (r : Fin 100000) (q : Fin 128) :
    (W9 (F := Ideal) m ρ c (Proc.devRef .tc main_v50) : S100000x128.Idx → EReal) (ix2 r q)
      = Cert.Network.preK (sharedK m ρ c) (W7 (F := Ideal) m ρ c (Proc.devRef .tc main_v37))
          (m ((c : Thread nD τ).loc main_arg9)) (m ((c : Thread nD τ).loc main_arg10)) r q := by
  rw [node1_at9, G1_at8, Se_at8, h1_at8, Wn1_1_at8, Wn2_1_at8, arg10_at8, den_at8, src_at7, dst_at7, arg9_at7, Se_def_at1]
  unfold Cert.Spec.nodeAt Cert.Network.preK Cert.Network.aggOf sharedK Cert.Network.mkShared
  have hW1 : ∀ k : Fin 128, extractStridedSlice S128x128 ![0, 0] (m ((c : Thread nD τ).loc main_arg9) : S130x128.Idx → EReal)
      slices_S130x128_S128x128_0_0 (ix2 k q) = (m ((c : Thread nD τ).loc main_arg9) : S130x128.Idx → EReal) (ix2 (Fin.castAdd 2 k) q) :=
    fun k => slice2_axis0_apply 0 _ _ k q (Fin.castAdd 2 k) (by simp)
  have hW2 : ∀ k : Fin 2, extractStridedSlice S2x128 ![128, 0] (m ((c : Thread nD τ).loc main_arg9) : S130x128.Idx → EReal)
      slices_S130x128_S2x128_128_0 (ix2 k q) = (m ((c : Thread nD τ).loc main_arg9) : S130x128.Idx → EReal) (ix2 (Fin.natAdd 128 k) q) :=
    fun k => slice2_axis0_apply 128 _ _ k q (Fin.natAdd 128 k) (by simp)
  simp only [aggK_apply, aggE_apply, hW1, hW2]

end Cert.KernelIdeal.KVal

end
-- ==== Proof.KRealL.lean ====
/-
  The features entering the second and the third layer are real numbers on the kernel side.

  Each is a normalised layer output where the run keeps it: a row divided by the larger of its Euclidean length and a
  positive constant, and such an entry is real whatever the row holds.
-/
import proofs.«113076_j55267639165123_2_alg».proof.Proof.KOut
import proofs.«113076_j55267639165123_2_alg».proof.Proof.Realness

set_option maxRecDepth 16384

noncomputable section

namespace Cert.KernelIdeal.KVal

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (ρ : Dev nD → PrngReg) (c : Dev nD)

/-- Every entry of the first layer's normalised output, where the run keeps it, is real. -/
theorem h1K_real (i : S100000x128.Idx) :
    ∃ x : ℝ, (W7 (F := Ideal) m ρ c (Proc.devRef .tc main_v37) : S100000x128.Idx → EReal) i = (x : EReal) := by
  obtain ⟨r, q, rfl⟩ : ∃ (r : Fin 100000) (q : Fin 128), i = ix2 r q := ⟨i 0, i 1, eq_ix2 i⟩
  rw [unit0_at7]
  exact Cert.Realness.unitAt_real _ _ _ _ _ _ _

/-- Every entry of the second layer's normalised output, where the run keeps it, is real. -/
theorem h2K_real (i : S100000x128.Idx) :
    ∃ x : ℝ, (W12 (F := Ideal) m ρ c (Proc.devRef .tc main_v55) : S100000x128.Idx → EReal) i = (x : EReal) := by
  obtain ⟨r, q, rfl⟩ : ∃ (r : Fin 100000) (q : Fin 128), i = ix2 r q := ⟨i 0, i 1, eq_ix2 i⟩
  rw [unit1_at12]
  exact Cert.Realness.unitAt_real _ _ _ _ _ _ _

end Cert.KernelIdeal.KVal

end
-- ==== Proof.RCompL1.lean ====
/-
  The reference's second round, as the specification states it.

  The clipped node update. By the stage equations the update's buffer is  max(agg / deg + h · Ws, 0)  with deg the clipped
  degree laid as a column and repeated across the columns; read at an entry (r, q) the aggregate is the scatter-add's
  entry: zero plus the sum, over the edge rows whose destination index is r, of the message's entry (e, q); and the
  message's entry is the 130 columns of the joined row (128 gathered features, then 2 edge attributes) against column q
  of the neighbour weight. That is the specification's  multiply first, add over the landing edges after  arrangement
  over the data the round shares: the destination indices, the gather at the source indices, the padded edge attributes
  and the clipped degree.

  The normalised output. By the stage equations the round's output buffer is the affine normalisation of the update by
  the column mean and variance, divided row by row by the larger of the row's length and the small constant; read at an
  entry that is the specification's normalised value.
-/
import proofs.«113076_j55267639165123_2_alg».proof.Proof.RefStage1
import proofs.«113076_j55267639165123_2_alg».proof.Proof.RefStage2
import proofs.«113076_j55267639165123_2_alg».proof.Proof.Network
import proofs.«113076_j55267639165123_2_alg».proof.Proof.RReadNode
import proofs.«113076_j55267639165123_2_alg».proof.Proof.RReadMsg
import proofs.«113076_j55267639165123_2_alg».proof.Proof.RReadScatter
import proofs.«113076_j55267639165123_2_alg».proof.Proof.RReadUnit

set_option maxHeartbeats 4000000

noncomputable section

namespace Cert.ReferenceIdeal.RefVal

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.RRead

variable (V : Valuation τ sig (Elt Ideal))

/-- What the reference's run leaves at a buffer, from contents V. -/
local notation:max "A " b:max => after ops V (Proc.devRef Proc.tc b)

/-- What the second round shares: the destination indices as a column, the gather at the source indices, the padded edge
    attributes, and the clipped degree as a one-column array. -/
def sharedR1 : Cert.Network.Shared 1700000 :=
  Cert.Network.mkShared (A main_v71)
    (fun h => Host.gather gather_S100000x128_S1700000x1_S1700000x128_1_0_n_n_0_1_1128 h (A main_v66)) (A main_v8)
    (fun i => A main_v78 (ix1 (i 0)))

/-- Entry (r, q) of the second round's clipped update. -/
theorem pre1_at (r : Fin 100000) (q : Fin 128) :
    (A main_v84) (ix2 r q) = Cert.Network.preR (sharedR1 V) (A main_v60) (A main_arg9) (A main_arg10) r q := by
  rw [st_main_v84, st_main_call3_v0, st_main_call3_cst, st_main_v83, st_main_v82, st_main_v81, st_main_v80, st_main_v79,
    node_read, st_main_v72, scatter_read, st_main_v70, st_main_cst_12, splat_apply, Ideal.ofBits_zero_f32, zero_add,
    st_main_v69, st_main_v68, st_main_v67]
  unfold Cert.Network.preR
  refine congrArg₂ (max : EReal → EReal → EReal) (congrArg₂ ((· + ·) : EReal → EReal → EReal) (congrArg₂ Ideal.div ?_ rfl) rfl) rfl
  refine Finset.sum_congr rfl fun e _ => ?_
  rw [msg_read]
  refine Finset.sum_congr rfl fun k _ => ?_
  refine congrArg (· * _) ?_
  refine Fin.addCases (m := 128) (n := 2) (fun i => ?_) (fun i => ?_) k
  · rw [Fin.addCases_left]; exact cat_left _ _ e i
  · rw [Fin.addCases_right]; exact cat_right _ _ e i

/-- Entry (r, q) of the second round's output. -/
theorem unit1_at (r : Fin 100000) (q : Fin 128) :
    (A main_v108) (ix2 r q)
      = Cert.Spec.unitAt (A main_v84) (A main_v87) (A main_v88) (A main_arg11) (A main_arg12) r q := by
  rw [st_main_v108, st_main_v107, st_main_v106, st_main_v105, st_main_cst_20, st_main_v104, st_main_call5_v2, st_main_call5_v1,
    st_main_call5_cst, st_main_call5_v0, st_main_v103, st_main_v102, st_main_v101, st_main_v100, st_main_v99, st_main_v98,
    st_main_v97, st_main_v96, st_main_v95, st_main_v94, st_main_v93, st_main_v92, st_main_cst_19, st_main_v91, st_main_v90,
    st_main_v89]
  exact unit_read _ _ _ _ _ r q

end Cert.ReferenceIdeal.RefVal

end
-- ==== Proof.Bridge1.lean ====
/-
  Round 1, the two programs side by side.

  The second round's shared data (landing sets, gather, padded attributes, degree) are again the same expressions of the
  same arguments on both sides; the features entering the round are the first round's normalised outputs, equal by the
  round before and real because a normalised row always is; so the pre-activations are the same by the aggregation law,
  the column statistics are the same expressions of equal pre-activations, and the round's normalised output is the same.
-/
import proofs.«113076_j55267639165123_2_alg».proof.Proof.Bridge0
import proofs.«113076_j55267639165123_2_alg».proof.Proof.KLayer1
import proofs.«113076_j55267639165123_2_alg».proof.Proof.KRealL
import proofs.«113076_j55267639165123_2_alg».proof.Proof.RCompL1

set_option maxRecDepth 16384
set_option maxHeartbeats 4000000

noncomputable section

namespace Cert.KernelIdeal.KVal

open Idealize.ShloMosaic Idealize.ShloMosaic.TcCoe Idealize.ShloMosaic.ValueIdx Idealize.SL.Sem Cert.KernelIdeal Cert.KernelIdeal.Gen
open Cert.Spec (Arr1 Arr2)

variable (m : (ℓ : Loc nD τ sig) → Buf (Elt Ideal) ℓ) (ρ : Dev nD → PrngReg) (c : Dev nD)
variable (V' : Valuation Cert.ReferenceIdeal.τ Cert.ReferenceIdeal.sig (Elt Ideal))

local notation "𝔄 " b:max => StableHlo.after Cert.ReferenceIdeal.RefVal.ops V' (Proc.devRef Proc.tc b)

variable {m c V'} (hA : Agree m c V')
include hA

/-- The shared data of round 1 are the same on both sides. -/
theorem shared1_same : Cert.ReferenceIdeal.RefVal.sharedR1 V' = sharedK m ρ c := by
  unfold Cert.ReferenceIdeal.RefVal.sharedR1 sharedK
  have h1 : (𝔄 Cert.ReferenceIdeal.main_v71 : (⟨2, ![1700000, 1]⟩ : Shape).Idx → BitVec 32)
      = sidx (W1 (F := Ideal) m ρ c (Proc.devRef .tc main_v6)) := by
    rw [Cert.ReferenceIdeal.RefVal.sidx1_eq, dst_same ρ hA, sidx_eq]
  have h2 : (𝔄 Cert.ReferenceIdeal.main_v66 : (⟨2, ![1700000, 1]⟩ : Shape).Idx → BitVec 32)
      = gidx (W1 (F := Ideal) m ρ c (Proc.devRef .tc main_v3)) := by
    rw [Cert.ReferenceIdeal.RefVal.gidx1_eq, src_same ρ hA, gidx_eq]
  have h4 : (fun i : (⟨2, ![100000, 1]⟩ : Shape).Idx => (𝔄 Cert.ReferenceIdeal.main_v78 : Arr1 100000) (ix1 (i 0)))
      = (W1 (F := Ideal) m ρ c (Proc.devRef .tc main_v15) : Arr2 100000 1) := by
    funext i
    rw [denK_eq, Cert.ReferenceIdeal.RefVal.deg1_eq, dst_same ρ hA, dstK_eq, eq_ix2 i]
    exact (Cert.ReferenceIdeal.RRead.asCol_apply _ _ _ _).symm
  rw [h1, h2, ea_same ρ hA, h4]
  rfl

/-! The pre-activation, the statistics and the output of round 1. -/

theorem pre1_same (hpre : Cert.Pre_KernelIdeal m) :
    (𝔄 Cert.ReferenceIdeal.main_v84 : Arr2 100000 128) = W9 (F := Ideal) m ρ c (Proc.devRef .tc main_v50) := by
  funext i
  obtain ⟨r, q, rfl⟩ : ∃ (r : Fin 100000) (q : Fin 128), i = ix2 r q := ⟨i 0, i 1, eq_ix2 i⟩
  refine (Cert.ReferenceIdeal.RefVal.pre1_at V' r q).trans ?_
  rw [shared1_same ρ hA, h1_same ρ hA hpre, hA.a9, hA.a10]
  refine Eq.trans ?_ (pre1K m ρ c r q).symm
  have hW := (inputs_real m c hpre).2.2.2.2.2.1
  exact (Cert.Network.preK_eq_preR (sharedK m ρ c) _ _ _ (fun j => h1K_real m ρ c _)
    (fun j => eaK_real m ρ c hpre j) hW r q).symm

theorem mean1_same (hpre : Cert.Pre_KernelIdeal m) :
    (𝔄 Cert.ReferenceIdeal.main_v87 : Arr1 128) = W10 (F := Ideal) m ρ c (Proc.devRef .tc main_v53) := by
  rw [Cert.ReferenceIdeal.RefVal.mean1_eq, pre1_same ρ hA hpre, mean1K_eq]

theorem var1_same (hpre : Cert.Pre_KernelIdeal m) :
    (𝔄 Cert.ReferenceIdeal.main_v88 : Arr1 128) = W11 (F := Ideal) m ρ c (Proc.devRef .tc main_v54) := by
  rw [Cert.ReferenceIdeal.RefVal.var1_eq, pre1_same ρ hA hpre, Cert.ReferenceIdeal.RefVal.c18_eq, var1K_eq, pre_at10,
    zero1K_eq]

theorem h2_same (hpre : Cert.Pre_KernelIdeal m) :
    (𝔄 Cert.ReferenceIdeal.main_v108 : Arr2 100000 128) = W12 (F := Ideal) m ρ c (Proc.devRef .tc main_v55) := by
  funext i
  obtain ⟨r, q, rfl⟩ : ∃ (r : Fin 100000) (q : Fin 128), i = ix2 r q := ⟨i 0, i 1, eq_ix2 i⟩
  refine (Cert.ReferenceIdeal.RefVal.unit1_at V' r q).trans ?_
  rw [pre1_same ρ hA hpre, mean1_same ρ hA hpre, var1_same ρ hA hpre, hA.a11, hA.a12]
  refine Eq.trans ?_ (unit1_at12 m ρ c r q).symm
  rw [pre_at11, mean_at11, arg11_at11, arg12_at11]

end Cert.KernelIdeal.KVal

end
-- ==== Proof.KHost5.lean ====
/-
  The third layer's aggregation stretch on the kernel side, read off the run: the aggregated neighbour features of the
  second layer's output, and the two pieces of the third neighbour weight; and the values this stretch and the region after
  it use that were produced earlier in the run, each the same value where it was produced.
-/
import proofs.«113076_j55267639165123_2_alg».proof.Proof.KHost1

set_option maxRecDepth 16384

noncomputable section

namespace Cert.KernelIdeal.KVal

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (ρ : Dev nD → PrngReg) (c : Dev nD)

set_option maxHeartbeats 4000000 in
theorem G2_at13 : (W13 (F := Ideal) m ρ c (Proc.devRef .tc main_v65) : S100000x128.Idx → EReal)
    = aggK (W12 (F := Ideal) m ρ c (Proc.devRef .tc main_v55)) (W12 (F := Ideal) m ρ c (Proc.devRef .tc main_v3))
        (W12 (F := Ideal) m ρ c (Proc.devRef .tc main_v6)) := by
  unfold aggK gidx sidx zeros128
  show StableHlo.after hostOps5 (W12 m ρ c) (Proc.devRef .tc main_v65) = _
  after_results

theorem Wn1_2_at13 : (W13 (F := Ideal) m ρ c (Proc.devRef .tc main_v66) : S128x128.Idx → EReal)
    = extractStridedSlice S128x128 ![0, 0] (W12 (F := Ideal) m ρ c (Proc.devRef .tc main_arg13) : S130x128.Idx → EReal)
        slices_S130x128_S128x128_0_0 := by
  show StableHlo.after hostOps5 (W12 m ρ c) (Proc.devRef .tc main_v66) = _
  after_results

theorem Wn2_2_at13 : (W13 (F := Ideal) m ρ c (Proc.devRef .tc main_v67) : S2x128.Idx → EReal)
    = extractStridedSlice S2x128 ![128, 0] (W12 (F := Ideal) m ρ c (Proc.devRef .tc main_arg13) : S130x128.Idx → EReal)
        slices_S130x128_S2x128_128_0 := by
  show StableHlo.after hostOps5 (W12 m ρ c) (Proc.devRef .tc main_v67) = _
  after_results

/-! The values computed before the first region, at this stretch's entry. -/
theorem src_at12 : W12 (F := Ideal) m ρ c (Proc.devRef .tc main_v3) = W1 m ρ c (Proc.devRef .tc main_v3) := by
  rb12; hb; hb; rb9; hb; rb7; hb; hb; rb4; hb; rb2; rfl
theorem dst_at12 : W12 (F := Ideal) m ρ c (Proc.devRef .tc main_v6) = W1 m ρ c (Proc.devRef .tc main_v6) := by
  rb12; hb; hb; rb9; hb; rb7; hb; hb; rb4; hb; rb2; rfl
theorem arg13_at12 : W12 (F := Ideal) m ρ c (Proc.devRef .tc main_arg13) = m ((c : Thread nD τ).loc main_arg13) := by
  rb12; hb; hb; rb9; hb; rb7; hb; hb; rb4; hb; rb2; hb; rfl
/-! … and at the update region's entry. -/
theorem Se_at13 : W13 (F := Ideal) m ρ c (Proc.devRef .tc main_v18) = W1 m ρ c (Proc.devRef .tc main_v18) := by
  hb; rb12; hb; hb; refine Eq.trans (W9_in m ρ c 1 rfl) ?_; hb; rb7; hb; hb; refine Eq.trans (W4_in m ρ c 1 rfl) ?_; hb; rb2; rfl
theorem den_at13 : W13 (F := Ideal) m ρ c (Proc.devRef .tc main_v15) = W1 m ρ c (Proc.devRef .tc main_v15) := by
  hb; rb12; hb; hb; refine Eq.trans (W9_in m ρ c 6 rfl) ?_; hb; rb7; hb; hb; refine Eq.trans (W4_in m ρ c 6 rfl) ?_; hb; rb2; rfl
theorem h2_at13 : W13 (F := Ideal) m ρ c (Proc.devRef .tc main_v55) = W12 m ρ c (Proc.devRef .tc main_v55) := by
  hb; rfl
theorem arg14_at13 : W13 (F := Ideal) m ρ c (Proc.devRef .tc main_arg14) = m ((c : Thread nD τ).loc main_arg14) := by
  hb; rb12; hb; hb; rb9; hb; rb7; hb; hb; rb4; hb; rb2; hb; rfl

end Cert.KernelIdeal.KVal

end
-- ==== Proof.KLayer2.lean ====
/-
  The kernel side's third pre-activation is the abstract arrangement "add over the landing edges, then multiply" of the
  run's own shared data — the landing sets of its destination indices, its gather by its source indices, its padded edge
  attributes, its clipped degree — applied to the second layer's normalised output.
-/
import proofs.«113076_j55267639165123_2_alg».proof.Proof.KLayer0
import proofs.«113076_j55267639165123_2_alg».proof.Proof.KHost5

set_option maxRecDepth 16384

noncomputable section

namespace Cert.KernelIdeal.KVal

open Idealize.ShloMosaic Idealize.ShloMosaic.TcCoe Idealize.ShloMosaic.ValueIdx Idealize.SL.Sem Cert.KernelIdeal Cert.KernelIdeal.Gen
open Finset

variable (m : (ℓ : Loc nD τ sig) → Buf (Elt Ideal) ℓ) (ρ : Dev nD → PrngReg) (c : Dev nD)

/-- The third update region's output, in the abstract arrangement. -/
theorem pre2K (r : Fin 100000) (q : Fin 128) :
    (W14 (F := Ideal) m ρ c (Proc.devRef .tc main_v68) : S100000x128.Idx → EReal) (ix2 r q)
      = Cert.Network.preK (sharedK m ρ c) (W12 (F := Ideal) m ρ c (Proc.devRef .tc main_v55))
          (m ((c : Thread nD τ).loc main_arg13)) (m ((c : Thread nD τ).loc main_arg14)) r q := by
  rw [node2_at14, G2_at13, Se_at13, h2_at13, Wn1_2_at13, Wn2_2_at13, arg14_at13, den_at13, src_at12, dst_at12, arg13_at12, Se_def_at1]
  unfold Cert.Spec.nodeAt Cert.Network.preK Cert.Network.aggOf sharedK Cert.Network.mkShared
  have hW1 : ∀ k : Fin 128, extractStridedSlice S128x128 ![0, 0] (m ((c : Thread nD τ).loc main_arg13) : S130x128.Idx → EReal)
      slices_S130x128_S128x128_0_0 (ix2 k q) = (m ((c : Thread nD τ).loc main_arg13) : S130x128.Idx → EReal) (ix2 (Fin.castAdd 2 k) q) :=
    fun k => slice2_axis0_apply 0 _ _ k q (Fin.castAdd 2 k) (by simp)
  have hW2 : ∀ k : Fin 2, extractStridedSlice S2x128 ![128, 0] (m ((c : Thread nD τ).loc main_arg13) : S130x128.Idx → EReal)
      slices_S130x128_S2x128_128_0 (ix2 k q) = (m ((c : Thread nD τ).loc main_arg13) : S130x128.Idx → EReal) (ix2 (Fin.natAdd 128 k) q) :=
    fun k => slice2_axis0_apply 128 _ _ k q (Fin.natAdd 128 k) (by simp)
  simp only [aggK_apply, aggE_apply, hW1, hW2]

end Cert.KernelIdeal.KVal

end
-- ==== Proof.RCompL2.lean ====
/-
  The reference's third round, as the specification states it.

  The clipped node update. By the stage equations the update's buffer is  max(agg / deg + h · Ws, 0)  with deg the clipped
  degree laid as a column and repeated across the columns; read at an entry (r, q) the aggregate is the scatter-add's
  entry: zero plus the sum, over the edge rows whose destination index is r, of the message's entry (e, q); and the
  message's entry is the 130 columns of the joined row (128 gathered features, then 2 edge attributes) against column q
  of the neighbour weight. That is the specification's  multiply first, add over the landing edges after  arrangement
  over the data the round shares: the destination indices, the gather at the source indices, the padded edge attributes
  and the clipped degree.

  The normalised output. By the stage equations the round's output buffer is the affine normalisation of the update by
  the column mean and variance, divided row by row by the larger of the row's length and the small constant; read at an
  entry that is the specification's normalised value.
-/
import proofs.«113076_j55267639165123_2_alg».proof.Proof.RefStage2
import proofs.«113076_j55267639165123_2_alg».proof.Proof.RefStage3
import proofs.«113076_j55267639165123_2_alg».proof.Proof.Network
import proofs.«113076_j55267639165123_2_alg».proof.Proof.RReadNode
import proofs.«113076_j55267639165123_2_alg».proof.Proof.RReadMsg
import proofs.«113076_j55267639165123_2_alg».proof.Proof.RReadScatter
import proofs.«113076_j55267639165123_2_alg».proof.Proof.RReadUnit

set_option maxHeartbeats 4000000

noncomputable section

namespace Cert.ReferenceIdeal.RefVal

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.RRead

variable (V : Valuation τ sig (Elt Ideal))

/-- What the reference's run leaves at a buffer, from contents V. -/
local notation:max "A " b:max => after ops V (Proc.devRef Proc.tc b)

/-- What the third round shares: the destination indices as a column, the gather at the source indices, the padded edge
    attributes, and the clipped degree as a one-column array. -/
def sharedR2 : Cert.Network.Shared 1700000 :=
  Cert.Network.mkShared (A main_v119)
    (fun h => Host.gather gather_S100000x128_S1700000x1_S1700000x128_1_0_n_n_0_1_1128 h (A main_v114)) (A main_v8)
    (fun i => A main_v126 (ix1 (i 0)))

/-- Entry (r, q) of the third round's clipped update. -/
theorem pre2_at (r : Fin 100000) (q : Fin 128) :
    (A main_v132) (ix2 r q) = Cert.Network.preR (sharedR2 V) (A main_v108) (A main_arg13) (A main_arg14) r q := by
  rw [st_main_v132, st_main_call6_v0, st_main_call6_cst, st_main_v131, st_main_v130, st_main_v129, st_main_v128, st_main_v127,
    node_read, st_main_v120, scatter_read, st_main_v118, st_main_cst_23, splat_apply, Ideal.ofBits_zero_f32, zero_add,
    st_main_v117, st_main_v116, st_main_v115]
  unfold Cert.Network.preR
  refine congrArg₂ (max : EReal → EReal → EReal) (congrArg₂ ((· + ·) : EReal → EReal → EReal) (congrArg₂ Ideal.div ?_ rfl) rfl) rfl
  refine Finset.sum_congr rfl fun e _ => ?_
  rw [msg_read]
  refine Finset.sum_congr rfl fun k _ => ?_
  refine congrArg (· * _) ?_
  refine Fin.addCases (m := 128) (n := 2) (fun i => ?_) (fun i => ?_) k
  · rw [Fin.addCases_left]; exact cat_left _ _ e i
  · rw [Fin.addCases_right]; exact cat_right _ _ e i

/-- Entry (r, q) of the third round's output. -/
theorem unit2_at (r : Fin 100000) (q : Fin 128) :
    (A main_v156) (ix2 r q)
      = Cert.Spec.unitAt (A main_v132) (A main_v135) (A main_v136) (A main_arg15) (A main_arg16) r q := by
  rw [st_main_v156, st_main_v155, st_main_v154, st_main_v153, st_main_cst_31, st_main_v152, st_main_call8_v2, st_main_call8_v1,
    st_main_call8_cst, st_main_call8_v0, st_main_v151, st_main_v150, st_main_v149, st_main_v148, st_main_v147, st_main_v146,
    st_main_v145, st_main_v144, st_main_v143, st_main_v142, st_main_v141, st_main_v140, st_main_cst_30, st_main_v139, st_main_v138,
    st_main_v137]
  exact unit_read _ _ _ _ _ r q

end Cert.ReferenceIdeal.RefVal

end
-- ==== Proof.Bridge2.lean ====
/-
  Round 2, the two programs side by side.

  From launch memories that agree on the arguments, and with the second round's outputs already the same on both sides:
  the shared data of the third round (landing sets, gather, padded attributes, degree) are the same, being the same
  expressions of the same arguments; the pre-activations are the same by the aggregation law, whose realness conditions
  hold (a normalised row is real whatever it holds, the padded attributes of real attributes are real, the weight is
  real); the column statistics are the same expressions of equal pre-activations; and so the round's normalised output is
  the same.
-/
import proofs.«113076_j55267639165123_2_alg».proof.Proof.Bridge1
import proofs.«113076_j55267639165123_2_alg».proof.Proof.KLayer2
import proofs.«113076_j55267639165123_2_alg».proof.Proof.KRealL
import proofs.«113076_j55267639165123_2_alg».proof.Proof.RCompL2

set_option maxRecDepth 16384
set_option maxHeartbeats 4000000

noncomputable section

namespace Cert.KernelIdeal.KVal

open Idealize.ShloMosaic Idealize.ShloMosaic.TcCoe Idealize.ShloMosaic.ValueIdx Idealize.SL.Sem Cert.KernelIdeal Cert.KernelIdeal.Gen
open Cert.Spec (Arr1 Arr2)

variable (m : (ℓ : Loc nD τ sig) → Buf (Elt Ideal) ℓ) (ρ : Dev nD → PrngReg) (c : Dev nD)
variable (V' : Valuation Cert.ReferenceIdeal.τ Cert.ReferenceIdeal.sig (Elt Ideal))

local notation "𝔄 " b:max => StableHlo.after Cert.ReferenceIdeal.RefVal.ops V' (Proc.devRef Proc.tc b)

variable {m c V'} (hA : Agree m c V')
include hA

/-- The shared data of round 2 are the same on both sides. -/
theorem shared2_same : Cert.ReferenceIdeal.RefVal.sharedR2 V' = sharedK m ρ c := by
  unfold Cert.ReferenceIdeal.RefVal.sharedR2 sharedK
  have h1 : (𝔄 Cert.ReferenceIdeal.main_v119 : (⟨2, ![1700000, 1]⟩ : Shape).Idx → BitVec 32)
      = sidx (W1 (F := Ideal) m ρ c (Proc.devRef .tc main_v6)) := by
    rw [Cert.ReferenceIdeal.RefVal.sidx2_eq, dst_same ρ hA, sidx_eq]
  have h2 : (𝔄 Cert.ReferenceIdeal.main_v114 : (⟨2, ![1700000, 1]⟩ : Shape).Idx → BitVec 32)
      = gidx (W1 (F := Ideal) m ρ c (Proc.devRef .tc main_v3)) := by
    rw [Cert.ReferenceIdeal.RefVal.gidx2_eq, src_same ρ hA, gidx_eq]
  have h4 : (fun i : (⟨2, ![100000, 1]⟩ : Shape).Idx => (𝔄 Cert.ReferenceIdeal.main_v126 : Arr1 100000) (ix1 (i 0)))
      = (W1 (F := Ideal) m ρ c (Proc.devRef .tc main_v15) : Arr2 100000 1) := by
    funext i
    rw [denK_eq, Cert.ReferenceIdeal.RefVal.deg2_eq, dst_same ρ hA, dstK_eq, eq_ix2 i]
    exact (Cert.ReferenceIdeal.RRead.asCol_apply _ _ _ _).symm
  rw [h1, h2, ea_same ρ hA, h4]
  rfl

/-! The pre-activation, the statistics and the output of round 2. -/

theorem pre2_same (hpre : Cert.Pre_KernelIdeal m) :
    (𝔄 Cert.ReferenceIdeal.main_v132 : Arr2 100000 128) = W14 (F := Ideal) m ρ c (Proc.devRef .tc main_v68) := by
  funext i
  obtain ⟨r, q, rfl⟩ : ∃ (r : Fin 100000) (q : Fin 128), i = ix2 r q := ⟨i 0, i 1, eq_ix2 i⟩
  refine (Cert.ReferenceIdeal.RefVal.pre2_at V' r q).trans ?_
  rw [shared2_same ρ hA, h2_same ρ hA hpre, hA.a13, hA.a14]
  refine Eq.trans ?_ (pre2K m ρ c r q).symm
  have hW := (inputs_real m c hpre).2.2.2.2.2.2
  exact (Cert.Network.preK_eq_preR (sharedK m ρ c) _ _ _ (fun j => h2K_real m ρ c _)
    (fun j => eaK_real m ρ c hpre j) hW r q).symm

theorem mean2_same (hpre : Cert.Pre_KernelIdeal m) :
    (𝔄 Cert.ReferenceIdeal.main_v135 : Arr1 128) = W15 (F := Ideal) m ρ c (Proc.devRef .tc main_v71) := by
  rw [Cert.ReferenceIdeal.RefVal.mean2_eq, pre2_same ρ hA hpre, mean2K_eq]

theorem var2_same (hpre : Cert.Pre_KernelIdeal m) :
    (𝔄 Cert.ReferenceIdeal.main_v136 : Arr1 128) = W16 (F := Ideal) m ρ c (Proc.devRef .tc main_v72) := by
  rw [Cert.ReferenceIdeal.RefVal.var2_eq, pre2_same ρ hA hpre, Cert.ReferenceIdeal.RefVal.c29_eq, var2K_eq, pre_at15,
    zero2K_eq]

theorem h3_same (hpre : Cert.Pre_KernelIdeal m) :
    (𝔄 Cert.ReferenceIdeal.main_v156 : Arr2 100000 128) = W17 (F := Ideal) m ρ c (Proc.devRef .tc main_v73) := by
  funext i
  obtain ⟨r, q, rfl⟩ : ∃ (r : Fin 100000) (q : Fin 128), i = ix2 r q := ⟨i 0, i 1, eq_ix2 i⟩
  refine (Cert.ReferenceIdeal.RefVal.unit2_at V' r q).trans ?_
  rw [pre2_same ρ hA hpre, mean2_same ρ hA hpre, var2_same ρ hA hpre, hA.a15, hA.a16]
  refine Eq.trans ?_ (unit2_at17 m ρ c r q).symm
  rw [pre_at16, mean_at16, arg15_at16, arg16_at16]

end Cert.KernelIdeal.KVal

end
-- ==== Proof.RReadHead.lean ====
/-
  The scoring head, read entry by entry.

  The three layer outputs are laid side by side into 384 columns and multiplied by a 384 × 128 matrix: a column of the
  joined row in the first, second or third block of 128 reads the first, second or third layer output, so the sum over
  the 384 columns is the sum of three sums of 128 terms, each layer output against its own block of 128 rows of the matrix
  (only the associativity and commutativity of the sum are used).  A bias row is added and the result clipped below at
  zero; the same again through a 128 × 64 matrix; then a 64 × 1 matrix and a bias give one number per node, and the last
  step only drops the unit axis.
-/
import proofs.«113076_j55267639165123_2_alg».proof.Proof.RReadDot
import proofs.«113076_j55267639165123_2_alg».proof.Proof.RReadLay
import proofs.«113076_j55267639165123_2_alg».proof.Proof.Spec

noncomputable section

namespace Cert.ReferenceIdeal.RRead

open Idealize.ShloMosaic Idealize.ShloMosaic.ValueIdx
open Cert.ReferenceIdeal Cert.ReferenceIdeal.Facts₀

variable [Facts₀]

/-- An a × 1 array read as a vector of a entries: entry i is the array's entry (i, 0). -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A sum over 384 indices is the sum of the sums over its three blocks of 128. -/
theorem sum_three_blocks {M : Type} [AddCommMonoid M] (f : Fin 384 → M) :
    ∑ k : Fin 384, f k
      = ((∑ k : Fin 128, f ⟨k.val, by have := k.isLt; omega⟩) + ∑ k : Fin 128, f ⟨128 + k.val, by have := k.isLt; omega⟩)
        + ∑ k : Fin 128, f ⟨256 + k.val, by have := k.isLt; omega⟩ := by
  refine (Fin.sum_univ_add (a := 256) (b := 128) f).trans ?_
  exact congrArg₂ (· + ·) ((Fin.sum_univ_add (a := 128) (b := 128) fun i => f (Fin.castAdd 128 i)).trans rfl) rfl

/-- The three layer outputs side by side, as the operation spells it. -/
abbrev cat3 (l0 l1 l2 : FVec Ideal S100000x128 .f32) : FVec Ideal S100000x384 .f32 :=
  concatenate S100000x384 1 [⟨S100000x128, l0⟩, ⟨S100000x128, l1⟩, ⟨S100000x128, l2⟩]
      concatenates_S100000x128_S100000x128_S100000x128_S100000x384_d1

/-- A column in the first block of the joined row reads the first layer output. -/
theorem cat3_first (l0 l1 l2 : FVec Ideal S100000x128 .f32) (r : Fin 100000) (k : Fin 128) :
    cat3 l0 l1 l2 (ix2 r (⟨k.val, by have := k.isLt; omega⟩ : Fin 384)) = l0 (ix2 r k) :=
  concatenate_apply_piece (1 : Fin S100000x384.rank) [⟨S100000x128, l0⟩, ⟨S100000x128, l1⟩, ⟨S100000x128, l2⟩]
    concatenates_S100000x128_S100000x128_S100000x128_S100000x384_d1 (ix2 r (⟨k.val, by have := k.isLt; omega⟩ : Fin 384))
    0 (by show (0 : ℕ) < 3; omega) S100000x128 l0 rfl rfl 0 rfl (ix2 r k)
    (fun b hb => by
      match b with
      | ⟨0, _⟩ => rfl
      | ⟨1, _⟩ => exact absurd rfl hb)
    (by show 0 + k.val = k.val; omega)

/-- A column in the second block of the joined row reads the second layer output. -/
theorem cat3_second (l0 l1 l2 : FVec Ideal S100000x128 .f32) (r : Fin 100000) (k : Fin 128) :
    cat3 l0 l1 l2 (ix2 r (⟨128 + k.val, by have := k.isLt; omega⟩ : Fin 384)) = l1 (ix2 r k) :=
  concatenate_apply_piece (1 : Fin S100000x384.rank) [⟨S100000x128, l0⟩, ⟨S100000x128, l1⟩, ⟨S100000x128, l2⟩]
    concatenates_S100000x128_S100000x128_S100000x128_S100000x384_d1 (ix2 r (⟨128 + k.val, by have := k.isLt; omega⟩ : Fin 384))
    1 (by show (1 : ℕ) < 3; omega) S100000x128 l1 rfl rfl 128 rfl (ix2 r k)
    (fun b hb => by
      match b with
      | ⟨0, _⟩ => rfl
      | ⟨1, _⟩ => exact absurd rfl hb)
    rfl

/-- A column in the third block of the joined row reads the third layer output. -/
theorem cat3_third (l0 l1 l2 : FVec Ideal S100000x128 .f32) (r : Fin 100000) (k : Fin 128) :
    cat3 l0 l1 l2 (ix2 r (⟨256 + k.val, by have := k.isLt; omega⟩ : Fin 384)) = l2 (ix2 r k) :=
  concatenate_apply_piece (1 : Fin S100000x384.rank) [⟨S100000x128, l0⟩, ⟨S100000x128, l1⟩, ⟨S100000x128, l2⟩]
    concatenates_S100000x128_S100000x128_S100000x128_S100000x384_d1 (ix2 r (⟨256 + k.val, by have := k.isLt; omega⟩ : Fin 384))
    2 (by show (2 : ℕ) < 3; omega) S100000x128 l2 rfl rfl 256 rfl (ix2 r k)
    (fun b hb => by
      match b with
      | ⟨0, _⟩ => rfl
      | ⟨1, _⟩ => exact absurd rfl hb)
    rfl

/-- The jump layer of the whole array, as the operations spell it. -/
abbrev jumpT (l0 l1 l2 : FVec Ideal S100000x128 .f32) (Wj : FVec Ideal S384x128 .f32) (bj : FVec Ideal S128 .f32) :
    FVec Ideal S100000x128 .f32 :=
  maximumf
    (addf (Host.dotGeneral dot_S100000x384_S384x128_S100000x128_1_0_0_1_n_n none (cat3 l0 l1 l2) Wj)
      (broadcastInDim S100000x128 ![0, 1] bcast_S1x128_S100000x128_0_1 (broadcastInDim S1x128 ![1] bcast_S128_S1x128_1 bj)))
    (broadcastInDim S100000x128 ![] bcast_S_S100000x128 (constant (F := Ideal) S_ .f32 0x00000000#32))

/-- The scorer's hidden layer of the whole array, as the operations spell it. -/
abbrev hidT (l0 l1 l2 : FVec Ideal S100000x128 .f32) (Wj : FVec Ideal S384x128 .f32) (bj : FVec Ideal S128 .f32)
    (W1 : FVec Ideal S128x64 .f32) (b1 : FVec Ideal S64 .f32) : FVec Ideal S100000x64 .f32 :=
  maximumf
    (addf (Host.dotGeneral dot_S100000x128_S128x64_S100000x64_1_0_0_1_n_n none (jumpT l0 l1 l2 Wj bj) W1)
      (broadcastInDim S100000x64 ![0, 1] bcast_S1x64_S100000x64_0_1 (broadcastInDim S1x64 ![1] bcast_S64_S1x64_1 b1)))
    (broadcastInDim S100000x64 ![] bcast_S_S100000x64 (constant (F := Ideal) S_ .f32 0x00000000#32))

/-- The scores of all nodes, as the operations spell them. -/
abbrev scoreT (l0 l1 l2 : FVec Ideal S100000x128 .f32) (Wj : FVec Ideal S384x128 .f32) (bj : FVec Ideal S128 .f32)
    (W1 : FVec Ideal S128x64 .f32) (b1 : FVec Ideal S64 .f32) (W2 : FVec Ideal S64x1 .f32) (b2 : FVec Ideal S1 .f32) :
    FVec Ideal S100000 .f32 :=
  shapeCast S100000
    (addf (Host.dotGeneral dot_S100000x64_S64x1_S100000x1_1_0_0_1_n_n none (hidT l0 l1 l2 Wj bj W1 b1) W2)
      (broadcastInDim S100000x1 ![0, 1] bcast_S1x1_S100000x1_0_1 (broadcastInDim S1x1 ![1] bcast_S1_S1x1_1 b2)))
    shapeCasts_S100000x1_S100000

section
variable (l0 l1 l2 : FVec Ideal S100000x128 .f32) (Wj : FVec Ideal S384x128 .f32) (bj : FVec Ideal S128 .f32)
  (W1 : FVec Ideal S128x64 .f32) (b1 : FVec Ideal S64 .f32) (W2 : FVec Ideal S64x1 .f32) (b2 : FVec Ideal S1 .f32)
  (J0 J1 J2 : FVec Ideal S128x128 .f32)
  (hJ0 : ∀ (k : Fin 128) (q : Fin 128), J0 (ix2 k q) = Wj (ix2 (⟨k.val, by have := k.isLt; omega⟩ : Fin 384) q))
  (hJ1 : ∀ (k : Fin 128) (q : Fin 128), J1 (ix2 k q) = Wj (ix2 (⟨128 + k.val, by have := k.isLt; omega⟩ : Fin 384) q))
  (hJ2 : ∀ (k : Fin 128) (q : Fin 128), J2 (ix2 k q) = Wj (ix2 (⟨256 + k.val, by have := k.isLt; omega⟩ : Fin 384) q))

include hJ0 hJ1 hJ2

/-- The joined row against a column of the 384 × 128 matrix: the three layer outputs against their blocks of rows. -/
theorem jump_sum (r : Fin 100000) (q : Fin 128) :
    ∑ k : Fin 384, cat3 l0 l1 l2 (ix2 r k) * Wj (ix2 k q)
      = ((∑ k : Fin 128, l0 (ix2 r k) * J0 (ix2 k q)) + ∑ k : Fin 128, l1 (ix2 r k) * J1 (ix2 k q))
        + ∑ k : Fin 128, l2 (ix2 r k) * J2 (ix2 k q) := by
  refine (sum_three_blocks fun k => cat3 l0 l1 l2 (ix2 r k) * Wj (ix2 k q)).trans ?_
  refine congrArg₂ (· + ·) (congrArg₂ (· + ·) (Finset.sum_congr rfl fun k _ => ?_) (Finset.sum_congr rfl fun k _ => ?_))
    (Finset.sum_congr rfl fun k _ => ?_)
  · show cat3 l0 l1 l2 (ix2 r (⟨k.val, by have := k.isLt; omega⟩ : Fin 384)) * Wj (ix2 (⟨k.val, by have := k.isLt; omega⟩ : Fin 384) q) = _
    rw [cat3_first, hJ0]
  · show cat3 l0 l1 l2 (ix2 r (⟨128 + k.val, by have := k.isLt; omega⟩ : Fin 384)) * Wj (ix2 (⟨128 + k.val, by have := k.isLt; omega⟩ : Fin 384) q) = _
    rw [cat3_second, hJ1]
  · show cat3 l0 l1 l2 (ix2 r (⟨256 + k.val, by have := k.isLt; omega⟩ : Fin 384)) * Wj (ix2 (⟨256 + k.val, by have := k.isLt; omega⟩ : Fin 384) q) = _
    rw [cat3_third, hJ2]

/-- Entry (r, q) of the jump layer. -/
theorem jump_read (r : Fin 100000) (q : Fin 128) :
    jumpT l0 l1 l2 Wj bj (ix2 r q) = Cert.Spec.jumpAt l0 l1 l2 J0 J1 J2 bj r q := by
  unfold jumpT
  rw [maximumf_apply, addf_apply, dot_100000x384_384x128, rowOf_apply, splat_apply, Ideal.ofBits_zero_f32,
    jump_sum l0 l1 l2 Wj J0 J1 J2 hJ0 hJ1 hJ2]
  rfl

/-- Entry (r, p) of the scorer's hidden layer. -/
theorem hid_read (r : Fin 100000) (p : Fin 64) :
    hidT l0 l1 l2 Wj bj W1 b1 (ix2 r p) = Cert.Spec.hidAt l0 l1 l2 J0 J1 J2 bj W1 b1 r p := by
  unfold hidT
  rw [maximumf_apply, addf_apply, dot_100000x128_128x64, rowOf_apply, splat_apply, Ideal.ofBits_zero_f32]
  simp only [jump_read l0 l1 l2 Wj bj J0 J1 J2 hJ0 hJ1 hJ2]
  rfl

/-- The score of node r. -/
theorem head_read (r : Fin 100000) :
    scoreT l0 l1 l2 Wj bj W1 b1 W2 b2 (ix1 r) = Cert.Spec.scoreAt l0 l1 l2 J0 J1 J2 bj W1 b1 W2 b2 r := by
  unfold scoreT
  rw [shapeCast_a1_a_apply, addf_apply, dot_100000x64_64x1, rowOf_apply]
  simp only [hid_read l0 l1 l2 Wj bj W1 b1 J0 J1 J2 hJ0 hJ1 hJ2]
  rfl

end

end Cert.ReferenceIdeal.RRead

end
-- ==== Proof.RCompHead.lean ====
/-
  The reference's scoring head, as the specification states it.

  By the stage equations the result buffer is: the three rounds' outputs laid side by side into 384 columns, through the
  384 × 128 jump matrix, plus its bias, clipped below at zero; through the 128 × 64 matrix, plus its bias, clipped below
  at zero; through the 64 × 1 matrix, plus its bias; and the unit axis dropped. Read at node r that is the
  specification's score, for any three 128 × 128 matrices that are the jump matrix's three blocks of rows.
-/
import proofs.«113076_j55267639165123_2_alg».proof.Proof.RefStage3
import proofs.«113076_j55267639165123_2_alg».proof.Proof.RReadHead

set_option maxHeartbeats 4000000

noncomputable section

namespace Cert.ReferenceIdeal.RefVal

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.RRead

variable (V : Valuation τ sig (Elt Ideal))

/-- What the reference's run leaves at a buffer, from contents V. -/
local notation:max "A " b:max => after ops V (Proc.devRef Proc.tc b)

/-- The score of node r. -/
theorem score_at (J0 J1 J2 : FVec Ideal S128x128 .f32)
    (hJ0 : ∀ (k : Fin 128) (q : Fin 128),
      J0 (ix2 k q) = (A main_arg17) (ix2 (⟨k.val, by have := k.isLt; omega⟩ : Fin 384) q))
    (hJ1 : ∀ (k : Fin 128) (q : Fin 128),
      J1 (ix2 k q) = (A main_arg17) (ix2 (⟨128 + k.val, by have := k.isLt; omega⟩ : Fin 384) q))
    (hJ2 : ∀ (k : Fin 128) (q : Fin 128),
      J2 (ix2 k q) = (A main_arg17) (ix2 (⟨256 + k.val, by have := k.isLt; omega⟩ : Fin 384) q))
    (r : Fin 100000) :
    (A main_v172) (ix1 r)
      = Cert.Spec.scoreAt (A main_v60) (A main_v108) (A main_v156) J0 J1 J2 (A main_arg18) (A main_arg19) (A main_arg20)
          (A main_arg21) (A main_arg22) r := by
  rw [st_main_v172, st_main_v171, st_main_v170, st_main_v169, st_main_v168, st_main_v167, st_main_call10_v0,
    st_main_call10_cst, st_main_v166, st_main_v165, st_main_v164, st_main_v163, st_main_v162, st_main_call9_v0,
    st_main_call9_cst, st_main_v161, st_main_v160, st_main_v159, st_main_v158, st_main_v157]
  exact head_read _ _ _ _ _ _ _ _ _ J0 J1 J2 hJ0 hJ1 hJ2 r

end Cert.ReferenceIdeal.RefVal

end
-- ==== Proof.BridgeHead.lean ====
/-
  The scoring head and the result, side by side.  With the three rounds' outputs equal, both programs' scores are the
  same function of them and of the head's parameters: on one side the jump weight's three 128-row pieces are separate
  arrays cut from the weight, on the other the three outputs are laid side by side against the whole weight, and a sum
  over 384 indices is the sum of its three 128-index pieces.  The result array is the scores' single column.
-/
import proofs.«113076_j55267639165123_2_alg».proof.Proof.Bridge2
import proofs.«113076_j55267639165123_2_alg».proof.Proof.RCompHead
import Idealize.ShloMosaic.Lib.ValueLayout

set_option maxRecDepth 16384
set_option maxHeartbeats 4000000

noncomputable section

namespace Cert.KernelIdeal.KVal

open Idealize.ShloMosaic Idealize.ShloMosaic.TcCoe Idealize.ShloMosaic.ValueIdx Idealize.SL.Sem Cert.KernelIdeal Cert.KernelIdeal.Gen
open Cert.Spec (Arr1 Arr2)

variable {m : (ℓ : Loc nD τ sig) → Buf (Elt Ideal) ℓ} (ρ : Dev nD → PrngReg) {c : Dev nD}
variable {V' : Valuation Cert.ReferenceIdeal.τ Cert.ReferenceIdeal.sig (Elt Ideal)}

local notation "𝔄 " b:max => StableHlo.after Cert.ReferenceIdeal.RefVal.ops V' (Proc.devRef Proc.tc b)

variable (hA : Agree m c V')
include hA

theorem out_same (hpre : Cert.Pre_KernelIdeal m) (r : Fin 100000) :
    (𝔄 Cert.ReferenceIdeal.main_v172 : Arr1 100000) (ix1 r)
      = (W20 (F := Ideal) m ρ c (Proc.devRef .tc main_v78) : Arr1 100000) (ix1 r) := by
  have hJ0 : ∀ (k : Fin 128) (q : Fin 128), (W18 (F := Ideal) m ρ c (Proc.devRef .tc main_v74) : Arr2 128 128) (ix2 k q)
      = (𝔄 Cert.ReferenceIdeal.main_arg17 : Arr2 384 128) (ix2 (⟨k.val, by have := k.isLt; omega⟩ : Fin 384) q) := by
    intro k q
    rw [J0_at18, arg17_at17, hA.a17]
    exact slice2_axis0_apply 0 _ _ k q _ (by simp)
  have hJ1 : ∀ (k : Fin 128) (q : Fin 128), (W18 (F := Ideal) m ρ c (Proc.devRef .tc main_v75) : Arr2 128 128) (ix2 k q)
      = (𝔄 Cert.ReferenceIdeal.main_arg17 : Arr2 384 128) (ix2 (⟨128 + k.val, by have := k.isLt; omega⟩ : Fin 384) q) := by
    intro k q
    rw [J1_at18, arg17_at17, hA.a17]
    exact slice2_axis0_apply 128 _ _ k q _ rfl
  have hJ2 : ∀ (k : Fin 128) (q : Fin 128), (W18 (F := Ideal) m ρ c (Proc.devRef .tc main_v76) : Arr2 128 128) (ix2 k q)
      = (𝔄 Cert.ReferenceIdeal.main_arg17 : Arr2 384 128) (ix2 (⟨256 + k.val, by have := k.isLt; omega⟩ : Fin 384) q) := by
    intro k q
    rw [J2_at18, arg17_at17, hA.a17]
    exact slice2_axis0_apply 256 _ _ k q _ rfl
  refine (Cert.ReferenceIdeal.RefVal.score_at V' _ _ _ hJ0 hJ1 hJ2 r).trans ?_
  rw [h1_same ρ hA hpre, h2_same ρ hA hpre, h3_same ρ hA hpre, hA.a18, hA.a19, hA.a20, hA.a21, hA.a22]
  refine Eq.trans ?_ (out_at20 m ρ c r).symm
  refine Eq.trans ?_ (score_at19 m ρ c r).symm
  rw [l0_at18, l1_at18, l2_at18, arg18_at18, arg19_at18, arg20_at18, arg21_at18, arg22_at18]

/-- The two result arrays are the same. -/
theorem result_same (hpre : Cert.Pre_KernelIdeal m) :
    (𝔄 Cert.ReferenceIdeal.main_v172 : Arr1 100000) = W20 (F := Ideal) m ρ c (Proc.devRef .tc main_v78) := by
  funext i
  obtain ⟨r, rfl⟩ : ∃ r : Fin 100000, i = ix1 r := ⟨i 0, eq_ix1 i⟩
  exact out_same ρ hA hpre r

end Cert.KernelIdeal.KVal

end
-- ==== Proof.Assemble.lean ====
/-
  The five claims.  The two kernel programs' frames are the generated ones; the reference's frame is its run with the
  result dropped; nothing was rewritten between the kernel and its idealization; and at the extended reals the two
  idealized programs, from memories agreeing on the arguments, end with the same scores: the kernel side's run names
  its result array, the reference's run names its own, and the two arrays are equal round by round.
-/
import proofs.«113076_j55267639165123_2_alg».proof.Defs
import proofs.«113076_j55267639165123_2_alg».proof.Proof.Gen.Kernel.Frame
import proofs.«113076_j55267639165123_2_alg».proof.Proof.KValueRun
import proofs.«113076_j55267639165123_2_alg».proof.Proof.RefRun
import proofs.«113076_j55267639165123_2_alg».proof.Proof.BridgeHead

set_option maxRecDepth 16384
set_option maxHeartbeats 4000000

noncomputable section

namespace Cert.Proof.Claims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefVal.run (F := Ideal) m ρ)

theorem preserves : Cert.preserves_Kernel_KernelIdeal := trivial

theorem algebraic : Cert.algebraic_KernelIdeal_ReferenceIdeal := by
  intro m g m' g' hpre hagree
  refine ⟨fun c => Cert.KernelIdeal.Gen.W20 (F := Ideal) m g c (Proc.devRef .tc Cert.KernelIdeal.main_v78),
    Cert.KernelIdeal.KVal.run_value m g, ?_⟩
  refine (θ_run (Cert.ReferenceIdeal.defs (F := Ideal)) _ _).mono (fun r h c => ⟨(h c).1.trans ?_, (h c).2⟩)
    (Cert.ReferenceIdeal.RefVal.run (F := Ideal) m' g')
  obtain ⟨g0, g1, g2, g3, g4, g5, g6, g7, g8, g9, g10, g11, g12, g13, g14, g15, g16, g17, g18, g19, g20, g21, g22⟩ := hagree c
  have hA : Cert.KernelIdeal.KVal.Agree m c (StableHlo.launchContents m' c) :=
    ⟨(Cert.ReferenceIdeal.RefVal.arg_main_arg0 m' c).trans g0, (Cert.ReferenceIdeal.RefVal.arg_main_arg1 m' c).trans g1,
     (Cert.ReferenceIdeal.RefVal.arg_main_arg2 m' c).trans g2, (Cert.ReferenceIdeal.RefVal.arg_main_arg3 m' c).trans g3,
     (Cert.ReferenceIdeal.RefVal.arg_main_arg4 m' c).trans g4, (Cert.ReferenceIdeal.RefVal.arg_main_arg5 m' c).trans g5,
     (Cert.ReferenceIdeal.RefVal.arg_main_arg6 m' c).trans g6, (Cert.ReferenceIdeal.RefVal.arg_main_arg7 m' c).trans g7,
     (Cert.ReferenceIdeal.RefVal.arg_main_arg8 m' c).trans g8, (Cert.ReferenceIdeal.RefVal.arg_main_arg9 m' c).trans g9,
     (Cert.ReferenceIdeal.RefVal.arg_main_arg10 m' c).trans g10, (Cert.ReferenceIdeal.RefVal.arg_main_arg11 m' c).trans g11,
     (Cert.ReferenceIdeal.RefVal.arg_main_arg12 m' c).trans g12, (Cert.ReferenceIdeal.RefVal.arg_main_arg13 m' c).trans g13,
     (Cert.ReferenceIdeal.RefVal.arg_main_arg14 m' c).trans g14, (Cert.ReferenceIdeal.RefVal.arg_main_arg15 m' c).trans g15,
     (Cert.ReferenceIdeal.RefVal.arg_main_arg16 m' c).trans g16, (Cert.ReferenceIdeal.RefVal.arg_main_arg17 m' c).trans g17,
     (Cert.ReferenceIdeal.RefVal.arg_main_arg18 m' c).trans g18, (Cert.ReferenceIdeal.RefVal.arg_main_arg19 m' c).trans g19,
     (Cert.ReferenceIdeal.RefVal.arg_main_arg20 m' c).trans g20, (Cert.ReferenceIdeal.RefVal.arg_main_arg21 m' c).trans g21,
     (Cert.ReferenceIdeal.RefVal.arg_main_arg22 m' c).trans g22⟩
  exact Cert.KernelIdeal.KVal.result_same g hA hpre

end Cert.Proof.Claims

end
-- ==== Proof.lean ====
/- The proof of `Cert.Claim` for a three-round graph network scored per node.

   The kernel program runs eight tiled regions (an input projection; per round a node update and a normalisation; a
   scoring head) among host stretches that gather node rows along the edges, add them up per destination node, and take
   column statistics.  The reference does all of it on the host and, per round, multiplies every edge's 130 numbers into
   the neighbour weight BEFORE adding over the edges landing on a node, where the kernel program adds first and
   multiplies after.  At the extended reals the two agree when the features entering the round are real: the projected
   features are (real inputs), and every later round's features are rows divided by the larger of their length and a
   positive constant, which are always real.  Everything else the two programs share or compute entry by entry in the
   same way.  The modules: Spec (each dense stage at an entry), LibSegSum / LibRowScatter / LibUnitRow (the law on
   sums, a row scatter-add read at an entry, the realness of a normalised row), Network (the round law over shared
   data), K* (the kernel side: its run with the result named, each region's output array as the stage function, the
   host stretches read off the run), Ref* / RRead* / RComp* (the reference: its run, each operation's stage equation,
   its dense chains at an entry, its rounds up to the stage functions), Bridge* (round by round, the two sides equal),
   Assemble (the five claims). -/
import proofs.«113076_j55267639165123_2_alg».proof.Defs
import proofs.«113076_j55267639165123_2_alg».proof.Proof.Assemble
import proofs.«113076_j55267639165123_2_alg».proof.Proof.Gen.Kernel
import proofs.«113076_j55267639165123_2_alg».proof.Proof.Gen.KernelIdeal
import proofs.«113076_j55267639165123_2_alg».proof.Proof.Gen.ReferenceIdeal
import proofs.«113076_j55267639165123_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
